-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S32x27x65536 : Shape := ⟨3, ![32, 27, 65536]⟩
abbrev S65536x27 : Shape := ⟨2, ![65536, 27]⟩
abbrev S_ : Shape := ⟨0, ![]⟩

class Facts : Prop where
  bcast_S_S32x27x65536 : S_.BroadcastsInDim S32x27x65536 (![] : Fin 0 → Fin S32x27x65536.rank)
  reducesTo_S32x27x65536_S_d0_1_2 : S32x27x65536.ReducesTo [0, 1, 2] S_
  h_S_ : 0 < S_.numel
  bcast_S_S65536x27 : S_.BroadcastsInDim S65536x27 (![] : Fin 0 → Fin S65536x27.rank)
  reducesTo_S65536x27_S_d0_1 : S65536x27.ReducesTo [0, 1] S_

variable [Facts]

def fn {F : FTy → Type} [FloatOps F] (main_arg0 : FVec F S32x27x65536 .f32) (main_arg1 : IVec S65536x27 32) : IVec S_ 1 :=
  let main_v0 : FVec F S32x27x65536 .f32 := Host.absf main_arg0
  let main_cst : FVec F S_ .f32 := constant S_ .f32 0x7F800000#32
  let main_v1 : FVec F S32x27x65536 .f32 := broadcastInDim S32x27x65536 ![] bcast_S_S32x27x65536 main_cst
  let main_v2 : IVec S32x27x65536 1 := cmpf .olt main_v0 main_v1
  let main_c : IVec S_ 1 := constantI S_ 1 1#1
  let main_v3 : IVec S_ 1 := (fun x v => Host.reduce IntOp.andi x v reducesTo_S32x27x65536_S_d0_1_2 h_S_) main_v2 main_c
  let main_c_0 : IVec S_ 32 := constantI S_ 32 0#32
  let main_v4 : IVec S65536x27 32 := broadcastInDim S65536x27 ![] bcast_S_S65536x27 main_c_0
  let main_v5 : IVec S65536x27 1 := cmpi .sge main_arg1 main_v4
  let main_c_1 : IVec S_ 32 := constantI S_ 32 65535#32
  let main_v6 : IVec S65536x27 32 := broadcastInDim S65536x27 ![] bcast_S_S65536x27 main_c_1
  let main_v7 : IVec S65536x27 1 := cmpi .sle main_arg1 main_v6
  let main_v8 : IVec S65536x27 1 := andi main_v5 main_v7
  let main_c_2 : IVec S_ 1 := constantI S_ 1 1#1
  let main_v9 : IVec S_ 1 := (fun x v => Host.reduce IntOp.andi x v reducesTo_S65536x27_S_d0_1 h_S_) main_v8 main_c_2
  let main_v10 : IVec S_ 1 := andi main_v3 main_v9
  main_v10
-- ==== Kernel.lean ====
abbrev S32x27x65536 : Shape := ⟨3, ![32, 27, 65536]⟩
abbrev S65536x27 : Shape := ⟨2, ![65536, 27]⟩
abbrev S27x32x65536 : Shape := ⟨3, ![27, 32, 65536]⟩
abbrev S27x65536 : Shape := ⟨2, ![27, 65536]⟩
abbrev S32x65536 : Shape := ⟨2, ![32, 65536]⟩
abbrev S65536 : Shape := ⟨1, ![65536]⟩
abbrev S27x512 : Shape := ⟨2, ![27, 512]⟩
abbrev S_ : Shape := ⟨0, ![]⟩
abbrev S27x1x512 : Shape := ⟨3, ![27, 1, 512]⟩
abbrev S16 : Shape := ⟨1, ![16]⟩
abbrev S1x16 : Shape := ⟨2, ![1, 16]⟩
abbrev S1x65536 : Shape := ⟨2, ![1, 65536]⟩

abbrev nBuf : Table → Nat
  | .hbm => 5
  | .local .scVector .vmem => 5
  | _ => 0

abbrev bufTy : (tb : Table) → Fin (nBuf tb) → BufTy
  | .hbm, ⟨0, _⟩ => ⟨S32x27x65536, .f32⟩
  | .hbm, ⟨1, _⟩ => ⟨S65536x27, .i32⟩
  | .hbm, ⟨2, _⟩ => ⟨S27x32x65536, .f32⟩
  | .hbm, ⟨3, _⟩ => ⟨S27x65536, .i32⟩
  | .hbm, ⟨4, _⟩ => ⟨S32x65536, .f32⟩
  | .local .scVector .vmem, ⟨0, _⟩ => ⟨S65536, .f32⟩
  | .local .scVector .vmem, ⟨1, _⟩ => ⟨S27x512, .i32⟩
  | .local .scVector .vmem, ⟨2, _⟩ => ⟨S27x512, .i32⟩
  | .local .scVector .vmem, ⟨3, _⟩ => ⟨S27x512, .f32⟩
  | .local .scVector .vmem, ⟨4, _⟩ => ⟨S27x512, .f32⟩
  | _, _ => ⟨S32x27x65536, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v0_scv : Ref sig .scVector := ⟨.hbm, 2, rfl⟩
abbrev main_v1_scv : Ref sig .scVector := ⟨.hbm, 3, rfl⟩
abbrev main_v2_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let c0_i32_3 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4 : BitVec 32 := 0#32
  ![0, v1.toNat, 0]
def k0_off2 (i : grid0.Coords) : Fin 3 → Nat :=
  let c0_i32_10 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32_11 : BitVec 32 := 512#32
  ![0, v1.toNat, 512]
@[reducible] def k0_t1_loop : Scf.Loop 32 :=
  let c0_i32_15 : BitVec 32 := 0#32
  let c4096_i32 : BitVec 32 := 4096#32
  let v15 : BitVec 32 := Scalar.addi c0_i32_15 c4096_i32
  let c1_i32 : BitVec 32 := 1#32
  ⟨c0_i32_15, v15, c1_i32⟩
def k0_off3 (k0_t1 : Fin k0_t1_loop.trips) : Fin 1 → Nat :=
  let c0_i32_15 : BitVec 32 := 0#32
  let c1_i32 : BitVec 32 := 1#32
  let arg14 : BitVec 32 := Scf.iv c0_i32_15 c1_i32 k0_t1
  let c16_i32 : BitVec 32 := 16#32
  let v17 : BitVec 32 := Scalar.muli arg14 c16_i32
  let v18 : Index := Scalar.indexCast v17
  ![v18.toNat]
@[reducible] def k0_t2_loop : Scf.Loop 32 :=
  let c0_i32_18 : BitVec 32 := 0#32
  let c64_i32 : BitVec 32 := 64#32
  let v16 : BitVec 32 := Scalar.addi c0_i32_18 c64_i32
  let c1_i32_19 : BitVec 32 := 1#32
  ⟨c0_i32_18, v16, c1_i32_19⟩
def k0_off4 (k0_t2 : Fin k0_t2_loop.trips) (c0_i32_22 : BitVec 32) : Fin 2 → Nat :=
  let c0_i32_24 : BitVec 32 := 0#32
  let c0_i32_18 : BitVec 32 := 0#32
  let c1_i32_19 : BitVec 32 := 1#32
  let arg14 : BitVec 32 := Scf.iv c0_i32_18 c1_i32_19 k0_t2
  let c2_i32_21 : BitVec 32 := 2#32
  let v17 : BitVec 32 := Scalar.muli arg14 c2_i32_21
  let v18 : BitVec 32 := Scalar.addi v17 c0_i32_22
  let c512_i32_23 : BitVec 32 := 512#32
  let v19 : BitVec 32 := Scalar.muli v18 c512_i32_23
  ![0, v19.toNat]
def k0_off5 (i : grid0.Coords) (k0_t2 : Fin k0_t2_loop.trips) (c0_i32_22 : BitVec 32) : Fin 3 → Nat :=
  let c0_i32_27 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_18 : BitVec 32 := 0#32
  let c1_i32_19 : BitVec 32 := 1#32
  let arg14 : BitVec 32 := Scf.iv c0_i32_18 c1_i32_19 k0_t2
  let c2_i32_21 : BitVec 32 := 2#32
  let v17 : BitVec 32 := Scalar.muli arg14 c2_i32_21
  let v18 : BitVec 32 := Scalar.addi v17 c0_i32_22
  let c512_i32_26 : BitVec 32 := 512#32
  let v22 : BitVec 32 := Scalar.muli v18 c512_i32_26
  ![0, v1.toNat, v22.toNat]
@[reducible] def k0_t3_loop : Scf.Loop 32 :=
  let c0_i32_30 : BitVec 32 := 0#32
  let c32_i32 : BitVec 32 := 32#32
  let v27 : BitVec 32 := Scalar.addi c0_i32_30 c32_i32
  let c1_i32_31 : BitVec 32 := 1#32
  ⟨c0_i32_30, v27, c1_i32_31⟩
def k0_off6 (k0_t3 : Fin k0_t3_loop.trips) : Fin 2 → Nat :=
  let c0_i32_51 : BitVec 32 := 0#32
  let v48 : Index := Scalar.indexCast c0_i32_51
  let c0_i32_30 : BitVec 32 := 0#32
  let c1_i32_31 : BitVec 32 := 1#32
  let arg15 : BitVec 32 := Scf.iv c0_i32_30 c1_i32_31 k0_t3
  let c16_i32 : BitVec 32 := 16#32
  let v47 : BitVec 32 := Scalar.muli arg15 c16_i32
  let v49 : Index := Scalar.indexCast v47
  ![0, v49.toNat]
def k0_off7 (k0_t3 : Fin k0_t3_loop.trips) : Fin 2 → Nat :=
  let c1_i32_52 : BitVec 32 := 1#32
  let v51 : Index := Scalar.indexCast c1_i32_52
  let c0_i32_30 : BitVec 32 := 0#32
  let c1_i32_31 : BitVec 32 := 1#32
  let arg15 : BitVec 32 := Scf.iv c0_i32_30 c1_i32_31 k0_t3
  let c16_i32 : BitVec 32 := 16#32
  let v47 : BitVec 32 := Scalar.muli arg15 c16_i32
  let v52 : Index := Scalar.indexCast v47
  ![1, v52.toNat]
def k0_off8 (k0_t3 : Fin k0_t3_loop.trips) : Fin 2 → Nat :=
  let c2_i32_53 : BitVec 32 := 2#32
  let v54 : Index := Scalar.indexCast c2_i32_53
  let c0_i32_30 : BitVec 32 := 0#32
  let c1_i32_31 : BitVec 32 := 1#32
  let arg15 : BitVec 32 := Scf.iv c0_i32_30 c1_i32_31 k0_t3
  let c16_i32 : BitVec 32 := 16#32
  let v47 : BitVec 32 := Scalar.muli arg15 c16_i32
  let v55 : Index := Scalar.indexCast v47
  ![2, v55.toNat]
def k0_off9 (k0_t3 : Fin k0_t3_loop.trips) : Fin 2 → Nat :=
  let c3_i32 : BitVec 32 := 3#32
  let v57 : Index := Scalar.indexCast c3_i32
  let c0_i32_30 : BitVec 32 := 0#32
  let c1_i32_31 : BitVec 32 := 1#32
  let arg15 : BitVec 32 := Scf.iv c0_i32_30 c1_i32_31 k0_t3
  let c16_i32 : BitVec 32 := 16#32
  let v47 : BitVec 32 := Scalar.muli arg15 c16_i32
  let v58 : Index := Scalar.indexCast v47
  ![3, v58.toNat]
def k0_off10 (k0_t3 : Fin k0_t3_loop.trips) : Fin 2 → Nat :=
  let c4_i32 : BitVec 32 := 4#32
  let v60 : Index := Scalar.indexCast c4_i32
  let c0_i32_30 : BitVec 32 := 0#32
  let c1_i32_31 : BitVec 32 := 1#32
  let arg15 : BitVec 32 := Scf.iv c0_i32_30 c1_i32_31 k0_t3
  let c16_i32 : BitVec 32 := 16#32
  let v47 : BitVec 32 := Scalar.muli arg15 c16_i32
  let v61 : Index := Scalar.indexCast v47
  ![4, v61.toNat]
def k0_off11 (k0_t3 : Fin k0_t3_loop.trips) : Fin 2 → Nat :=
  let c5_i32 : BitVec 32 := 5#32
  let v63 : Index := Scalar.indexCast c5_i32
  let c0_i32_30 : BitVec 32 := 0#32
  let c1_i32_31 : BitVec 32 := 1#32
  let arg15 : BitVec 32 := Scf.iv c0_i32_30 c1_i32_31 k0_t3
  let c16_i32 : BitVec 32 := 16#32
  let v47 : BitVec 32 := Scalar.muli arg15 c16_i32
  let v64 : Index := Scalar.indexCast v47
  ![5, v64.toNat]
def k0_off12 (k0_t3 : Fin k0_t3_loop.trips) : Fin 2 → Nat :=
  let c6_i32 : BitVec 32 := 6#32
  let v66 : Index := Scalar.indexCast c6_i32
  let c0_i32_30 : BitVec 32 := 0#32
  let c1_i32_31 : BitVec 32 := 1#32
  let arg15 : BitVec 32 := Scf.iv c0_i32_30 c1_i32_31 k0_t3
  let c16_i32 : BitVec 32 := 16#32
  let v47 : BitVec 32 := Scalar.muli arg15 c16_i32
  let v67 : Index := Scalar.indexCast v47
  ![6, v67.toNat]
def k0_off13 (k0_t3 : Fin k0_t3_loop.trips) : Fin 2 → Nat :=
  let c7_i32 : BitVec 32 := 7#32
  let v69 : Index := Scalar.indexCast c7_i32
  let c0_i32_30 : BitVec 32 := 0#32
  let c1_i32_31 : BitVec 32 := 1#32
  let arg15 : BitVec 32 := Scf.iv c0_i32_30 c1_i32_31 k0_t3
  let c16_i32 : BitVec 32 := 16#32
  let v47 : BitVec 32 := Scalar.muli arg15 c16_i32
  let v70 : Index := Scalar.indexCast v47
  ![7, v70.toNat]
def k0_off14 (k0_t3 : Fin k0_t3_loop.trips) : Fin 2 → Nat :=
  let c8_i32 : BitVec 32 := 8#32
  let v72 : Index := Scalar.indexCast c8_i32
  let c0_i32_30 : BitVec 32 := 0#32
  let c1_i32_31 : BitVec 32 := 1#32
  let arg15 : BitVec 32 := Scf.iv c0_i32_30 c1_i32_31 k0_t3
  let c16_i32 : BitVec 32 := 16#32
  let v47 : BitVec 32 := Scalar.muli arg15 c16_i32
  let v73 : Index := Scalar.indexCast v47
  ![8, v73.toNat]

def k0_chk1 (v50 : IVec S16 32) : Prop :=
  (∀ a x, ((![v50] : Fin 1 → IVec S16 32) a x).toNat < S65536.size a)
instance k0_chk1.dec : ∀ (v50 : IVec S16 32), Decidable (k0_chk1 v50) := fun v50 => decidable_of_iff' _ (Iff.of_eq (k0_chk1.eq_1 v50))
theorem k0_idx1_inb : ∀ (v50 : IVec S16 32) (k0_hw1 : k0_chk1 v50), ∀ a x, ((![v50] : Fin 1 → IVec S16 32) a x).toNat < S65536.size a := fun v50 k0_hw1 => k0_hw1

def k0_chk2 (v53 : IVec S16 32) : Prop :=
  (∀ a x, ((![v53] : Fin 1 → IVec S16 32) a x).toNat < S65536.size a)
instance k0_chk2.dec : ∀ (v53 : IVec S16 32), Decidable (k0_chk2 v53) := fun v53 => decidable_of_iff' _ (Iff.of_eq (k0_chk2.eq_1 v53))
theorem k0_idx2_inb : ∀ (v53 : IVec S16 32) (k0_hw2 : k0_chk2 v53), ∀ a x, ((![v53] : Fin 1 → IVec S16 32) a x).toNat < S65536.size a := fun v53 k0_hw2 => k0_hw2

def k0_chk3 (v56 : IVec S16 32) : Prop :=
  (∀ a x, ((![v56] : Fin 1 → IVec S16 32) a x).toNat < S65536.size a)
instance k0_chk3.dec : ∀ (v56 : IVec S16 32), Decidable (k0_chk3 v56) := fun v56 => decidable_of_iff' _ (Iff.of_eq (k0_chk3.eq_1 v56))
theorem k0_idx3_inb : ∀ (v56 : IVec S16 32) (k0_hw3 : k0_chk3 v56), ∀ a x, ((![v56] : Fin 1 → IVec S16 32) a x).toNat < S65536.size a := fun v56 k0_hw3 => k0_hw3

def k0_chk4 (v59 : IVec S16 32) : Prop :=
  (∀ a x, ((![v59] : Fin 1 → IVec S16 32) a x).toNat < S65536.size a)
instance k0_chk4.dec : ∀ (v59 : IVec S16 32), Decidable (k0_chk4 v59) := fun v59 => decidable_of_iff' _ (Iff.of_eq (k0_chk4.eq_1 v59))
theorem k0_idx4_inb : ∀ (v59 : IVec S16 32) (k0_hw4 : k0_chk4 v59), ∀ a x, ((![v59] : Fin 1 → IVec S16 32) a x).toNat < S65536.size a := fun v59 k0_hw4 => k0_hw4

def k0_chk5 (v62 : IVec S16 32) : Prop :=
  (∀ a x, ((![v62] : Fin 1 → IVec S16 32) a x).toNat < S65536.size a)
instance k0_chk5.dec : ∀ (v62 : IVec S16 32), Decidable (k0_chk5 v62) := fun v62 => decidable_of_iff' _ (Iff.of_eq (k0_chk5.eq_1 v62))
theorem k0_idx5_inb : ∀ (v62 : IVec S16 32) (k0_hw5 : k0_chk5 v62), ∀ a x, ((![v62] : Fin 1 → IVec S16 32) a x).toNat < S65536.size a := fun v62 k0_hw5 => k0_hw5

def k0_chk6 (v65 : IVec S16 32) : Prop :=
  (∀ a x, ((![v65] : Fin 1 → IVec S16 32) a x).toNat < S65536.size a)
instance k0_chk6.dec : ∀ (v65 : IVec S16 32), Decidable (k0_chk6 v65) := fun v65 => decidable_of_iff' _ (Iff.of_eq (k0_chk6.eq_1 v65))
theorem k0_idx6_inb : ∀ (v65 : IVec S16 32) (k0_hw6 : k0_chk6 v65), ∀ a x, ((![v65] : Fin 1 → IVec S16 32) a x).toNat < S65536.size a := fun v65 k0_hw6 => k0_hw6

def k0_chk7 (v68 : IVec S16 32) : Prop :=
  (∀ a x, ((![v68] : Fin 1 → IVec S16 32) a x).toNat < S65536.size a)
instance k0_chk7.dec : ∀ (v68 : IVec S16 32), Decidable (k0_chk7 v68) := fun v68 => decidable_of_iff' _ (Iff.of_eq (k0_chk7.eq_1 v68))
theorem k0_idx7_inb : ∀ (v68 : IVec S16 32) (k0_hw7 : k0_chk7 v68), ∀ a x, ((![v68] : Fin 1 → IVec S16 32) a x).toNat < S65536.size a := fun v68 k0_hw7 => k0_hw7

def k0_chk8 (v71 : IVec S16 32) : Prop :=
  (∀ a x, ((![v71] : Fin 1 → IVec S16 32) a x).toNat < S65536.size a)
instance k0_chk8.dec : ∀ (v71 : IVec S16 32), Decidable (k0_chk8 v71) := fun v71 => decidable_of_iff' _ (Iff.of_eq (k0_chk8.eq_1 v71))
theorem k0_idx8_inb : ∀ (v71 : IVec S16 32) (k0_hw8 : k0_chk8 v71), ∀ a x, ((![v71] : Fin 1 → IVec S16 32) a x).toNat < S65536.size a := fun v71 k0_hw8 => k0_hw8

def k0_chk9 (v74 : IVec S16 32) : Prop :=
  (∀ a x, ((![v74] : Fin 1 → IVec S16 32) a x).toNat < S65536.size a)
instance k0_chk9.dec : ∀ (v74 : IVec S16 32), Decidable (k0_chk9 v74) := fun v74 => decidable_of_iff' _ (Iff.of_eq (k0_chk9.eq_1 v74))
theorem k0_idx9_inb : ∀ (v74 : IVec S16 32) (k0_hw9 : k0_chk9 v74), ∀ a x, ((![v74] : Fin 1 → IVec S16 32) a x).toNat < S65536.size a := fun v74 k0_hw9 => k0_hw9
def k0_off15 (k0_t3 : Fin k0_t3_loop.trips) : Fin 2 → Nat :=
  let c9_i32 : BitVec 32 := 9#32
  let v102 : Index := Scalar.indexCast c9_i32
  let c0_i32_30 : BitVec 32 := 0#32
  let c1_i32_31 : BitVec 32 := 1#32
  let arg15 : BitVec 32 := Scf.iv c0_i32_30 c1_i32_31 k0_t3
  let c16_i32 : BitVec 32 := 16#32
  let v47 : BitVec 32 := Scalar.muli arg15 c16_i32
  let v103 : Index := Scalar.indexCast v47
  ![9, v103.toNat]
def k0_off16 (k0_t3 : Fin k0_t3_loop.trips) : Fin 2 → Nat :=
  let c10_i32 : BitVec 32 := 10#32
  let v105 : Index := Scalar.indexCast c10_i32
  let c0_i32_30 : BitVec 32 := 0#32
  let c1_i32_31 : BitVec 32 := 1#32
  let arg15 : BitVec 32 := Scf.iv c0_i32_30 c1_i32_31 k0_t3
  let c16_i32 : BitVec 32 := 16#32
  let v47 : BitVec 32 := Scalar.muli arg15 c16_i32
  let v106 : Index := Scalar.indexCast v47
  ![10, v106.toNat]
def k0_off17 (k0_t3 : Fin k0_t3_loop.trips) : Fin 2 → Nat :=
  let c11_i32 : BitVec 32 := 11#32
  let v108 : Index := Scalar.indexCast c11_i32
  let c0_i32_30 : BitVec 32 := 0#32
  let c1_i32_31 : BitVec 32 := 1#32
  let arg15 : BitVec 32 := Scf.iv c0_i32_30 c1_i32_31 k0_t3
  let c16_i32 : BitVec 32 := 16#32
  let v47 : BitVec 32 := Scalar.muli arg15 c16_i32
  let v109 : Index := Scalar.indexCast v47
  ![11, v109.toNat]
def k0_off18 (k0_t3 : Fin k0_t3_loop.trips) : Fin 2 → Nat :=
  let c12_i32 : BitVec 32 := 12#32
  let v111 : Index := Scalar.indexCast c12_i32
  let c0_i32_30 : BitVec 32 := 0#32
  let c1_i32_31 : BitVec 32 := 1#32
  let arg15 : BitVec 32 := Scf.iv c0_i32_30 c1_i32_31 k0_t3
  let c16_i32 : BitVec 32 := 16#32
  let v47 : BitVec 32 := Scalar.muli arg15 c16_i32
  let v112 : Index := Scalar.indexCast v47
  ![12, v112.toNat]
def k0_off19 (k0_t3 : Fin k0_t3_loop.trips) : Fin 2 → Nat :=
  let c13_i32 : BitVec 32 := 13#32
  let v114 : Index := Scalar.indexCast c13_i32
  let c0_i32_30 : BitVec 32 := 0#32
  let c1_i32_31 : BitVec 32 := 1#32
  let arg15 : BitVec 32 := Scf.iv c0_i32_30 c1_i32_31 k0_t3
  let c16_i32 : BitVec 32 := 16#32
  let v47 : BitVec 32 := Scalar.muli arg15 c16_i32
  let v115 : Index := Scalar.indexCast v47
  ![13, v115.toNat]
def k0_off20 (k0_t3 : Fin k0_t3_loop.trips) : Fin 2 → Nat :=
  let c14_i32 : BitVec 32 := 14#32
  let v117 : Index := Scalar.indexCast c14_i32
  let c0_i32_30 : BitVec 32 := 0#32
  let c1_i32_31 : BitVec 32 := 1#32
  let arg15 : BitVec 32 := Scf.iv c0_i32_30 c1_i32_31 k0_t3
  let c16_i32 : BitVec 32 := 16#32
  let v47 : BitVec 32 := Scalar.muli arg15 c16_i32
  let v118 : Index := Scalar.indexCast v47
  ![14, v118.toNat]
def k0_off21 (k0_t3 : Fin k0_t3_loop.trips) : Fin 2 → Nat :=
  let c15_i32 : BitVec 32 := 15#32
  let v120 : Index := Scalar.indexCast c15_i32
  let c0_i32_30 : BitVec 32 := 0#32
  let c1_i32_31 : BitVec 32 := 1#32
  let arg15 : BitVec 32 := Scf.iv c0_i32_30 c1_i32_31 k0_t3
  let c16_i32 : BitVec 32 := 16#32
  let v47 : BitVec 32 := Scalar.muli arg15 c16_i32
  let v121 : Index := Scalar.indexCast v47
  ![15, v121.toNat]
def k0_off22 (k0_t3 : Fin k0_t3_loop.trips) : Fin 2 → Nat :=
  let c16_i32_63 : BitVec 32 := 16#32
  let v123 : Index := Scalar.indexCast c16_i32_63
  let c0_i32_30 : BitVec 32 := 0#32
  let c1_i32_31 : BitVec 32 := 1#32
  let arg15 : BitVec 32 := Scf.iv c0_i32_30 c1_i32_31 k0_t3
  let c16_i32 : BitVec 32 := 16#32
  let v47 : BitVec 32 := Scalar.muli arg15 c16_i32
  let v124 : Index := Scalar.indexCast v47
  ![16, v124.toNat]
def k0_off23 (k0_t3 : Fin k0_t3_loop.trips) : Fin 2 → Nat :=
  let c17_i32 : BitVec 32 := 17#32
  let v126 : Index := Scalar.indexCast c17_i32
  let c0_i32_30 : BitVec 32 := 0#32
  let c1_i32_31 : BitVec 32 := 1#32
  let arg15 : BitVec 32 := Scf.iv c0_i32_30 c1_i32_31 k0_t3
  let c16_i32 : BitVec 32 := 16#32
  let v47 : BitVec 32 := Scalar.muli arg15 c16_i32
  let v127 : Index := Scalar.indexCast v47
  ![17, v127.toNat]

def k0_chk10 (v104 : IVec S16 32) : Prop :=
  (∀ a x, ((![v104] : Fin 1 → IVec S16 32) a x).toNat < S65536.size a)
instance k0_chk10.dec : ∀ (v104 : IVec S16 32), Decidable (k0_chk10 v104) := fun v104 => decidable_of_iff' _ (Iff.of_eq (k0_chk10.eq_1 v104))
theorem k0_idx10_inb : ∀ (v104 : IVec S16 32) (k0_hw10 : k0_chk10 v104), ∀ a x, ((![v104] : Fin 1 → IVec S16 32) a x).toNat < S65536.size a := fun v104 k0_hw10 => k0_hw10

def k0_chk11 (v107 : IVec S16 32) : Prop :=
  (∀ a x, ((![v107] : Fin 1 → IVec S16 32) a x).toNat < S65536.size a)
instance k0_chk11.dec : ∀ (v107 : IVec S16 32), Decidable (k0_chk11 v107) := fun v107 => decidable_of_iff' _ (Iff.of_eq (k0_chk11.eq_1 v107))
theorem k0_idx11_inb : ∀ (v107 : IVec S16 32) (k0_hw11 : k0_chk11 v107), ∀ a x, ((![v107] : Fin 1 → IVec S16 32) a x).toNat < S65536.size a := fun v107 k0_hw11 => k0_hw11

def k0_chk12 (v110 : IVec S16 32) : Prop :=
  (∀ a x, ((![v110] : Fin 1 → IVec S16 32) a x).toNat < S65536.size a)
instance k0_chk12.dec : ∀ (v110 : IVec S16 32), Decidable (k0_chk12 v110) := fun v110 => decidable_of_iff' _ (Iff.of_eq (k0_chk12.eq_1 v110))
theorem k0_idx12_inb : ∀ (v110 : IVec S16 32) (k0_hw12 : k0_chk12 v110), ∀ a x, ((![v110] : Fin 1 → IVec S16 32) a x).toNat < S65536.size a := fun v110 k0_hw12 => k0_hw12

def k0_chk13 (v113 : IVec S16 32) : Prop :=
  (∀ a x, ((![v113] : Fin 1 → IVec S16 32) a x).toNat < S65536.size a)
instance k0_chk13.dec : ∀ (v113 : IVec S16 32), Decidable (k0_chk13 v113) := fun v113 => decidable_of_iff' _ (Iff.of_eq (k0_chk13.eq_1 v113))
theorem k0_idx13_inb : ∀ (v113 : IVec S16 32) (k0_hw13 : k0_chk13 v113), ∀ a x, ((![v113] : Fin 1 → IVec S16 32) a x).toNat < S65536.size a := fun v113 k0_hw13 => k0_hw13

def k0_chk14 (v116 : IVec S16 32) : Prop :=
  (∀ a x, ((![v116] : Fin 1 → IVec S16 32) a x).toNat < S65536.size a)
instance k0_chk14.dec : ∀ (v116 : IVec S16 32), Decidable (k0_chk14 v116) := fun v116 => decidable_of_iff' _ (Iff.of_eq (k0_chk14.eq_1 v116))
theorem k0_idx14_inb : ∀ (v116 : IVec S16 32) (k0_hw14 : k0_chk14 v116), ∀ a x, ((![v116] : Fin 1 → IVec S16 32) a x).toNat < S65536.size a := fun v116 k0_hw14 => k0_hw14

def k0_chk15 (v119 : IVec S16 32) : Prop :=
  (∀ a x, ((![v119] : Fin 1 → IVec S16 32) a x).toNat < S65536.size a)
instance k0_chk15.dec : ∀ (v119 : IVec S16 32), Decidable (k0_chk15 v119) := fun v119 => decidable_of_iff' _ (Iff.of_eq (k0_chk15.eq_1 v119))
theorem k0_idx15_inb : ∀ (v119 : IVec S16 32) (k0_hw15 : k0_chk15 v119), ∀ a x, ((![v119] : Fin 1 → IVec S16 32) a x).toNat < S65536.size a := fun v119 k0_hw15 => k0_hw15

def k0_chk16 (v122 : IVec S16 32) : Prop :=
  (∀ a x, ((![v122] : Fin 1 → IVec S16 32) a x).toNat < S65536.size a)
instance k0_chk16.dec : ∀ (v122 : IVec S16 32), Decidable (k0_chk16 v122) := fun v122 => decidable_of_iff' _ (Iff.of_eq (k0_chk16.eq_1 v122))
theorem k0_idx16_inb : ∀ (v122 : IVec S16 32) (k0_hw16 : k0_chk16 v122), ∀ a x, ((![v122] : Fin 1 → IVec S16 32) a x).toNat < S65536.size a := fun v122 k0_hw16 => k0_hw16

def k0_chk17 (v125 : IVec S16 32) : Prop :=
  (∀ a x, ((![v125] : Fin 1 → IVec S16 32) a x).toNat < S65536.size a)
instance k0_chk17.dec : ∀ (v125 : IVec S16 32), Decidable (k0_chk17 v125) := fun v125 => decidable_of_iff' _ (Iff.of_eq (k0_chk17.eq_1 v125))
theorem k0_idx17_inb : ∀ (v125 : IVec S16 32) (k0_hw17 : k0_chk17 v125), ∀ a x, ((![v125] : Fin 1 → IVec S16 32) a x).toNat < S65536.size a := fun v125 k0_hw17 => k0_hw17

def k0_chk18 (v128 : IVec S16 32) : Prop :=
  (∀ a x, ((![v128] : Fin 1 → IVec S16 32) a x).toNat < S65536.size a)
instance k0_chk18.dec : ∀ (v128 : IVec S16 32), Decidable (k0_chk18 v128) := fun v128 => decidable_of_iff' _ (Iff.of_eq (k0_chk18.eq_1 v128))
theorem k0_idx18_inb : ∀ (v128 : IVec S16 32) (k0_hw18 : k0_chk18 v128), ∀ a x, ((![v128] : Fin 1 → IVec S16 32) a x).toNat < S65536.size a := fun v128 k0_hw18 => k0_hw18
def k0_off24 (k0_t3 : Fin k0_t3_loop.trips) : Fin 2 → Nat :=
  let c18_i32 : BitVec 32 := 18#32
  let v156 : Index := Scalar.indexCast c18_i32
  let c0_i32_30 : BitVec 32 := 0#32
  let c1_i32_31 : BitVec 32 := 1#32
  let arg15 : BitVec 32 := Scf.iv c0_i32_30 c1_i32_31 k0_t3
  let c16_i32 : BitVec 32 := 16#32
  let v47 : BitVec 32 := Scalar.muli arg15 c16_i32
  let v157 : Index := Scalar.indexCast v47
  ![18, v157.toNat]
def k0_off25 (k0_t3 : Fin k0_t3_loop.trips) : Fin 2 → Nat :=
  let c19_i32 : BitVec 32 := 19#32
  let v159 : Index := Scalar.indexCast c19_i32
  let c0_i32_30 : BitVec 32 := 0#32
  let c1_i32_31 : BitVec 32 := 1#32
  let arg15 : BitVec 32 := Scf.iv c0_i32_30 c1_i32_31 k0_t3
  let c16_i32 : BitVec 32 := 16#32
  let v47 : BitVec 32 := Scalar.muli arg15 c16_i32
  let v160 : Index := Scalar.indexCast v47
  ![19, v160.toNat]
def k0_off26 (k0_t3 : Fin k0_t3_loop.trips) : Fin 2 → Nat :=
  let c20_i32 : BitVec 32 := 20#32
  let v162 : Index := Scalar.indexCast c20_i32
  let c0_i32_30 : BitVec 32 := 0#32
  let c1_i32_31 : BitVec 32 := 1#32
  let arg15 : BitVec 32 := Scf.iv c0_i32_30 c1_i32_31 k0_t3
  let c16_i32 : BitVec 32 := 16#32
  let v47 : BitVec 32 := Scalar.muli arg15 c16_i32
  let v163 : Index := Scalar.indexCast v47
  ![20, v163.toNat]
def k0_off27 (k0_t3 : Fin k0_t3_loop.trips) : Fin 2 → Nat :=
  let c21_i32 : BitVec 32 := 21#32
  let v165 : Index := Scalar.indexCast c21_i32
  let c0_i32_30 : BitVec 32 := 0#32
  let c1_i32_31 : BitVec 32 := 1#32
  let arg15 : BitVec 32 := Scf.iv c0_i32_30 c1_i32_31 k0_t3
  let c16_i32 : BitVec 32 := 16#32
  let v47 : BitVec 32 := Scalar.muli arg15 c16_i32
  let v166 : Index := Scalar.indexCast v47
  ![21, v166.toNat]
def k0_off28 (k0_t3 : Fin k0_t3_loop.trips) : Fin 2 → Nat :=
  let c22_i32 : BitVec 32 := 22#32
  let v168 : Index := Scalar.indexCast c22_i32
  let c0_i32_30 : BitVec 32 := 0#32
  let c1_i32_31 : BitVec 32 := 1#32
  let arg15 : BitVec 32 := Scf.iv c0_i32_30 c1_i32_31 k0_t3
  let c16_i32 : BitVec 32 := 16#32
  let v47 : BitVec 32 := Scalar.muli arg15 c16_i32
  let v169 : Index := Scalar.indexCast v47
  ![22, v169.toNat]
def k0_off29 (k0_t3 : Fin k0_t3_loop.trips) : Fin 2 → Nat :=
  let c23_i32 : BitVec 32 := 23#32
  let v171 : Index := Scalar.indexCast c23_i32
  let c0_i32_30 : BitVec 32 := 0#32
  let c1_i32_31 : BitVec 32 := 1#32
  let arg15 : BitVec 32 := Scf.iv c0_i32_30 c1_i32_31 k0_t3
  let c16_i32 : BitVec 32 := 16#32
  let v47 : BitVec 32 := Scalar.muli arg15 c16_i32
  let v172 : Index := Scalar.indexCast v47
  ![23, v172.toNat]
def k0_off30 (k0_t3 : Fin k0_t3_loop.trips) : Fin 2 → Nat :=
  let c24_i32 : BitVec 32 := 24#32
  let v174 : Index := Scalar.indexCast c24_i32
  let c0_i32_30 : BitVec 32 := 0#32
  let c1_i32_31 : BitVec 32 := 1#32
  let arg15 : BitVec 32 := Scf.iv c0_i32_30 c1_i32_31 k0_t3
  let c16_i32 : BitVec 32 := 16#32
  let v47 : BitVec 32 := Scalar.muli arg15 c16_i32
  let v175 : Index := Scalar.indexCast v47
  ![24, v175.toNat]
def k0_off31 (k0_t3 : Fin k0_t3_loop.trips) : Fin 2 → Nat :=
  let c25_i32 : BitVec 32 := 25#32
  let v177 : Index := Scalar.indexCast c25_i32
  let c0_i32_30 : BitVec 32 := 0#32
  let c1_i32_31 : BitVec 32 := 1#32
  let arg15 : BitVec 32 := Scf.iv c0_i32_30 c1_i32_31 k0_t3
  let c16_i32 : BitVec 32 := 16#32
  let v47 : BitVec 32 := Scalar.muli arg15 c16_i32
  let v178 : Index := Scalar.indexCast v47
  ![25, v178.toNat]
def k0_off32 (k0_t3 : Fin k0_t3_loop.trips) : Fin 2 → Nat :=
  let c26_i32 : BitVec 32 := 26#32
  let v180 : Index := Scalar.indexCast c26_i32
  let c0_i32_30 : BitVec 32 := 0#32
  let c1_i32_31 : BitVec 32 := 1#32
  let arg15 : BitVec 32 := Scf.iv c0_i32_30 c1_i32_31 k0_t3
  let c16_i32 : BitVec 32 := 16#32
  let v47 : BitVec 32 := Scalar.muli arg15 c16_i32
  let v181 : Index := Scalar.indexCast v47
  ![26, v181.toNat]

def k0_chk19 (v158 : IVec S16 32) : Prop :=
  (∀ a x, ((![v158] : Fin 1 → IVec S16 32) a x).toNat < S65536.size a)
instance k0_chk19.dec : ∀ (v158 : IVec S16 32), Decidable (k0_chk19 v158) := fun v158 => decidable_of_iff' _ (Iff.of_eq (k0_chk19.eq_1 v158))
theorem k0_idx19_inb : ∀ (v158 : IVec S16 32) (k0_hw19 : k0_chk19 v158), ∀ a x, ((![v158] : Fin 1 → IVec S16 32) a x).toNat < S65536.size a := fun v158 k0_hw19 => k0_hw19

def k0_chk20 (v161 : IVec S16 32) : Prop :=
  (∀ a x, ((![v161] : Fin 1 → IVec S16 32) a x).toNat < S65536.size a)
instance k0_chk20.dec : ∀ (v161 : IVec S16 32), Decidable (k0_chk20 v161) := fun v161 => decidable_of_iff' _ (Iff.of_eq (k0_chk20.eq_1 v161))
theorem k0_idx20_inb : ∀ (v161 : IVec S16 32) (k0_hw20 : k0_chk20 v161), ∀ a x, ((![v161] : Fin 1 → IVec S16 32) a x).toNat < S65536.size a := fun v161 k0_hw20 => k0_hw20

def k0_chk21 (v164 : IVec S16 32) : Prop :=
  (∀ a x, ((![v164] : Fin 1 → IVec S16 32) a x).toNat < S65536.size a)
instance k0_chk21.dec : ∀ (v164 : IVec S16 32), Decidable (k0_chk21 v164) := fun v164 => decidable_of_iff' _ (Iff.of_eq (k0_chk21.eq_1 v164))
theorem k0_idx21_inb : ∀ (v164 : IVec S16 32) (k0_hw21 : k0_chk21 v164), ∀ a x, ((![v164] : Fin 1 → IVec S16 32) a x).toNat < S65536.size a := fun v164 k0_hw21 => k0_hw21

def k0_chk22 (v167 : IVec S16 32) : Prop :=
  (∀ a x, ((![v167] : Fin 1 → IVec S16 32) a x).toNat < S65536.size a)
instance k0_chk22.dec : ∀ (v167 : IVec S16 32), Decidable (k0_chk22 v167) := fun v167 => decidable_of_iff' _ (Iff.of_eq (k0_chk22.eq_1 v167))
theorem k0_idx22_inb : ∀ (v167 : IVec S16 32) (k0_hw22 : k0_chk22 v167), ∀ a x, ((![v167] : Fin 1 → IVec S16 32) a x).toNat < S65536.size a := fun v167 k0_hw22 => k0_hw22

def k0_chk23 (v170 : IVec S16 32) : Prop :=
  (∀ a x, ((![v170] : Fin 1 → IVec S16 32) a x).toNat < S65536.size a)
instance k0_chk23.dec : ∀ (v170 : IVec S16 32), Decidable (k0_chk23 v170) := fun v170 => decidable_of_iff' _ (Iff.of_eq (k0_chk23.eq_1 v170))
theorem k0_idx23_inb : ∀ (v170 : IVec S16 32) (k0_hw23 : k0_chk23 v170), ∀ a x, ((![v170] : Fin 1 → IVec S16 32) a x).toNat < S65536.size a := fun v170 k0_hw23 => k0_hw23

def k0_chk24 (v173 : IVec S16 32) : Prop :=
  (∀ a x, ((![v173] : Fin 1 → IVec S16 32) a x).toNat < S65536.size a)
instance k0_chk24.dec : ∀ (v173 : IVec S16 32), Decidable (k0_chk24 v173) := fun v173 => decidable_of_iff' _ (Iff.of_eq (k0_chk24.eq_1 v173))
theorem k0_idx24_inb : ∀ (v173 : IVec S16 32) (k0_hw24 : k0_chk24 v173), ∀ a x, ((![v173] : Fin 1 → IVec S16 32) a x).toNat < S65536.size a := fun v173 k0_hw24 => k0_hw24

def k0_chk25 (v176 : IVec S16 32) : Prop :=
  (∀ a x, ((![v176] : Fin 1 → IVec S16 32) a x).toNat < S65536.size a)
instance k0_chk25.dec : ∀ (v176 : IVec S16 32), Decidable (k0_chk25 v176) := fun v176 => decidable_of_iff' _ (Iff.of_eq (k0_chk25.eq_1 v176))
theorem k0_idx25_inb : ∀ (v176 : IVec S16 32) (k0_hw25 : k0_chk25 v176), ∀ a x, ((![v176] : Fin 1 → IVec S16 32) a x).toNat < S65536.size a := fun v176 k0_hw25 => k0_hw25

def k0_chk26 (v179 : IVec S16 32) : Prop :=
  (∀ a x, ((![v179] : Fin 1 → IVec S16 32) a x).toNat < S65536.size a)
instance k0_chk26.dec : ∀ (v179 : IVec S16 32), Decidable (k0_chk26 v179) := fun v179 => decidable_of_iff' _ (Iff.of_eq (k0_chk26.eq_1 v179))
theorem k0_idx26_inb : ∀ (v179 : IVec S16 32) (k0_hw26 : k0_chk26 v179), ∀ a x, ((![v179] : Fin 1 → IVec S16 32) a x).toNat < S65536.size a := fun v179 k0_hw26 => k0_hw26

def k0_chk27 (v182 : IVec S16 32) : Prop :=
  (∀ a x, ((![v182] : Fin 1 → IVec S16 32) a x).toNat < S65536.size a)
instance k0_chk27.dec : ∀ (v182 : IVec S16 32), Decidable (k0_chk27 v182) := fun v182 => decidable_of_iff' _ (Iff.of_eq (k0_chk27.eq_1 v182))
theorem k0_idx27_inb : ∀ (v182 : IVec S16 32) (k0_hw27 : k0_chk27 v182), ∀ a x, ((![v182] : Fin 1 → IVec S16 32) a x).toNat < S65536.size a := fun v182 k0_hw27 => k0_hw27
def k0_cond1 (k0_t2 : Fin k0_t2_loop.trips) : BitVec 1 :=
  let c0_i32_18 : BitVec 32 := 0#32
  let c1_i32_19 : BitVec 32 := 1#32
  let arg14 : BitVec 32 := Scf.iv c0_i32_18 c1_i32_19 k0_t2
  let c2_i32_21 : BitVec 32 := 2#32
  let v17 : BitVec 32 := Scalar.muli arg14 c2_i32_21
  let c0_i32_22 : BitVec 32 := 0#32
  let v18 : BitVec 32 := Scalar.addi v17 c0_i32_22
  let c2_i32_33 : BitVec 32 := 2#32
  let v28 : BitVec 32 := Scalar.addi v18 c2_i32_33
  let c128_i32 : BitVec 32 := 128#32
  let v29 : BitVec 1 := Scalar.cmpi .slt v28 c128_i32
  let v30 : BitVec 32 := Scalar.extui v29
  let c0_i32_34 : BitVec 32 := 0#32
  let v31 : BitVec 1 := Scalar.cmpi .ne v30 c0_i32_34
  v31

def k0_off33 (k0_t2 : Fin k0_t2_loop.trips) : Fin 2 → Nat :=
  let c0_i32_53 : BitVec 32 := 0#32
  let c0_i32_18 : BitVec 32 := 0#32
  let c1_i32_19 : BitVec 32 := 1#32
  let arg14 : BitVec 32 := Scf.iv c0_i32_18 c1_i32_19 k0_t2
  let c2_i32_21 : BitVec 32 := 2#32
  let v17 : BitVec 32 := Scalar.muli arg14 c2_i32_21
  let c0_i32_22 : BitVec 32 := 0#32
  let v18 : BitVec 32 := Scalar.addi v17 c0_i32_22
  let c2_i32_51 : BitVec 32 := 2#32
  let v47 : BitVec 32 := Scalar.addi v18 c2_i32_51
  let c512_i32_52 : BitVec 32 := 512#32
  let v48 : BitVec 32 := Scalar.muli v47 c512_i32_52
  ![0, v48.toNat]
def k0_off34 (i : grid0.Coords) (k0_t2 : Fin k0_t2_loop.trips) : Fin 3 → Nat :=
  let c0_i32_56 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_18 : BitVec 32 := 0#32
  let c1_i32_19 : BitVec 32 := 1#32
  let arg14 : BitVec 32 := Scf.iv c0_i32_18 c1_i32_19 k0_t2
  let c2_i32_21 : BitVec 32 := 2#32
  let v17 : BitVec 32 := Scalar.muli arg14 c2_i32_21
  let c0_i32_22 : BitVec 32 := 0#32
  let v18 : BitVec 32 := Scalar.addi v17 c0_i32_22
  let c2_i32_51 : BitVec 32 := 2#32
  let v47 : BitVec 32 := Scalar.addi v18 c2_i32_51
  let c512_i32_55 : BitVec 32 := 512#32
  let v51 : BitVec 32 := Scalar.muli v47 c512_i32_55
  ![0, v1.toNat, v51.toNat]
@[reducible] def k0_t4_loop : Scf.Loop 32 :=
  let c0_i32_44 : BitVec 32 := 0#32
  let c32_i32_45 : BitVec 32 := 32#32
  let v42 : BitVec 32 := Scalar.addi c0_i32_44 c32_i32_45
  let c1_i32_46 : BitVec 32 := 1#32
  ⟨c0_i32_44, v42, c1_i32_46⟩
def k0_off35 (k0_t4 : Fin k0_t4_loop.trips) : Fin 2 → Nat :=
  let c0_i32_51 : BitVec 32 := 0#32
  let v48 : Index := Scalar.indexCast c0_i32_51
  let c0_i32_44 : BitVec 32 := 0#32
  let c1_i32_46 : BitVec 32 := 1#32
  let arg15 : BitVec 32 := Scf.iv c0_i32_44 c1_i32_46 k0_t4
  let c16_i32 : BitVec 32 := 16#32
  let v47 : BitVec 32 := Scalar.muli arg15 c16_i32
  let v49 : Index := Scalar.indexCast v47
  ![0, v49.toNat]
def k0_off36 (k0_t4 : Fin k0_t4_loop.trips) : Fin 2 → Nat :=
  let c1_i32_52 : BitVec 32 := 1#32
  let v51 : Index := Scalar.indexCast c1_i32_52
  let c0_i32_44 : BitVec 32 := 0#32
  let c1_i32_46 : BitVec 32 := 1#32
  let arg15 : BitVec 32 := Scf.iv c0_i32_44 c1_i32_46 k0_t4
  let c16_i32 : BitVec 32 := 16#32
  let v47 : BitVec 32 := Scalar.muli arg15 c16_i32
  let v52 : Index := Scalar.indexCast v47
  ![1, v52.toNat]
def k0_off37 (k0_t4 : Fin k0_t4_loop.trips) : Fin 2 → Nat :=
  let c2_i32_53 : BitVec 32 := 2#32
  let v54 : Index := Scalar.indexCast c2_i32_53
  let c0_i32_44 : BitVec 32 := 0#32
  let c1_i32_46 : BitVec 32 := 1#32
  let arg15 : BitVec 32 := Scf.iv c0_i32_44 c1_i32_46 k0_t4
  let c16_i32 : BitVec 32 := 16#32
  let v47 : BitVec 32 := Scalar.muli arg15 c16_i32
  let v55 : Index := Scalar.indexCast v47
  ![2, v55.toNat]
def k0_off38 (k0_t4 : Fin k0_t4_loop.trips) : Fin 2 → Nat :=
  let c3_i32 : BitVec 32 := 3#32
  let v57 : Index := Scalar.indexCast c3_i32
  let c0_i32_44 : BitVec 32 := 0#32
  let c1_i32_46 : BitVec 32 := 1#32
  let arg15 : BitVec 32 := Scf.iv c0_i32_44 c1_i32_46 k0_t4
  let c16_i32 : BitVec 32 := 16#32
  let v47 : BitVec 32 := Scalar.muli arg15 c16_i32
  let v58 : Index := Scalar.indexCast v47
  ![3, v58.toNat]
def k0_off39 (k0_t4 : Fin k0_t4_loop.trips) : Fin 2 → Nat :=
  let c4_i32 : BitVec 32 := 4#32
  let v60 : Index := Scalar.indexCast c4_i32
  let c0_i32_44 : BitVec 32 := 0#32
  let c1_i32_46 : BitVec 32 := 1#32
  let arg15 : BitVec 32 := Scf.iv c0_i32_44 c1_i32_46 k0_t4
  let c16_i32 : BitVec 32 := 16#32
  let v47 : BitVec 32 := Scalar.muli arg15 c16_i32
  let v61 : Index := Scalar.indexCast v47
  ![4, v61.toNat]
def k0_off40 (k0_t4 : Fin k0_t4_loop.trips) : Fin 2 → Nat :=
  let c5_i32 : BitVec 32 := 5#32
  let v63 : Index := Scalar.indexCast c5_i32
  let c0_i32_44 : BitVec 32 := 0#32
  let c1_i32_46 : BitVec 32 := 1#32
  let arg15 : BitVec 32 := Scf.iv c0_i32_44 c1_i32_46 k0_t4
  let c16_i32 : BitVec 32 := 16#32
  let v47 : BitVec 32 := Scalar.muli arg15 c16_i32
  let v64 : Index := Scalar.indexCast v47
  ![5, v64.toNat]
def k0_off41 (k0_t4 : Fin k0_t4_loop.trips) : Fin 2 → Nat :=
  let c6_i32 : BitVec 32 := 6#32
  let v66 : Index := Scalar.indexCast c6_i32
  let c0_i32_44 : BitVec 32 := 0#32
  let c1_i32_46 : BitVec 32 := 1#32
  let arg15 : BitVec 32 := Scf.iv c0_i32_44 c1_i32_46 k0_t4
  let c16_i32 : BitVec 32 := 16#32
  let v47 : BitVec 32 := Scalar.muli arg15 c16_i32
  let v67 : Index := Scalar.indexCast v47
  ![6, v67.toNat]
def k0_off42 (k0_t4 : Fin k0_t4_loop.trips) : Fin 2 → Nat :=
  let c7_i32 : BitVec 32 := 7#32
  let v69 : Index := Scalar.indexCast c7_i32
  let c0_i32_44 : BitVec 32 := 0#32
  let c1_i32_46 : BitVec 32 := 1#32
  let arg15 : BitVec 32 := Scf.iv c0_i32_44 c1_i32_46 k0_t4
  let c16_i32 : BitVec 32 := 16#32
  let v47 : BitVec 32 := Scalar.muli arg15 c16_i32
  let v70 : Index := Scalar.indexCast v47
  ![7, v70.toNat]
def k0_off43 (k0_t4 : Fin k0_t4_loop.trips) : Fin 2 → Nat :=
  let c8_i32 : BitVec 32 := 8#32
  let v72 : Index := Scalar.indexCast c8_i32
  let c0_i32_44 : BitVec 32 := 0#32
  let c1_i32_46 : BitVec 32 := 1#32
  let arg15 : BitVec 32 := Scf.iv c0_i32_44 c1_i32_46 k0_t4
  let c16_i32 : BitVec 32 := 16#32
  let v47 : BitVec 32 := Scalar.muli arg15 c16_i32
  let v73 : Index := Scalar.indexCast v47
  ![8, v73.toNat]

def k0_chk28 (v50 : IVec S16 32) : Prop :=
  (∀ a x, ((![v50] : Fin 1 → IVec S16 32) a x).toNat < S65536.size a)
instance k0_chk28.dec : ∀ (v50 : IVec S16 32), Decidable (k0_chk28 v50) := fun v50 => decidable_of_iff' _ (Iff.of_eq (k0_chk28.eq_1 v50))
theorem k0_idx28_inb : ∀ (v50 : IVec S16 32) (k0_hw28 : k0_chk28 v50), ∀ a x, ((![v50] : Fin 1 → IVec S16 32) a x).toNat < S65536.size a := fun v50 k0_hw28 => k0_hw28

def k0_chk29 (v53 : IVec S16 32) : Prop :=
  (∀ a x, ((![v53] : Fin 1 → IVec S16 32) a x).toNat < S65536.size a)
instance k0_chk29.dec : ∀ (v53 : IVec S16 32), Decidable (k0_chk29 v53) := fun v53 => decidable_of_iff' _ (Iff.of_eq (k0_chk29.eq_1 v53))
theorem k0_idx29_inb : ∀ (v53 : IVec S16 32) (k0_hw29 : k0_chk29 v53), ∀ a x, ((![v53] : Fin 1 → IVec S16 32) a x).toNat < S65536.size a := fun v53 k0_hw29 => k0_hw29

def k0_chk30 (v56 : IVec S16 32) : Prop :=
  (∀ a x, ((![v56] : Fin 1 → IVec S16 32) a x).toNat < S65536.size a)
instance k0_chk30.dec : ∀ (v56 : IVec S16 32), Decidable (k0_chk30 v56) := fun v56 => decidable_of_iff' _ (Iff.of_eq (k0_chk30.eq_1 v56))
theorem k0_idx30_inb : ∀ (v56 : IVec S16 32) (k0_hw30 : k0_chk30 v56), ∀ a x, ((![v56] : Fin 1 → IVec S16 32) a x).toNat < S65536.size a := fun v56 k0_hw30 => k0_hw30

def k0_chk31 (v59 : IVec S16 32) : Prop :=
  (∀ a x, ((![v59] : Fin 1 → IVec S16 32) a x).toNat < S65536.size a)
instance k0_chk31.dec : ∀ (v59 : IVec S16 32), Decidable (k0_chk31 v59) := fun v59 => decidable_of_iff' _ (Iff.of_eq (k0_chk31.eq_1 v59))
theorem k0_idx31_inb : ∀ (v59 : IVec S16 32) (k0_hw31 : k0_chk31 v59), ∀ a x, ((![v59] : Fin 1 → IVec S16 32) a x).toNat < S65536.size a := fun v59 k0_hw31 => k0_hw31

def k0_chk32 (v62 : IVec S16 32) : Prop :=
  (∀ a x, ((![v62] : Fin 1 → IVec S16 32) a x).toNat < S65536.size a)
instance k0_chk32.dec : ∀ (v62 : IVec S16 32), Decidable (k0_chk32 v62) := fun v62 => decidable_of_iff' _ (Iff.of_eq (k0_chk32.eq_1 v62))
theorem k0_idx32_inb : ∀ (v62 : IVec S16 32) (k0_hw32 : k0_chk32 v62), ∀ a x, ((![v62] : Fin 1 → IVec S16 32) a x).toNat < S65536.size a := fun v62 k0_hw32 => k0_hw32

def k0_chk33 (v65 : IVec S16 32) : Prop :=
  (∀ a x, ((![v65] : Fin 1 → IVec S16 32) a x).toNat < S65536.size a)
instance k0_chk33.dec : ∀ (v65 : IVec S16 32), Decidable (k0_chk33 v65) := fun v65 => decidable_of_iff' _ (Iff.of_eq (k0_chk33.eq_1 v65))
theorem k0_idx33_inb : ∀ (v65 : IVec S16 32) (k0_hw33 : k0_chk33 v65), ∀ a x, ((![v65] : Fin 1 → IVec S16 32) a x).toNat < S65536.size a := fun v65 k0_hw33 => k0_hw33

def k0_chk34 (v68 : IVec S16 32) : Prop :=
  (∀ a x, ((![v68] : Fin 1 → IVec S16 32) a x).toNat < S65536.size a)
instance k0_chk34.dec : ∀ (v68 : IVec S16 32), Decidable (k0_chk34 v68) := fun v68 => decidable_of_iff' _ (Iff.of_eq (k0_chk34.eq_1 v68))
theorem k0_idx34_inb : ∀ (v68 : IVec S16 32) (k0_hw34 : k0_chk34 v68), ∀ a x, ((![v68] : Fin 1 → IVec S16 32) a x).toNat < S65536.size a := fun v68 k0_hw34 => k0_hw34

def k0_chk35 (v71 : IVec S16 32) : Prop :=
  (∀ a x, ((![v71] : Fin 1 → IVec S16 32) a x).toNat < S65536.size a)
instance k0_chk35.dec : ∀ (v71 : IVec S16 32), Decidable (k0_chk35 v71) := fun v71 => decidable_of_iff' _ (Iff.of_eq (k0_chk35.eq_1 v71))
theorem k0_idx35_inb : ∀ (v71 : IVec S16 32) (k0_hw35 : k0_chk35 v71), ∀ a x, ((![v71] : Fin 1 → IVec S16 32) a x).toNat < S65536.size a := fun v71 k0_hw35 => k0_hw35

def k0_chk36 (v74 : IVec S16 32) : Prop :=
  (∀ a x, ((![v74] : Fin 1 → IVec S16 32) a x).toNat < S65536.size a)
instance k0_chk36.dec : ∀ (v74 : IVec S16 32), Decidable (k0_chk36 v74) := fun v74 => decidable_of_iff' _ (Iff.of_eq (k0_chk36.eq_1 v74))
theorem k0_idx36_inb : ∀ (v74 : IVec S16 32) (k0_hw36 : k0_chk36 v74), ∀ a x, ((![v74] : Fin 1 → IVec S16 32) a x).toNat < S65536.size a := fun v74 k0_hw36 => k0_hw36
def k0_off44 (k0_t4 : Fin k0_t4_loop.trips) : Fin 2 → Nat :=
  let c9_i32 : BitVec 32 := 9#32
  let v102 : Index := Scalar.indexCast c9_i32
  let c0_i32_44 : BitVec 32 := 0#32
  let c1_i32_46 : BitVec 32 := 1#32
  let arg15 : BitVec 32 := Scf.iv c0_i32_44 c1_i32_46 k0_t4
  let c16_i32 : BitVec 32 := 16#32
  let v47 : BitVec 32 := Scalar.muli arg15 c16_i32
  let v103 : Index := Scalar.indexCast v47
  ![9, v103.toNat]
def k0_off45 (k0_t4 : Fin k0_t4_loop.trips) : Fin 2 → Nat :=
  let c10_i32 : BitVec 32 := 10#32
  let v105 : Index := Scalar.indexCast c10_i32
  let c0_i32_44 : BitVec 32 := 0#32
  let c1_i32_46 : BitVec 32 := 1#32
  let arg15 : BitVec 32 := Scf.iv c0_i32_44 c1_i32_46 k0_t4
  let c16_i32 : BitVec 32 := 16#32
  let v47 : BitVec 32 := Scalar.muli arg15 c16_i32
  let v106 : Index := Scalar.indexCast v47
  ![10, v106.toNat]
def k0_off46 (k0_t4 : Fin k0_t4_loop.trips) : Fin 2 → Nat :=
  let c11_i32 : BitVec 32 := 11#32
  let v108 : Index := Scalar.indexCast c11_i32
  let c0_i32_44 : BitVec 32 := 0#32
  let c1_i32_46 : BitVec 32 := 1#32
  let arg15 : BitVec 32 := Scf.iv c0_i32_44 c1_i32_46 k0_t4
  let c16_i32 : BitVec 32 := 16#32
  let v47 : BitVec 32 := Scalar.muli arg15 c16_i32
  let v109 : Index := Scalar.indexCast v47
  ![11, v109.toNat]
def k0_off47 (k0_t4 : Fin k0_t4_loop.trips) : Fin 2 → Nat :=
  let c12_i32 : BitVec 32 := 12#32
  let v111 : Index := Scalar.indexCast c12_i32
  let c0_i32_44 : BitVec 32 := 0#32
  let c1_i32_46 : BitVec 32 := 1#32
  let arg15 : BitVec 32 := Scf.iv c0_i32_44 c1_i32_46 k0_t4
  let c16_i32 : BitVec 32 := 16#32
  let v47 : BitVec 32 := Scalar.muli arg15 c16_i32
  let v112 : Index := Scalar.indexCast v47
  ![12, v112.toNat]
def k0_off48 (k0_t4 : Fin k0_t4_loop.trips) : Fin 2 → Nat :=
  let c13_i32 : BitVec 32 := 13#32
  let v114 : Index := Scalar.indexCast c13_i32
  let c0_i32_44 : BitVec 32 := 0#32
  let c1_i32_46 : BitVec 32 := 1#32
  let arg15 : BitVec 32 := Scf.iv c0_i32_44 c1_i32_46 k0_t4
  let c16_i32 : BitVec 32 := 16#32
  let v47 : BitVec 32 := Scalar.muli arg15 c16_i32
  let v115 : Index := Scalar.indexCast v47
  ![13, v115.toNat]
def k0_off49 (k0_t4 : Fin k0_t4_loop.trips) : Fin 2 → Nat :=
  let c14_i32 : BitVec 32 := 14#32
  let v117 : Index := Scalar.indexCast c14_i32
  let c0_i32_44 : BitVec 32 := 0#32
  let c1_i32_46 : BitVec 32 := 1#32
  let arg15 : BitVec 32 := Scf.iv c0_i32_44 c1_i32_46 k0_t4
  let c16_i32 : BitVec 32 := 16#32
  let v47 : BitVec 32 := Scalar.muli arg15 c16_i32
  let v118 : Index := Scalar.indexCast v47
  ![14, v118.toNat]
def k0_off50 (k0_t4 : Fin k0_t4_loop.trips) : Fin 2 → Nat :=
  let c15_i32 : BitVec 32 := 15#32
  let v120 : Index := Scalar.indexCast c15_i32
  let c0_i32_44 : BitVec 32 := 0#32
  let c1_i32_46 : BitVec 32 := 1#32
  let arg15 : BitVec 32 := Scf.iv c0_i32_44 c1_i32_46 k0_t4
  let c16_i32 : BitVec 32 := 16#32
  let v47 : BitVec 32 := Scalar.muli arg15 c16_i32
  let v121 : Index := Scalar.indexCast v47
  ![15, v121.toNat]
def k0_off51 (k0_t4 : Fin k0_t4_loop.trips) : Fin 2 → Nat :=
  let c16_i32_63 : BitVec 32 := 16#32
  let v123 : Index := Scalar.indexCast c16_i32_63
  let c0_i32_44 : BitVec 32 := 0#32
  let c1_i32_46 : BitVec 32 := 1#32
  let arg15 : BitVec 32 := Scf.iv c0_i32_44 c1_i32_46 k0_t4
  let c16_i32 : BitVec 32 := 16#32
  let v47 : BitVec 32 := Scalar.muli arg15 c16_i32
  let v124 : Index := Scalar.indexCast v47
  ![16, v124.toNat]
def k0_off52 (k0_t4 : Fin k0_t4_loop.trips) : Fin 2 → Nat :=
  let c17_i32 : BitVec 32 := 17#32
  let v126 : Index := Scalar.indexCast c17_i32
  let c0_i32_44 : BitVec 32 := 0#32
  let c1_i32_46 : BitVec 32 := 1#32
  let arg15 : BitVec 32 := Scf.iv c0_i32_44 c1_i32_46 k0_t4
  let c16_i32 : BitVec 32 := 16#32
  let v47 : BitVec 32 := Scalar.muli arg15 c16_i32
  let v127 : Index := Scalar.indexCast v47
  ![17, v127.toNat]

def k0_chk37 (v104 : IVec S16 32) : Prop :=
  (∀ a x, ((![v104] : Fin 1 → IVec S16 32) a x).toNat < S65536.size a)
instance k0_chk37.dec : ∀ (v104 : IVec S16 32), Decidable (k0_chk37 v104) := fun v104 => decidable_of_iff' _ (Iff.of_eq (k0_chk37.eq_1 v104))
theorem k0_idx37_inb : ∀ (v104 : IVec S16 32) (k0_hw37 : k0_chk37 v104), ∀ a x, ((![v104] : Fin 1 → IVec S16 32) a x).toNat < S65536.size a := fun v104 k0_hw37 => k0_hw37

def k0_chk38 (v107 : IVec S16 32) : Prop :=
  (∀ a x, ((![v107] : Fin 1 → IVec S16 32) a x).toNat < S65536.size a)
instance k0_chk38.dec : ∀ (v107 : IVec S16 32), Decidable (k0_chk38 v107) := fun v107 => decidable_of_iff' _ (Iff.of_eq (k0_chk38.eq_1 v107))
theorem k0_idx38_inb : ∀ (v107 : IVec S16 32) (k0_hw38 : k0_chk38 v107), ∀ a x, ((![v107] : Fin 1 → IVec S16 32) a x).toNat < S65536.size a := fun v107 k0_hw38 => k0_hw38

def k0_chk39 (v110 : IVec S16 32) : Prop :=
  (∀ a x, ((![v110] : Fin 1 → IVec S16 32) a x).toNat < S65536.size a)
instance k0_chk39.dec : ∀ (v110 : IVec S16 32), Decidable (k0_chk39 v110) := fun v110 => decidable_of_iff' _ (Iff.of_eq (k0_chk39.eq_1 v110))
theorem k0_idx39_inb : ∀ (v110 : IVec S16 32) (k0_hw39 : k0_chk39 v110), ∀ a x, ((![v110] : Fin 1 → IVec S16 32) a x).toNat < S65536.size a := fun v110 k0_hw39 => k0_hw39

def k0_chk40 (v113 : IVec S16 32) : Prop :=
  (∀ a x, ((![v113] : Fin 1 → IVec S16 32) a x).toNat < S65536.size a)
instance k0_chk40.dec : ∀ (v113 : IVec S16 32), Decidable (k0_chk40 v113) := fun v113 => decidable_of_iff' _ (Iff.of_eq (k0_chk40.eq_1 v113))
theorem k0_idx40_inb : ∀ (v113 : IVec S16 32) (k0_hw40 : k0_chk40 v113), ∀ a x, ((![v113] : Fin 1 → IVec S16 32) a x).toNat < S65536.size a := fun v113 k0_hw40 => k0_hw40

def k0_chk41 (v116 : IVec S16 32) : Prop :=
  (∀ a x, ((![v116] : Fin 1 → IVec S16 32) a x).toNat < S65536.size a)
instance k0_chk41.dec : ∀ (v116 : IVec S16 32), Decidable (k0_chk41 v116) := fun v116 => decidable_of_iff' _ (Iff.of_eq (k0_chk41.eq_1 v116))
theorem k0_idx41_inb : ∀ (v116 : IVec S16 32) (k0_hw41 : k0_chk41 v116), ∀ a x, ((![v116] : Fin 1 → IVec S16 32) a x).toNat < S65536.size a := fun v116 k0_hw41 => k0_hw41

def k0_chk42 (v119 : IVec S16 32) : Prop :=
  (∀ a x, ((![v119] : Fin 1 → IVec S16 32) a x).toNat < S65536.size a)
instance k0_chk42.dec : ∀ (v119 : IVec S16 32), Decidable (k0_chk42 v119) := fun v119 => decidable_of_iff' _ (Iff.of_eq (k0_chk42.eq_1 v119))
theorem k0_idx42_inb : ∀ (v119 : IVec S16 32) (k0_hw42 : k0_chk42 v119), ∀ a x, ((![v119] : Fin 1 → IVec S16 32) a x).toNat < S65536.size a := fun v119 k0_hw42 => k0_hw42

def k0_chk43 (v122 : IVec S16 32) : Prop :=
  (∀ a x, ((![v122] : Fin 1 → IVec S16 32) a x).toNat < S65536.size a)
instance k0_chk43.dec : ∀ (v122 : IVec S16 32), Decidable (k0_chk43 v122) := fun v122 => decidable_of_iff' _ (Iff.of_eq (k0_chk43.eq_1 v122))
theorem k0_idx43_inb : ∀ (v122 : IVec S16 32) (k0_hw43 : k0_chk43 v122), ∀ a x, ((![v122] : Fin 1 → IVec S16 32) a x).toNat < S65536.size a := fun v122 k0_hw43 => k0_hw43

def k0_chk44 (v125 : IVec S16 32) : Prop :=
  (∀ a x, ((![v125] : Fin 1 → IVec S16 32) a x).toNat < S65536.size a)
instance k0_chk44.dec : ∀ (v125 : IVec S16 32), Decidable (k0_chk44 v125) := fun v125 => decidable_of_iff' _ (Iff.of_eq (k0_chk44.eq_1 v125))
theorem k0_idx44_inb : ∀ (v125 : IVec S16 32) (k0_hw44 : k0_chk44 v125), ∀ a x, ((![v125] : Fin 1 → IVec S16 32) a x).toNat < S65536.size a := fun v125 k0_hw44 => k0_hw44

def k0_chk45 (v128 : IVec S16 32) : Prop :=
  (∀ a x, ((![v128] : Fin 1 → IVec S16 32) a x).toNat < S65536.size a)
instance k0_chk45.dec : ∀ (v128 : IVec S16 32), Decidable (k0_chk45 v128) := fun v128 => decidable_of_iff' _ (Iff.of_eq (k0_chk45.eq_1 v128))
theorem k0_idx45_inb : ∀ (v128 : IVec S16 32) (k0_hw45 : k0_chk45 v128), ∀ a x, ((![v128] : Fin 1 → IVec S16 32) a x).toNat < S65536.size a := fun v128 k0_hw45 => k0_hw45
def k0_off53 (k0_t4 : Fin k0_t4_loop.trips) : Fin 2 → Nat :=
  let c18_i32 : BitVec 32 := 18#32
  let v156 : Index := Scalar.indexCast c18_i32
  let c0_i32_44 : BitVec 32 := 0#32
  let c1_i32_46 : BitVec 32 := 1#32
  let arg15 : BitVec 32 := Scf.iv c0_i32_44 c1_i32_46 k0_t4
  let c16_i32 : BitVec 32 := 16#32
  let v47 : BitVec 32 := Scalar.muli arg15 c16_i32
  let v157 : Index := Scalar.indexCast v47
  ![18, v157.toNat]
def k0_off54 (k0_t4 : Fin k0_t4_loop.trips) : Fin 2 → Nat :=
  let c19_i32 : BitVec 32 := 19#32
  let v159 : Index := Scalar.indexCast c19_i32
  let c0_i32_44 : BitVec 32 := 0#32
  let c1_i32_46 : BitVec 32 := 1#32
  let arg15 : BitVec 32 := Scf.iv c0_i32_44 c1_i32_46 k0_t4
  let c16_i32 : BitVec 32 := 16#32
  let v47 : BitVec 32 := Scalar.muli arg15 c16_i32
  let v160 : Index := Scalar.indexCast v47
  ![19, v160.toNat]
def k0_off55 (k0_t4 : Fin k0_t4_loop.trips) : Fin 2 → Nat :=
  let c20_i32 : BitVec 32 := 20#32
  let v162 : Index := Scalar.indexCast c20_i32
  let c0_i32_44 : BitVec 32 := 0#32
  let c1_i32_46 : BitVec 32 := 1#32
  let arg15 : BitVec 32 := Scf.iv c0_i32_44 c1_i32_46 k0_t4
  let c16_i32 : BitVec 32 := 16#32
  let v47 : BitVec 32 := Scalar.muli arg15 c16_i32
  let v163 : Index := Scalar.indexCast v47
  ![20, v163.toNat]
def k0_off56 (k0_t4 : Fin k0_t4_loop.trips) : Fin 2 → Nat :=
  let c21_i32 : BitVec 32 := 21#32
  let v165 : Index := Scalar.indexCast c21_i32
  let c0_i32_44 : BitVec 32 := 0#32
  let c1_i32_46 : BitVec 32 := 1#32
  let arg15 : BitVec 32 := Scf.iv c0_i32_44 c1_i32_46 k0_t4
  let c16_i32 : BitVec 32 := 16#32
  let v47 : BitVec 32 := Scalar.muli arg15 c16_i32
  let v166 : Index := Scalar.indexCast v47
  ![21, v166.toNat]
def k0_off57 (k0_t4 : Fin k0_t4_loop.trips) : Fin 2 → Nat :=
  let c22_i32 : BitVec 32 := 22#32
  let v168 : Index := Scalar.indexCast c22_i32
  let c0_i32_44 : BitVec 32 := 0#32
  let c1_i32_46 : BitVec 32 := 1#32
  let arg15 : BitVec 32 := Scf.iv c0_i32_44 c1_i32_46 k0_t4
  let c16_i32 : BitVec 32 := 16#32
  let v47 : BitVec 32 := Scalar.muli arg15 c16_i32
  let v169 : Index := Scalar.indexCast v47
  ![22, v169.toNat]
def k0_off58 (k0_t4 : Fin k0_t4_loop.trips) : Fin 2 → Nat :=
  let c23_i32 : BitVec 32 := 23#32
  let v171 : Index := Scalar.indexCast c23_i32
  let c0_i32_44 : BitVec 32 := 0#32
  let c1_i32_46 : BitVec 32 := 1#32
  let arg15 : BitVec 32 := Scf.iv c0_i32_44 c1_i32_46 k0_t4
  let c16_i32 : BitVec 32 := 16#32
  let v47 : BitVec 32 := Scalar.muli arg15 c16_i32
  let v172 : Index := Scalar.indexCast v47
  ![23, v172.toNat]
def k0_off59 (k0_t4 : Fin k0_t4_loop.trips) : Fin 2 → Nat :=
  let c24_i32 : BitVec 32 := 24#32
  let v174 : Index := Scalar.indexCast c24_i32
  let c0_i32_44 : BitVec 32 := 0#32
  let c1_i32_46 : BitVec 32 := 1#32
  let arg15 : BitVec 32 := Scf.iv c0_i32_44 c1_i32_46 k0_t4
  let c16_i32 : BitVec 32 := 16#32
  let v47 : BitVec 32 := Scalar.muli arg15 c16_i32
  let v175 : Index := Scalar.indexCast v47
  ![24, v175.toNat]
def k0_off60 (k0_t4 : Fin k0_t4_loop.trips) : Fin 2 → Nat :=
  let c25_i32 : BitVec 32 := 25#32
  let v177 : Index := Scalar.indexCast c25_i32
  let c0_i32_44 : BitVec 32 := 0#32
  let c1_i32_46 : BitVec 32 := 1#32
  let arg15 : BitVec 32 := Scf.iv c0_i32_44 c1_i32_46 k0_t4
  let c16_i32 : BitVec 32 := 16#32
  let v47 : BitVec 32 := Scalar.muli arg15 c16_i32
  let v178 : Index := Scalar.indexCast v47
  ![25, v178.toNat]
def k0_off61 (k0_t4 : Fin k0_t4_loop.trips) : Fin 2 → Nat :=
  let c26_i32 : BitVec 32 := 26#32
  let v180 : Index := Scalar.indexCast c26_i32
  let c0_i32_44 : BitVec 32 := 0#32
  let c1_i32_46 : BitVec 32 := 1#32
  let arg15 : BitVec 32 := Scf.iv c0_i32_44 c1_i32_46 k0_t4
  let c16_i32 : BitVec 32 := 16#32
  let v47 : BitVec 32 := Scalar.muli arg15 c16_i32
  let v181 : Index := Scalar.indexCast v47
  ![26, v181.toNat]

def k0_chk46 (v158 : IVec S16 32) : Prop :=
  (∀ a x, ((![v158] : Fin 1 → IVec S16 32) a x).toNat < S65536.size a)
instance k0_chk46.dec : ∀ (v158 : IVec S16 32), Decidable (k0_chk46 v158) := fun v158 => decidable_of_iff' _ (Iff.of_eq (k0_chk46.eq_1 v158))
theorem k0_idx46_inb : ∀ (v158 : IVec S16 32) (k0_hw46 : k0_chk46 v158), ∀ a x, ((![v158] : Fin 1 → IVec S16 32) a x).toNat < S65536.size a := fun v158 k0_hw46 => k0_hw46

def k0_chk47 (v161 : IVec S16 32) : Prop :=
  (∀ a x, ((![v161] : Fin 1 → IVec S16 32) a x).toNat < S65536.size a)
instance k0_chk47.dec : ∀ (v161 : IVec S16 32), Decidable (k0_chk47 v161) := fun v161 => decidable_of_iff' _ (Iff.of_eq (k0_chk47.eq_1 v161))
theorem k0_idx47_inb : ∀ (v161 : IVec S16 32) (k0_hw47 : k0_chk47 v161), ∀ a x, ((![v161] : Fin 1 → IVec S16 32) a x).toNat < S65536.size a := fun v161 k0_hw47 => k0_hw47

def k0_chk48 (v164 : IVec S16 32) : Prop :=
  (∀ a x, ((![v164] : Fin 1 → IVec S16 32) a x).toNat < S65536.size a)
instance k0_chk48.dec : ∀ (v164 : IVec S16 32), Decidable (k0_chk48 v164) := fun v164 => decidable_of_iff' _ (Iff.of_eq (k0_chk48.eq_1 v164))
theorem k0_idx48_inb : ∀ (v164 : IVec S16 32) (k0_hw48 : k0_chk48 v164), ∀ a x, ((![v164] : Fin 1 → IVec S16 32) a x).toNat < S65536.size a := fun v164 k0_hw48 => k0_hw48

def k0_chk49 (v167 : IVec S16 32) : Prop :=
  (∀ a x, ((![v167] : Fin 1 → IVec S16 32) a x).toNat < S65536.size a)
instance k0_chk49.dec : ∀ (v167 : IVec S16 32), Decidable (k0_chk49 v167) := fun v167 => decidable_of_iff' _ (Iff.of_eq (k0_chk49.eq_1 v167))
theorem k0_idx49_inb : ∀ (v167 : IVec S16 32) (k0_hw49 : k0_chk49 v167), ∀ a x, ((![v167] : Fin 1 → IVec S16 32) a x).toNat < S65536.size a := fun v167 k0_hw49 => k0_hw49

def k0_chk50 (v170 : IVec S16 32) : Prop :=
  (∀ a x, ((![v170] : Fin 1 → IVec S16 32) a x).toNat < S65536.size a)
instance k0_chk50.dec : ∀ (v170 : IVec S16 32), Decidable (k0_chk50 v170) := fun v170 => decidable_of_iff' _ (Iff.of_eq (k0_chk50.eq_1 v170))
theorem k0_idx50_inb : ∀ (v170 : IVec S16 32) (k0_hw50 : k0_chk50 v170), ∀ a x, ((![v170] : Fin 1 → IVec S16 32) a x).toNat < S65536.size a := fun v170 k0_hw50 => k0_hw50

def k0_chk51 (v173 : IVec S16 32) : Prop :=
  (∀ a x, ((![v173] : Fin 1 → IVec S16 32) a x).toNat < S65536.size a)
instance k0_chk51.dec : ∀ (v173 : IVec S16 32), Decidable (k0_chk51 v173) := fun v173 => decidable_of_iff' _ (Iff.of_eq (k0_chk51.eq_1 v173))
theorem k0_idx51_inb : ∀ (v173 : IVec S16 32) (k0_hw51 : k0_chk51 v173), ∀ a x, ((![v173] : Fin 1 → IVec S16 32) a x).toNat < S65536.size a := fun v173 k0_hw51 => k0_hw51

def k0_chk52 (v176 : IVec S16 32) : Prop :=
  (∀ a x, ((![v176] : Fin 1 → IVec S16 32) a x).toNat < S65536.size a)
instance k0_chk52.dec : ∀ (v176 : IVec S16 32), Decidable (k0_chk52 v176) := fun v176 => decidable_of_iff' _ (Iff.of_eq (k0_chk52.eq_1 v176))
theorem k0_idx52_inb : ∀ (v176 : IVec S16 32) (k0_hw52 : k0_chk52 v176), ∀ a x, ((![v176] : Fin 1 → IVec S16 32) a x).toNat < S65536.size a := fun v176 k0_hw52 => k0_hw52

def k0_chk53 (v179 : IVec S16 32) : Prop :=
  (∀ a x, ((![v179] : Fin 1 → IVec S16 32) a x).toNat < S65536.size a)
instance k0_chk53.dec : ∀ (v179 : IVec S16 32), Decidable (k0_chk53 v179) := fun v179 => decidable_of_iff' _ (Iff.of_eq (k0_chk53.eq_1 v179))
theorem k0_idx53_inb : ∀ (v179 : IVec S16 32) (k0_hw53 : k0_chk53 v179), ∀ a x, ((![v179] : Fin 1 → IVec S16 32) a x).toNat < S65536.size a := fun v179 k0_hw53 => k0_hw53

def k0_chk54 (v182 : IVec S16 32) : Prop :=
  (∀ a x, ((![v182] : Fin 1 → IVec S16 32) a x).toNat < S65536.size a)
instance k0_chk54.dec : ∀ (v182 : IVec S16 32), Decidable (k0_chk54 v182) := fun v182 => decidable_of_iff' _ (Iff.of_eq (k0_chk54.eq_1 v182))
theorem k0_idx54_inb : ∀ (v182 : IVec S16 32) (k0_hw54 : k0_chk54 v182), ∀ a x, ((![v182] : Fin 1 → IVec S16 32) a x).toNat < S65536.size a := fun v182 k0_hw54 => k0_hw54
def k0_cond2 (k0_t2 : Fin k0_t2_loop.trips) : BitVec 1 :=
  let c0_i32_18 : BitVec 32 := 0#32
  let c1_i32_19 : BitVec 32 := 1#32
  let arg14 : BitVec 32 := Scf.iv c0_i32_18 c1_i32_19 k0_t2
  let c2_i32_35 : BitVec 32 := 2#32
  let v32 : BitVec 32 := Scalar.muli arg14 c2_i32_35
  let c1_i32_36 : BitVec 32 := 1#32
  let v33 : BitVec 32 := Scalar.addi v32 c1_i32_36
  let c2_i32_48 : BitVec 32 := 2#32
  let v43 : BitVec 32 := Scalar.addi v33 c2_i32_48
  let c128_i32_49 : BitVec 32 := 128#32
  let v44 : BitVec 1 := Scalar.cmpi .slt v43 c128_i32_49
  let v45 : BitVec 32 := Scalar.extui v44
  let c0_i32_50 : BitVec 32 := 0#32
  let v46 : BitVec 1 := Scalar.cmpi .ne v45 c0_i32_50
  v46

def k0_off62 (k0_t2 : Fin k0_t2_loop.trips) : Fin 2 → Nat :=
  let c0_i32_53 : BitVec 32 := 0#32
  let c0_i32_18 : BitVec 32 := 0#32
  let c1_i32_19 : BitVec 32 := 1#32
  let arg14 : BitVec 32 := Scf.iv c0_i32_18 c1_i32_19 k0_t2
  let c2_i32_35 : BitVec 32 := 2#32
  let v32 : BitVec 32 := Scalar.muli arg14 c2_i32_35
  let c1_i32_36 : BitVec 32 := 1#32
  let v33 : BitVec 32 := Scalar.addi v32 c1_i32_36
  let c2_i32_51 : BitVec 32 := 2#32
  let v47 : BitVec 32 := Scalar.addi v33 c2_i32_51
  let c512_i32_52 : BitVec 32 := 512#32
  let v48 : BitVec 32 := Scalar.muli v47 c512_i32_52
  ![0, v48.toNat]
def k0_off63 (i : grid0.Coords) (k0_t2 : Fin k0_t2_loop.trips) : Fin 3 → Nat :=
  let c0_i32_56 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_18 : BitVec 32 := 0#32
  let c1_i32_19 : BitVec 32 := 1#32
  let arg14 : BitVec 32 := Scf.iv c0_i32_18 c1_i32_19 k0_t2
  let c2_i32_35 : BitVec 32 := 2#32
  let v32 : BitVec 32 := Scalar.muli arg14 c2_i32_35
  let c1_i32_36 : BitVec 32 := 1#32
  let v33 : BitVec 32 := Scalar.addi v32 c1_i32_36
  let c2_i32_51 : BitVec 32 := 2#32
  let v47 : BitVec 32 := Scalar.addi v33 c2_i32_51
  let c512_i32_55 : BitVec 32 := 512#32
  let v51 : BitVec 32 := Scalar.muli v47 c512_i32_55
  ![0, v1.toNat, v51.toNat]
def k0_off64 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21_r0 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S32x27x65536_S27x32x65536_1_0_2 : S32x27x65536.Transposes [1, 0, 2] S27x32x65536
  transposes_S65536x27_S27x65536_1_0 : S65536x27.Transposes [1, 0] S27x65536
  inb_S27x65536_S27x512_0_0 : ∀ a, (![0, 0] : Fin 2 → Nat) a + S27x512.size a ≤ S27x65536.size a
  squeezes_S27x1x512_S27x512 : S27x1x512.Squeezes S27x512
  inb_S27x65536_S27x512_0_512 : ∀ a, (![0, 512] : Fin 2 → Nat) a + S27x512.size a ≤ S27x65536.size a
  h_S16 : 0 < S16.numel
  h_S1x16 : 0 < S1x16.numel
  shapeCasts_S1x16_S16 : S1x16.ShapeCasts S16
  h_S65536 : 0 < S65536.numel
  squeezes_S1x65536_S65536 : S1x65536.Squeezes S65536
  hcc0_scratch5 : 0 + S_.numel ≤ 5
  hcc0_scratch6 : 1 + S_.numel ≤ 5
  hcc0_scratch7 : 2 + S_.numel ≤ 5
  hcc0_scratch8 : 3 + S_.numel ≤ 5
  hcc0_scoped0 : 4 + S_.numel ≤ 5
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S27x1x512.size a ≤ S27x32x65536.size a
  k0_off2_inb : ∀ i : grid0.Coords, ∀ a, (k0_off2 i) a + S27x1x512.size a ≤ S27x32x65536.size a
  k0_t1_ok : k0_t1_loop.OK
  k0_off3_inb : ∀ k0_t1 : Fin k0_t1_loop.trips, ∀ a, (k0_off3 k0_t1) a + S16.size a ≤ S65536.size a
  k0_t2_ok : k0_t2_loop.OK
  k0_off4_inb : ∀ k0_t2 : Fin k0_t2_loop.trips, ∀ (r : Fin 2), ∀ a, (k0_off4 k0_t2 (BitVec.ofNat 32 r.val)) a + S27x512.size a ≤ S27x65536.size a
  k0_off5_inb : ∀ (i : grid0.Coords) (k0_t2 : Fin k0_t2_loop.trips), ∀ (r : Fin 2), ∀ a, (k0_off5 i k0_t2 (BitVec.ofNat 32 r.val)) a + S27x1x512.size a ≤ S27x32x65536.size a
  k0_t3_ok : k0_t3_loop.OK
  k0_off6_inb : ∀ k0_t3 : Fin k0_t3_loop.trips, ∀ a, (k0_off6 k0_t3) a + S1x16.size a ≤ S27x512.size a
  k0_off7_inb : ∀ k0_t3 : Fin k0_t3_loop.trips, ∀ a, (k0_off7 k0_t3) a + S1x16.size a ≤ S27x512.size a
  k0_off8_inb : ∀ k0_t3 : Fin k0_t3_loop.trips, ∀ a, (k0_off8 k0_t3) a + S1x16.size a ≤ S27x512.size a
  k0_off9_inb : ∀ k0_t3 : Fin k0_t3_loop.trips, ∀ a, (k0_off9 k0_t3) a + S1x16.size a ≤ S27x512.size a
  k0_off10_inb : ∀ k0_t3 : Fin k0_t3_loop.trips, ∀ a, (k0_off10 k0_t3) a + S1x16.size a ≤ S27x512.size a
  k0_off11_inb : ∀ k0_t3 : Fin k0_t3_loop.trips, ∀ a, (k0_off11 k0_t3) a + S1x16.size a ≤ S27x512.size a
  k0_off12_inb : ∀ k0_t3 : Fin k0_t3_loop.trips, ∀ a, (k0_off12 k0_t3) a + S1x16.size a ≤ S27x512.size a
  k0_off13_inb : ∀ k0_t3 : Fin k0_t3_loop.trips, ∀ a, (k0_off13 k0_t3) a + S1x16.size a ≤ S27x512.size a
  k0_off14_inb : ∀ k0_t3 : Fin k0_t3_loop.trips, ∀ a, (k0_off14 k0_t3) a + S1x16.size a ≤ S27x512.size a
  k0_off15_inb : ∀ k0_t3 : Fin k0_t3_loop.trips, ∀ a, (k0_off15 k0_t3) a + S1x16.size a ≤ S27x512.size a
  k0_off16_inb : ∀ k0_t3 : Fin k0_t3_loop.trips, ∀ a, (k0_off16 k0_t3) a + S1x16.size a ≤ S27x512.size a
  k0_off17_inb : ∀ k0_t3 : Fin k0_t3_loop.trips, ∀ a, (k0_off17 k0_t3) a + S1x16.size a ≤ S27x512.size a
  k0_off18_inb : ∀ k0_t3 : Fin k0_t3_loop.trips, ∀ a, (k0_off18 k0_t3) a + S1x16.size a ≤ S27x512.size a
  k0_off19_inb : ∀ k0_t3 : Fin k0_t3_loop.trips, ∀ a, (k0_off19 k0_t3) a + S1x16.size a ≤ S27x512.size a
  k0_off20_inb : ∀ k0_t3 : Fin k0_t3_loop.trips, ∀ a, (k0_off20 k0_t3) a + S1x16.size a ≤ S27x512.size a
  k0_off21_inb : ∀ k0_t3 : Fin k0_t3_loop.trips, ∀ a, (k0_off21 k0_t3) a + S1x16.size a ≤ S27x512.size a
  k0_off22_inb : ∀ k0_t3 : Fin k0_t3_loop.trips, ∀ a, (k0_off22 k0_t3) a + S1x16.size a ≤ S27x512.size a
  k0_off23_inb : ∀ k0_t3 : Fin k0_t3_loop.trips, ∀ a, (k0_off23 k0_t3) a + S1x16.size a ≤ S27x512.size a
  k0_off24_inb : ∀ k0_t3 : Fin k0_t3_loop.trips, ∀ a, (k0_off24 k0_t3) a + S1x16.size a ≤ S27x512.size a
  k0_off25_inb : ∀ k0_t3 : Fin k0_t3_loop.trips, ∀ a, (k0_off25 k0_t3) a + S1x16.size a ≤ S27x512.size a
  k0_off26_inb : ∀ k0_t3 : Fin k0_t3_loop.trips, ∀ a, (k0_off26 k0_t3) a + S1x16.size a ≤ S27x512.size a
  k0_off27_inb : ∀ k0_t3 : Fin k0_t3_loop.trips, ∀ a, (k0_off27 k0_t3) a + S1x16.size a ≤ S27x512.size a
  k0_off28_inb : ∀ k0_t3 : Fin k0_t3_loop.trips, ∀ a, (k0_off28 k0_t3) a + S1x16.size a ≤ S27x512.size a
  k0_off29_inb : ∀ k0_t3 : Fin k0_t3_loop.trips, ∀ a, (k0_off29 k0_t3) a + S1x16.size a ≤ S27x512.size a
  k0_off30_inb : ∀ k0_t3 : Fin k0_t3_loop.trips, ∀ a, (k0_off30 k0_t3) a + S1x16.size a ≤ S27x512.size a
  k0_off31_inb : ∀ k0_t3 : Fin k0_t3_loop.trips, ∀ a, (k0_off31 k0_t3) a + S1x16.size a ≤ S27x512.size a
  k0_off32_inb : ∀ k0_t3 : Fin k0_t3_loop.trips, ∀ a, (k0_off32 k0_t3) a + S1x16.size a ≤ S27x512.size a
  k0_off33_inb : ∀ k0_t2 : Fin k0_t2_loop.trips, ∀ (k0_h1 : k0_cond1 k0_t2 = 1#1), ∀ a, (k0_off33 k0_t2) a + S27x512.size a ≤ S27x65536.size a
  k0_off34_inb : ∀ (i : grid0.Coords) (k0_t2 : Fin k0_t2_loop.trips), ∀ (k0_h1 : k0_cond1 k0_t2 = 1#1), ∀ a, (k0_off34 i k0_t2) a + S27x1x512.size a ≤ S27x32x65536.size a
  k0_t4_ok : k0_t4_loop.OK
  k0_off35_inb : ∀ k0_t4 : Fin k0_t4_loop.trips, ∀ a, (k0_off35 k0_t4) a + S1x16.size a ≤ S27x512.size a
  k0_off36_inb : ∀ k0_t4 : Fin k0_t4_loop.trips, ∀ a, (k0_off36 k0_t4) a + S1x16.size a ≤ S27x512.size a
  k0_off37_inb : ∀ k0_t4 : Fin k0_t4_loop.trips, ∀ a, (k0_off37 k0_t4) a + S1x16.size a ≤ S27x512.size a
  k0_off38_inb : ∀ k0_t4 : Fin k0_t4_loop.trips, ∀ a, (k0_off38 k0_t4) a + S1x16.size a ≤ S27x512.size a
  k0_off39_inb : ∀ k0_t4 : Fin k0_t4_loop.trips, ∀ a, (k0_off39 k0_t4) a + S1x16.size a ≤ S27x512.size a
  k0_off40_inb : ∀ k0_t4 : Fin k0_t4_loop.trips, ∀ a, (k0_off40 k0_t4) a + S1x16.size a ≤ S27x512.size a
  k0_off41_inb : ∀ k0_t4 : Fin k0_t4_loop.trips, ∀ a, (k0_off41 k0_t4) a + S1x16.size a ≤ S27x512.size a
  k0_off42_inb : ∀ k0_t4 : Fin k0_t4_loop.trips, ∀ a, (k0_off42 k0_t4) a + S1x16.size a ≤ S27x512.size a
  k0_off43_inb : ∀ k0_t4 : Fin k0_t4_loop.trips, ∀ a, (k0_off43 k0_t4) a + S1x16.size a ≤ S27x512.size a
  k0_off44_inb : ∀ k0_t4 : Fin k0_t4_loop.trips, ∀ a, (k0_off44 k0_t4) a + S1x16.size a ≤ S27x512.size a
  k0_off45_inb : ∀ k0_t4 : Fin k0_t4_loop.trips, ∀ a, (k0_off45 k0_t4) a + S1x16.size a ≤ S27x512.size a
  k0_off46_inb : ∀ k0_t4 : Fin k0_t4_loop.trips, ∀ a, (k0_off46 k0_t4) a + S1x16.size a ≤ S27x512.size a
  k0_off47_inb : ∀ k0_t4 : Fin k0_t4_loop.trips, ∀ a, (k0_off47 k0_t4) a + S1x16.size a ≤ S27x512.size a
  k0_off48_inb : ∀ k0_t4 : Fin k0_t4_loop.trips, ∀ a, (k0_off48 k0_t4) a + S1x16.size a ≤ S27x512.size a
  k0_off49_inb : ∀ k0_t4 : Fin k0_t4_loop.trips, ∀ a, (k0_off49 k0_t4) a + S1x16.size a ≤ S27x512.size a
  k0_off50_inb : ∀ k0_t4 : Fin k0_t4_loop.trips, ∀ a, (k0_off50 k0_t4) a + S1x16.size a ≤ S27x512.size a
  k0_off51_inb : ∀ k0_t4 : Fin k0_t4_loop.trips, ∀ a, (k0_off51 k0_t4) a + S1x16.size a ≤ S27x512.size a
  k0_off52_inb : ∀ k0_t4 : Fin k0_t4_loop.trips, ∀ a, (k0_off52 k0_t4) a + S1x16.size a ≤ S27x512.size a
  k0_off53_inb : ∀ k0_t4 : Fin k0_t4_loop.trips, ∀ a, (k0_off53 k0_t4) a + S1x16.size a ≤ S27x512.size a
  k0_off54_inb : ∀ k0_t4 : Fin k0_t4_loop.trips, ∀ a, (k0_off54 k0_t4) a + S1x16.size a ≤ S27x512.size a
  k0_off55_inb : ∀ k0_t4 : Fin k0_t4_loop.trips, ∀ a, (k0_off55 k0_t4) a + S1x16.size a ≤ S27x512.size a
  k0_off56_inb : ∀ k0_t4 : Fin k0_t4_loop.trips, ∀ a, (k0_off56 k0_t4) a + S1x16.size a ≤ S27x512.size a
  k0_off57_inb : ∀ k0_t4 : Fin k0_t4_loop.trips, ∀ a, (k0_off57 k0_t4) a + S1x16.size a ≤ S27x512.size a
  k0_off58_inb : ∀ k0_t4 : Fin k0_t4_loop.trips, ∀ a, (k0_off58 k0_t4) a + S1x16.size a ≤ S27x512.size a
  k0_off59_inb : ∀ k0_t4 : Fin k0_t4_loop.trips, ∀ a, (k0_off59 k0_t4) a + S1x16.size a ≤ S27x512.size a
  k0_off60_inb : ∀ k0_t4 : Fin k0_t4_loop.trips, ∀ a, (k0_off60 k0_t4) a + S1x16.size a ≤ S27x512.size a
  k0_off61_inb : ∀ k0_t4 : Fin k0_t4_loop.trips, ∀ a, (k0_off61 k0_t4) a + S1x16.size a ≤ S27x512.size a
  k0_off62_inb : ∀ k0_t2 : Fin k0_t2_loop.trips, ∀ (k0_h2 : k0_cond2 k0_t2 = 1#1), ∀ a, (k0_off62 k0_t2) a + S27x512.size a ≤ S27x65536.size a
  k0_off63_inb : ∀ (i : grid0.Coords) (k0_t2 : Fin k0_t2_loop.trips), ∀ (k0_h2 : k0_cond2 k0_t2 = 1#1), ∀ a, (k0_off63 i k0_t2) a + S27x1x512.size a ≤ S27x32x65536.size a
  k0_off64_inb : ∀ i : grid0.Coords, ∀ a, (k0_off64 i) a + S1x65536.size a ≤ S32x65536.size a

variable [Facts₀]

abbrev cc0_scratch5 : DmaSems sig S_ := SemArray.consecutive 0 S_ hcc0_scratch5
abbrev cc0_scratch6 : DmaSems sig S_ := SemArray.consecutive 1 S_ hcc0_scratch6
abbrev cc0_scratch7 : DmaSems sig S_ := SemArray.consecutive 2 S_ hcc0_scratch7
abbrev cc0_scratch8 : DmaSems sig S_ := SemArray.consecutive 3 S_ hcc0_scratch8
abbrev cc0_scoped0 : DmaSems sig S_ := SemArray.consecutive 4 S_ hcc0_scoped0

class Facts : Prop extends Facts₀ where

variable [Facts]
-- ==== ReferenceIdeal.lean ====
abbrev S32x27x65536 : Shape := ⟨3, ![32, 27, 65536]⟩
abbrev S65536x27 : Shape := ⟨2, ![65536, 27]⟩
abbrev S27x65536 : Shape := ⟨2, ![27, 65536]⟩
abbrev S1769472 : Shape := ⟨1, ![1769472]⟩
abbrev S_ : Shape := ⟨0, ![]⟩
abbrev S32x1769472 : Shape := ⟨2, ![32, 1769472]⟩
abbrev S1x1769472 : Shape := ⟨2, ![1, 1769472]⟩
abbrev S32x65536 : Shape := ⟨2, ![32, 65536]⟩
abbrev S1769472x1 : Shape := ⟨2, ![1769472, 1]⟩

abbrev nBuf : Space → Nat
  | .hbm => 27
  | .vmem => 0
  | .smem => 0
  | _ => 0

abbrev bufTy : (tb : Table) → Fin (tcTables nBuf tb) → BufTy
  | .hbm, ⟨0, _⟩ => ⟨S32x27x65536, .f32⟩
  | .hbm, ⟨1, _⟩ => ⟨S65536x27, .i32⟩
  | .hbm, ⟨2, _⟩ => ⟨S27x65536, .i32⟩
  | .hbm, ⟨3, _⟩ => ⟨S1769472, .i32⟩
  | .hbm, ⟨4, _⟩ => ⟨S_, .i32⟩
  | .hbm, ⟨5, _⟩ => ⟨S1769472, .i32⟩
  | .hbm, ⟨6, _⟩ => ⟨S1769472, .i1⟩
  | .hbm, ⟨7, _⟩ => ⟨S_, .i32⟩
  | .hbm, ⟨8, _⟩ => ⟨S_, .i32⟩
  | .hbm, ⟨9, _⟩ => ⟨S1769472, .i32⟩
  | .hbm, ⟨10, _⟩ => ⟨S1769472, .i32⟩
  | .hbm, ⟨11, _⟩ => ⟨S32x1769472, .f32⟩
  | .hbm, ⟨12, _⟩ => ⟨S1769472, .f32⟩
  | .hbm, ⟨13, _⟩ => ⟨S1x1769472, .f32⟩
  | .hbm, ⟨14, _⟩ => ⟨S32x1769472, .f32⟩
  | .hbm, ⟨15, _⟩ => ⟨S32x1769472, .f32⟩
  | .hbm, ⟨16, _⟩ => ⟨S_, .f32⟩
  | .hbm, ⟨17, _⟩ => ⟨S32x65536, .f32⟩
  | .hbm, ⟨18, _⟩ => ⟨S_, .i32⟩
  | .hbm, ⟨19, _⟩ => ⟨S1769472, .i32⟩
  | .hbm, ⟨20, _⟩ => ⟨S1769472, .i1⟩
  | .hbm, ⟨21, _⟩ => ⟨S_, .i32⟩
  | .hbm, ⟨22, _⟩ => ⟨S1769472, .i32⟩
  | .hbm, ⟨23, _⟩ => ⟨S1769472, .i32⟩
  | .hbm, ⟨24, _⟩ => ⟨S1769472, .i32⟩
  | .hbm, ⟨25, _⟩ => ⟨S1769472x1, .i32⟩
  | .hbm, ⟨26, _⟩ => ⟨S32x65536, .f32⟩
  | _, _ => ⟨S32x27x65536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]

class Facts₀ : Prop where
  transposes_S65536x27_S27x65536_1_0 : S65536x27.Transposes [1, 0] S27x65536
  shapeCasts_S27x65536_S1769472 : S27x65536.ShapeCasts S1769472
  bcast_S_S1769472 : S_.BroadcastsInDim S1769472 (![] : Fin 0 → Fin S1769472.rank)
  shapeCasts_S32x27x65536_S32x1769472 : S32x27x65536.ShapeCasts S32x1769472
  bcast_S1769472_S1x1769472_1 : S1769472.BroadcastsInDim S1x1769472 (![1] : Fin 1 → Fin S1x1769472.rank)
  bcast_S1x1769472_S32x1769472_0_1 : S1x1769472.BroadcastsInDim S32x1769472 (![0, 1] : Fin 2 → Fin S32x1769472.rank)
  bcast_S_S32x65536 : S_.BroadcastsInDim S32x65536 (![] : Fin 0 → Fin S32x65536.rank)
  bcast_S1769472_S1769472x1_0 : S1769472.BroadcastsInDim S1769472x1 (![0] : Fin 1 → Fin S1769472x1.rank)
  scatter_S32x65536_S1769472x1_S32x1769472_0_1_1_1_wf : ScatterDims.WF S32x65536 S1769472x1 S32x1769472 [0] [1] [1] 1

variable [Facts₀]

def scatter_S32x65536_S1769472x1_S32x1769472_0_1_1_1 : ScatterDims S32x65536 S1769472x1 S32x1769472 where
  updateWindowDims := [0]
  insertedWindowDims := [1]
  scatterDimsToOperandDims := [1]
  indexVectorDim := 1
  wf := scatter_S32x65536_S1769472x1_S32x1769472_0_1_1_1_wf

class Facts : Prop extends Facts₀ where

variable [Facts]
-- ==== Proof.ColSum.lean ====
/-
  The function both programs compute, and the relation a scatter-accumulator satisfies while it is being filled.

  col2octree: for a channel c and a node n, the result is the sum of data[c, k, h] over all pairs (k, h) of a kernel
  slot and a column whose neighbour entry octree[h, k] names n.  On the extended reals addition is commutative and
  associative everywhere, so the sum does not depend on the order in which the pairs are visited; no finiteness is used.
-/
import Idealize.ShloMosaic.PureOps
import Idealize.ShloMosaic.PureOps.Ideal
import Idealize.ShloMosaic.Lib.ValueIdx

noncomputable section

open scoped BigOperators

namespace Cert.ColSum

open Idealize.ShloMosaic Idealize.ShloMosaic.ValueIdx

abbrev SData : Shape := ⟨3, ![32, 27, 65536]⟩
abbrev SOct : Shape := ⟨2, ![65536, 27]⟩
abbrev SOut : Shape := ⟨2, ![32, 65536]⟩
abbrev SAcc : Shape := ⟨1, ![65536]⟩

/-- The scatter-sum: entry (c, n) is the sum over the slots k and columns h with octree[h, k] = n of data[c, k, h]. -/
def colSum (x : FVec Ideal SData .f32) (o : IVec SOct 32) : FVec Ideal SOut .f32 :=
  fun i => ∑ k : Fin 27, ∑ h : Fin 65536, if (o (ix2 h k)).toNat = (i 1).val then x (ix3 (i 0) k h) else 0

section Acc

variable {F : FTy → Type} [FloatOps F]

/-- One contribution added into an accumulator: entry `i` becomes its old value plus `y` (the accumulating store's own
    addition), every other entry stays. -/
def addAt (g : Vec F SAcc .f32) (i : SAcc.Idx) (y : F .f32) : Vec F SAcc .f32 :=
  fun j => if (∀ a, (j a).val = (i a).val) then FloatOps.idxAddf (g i) y else g j

/-- `Acc tgt dt f0 S g`: the accumulator `g` is `f0` with the contributions of exactly the pairs in `S` added in, one
    at a time in some order, pair `(k, h)` adding `dt k h` at entry `tgt k h`.  At a float instance whose addition is
    not associative the order matters and the relation is not functional; on the extended reals it determines `g`. -/
inductive Acc (tgt : Fin 27 → Fin 65536 → SAcc.Idx) (dt : Fin 27 → Fin 65536 → F .f32) (f0 : Vec F SAcc .f32) :
    Finset (Fin 27 × Fin 65536) → Vec F SAcc .f32 → Prop
  | init : Acc tgt dt f0 ∅ f0
  | lane {S : Finset (Fin 27 × Fin 65536)} {g : Vec F SAcc .f32} (p : Fin 27 × Fin 65536) :
      Acc tgt dt f0 S g → p ∉ S → Acc tgt dt f0 (insert p S) (addAt g (tgt p.1 p.2) (dt p.1 p.2))

end Acc

section Tile

variable {F : FTy → Type} [FloatOps F]

/-- The accumulator's entry a pair (k, h) adds into: the table word at (k, h) of the transposed table, a node number. -/
def tgtOf (Oc : IVec ⟨2, ![27, 65536]⟩ 32) (hin : ∀ j, (Oc j).toNat < 65536) : Fin 27 → Fin 65536 → SAcc.Idx :=
  fun k h => ix1 ⟨(Oc (ix2 k h)).toNat, hin _⟩

/-- What a pair (k, h) adds, for channel c: the entry (k, c, h) of the data with its first two axes swapped. -/
def dtOf (X : Vec F ⟨3, ![27, 32, 65536]⟩ .f32) (c : Fin 32) : Fin 27 → Fin 65536 → F .f32 :=
  fun k h => X (ix3 k c h)

/-- The accumulator before any contribution: the zero word at every entry. -/
def zeroAcc : Vec F SAcc .f32 := fun _ => Scalar.ofBits .f32 0x00000000#32

/-- The pairs added once the first q sixteen-column blocks are complete and the first kk slots of block q. -/
def Done (q kk : Nat) (p : Fin 27 × Fin 65536) : Prop := p.2.val / 16 < q ∨ (p.2.val / 16 = q ∧ p.1.val < kk)

end Tile

end Cert.ColSum

end
-- ==== Proof.AccLaws.lean ====
/-
  Laws of the accumulator relation.

  An indexed accumulating store of sixteen lanes performs sixteen single contributions, lowest lane first; on the
  extended reals the relation determines the accumulator as the initial contents plus the sum of the contributions made,
  and once every pair (slot, column) has contributed the accumulator is the scatter-sum.
-/
import proofs.«204569_g29265907155619_cont_9to1_682_25_alg».proof.Proof.ColSum
import Idealize.ShloMosaic.PureOps
import Idealize.ShloMosaic.PureOps.Ideal
import Idealize.ShloMosaic.PureOps.Ideal.Laws
import Idealize.ShloMosaic.Lib.ValueIdx

noncomputable section

open scoped BigOperators

namespace Cert.ColSum

open Idealize.ShloMosaic Idealize.ShloMosaic.ValueIdx

section Store

variable {F : FTy → Type} [FloatOps F]

/-- With every mask bit set and the add flag on, the indexed store is the fold of single contributions over the lanes
    in ascending order: lane l adds its element at the entry its index word names. -/
theorem storeIdx_eq_foldl (g : Vec F SAcc .f32) (iv : IVec ⟨1, ![16]⟩ 32) (dv : Vec F ⟨1, ![16]⟩ .f32)
    (h : ∀ a x, ((![iv] : Fin 1 → IVec ⟨1, ![16]⟩ 32) a x).toNat < SAcc.size a) :
    storeIdx g ![iv] dv (fun _ => 1#1) true h
      = (List.finRange 16).foldl
          (fun g (l : Fin 16) => addAt g (idxAt ![iv] h (Shape.ofLane l)) (dv (Shape.ofLane l))) g := by
  rfl

/-- Folding single contributions over a duplicate-free list of lanes of one slot k and one block of sixteen columns
    starting at base adds exactly the pairs (k, base + l) for the lanes l of the list. -/
theorem Acc.foldl_lanes {tgt : Fin 27 → Fin 65536 → SAcc.Idx} {dt : Fin 27 → Fin 65536 → F .f32}
    {f0 : Vec F SAcc .f32} (iv : IVec ⟨1, ![16]⟩ 32) (dv : Vec F ⟨1, ![16]⟩ .f32)
    (h : ∀ a x, ((![iv] : Fin 1 → IVec ⟨1, ![16]⟩ 32) a x).toNat < SAcc.size a)
    (k : Fin 27) (base : Nat) (hb : base + 16 ≤ 65536)
    (htgt : ∀ l : Fin 16, idxAt ![iv] h (Shape.ofLane l) = tgt k ⟨base + l.val, by omega⟩)
    (hdt : ∀ l : Fin 16, dv (Shape.ofLane l) = dt k ⟨base + l.val, by omega⟩) :
    ∀ L : List (Fin 16), L.Nodup → ∀ (S : Finset (Fin 27 × Fin 65536)) (g : Vec F SAcc .f32),
      Acc tgt dt f0 S g → (∀ l ∈ L, (k, (⟨base + l.val, by omega⟩ : Fin 65536)) ∉ S) →
      ∃ S', Acc tgt dt f0 S'
          (L.foldl (fun g (l : Fin 16) => addAt g (idxAt ![iv] h (Shape.ofLane l)) (dv (Shape.ofLane l))) g) ∧
        ∀ p : Fin 27 × Fin 65536, p ∈ S' ↔ (p ∈ S ∨ (p.1 = k ∧ ∃ l ∈ L, p.2.val = base + l.val)) := by
  intro L
  induction L with
  | nil =>
    intro _ S g hA _
    exact ⟨S, hA, fun p => by simp⟩
  | cons l L ih =>
    intro hL S g hA hS
    have hnd := List.nodup_cons.mp hL
    have hl : (k, (⟨base + l.val, by omega⟩ : Fin 65536)) ∉ S := hS l (List.mem_cons_self ..)
    have hstep := Acc.lane (k, (⟨base + l.val, by omega⟩ : Fin 65536)) hA hl
    obtain ⟨S', hA', hmem⟩ := ih hnd.2 _ _ hstep (by
      intro l' hl' hin
      rcases Finset.mem_insert.mp hin with heq | hin
      · have h2 : base + l'.val = base + l.val := congrArg (fun p : Fin 27 × Fin 65536 => p.2.val) heq
        have h3 : l' = l := Fin.ext (by omega)
        exact hnd.1 (h3 ▸ hl')
      · exact hS l' (List.mem_cons_of_mem _ hl') hin)
    refine ⟨S', ?_, ?_⟩
    · rw [List.foldl_cons, htgt l, hdt l]
      exact hA'
    · intro p
      rw [hmem p, Finset.mem_insert]
      constructor
      · rintro ((rfl | hp) | ⟨hk, l', hl', he⟩)
        · exact Or.inr ⟨rfl, l, List.mem_cons_self .., rfl⟩
        · exact Or.inl hp
        · exact Or.inr ⟨hk, l', List.mem_cons_of_mem _ hl', he⟩
      · rintro (hp | ⟨hk, l', hl', he⟩)
        · exact Or.inl (Or.inr hp)
        · rcases List.mem_cons.mp hl' with rfl | hl''
          · refine Or.inl (Or.inl ?_)
            exact Prod.ext hk (Fin.ext he)
          · exact Or.inr ⟨hk, l', hl'', he⟩

/-- One indexed accumulating store of sixteen lanes, all of slot k and of the sixteen columns from base on, none of them
    added before: the accumulator after it has received exactly those sixteen further pairs. -/
theorem Acc.storeIdx {tgt : Fin 27 → Fin 65536 → SAcc.Idx} {dt : Fin 27 → Fin 65536 → F .f32}
    {f0 : Vec F SAcc .f32} {S : Finset (Fin 27 × Fin 65536)} {g : Vec F SAcc .f32}
    (hA : Acc (F := F) tgt dt f0 S g) (iv : IVec ⟨1, ![16]⟩ 32) (dv : Vec F ⟨1, ![16]⟩ .f32)
    (h : ∀ a x, ((![iv] : Fin 1 → IVec ⟨1, ![16]⟩ 32) a x).toNat < SAcc.size a)
    (k : Fin 27) (base : Nat) (hb : base + 16 ≤ 65536)
    (htgt : ∀ l : Fin 16, idxAt ![iv] h (Shape.ofLane l) = tgt k ⟨base + l.val, by omega⟩)
    (hdt : ∀ l : Fin 16, dv (Shape.ofLane l) = dt k ⟨base + l.val, by omega⟩)
    (hS : ∀ l : Fin 16, (k, (⟨base + l.val, by omega⟩ : Fin 65536)) ∉ S) :
    ∃ S', Acc tgt dt f0 S' (Idealize.ShloMosaic.storeIdx g ![iv] dv (fun _ => 1#1) true h) ∧
      ∀ p : Fin 27 × Fin 65536,
        p ∈ S' ↔ (p ∈ S ∨ (p.1 = k ∧ base ≤ p.2.val ∧ p.2.val < base + 16)) := by
  obtain ⟨S', hA', hmem⟩ :=
    Acc.foldl_lanes (f0 := f0) iv dv h k base hb htgt hdt (List.finRange 16) (List.nodup_finRange 16) S g hA
      (fun l _ => hS l)
  refine ⟨S', ?_, ?_⟩
  · rw [storeIdx_eq_foldl]
    exact hA'
  · intro p
    rw [hmem p]
    constructor
    · rintro (hp | ⟨hk, l, _, he⟩)
      · exact Or.inl hp
      · exact Or.inr ⟨hk, by omega, by omega⟩
    · rintro (hp | ⟨hk, h1, h2⟩)
      · exact Or.inl hp
      · exact Or.inr ⟨hk, ⟨p.2.val - base, by omega⟩, List.mem_finRange _, by simp; omega⟩

end Store

section Bookkeeping

/-- Before the first block nothing has been added. -/
theorem not_Done_zero_zero (p : Fin 27 × Fin 65536) : ¬ Done 0 0 p := by
  unfold Done
  omega

theorem Done_zero_zero (p : Fin 27 × Fin 65536) : Done 0 0 p ↔ False :=
  iff_false_intro (not_Done_zero_zero p)

/-- A set whose members are the pairs added before the first block is empty. -/
theorem eq_empty_of_Done {S : Finset (Fin 27 × Fin 65536)} (h : ∀ p, p ∈ S ↔ Done 0 0 p) : S = ∅ := by
  ext p
  rw [h p, Done_zero_zero]
  simp

/-- All 27 slots of block q done is block q + 1 not yet begun. -/
theorem Done_slots_full (q : Nat) (p : Fin 27 × Fin 65536) : Done q 27 p ↔ Done (q + 1) 0 p := by
  unfold Done
  have := p.1.isLt
  omega

/-- Adding slot kk's sixteen pairs of block q to the pairs done at (q, kk) gives the pairs done at (q, kk + 1). -/
theorem Done_succ (q kk : Nat) (hk : kk < 27) (p : Fin 27 × Fin 65536) :
    (Done q kk p ∨ (p.1 = ⟨kk, hk⟩ ∧ q * 16 ≤ p.2.val ∧ p.2.val < q * 16 + 16)) ↔ Done q (kk + 1) p := by
  unfold Done
  rw [Fin.ext_iff]
  show (_ ∨ (p.1.val = kk ∧ _)) ↔ _
  omega

/-- At (q, kk) none of slot kk's sixteen pairs of block q has been added. -/
theorem not_Done_lane (q kk : Nat) (hk : kk < 27) (l : Nat) (hl : l < 16) (hq : q * 16 + l < 65536) :
    ¬ Done q kk ((⟨kk, hk⟩ : Fin 27), (⟨q * 16 + l, hq⟩ : Fin 65536)) := by
  unfold Done
  show ¬ ((q * 16 + l) / 16 < q ∨ ((q * 16 + l) / 16 = q ∧ kk < kk))
  omega

/-- After the last block every pair has been added. -/
theorem Done_last (p : Fin 27 × Fin 65536) : Done 4096 0 p := by
  unfold Done
  have := p.2.isLt
  omega

theorem Done_all (p : Fin 27 × Fin 65536) : Done 4096 0 p ↔ True :=
  iff_true_intro (Done_last p)

/-- A set whose members are the pairs added after the last block is the full set. -/
theorem eq_univ_of_Done {S : Finset (Fin 27 × Fin 65536)} (h : ∀ p, p ∈ S ↔ Done 4096 0 p) :
    S = Finset.univ := by
  ext p
  rw [h p, Done_all]
  simp

end Bookkeeping

section AtIdeal

/-- On the extended reals the accumulator is the initial contents plus the sum of the contributions made so far that
    name the entry: addition there is commutative and associative, so the order of the contributions is immaterial. -/
theorem Acc.ideal {tgt : Fin 27 → Fin 65536 → SAcc.Idx} {dt : Fin 27 → Fin 65536 → Ideal .f32}
    {f0 : Vec Ideal SAcc .f32} {S : Finset (Fin 27 × Fin 65536)} {g : Vec Ideal SAcc .f32}
    (hA : Acc (F := Ideal) tgt dt f0 S g) (n : SAcc.Idx) :
    g n = f0 n + ∑ p ∈ S, (if tgt p.1 p.2 = n then dt p.1 p.2 else 0) := by
  induction hA with
  | init => simp
  | @lane S g p _ hp ih =>
    rw [Finset.sum_insert hp]
    unfold addAt
    by_cases hn : tgt p.1 p.2 = n
    · subst hn
      rw [if_pos (fun _ => rfl), if_pos rfl, Ideal.idxAddf_def, ih, add_assoc,
        add_comm (∑ q ∈ S, (if tgt q.1 q.2 = tgt p.1 p.2 then dt q.1 q.2 else 0)) (dt p.1 p.2)]
    · have hne : ¬ ∀ a, (n a).val = ((tgt p.1 p.2) a).val :=
        fun hall => hn (funext fun a => Fin.ext (hall a).symm)
      rw [if_neg hne, if_neg hn, zero_add]
      exact ih

/-- The zero word is the extended real 0. -/
theorem zeroAcc_ideal (n : SAcc.Idx) : zeroAcc (F := Ideal) n = 0 :=
  Ideal.ofBits_zero_f32

/-- Once every pair (slot, column) has contributed into an accumulator that was 0 everywhere, entry n holds the
    scatter-sum at (c, n): the sum over all pairs of the pair's datum when the pair's table word names n. -/
theorem Acc.full_colSum_of_zero (x : FVec Ideal SData .f32) (o : IVec SOct 32)
    (X : FVec Ideal ⟨3, ![27, 32, 65536]⟩ .f32) (Oc : IVec ⟨2, ![27, 65536]⟩ 32)
    (hX : ∀ k c h, X (ix3 k c h) = x (ix3 c k h)) (hO : ∀ k h, Oc (ix2 k h) = o (ix2 h k))
    (hin : ∀ j, (Oc j).toNat < 65536) (c : Fin 32) (f0 : Vec Ideal SAcc .f32) (hf0 : ∀ n, f0 n = 0)
    {g : Vec Ideal SAcc .f32}
    (hA : Acc (F := Ideal) (tgtOf Oc hin) (dtOf X c) f0 Finset.univ g) (n : Fin 65536) :
    g (ix1 n) = colSum x o (ix2 c n) := by
  rw [Acc.ideal hA (ix1 n), hf0, zero_add]
  unfold colSum
  rw [Fintype.sum_prod_type]
  refine Finset.sum_congr rfl fun k _ => Finset.sum_congr rfl fun h _ => ?_
  have hiff : (tgtOf Oc hin k h = ix1 n) ↔ (o (ix2 h k)).toNat = n.val := by
    unfold tgtOf
    rw [← hO k h]
    constructor
    · intro he
      exact congrArg Fin.val (congrFun he 0)
    · intro he
      exact congrArg ix1 (Fin.ext he)
  exact if_congr hiff (hX k c h) rfl

end AtIdeal

section AtIdealZero

/-- The same from the accumulator of zero words. -/
theorem Acc.full_colSum (x : FVec Ideal SData .f32) (o : IVec SOct 32)
    (X : FVec Ideal ⟨3, ![27, 32, 65536]⟩ .f32) (Oc : IVec ⟨2, ![27, 65536]⟩ 32)
    (hX : ∀ k c h, X (ix3 k c h) = x (ix3 c k h)) (hO : ∀ k h, Oc (ix2 k h) = o (ix2 h k))
    (hin : ∀ j, (Oc j).toNat < 65536) (c : Fin 32) {g : Vec Ideal SAcc .f32}
    (hA : Acc (F := Ideal) (tgtOf Oc hin) (dtOf X c) zeroAcc Finset.univ g) (n : Fin 65536) :
    g (ix1 n) = colSum x o (ix2 c n) :=
  Acc.full_colSum_of_zero x o X Oc hX hO hin c zeroAcc zeroAcc_ideal hA n

end AtIdealZero

end Cert.ColSum

end
-- ==== Proof.LibColScatter.lean ====
/-
  A scatter that adds along the second axis of a two-dimensional array, read at an index, on the extended reals.

  Over arbitrary extents: for an operand x of shape [C, N], a column d of shape [E, 1] of target positions along the
  second axis, and updates u of shape [C, E] whose first axis is the window (it goes to the operand's first axis), element
  (c, n) of the result is x[c, n] plus the sum, over the entries e whose target d[e, 0] (read as a signed integer, not
  clamped) is n, of u[c, e]. An entry whose target is outside [0, N − 1] lands nowhere.
-/
import Idealize.ShloMosaic.PureOps.Ideal
import Idealize.ShloMosaic.Lib.ValueIdx

noncomputable section

open scoped BigOperators

namespace Cert.LibColScatter

open Idealize.ShloMosaic Idealize.ShloMosaic.ValueIdx

/-- The dimension numbers of a column scatter: operand `[C, N]`, scatter indices a column `[E, 1]`, updates `[C, E]`; the
    scatter index names the operand's axis 1 (an inserted window axis), the updates' axis 0 is the window and goes to the
    operand's axis 0. Their conditions `wf` are decided on a program's literal shapes. -/
abbrev colScatterDims (C N E : Nat) (wf : ScatterDims.WF ⟨2, ![C, N]⟩ ⟨2, ![E, 1]⟩ ⟨2, ![C, E]⟩ [0] [1] [1] 1) :
    ScatterDims ⟨2, ![C, N]⟩ ⟨2, ![E, 1]⟩ ⟨2, ![C, E]⟩ where
  updateWindowDims := [0]
  insertedWindowDims := [1]
  scatterDimsToOperandDims := [1]
  indexVectorDim := 1
  wf := wf

/-- The entries whose target position is `n`: those `e` whose scatter index `idx[e, 0]`, read as a signed integer and not
    clamped, is `n`. -/
def hits {N E w : Nat} (idx : IVec ⟨2, ![E, 1]⟩ w) (n : Fin N) : Finset (Fin E) :=
  Finset.univ.filter fun e => (idx (ix2 e (0 : Fin 1))).toInt = (n.val : Int)

/-- Where update element `(k, e)` of a column scatter lands: at `(c, n)` exactly when `k = c` and the scatter index
    `idx[e, 0]`, read signed, is `n`. (On axis 0 the start is 0 and the window coordinate is `k`; on axis 1 the result
    index is the start index, the window coordinate being 0 on an inserted axis.) -/
theorem resultIdx?_cols_eq_some_iff {C N E w : Nat}
    (wf : ScatterDims.WF ⟨2, ![C, N]⟩ ⟨2, ![E, 1]⟩ ⟨2, ![C, E]⟩ [0] [1] [1] 1)
    (idx : IVec ⟨2, ![E, 1]⟩ w) (k : Fin C) (e : Fin E) (c : Fin C) (n : Fin N) :
    (colScatterDims C N E wf).resultIdx? (ix2 k e) idx = some (ix2 c n)
      ↔ k = c ∧ (idx (ix2 e (0 : Fin 1))).toInt = (n.val : Int) := by
  have hs1 : (colScatterDims C N E wf).start (ix2 k e) idx 1 = (idx (ix2 e (0 : Fin 1))).toInt := by
    unfold ScatterDims.start
    rw [dif_pos (show (1 : Fin 2) ∈ (colScatterDims C N E wf).scatterDimsToOperandDims from List.mem_singleton.mpr rfl)]
    have hsi : (colScatterDims C N E wf).siIdx (ix2 k e) ⟨List.idxOf (1 : Fin 2) (colScatterDims C N E wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hs0 : (colScatterDims C N E wf).start (ix2 k e) idx 0 = 0 := by
    unfold ScatterDims.start
    rw [dif_neg (show (0 : Fin 2) ∉ (colScatterDims C N E wf).scatterDimsToOperandDims from
      (by decide : (0 : Fin 2) ∉ ([1] : List (Fin 2))))]
  have hw1 : (colScatterDims C N E wf).window (ix2 k e) 1 = 0 := by
    unfold ScatterDims.window
    rw [dif_neg (show (1 : Fin 2) ∉ (colScatterDims C N E wf).sKept from
      (by decide : (1 : Fin 2) ∉ (List.finRange 2).filter (· ∉ ([1] : List (Fin 2)))))]
  have hw0 : (colScatterDims C N E wf).window (ix2 k e) 0 = k.val := by
    unfold ScatterDims.window
    rw [dif_pos (show (0 : Fin 2) ∈ (colScatterDims C N E wf).sKept from
      (by decide : (0 : Fin 2) ∈ (List.finRange 2).filter (· ∉ ([1] : List (Fin 2)))))]
    rfl
  unfold ScatterDims.resultIdx?
  constructor
  · intro h
    split at h
    · rename_i hall
      have hf := Option.some.inj h
      have h0 : ((colScatterDims C N E wf).start (ix2 k e) idx 0 + ((colScatterDims C N E wf).window (ix2 k e) 0 : Int)).toNat = c.val :=
        congrArg (fun f => (f 0).val) hf
      have h1 : ((colScatterDims C N E wf).start (ix2 k e) idx 1 + ((colScatterDims C N E wf).window (ix2 k e) 1 : Int)).toNat = n.val :=
        congrArg (fun f => (f 1).val) hf
      have hp := (hall 1).1
      rw [hs1, hw1] at h1 hp
      rw [hs0, hw0] at h0
      exact ⟨Fin.ext (by omega), by omega⟩
    · exact absurd h (by simp)
  · rintro ⟨rfl, ht⟩
    have hall : ∀ a : Fin 2, 0 ≤ (colScatterDims C N E wf).start (ix2 k e) idx a + ((colScatterDims C N E wf).window (ix2 k e) a : Int) ∧
        (colScatterDims C N E wf).start (ix2 k e) idx a + ((colScatterDims C N E wf).window (ix2 k e) a : Int)
          < (((⟨2, ![C, N]⟩ : Shape).size a : Nat) : Int) := by
      intro a
      match a with
      | ⟨0, _⟩ =>
        show 0 ≤ (colScatterDims C N E wf).start (ix2 k e) idx 0 + ((colScatterDims C N E wf).window (ix2 k e) 0 : Int) ∧
          (colScatterDims C N E wf).start (ix2 k e) idx 0 + ((colScatterDims C N E wf).window (ix2 k e) 0 : Int) < ((C : Nat) : Int)
        rw [hs0, hw0]
        have := k.isLt
        omega
      | ⟨1, _⟩ =>
        show 0 ≤ (colScatterDims C N E wf).start (ix2 k e) idx 1 + ((colScatterDims C N E wf).window (ix2 k e) 1 : Int) ∧
          (colScatterDims C N E wf).start (ix2 k e) idx 1 + ((colScatterDims C N E wf).window (ix2 k e) 1 : Int) < ((N : Nat) : Int)
        rw [hs1, hw1, ht]
        have := n.isLt
        omega
    rw [dif_pos hall]
    refine congrArg some ?_
    funext a
    refine Fin.ext ?_
    match a with
    | ⟨0, _⟩ =>
      show ((colScatterDims C N E wf).start (ix2 k e) idx 0 + ((colScatterDims C N E wf).window (ix2 k e) 0 : Int)).toNat = k.val
      rw [hs0, hw0]
      omega
    | ⟨1, _⟩ =>
      show ((colScatterDims C N E wf).start (ix2 k e) idx 1 + ((colScatterDims C N E wf).window (ix2 k e) 1 : Int)).toNat = n.val
      rw [hs1, hw1, ht]
      omega

/-- THE COLUMN SCATTER-ADD READ AT `(c, n)`: the operand's element plus the sum, over the entries whose target position
    is `n`, of the updates' element in row `c`. (Update element `(k, e)` lands at `(c, n)` exactly when `k = c` and entry
    `e` targets position `n`; an entry whose index is outside `[0, N − 1]` lands nowhere.) -/
theorem scatterAdd_cols_apply {C N E w : Nat} {φ : FTy}
    (wf : ScatterDims.WF ⟨2, ![C, N]⟩ ⟨2, ![E, 1]⟩ ⟨2, ![C, E]⟩ [0] [1] [1] 1)
    (x : (⟨2, ![C, N]⟩ : Shape).Idx → EReal) (idx : IVec ⟨2, ![E, 1]⟩ w) (upd : (⟨2, ![C, E]⟩ : Shape).Idx → EReal)
    (c : Fin C) (n : Fin N) :
    Host.scatterAdd (F := Ideal) (φ := φ) (colScatterDims C N E wf) x idx upd (ix2 c n)
      = x (ix2 c n) + ∑ e ∈ hits idx n, upd (ix2 c e) := by
  unfold Host.scatterAdd
  rw [Ideal.hostScatterAdd_def]
  unfold Ideal.hostScatterAdd
  refine congrArg (x (ix2 c n) + ·) ?_
  rw [Finset.sum_filter, sum_idx2]
  simp only [resultIdx?_cols_eq_some_iff]
  unfold hits
  rw [Finset.sum_filter]
  rw [Finset.sum_eq_single c]
  · refine Finset.sum_congr rfl fun e _ => ?_
    by_cases h : (idx (ix2 e (0 : Fin 1))).toInt = (n.val : Int)
    · simp [h]
    · simp [h]
  · intro k _ hk
    refine Finset.sum_eq_zero fun e _ => ?_
    rw [if_neg (fun h => hk h.1)]
  · intro h
    exact absurd (Finset.mem_univ c) h

end Cert.LibColScatter

end
-- ==== Proof.RefValue.lean ====
/-
  The reference's result, read index by index, is the scatter-sum.

  The reference flattens the transposed table to one axis of 27 * 65536 positions (position j is slot j / 65536 and
  column j % 65536), masks the data by "the entry is non-negative", wraps negative entries by adding 65536, and adds
  row c of the flattened data into row c of a zero array at the positions the entries name. When every entry lies in
  [0, 65535] the mask is all ones, its conversion to a float is 1, the product with it is the datum itself, and neither
  the mask's select nor the wrap changes an entry; the scatter-add read at (c, n) is then the sum over the flat positions
  whose entry is n, which is the double sum over slots and columns.

  Also here: the precondition's second conjunct, all of (o >= 0) & (o <= 65535) compared as signed words, gives that
  every entry's unsigned value is below 65536.
-/
import proofs.«204569_g29265907155619_cont_9to1_682_25_alg».proof.Defs
import proofs.«204569_g29265907155619_cont_9to1_682_25_alg».proof.Proof.Gen.ReferenceIdeal.Read
import proofs.«204569_g29265907155619_cont_9to1_682_25_alg».proof.Proof.Gen.Pre_input_domain
import proofs.«204569_g29265907155619_cont_9to1_682_25_alg».proof.Proof.ColSum
import proofs.«204569_g29265907155619_cont_9to1_682_25_alg».proof.Proof.LibColScatter
import Idealize.ShloMosaic.PureOps.Ideal.Laws
import Idealize.ShloMosaic.Lib.Affine
import Idealize.ShloMosaic.Lib.ReduceAll
import Idealize.ShloMosaic.Lib.ValueIdx

noncomputable section

open scoped BigOperators

namespace Cert.ReferenceIdeal.RefValue

open Idealize.ShloMosaic Idealize.ShloMosaic.ValueIdx Cert.ReferenceIdeal Cert.ReferenceIdeal.Read

/-! ## Words in range -/

/-- A word whose unsigned value is below 65536 is non-negative as a signed word: its signed value is its unsigned one. -/
theorem toInt_of_lt (v : BitVec 32) (h : v.toNat < 65536) : v.toInt = (v.toNat : Int) := by
  rw [BitVec.toInt_eq_toNat_cond]
  split <;> omega

/-- A signed word between 0 and 65535 is its own unsigned value, below 65536. -/
theorem toNat_lt_of_signed_range (v : BitVec 32) (h0 : (0#32 : BitVec 32).toInt ≤ v.toInt)
    (h1 : v.toInt ≤ (65535#32 : BitVec 32).toInt) : v.toNat < 65536 := by
  have e0 : (0#32 : BitVec 32).toInt = 0 := by decide
  have e1 : (65535#32 : BitVec 32).toInt = 65535 := by decide
  rw [e0] at h0
  rw [e1] at h1
  rw [BitVec.toInt_eq_toNat_cond] at h0 h1
  have := v.isLt
  split at h0 <;> omega

/-! ## The reference's operations at an index, for a table in range -/

/-- The table entry the flat position `i` reads: position `i` of the flattened transposed table is entry
    `(i % 65536, i / 65536)` of the table. -/
abbrev tab (o : IVec S65536x27 32) (i : S1769472.Idx) : BitVec 32 := o (idx_main_v0 (idx_main_v1 i))

/-- The flattened transposed table at a position. -/
theorem v1_eq (o : IVec S65536x27 32) (i : S1769472.Idx) : val_main_v1 (F := Ideal) o i = tab o i := by
  rw [val_main_v1_apply, val_main_v0_apply]

/-- The mask "the entry is non-negative" is 1 everywhere. -/
theorem v3_eq (o : IVec S65536x27 32) (hin : ∀ j, (o j).toNat < 65536) (i : S1769472.Idx) :
    val_main_v3 (F := Ideal) o i = 1#1 := by
  rw [val_main_v3_apply, v1_eq, val_main_v2_apply, val_main_c_apply]
  refine IntOp.cmpi_sge.2 ?_
  rw [toInt_of_lt _ (hin _)]
  have : (0#32 : BitVec 32).toInt = 0 := by decide
  omega

/-- The masked entry is the entry. -/
theorem v4_eq (o : IVec S65536x27 32) (hin : ∀ j, (o j).toNat < 65536) (i : S1769472.Idx) :
    val_main_v4 (F := Ideal) o i = tab o i := by
  rw [val_main_v4_apply, v3_eq o hin, select_one, v1_eq]

/-- No entry is negative. -/
theorem v12_eq (o : IVec S65536x27 32) (hin : ∀ j, (o j).toNat < 65536) (i : S1769472.Idx) :
    val_main_v12 (F := Ideal) o i = 0#1 := by
  rw [val_main_v12_apply, v4_eq o hin, val_main_v11_apply, val_main_c_1_apply]
  refine eq_zero_of_ne_one fun h => ?_
  have h' := IntOp.cmpi_slt.1 h
  rw [toInt_of_lt _ (hin _)] at h'
  have : (0#32 : BitVec 32).toInt = 0 := by decide
  omega

/-- The wrap of negative entries leaves every entry as it is. -/
theorem v15_eq (o : IVec S65536x27 32) (hin : ∀ j, (o j).toNat < 65536) (i : S1769472.Idx) :
    val_main_v15 (F := Ideal) o i = tab o i := by
  rw [val_main_v15_apply, v12_eq o hin, select_zero, v4_eq o hin]

/-- The scatter indices, a column: row `e` holds the entry at flat position `e`. -/
theorem v16_eq (o : IVec S65536x27 32) (hin : ∀ j, (o j).toNat < 65536) (i : S1769472x1.Idx) :
    val_main_v16 (F := Ideal) o i = o (idx_main_v0 (idx_main_v1 (idx_main_v16 i))) := by
  rw [val_main_v16_apply, v15_eq o hin]

/-- The mask as a float is 1 everywhere. -/
theorem v6_eq (o : IVec S65536x27 32) (hin : ∀ j, (o j).toNat < 65536) (i : S1769472.Idx) :
    val_main_v6 (F := Ideal) o i = (1 : EReal) := by
  rw [val_main_v6_apply, v3_eq o hin]
  show (((1#1 : BitVec 1).toNat : ℝ) : EReal) = 1
  simp

/-- The masked data are the flattened data. -/
theorem v9_eq (x : FVec Ideal S32x27x65536 .f32) (o : IVec S65536x27 32) (hin : ∀ j, (o j).toNat < 65536)
    (i : S32x1769472.Idx) : val_main_v9 (F := Ideal) x o i = x (idx_main_v5 i) := by
  rw [val_main_v9_apply, val_main_v5_apply, val_main_v8_apply, val_main_v7_apply, v6_eq o hin, Ideal.mulf_def]
  exact mul_one _

/-- The scatter's operand is zero everywhere. -/
theorem v10_eq (i : S32x65536.Idx) : val_main_v10 (F := Ideal) i = (0 : EReal) := by
  rw [val_main_v10_apply, val_main_cst_apply, Ideal.ofBits_def]
  exact Ideal.ofBits_zero_f32

/-! ## Flat positions are pairs of a slot and a column -/

/-- The pair (slot k, column h) is the flat position k * 65536 + h. -/
def pairEquiv : Fin 27 × Fin 65536 ≃ Fin 1769472 where
  toFun p := ⟨p.1.val * 65536 + p.2.val, by have := p.1.isLt; have := p.2.isLt; omega⟩
  invFun j := (⟨j.val / 65536, by have := j.isLt; omega⟩, ⟨j.val % 65536, by omega⟩)
  left_inv p := by
    rcases p with ⟨k, h⟩
    refine Prod.ext (Fin.ext ?_) (Fin.ext ?_)
    · show (k.val * 65536 + h.val) / 65536 = k.val
      have := h.isLt
      omega
    · show (k.val * 65536 + h.val) % 65536 = h.val
      have := h.isLt
      omega
  right_inv j := Fin.ext (by
    show j.val / 65536 * 65536 + j.val % 65536 = j.val
    omega)

/-- The table entry at the flat position of the pair (k, h) is entry (h, k). -/
theorem tabIdx_pair (k : Fin 27) (h : Fin 65536) :
    idx_main_v0 (idx_main_v1 (idx_main_v16 (ix2 (pairEquiv (k, h)) (0 : Fin 1)))) = ix2 h k := by
  funext a
  match a with
  | ⟨0, _⟩ =>
    refine Fin.ext ?_
    show (k.val * 65536 + h.val) % 65536 = h.val
    have := h.isLt
    omega
  | ⟨1, _⟩ =>
    refine Fin.ext ?_
    show (k.val * 65536 + h.val) / 65536 = k.val
    have := h.isLt
    omega

/-- The flattened datum in row c at the flat position of the pair (k, h) is datum (c, k, h). -/
theorem dataIdx_pair (c : Fin 32) (k : Fin 27) (h : Fin 65536) :
    idx_main_v5 (ix2 c (pairEquiv (k, h))) = ix3 c k h := by
  funext a
  match a with
  | ⟨0, _⟩ =>
    refine Fin.ext ?_
    show (c.val * 1769472 + (k.val * 65536 + h.val)) / 1769472 = c.val
    have := h.isLt
    have := k.isLt
    omega
  | ⟨1, _⟩ =>
    refine Fin.ext ?_
    show (c.val * 1769472 + (k.val * 65536 + h.val)) / 65536 % 27 = k.val
    have := h.isLt
    have := k.isLt
    omega
  | ⟨2, _⟩ =>
    refine Fin.ext ?_
    show (c.val * 1769472 + (k.val * 65536 + h.val)) % 65536 = h.val
    have := h.isLt
    omega

/-! ## The reference is the scatter-sum -/

/-- THE REFERENCE'S RESULT IS THE SCATTER-SUM, for a table whose entries are all below 65536: entry (c, n) is the sum over
    the slots k and columns h with table entry (h, k) equal to n of datum (c, k, h). -/
theorem ref_eq_colSum (x : FVec Ideal S32x27x65536 .f32) (o : IVec S65536x27 32) (hin : ∀ j, (o j).toNat < 65536) :
    val_main_v17 (F := Ideal) x o = Cert.ColSum.colSum x o := by
  funext i
  obtain ⟨c, n, rfl⟩ : ∃ c n, i = ix2 c n := ⟨i 0, i 1, eq_ix2 i⟩
  show Host.scatterAdd (F := Ideal) (φ := .f32)
      (Cert.LibColScatter.colScatterDims 32 65536 1769472 Cert.ReferenceIdeal.Gen.scatter_S32x65536_S1769472x1_S32x1769472_0_1_1_1_wf)
      (val_main_v10 (F := Ideal)) (val_main_v16 (F := Ideal) o) (val_main_v9 (F := Ideal) x o) (ix2 c n) = _
  rw [Cert.LibColScatter.scatterAdd_cols_apply, v10_eq, zero_add]
  unfold Cert.LibColScatter.hits Cert.ColSum.colSum
  rw [Finset.sum_filter, ← Equiv.sum_comp pairEquiv, Fintype.sum_prod_type]
  refine Finset.sum_congr rfl fun k _ => Finset.sum_congr rfl fun h _ => ?_
  rw [v16_eq o hin, v9_eq x o hin, tabIdx_pair, dataIdx_pair]
  have ht := toInt_of_lt _ (hin (ix2 h k))
  by_cases hc : (o (ix2 h k)).toNat = n.val
  · rw [if_pos (by rw [ht]; exact_mod_cast hc), if_pos hc]
  · rw [if_neg (by rw [ht]; exact_mod_cast hc), if_neg hc]

/-! ## The precondition bounds the table -/

/-- THE TABLE IS IN RANGE under the precondition: its second conjunct says that every entry, compared as a signed word,
    is at least 0 and at most 65535, so every entry's unsigned value is below 65536. -/
theorem inb_of_pre {F : FTy → Type} [FloatOps F] [Cert.Pre_input_domain.Facts]
    (x : FVec F Cert.Pre_input_domain.S32x27x65536 .f32) (o : IVec Cert.Pre_input_domain.S65536x27 32)
    (h : Cert.Pre_input_domain.fn (F := F) x o = fun _ => 1#1) : ∀ j, (o j).toNat < 65536 := by
  intro j
  haveI : Subsingleton Cert.Pre_input_domain.S_.Idx := ⟨fun a b => funext fun i => i.elim0⟩
  have e := congrFun h ix0
  dsimp only [Cert.Pre_input_domain.fn] at e
  have e2 := (IntOp.andi_eq_one.1 e).2
  have e3 := Host.reduce_andi_all _ _ _ _ _ e2 j
  have e4 := IntOp.andi_eq_one.1 e3
  exact toNat_lt_of_signed_range (o j) (IntOp.cmpi_sge.1 e4.1) (IntOp.cmpi_sle.1 e4.2)

end Cert.ReferenceIdeal.RefValue

end
-- ==== Proof.Staged.lean ====
/-
  Reading a staged 27 × 512 chunk sixteen lanes at a time, and one 16-lane accumulating store as sixteen contributions of
  one slot.  A chunk g of a staging buffer holds columns 512·g … 512·g + 511 of the transposed table (or of one
  channel's data); the piece at row k, lanes 16·i … 16·i + 15 is therefore columns 16·(32·g + i) … of slot k.
-/
import proofs.«204569_g29265907155619_cont_9to1_682_25_alg».proof.Proof.ColSum
import Idealize.ShloMosaic.Lib.Pipeline.Value
import Idealize.ShloMosaic.Lib.ValueIdx

noncomputable section

namespace Cert.ColSum

open Idealize.ShloMosaic Idealize.ShloMosaic.ValueIdx

variable {F : FTy → Type} [FloatOps F]

abbrev S16 : Shape := ⟨1, ![16]⟩
abbrev S1x16 : Shape := ⟨2, ![1, 16]⟩
abbrev S27x512 : Shape := ⟨2, ![27, 512]⟩
abbrev S27x65536 : Shape := ⟨2, ![27, 65536]⟩
abbrev S27x32x65536 : Shape := ⟨3, ![27, 32, 65536]⟩

/-- A [1, 16] piece flattened to 16 lanes, read at a lane. -/
theorem cast16_lane {α : Type} (v : S1x16.Idx → α) (h : S1x16.ShapeCasts S16) (l : Fin 16) :
    shapeCast S16 v h (Shape.ofLane l) = v (ix2 0 l) := by
  refine shapeCast_apply v h _ _ ?_
  rw [Shape.rowMajor_val_two, Shape.rowMajor_val_one]
  show (0 : Nat) * 16 + l.val = l.val
  omega

/-- The staging buffer `C` holds chunk `g` of the transposed table. -/
def IdxChunk (Oc : IVec S27x65536 32) (g : Nat) (C : IVec S27x512 32) : Prop :=
  ∀ (r : Fin 27) (c : Fin 512) (h : 512 * g + c.val < 65536), C (ix2 r c) = Oc (ix2 r ⟨512 * g + c.val, h⟩)

/-- The staging buffer `C` holds chunk `g` of channel `ch`'s data. -/
def DatChunk (X : Vec F S27x32x65536 .f32) (ch : Fin 32) (g : Nat) (C : Vec F S27x512 .f32) : Prop :=
  ∀ (r : Fin 27) (c : Fin 512) (h : 512 * g + c.val < 65536), C (ix2 r c) = X (ix3 r ch ⟨512 * g + c.val, h⟩)

end Cert.ColSum

end
-- ==== Proof.AccSteps.lean ====
/-
  The accumulator across the blocks of sixteen columns and the slots within a block.

  The invariant at (q, kk) says the accumulator has received exactly the pairs of the first q blocks and of the first kk
  slots of block q.  One sixteen-lane accumulating store whose index words and data are slot kk's sixteen entries of
  block q advances it from (q, kk) to (q, kk + 1).  Two reading lemmas say which sixteen table words, or data, a
  sixteen-lane piece of a staged chunk holds.
-/
import proofs.«204569_g29265907155619_cont_9to1_682_25_alg».proof.Proof.AccLaws
import proofs.«204569_g29265907155619_cont_9to1_682_25_alg».proof.Proof.Staged

noncomputable section

namespace Cert.ColSum

open Idealize.ShloMosaic Idealize.ShloMosaic.ValueIdx

section Inv

variable {F : FTy → Type} [FloatOps F]

/-- The accumulator g has received exactly the pairs done at (q, kk). -/
def AccInv (tgt : Fin 27 → Fin 65536 → SAcc.Idx) (dt : Fin 27 → Fin 65536 → F .f32) (f0 : Vec F SAcc .f32)
    (q kk : Nat) (g : Vec F SAcc .f32) : Prop :=
  ∃ S, Acc tgt dt f0 S g ∧ ∀ p, p ∈ S ↔ Done q kk p

/-- Before the first block the accumulator is the initial one. -/
theorem AccInv.init {tgt : Fin 27 → Fin 65536 → SAcc.Idx} {dt : Fin 27 → Fin 65536 → F .f32}
    {f0 : Vec F SAcc .f32} : AccInv tgt dt f0 0 0 f0 :=
  ⟨∅, Acc.init, fun p => ⟨fun hp => by simp at hp, fun hp => (not_Done_zero_zero p hp).elim⟩⟩

/-- All 27 slots of block q done: block q + 1 begins. -/
theorem AccInv.next {tgt : Fin 27 → Fin 65536 → SAcc.Idx} {dt : Fin 27 → Fin 65536 → F .f32}
    {f0 : Vec F SAcc .f32} {q : Nat} {g : Vec F SAcc .f32} (h : AccInv tgt dt f0 q 27 g) :
    AccInv tgt dt f0 (q + 1) 0 g := by
  obtain ⟨S, hA, hm⟩ := h
  exact ⟨S, hA, fun p => (hm p).trans (Done_slots_full q p)⟩

/-- After the last block every pair has contributed. -/
theorem AccInv.full {tgt : Fin 27 → Fin 65536 → SAcc.Idx} {dt : Fin 27 → Fin 65536 → F .f32}
    {f0 : Vec F SAcc .f32} {g : Vec F SAcc .f32} (h : AccInv tgt dt f0 4096 0 g) :
    Acc tgt dt f0 Finset.univ g := by
  obtain ⟨S, hA, hm⟩ := h
  rw [← eq_univ_of_Done hm]
  exact hA

/-- One accumulating store of slot kk's sixteen table words and data of block q advances the invariant by one slot. -/
theorem AccInv.row {X : Vec F ⟨3, ![27, 32, 65536]⟩ .f32} {Oc : IVec ⟨2, ![27, 65536]⟩ 32}
    {hin : ∀ j, (Oc j).toNat < 65536} {ch : Fin 32} {f0 : Vec F SAcc .f32} {q kk : Nat} {g : Vec F SAcc .f32}
    (hA : AccInv (tgtOf Oc hin) (dtOf X ch) f0 q kk g) (hk : kk < 27) (hq : q < 4096)
    (iv : IVec ⟨1, ![16]⟩ 32) (dv : Vec F ⟨1, ![16]⟩ .f32)
    (h : ∀ a x, ((![iv] : Fin 1 → IVec ⟨1, ![16]⟩ 32) a x).toNat < SAcc.size a)
    (hiv : ∀ l : Fin 16, iv (Shape.ofLane l) = Oc (ix2 ⟨kk, hk⟩ ⟨q * 16 + l.val, by omega⟩))
    (hdv : ∀ l : Fin 16, dv (Shape.ofLane l) = X (ix3 ⟨kk, hk⟩ ch ⟨q * 16 + l.val, by omega⟩)) :
    AccInv (tgtOf Oc hin) (dtOf X ch) f0 q (kk + 1)
      (Idealize.ShloMosaic.storeIdx g ![iv] dv (fun _ => 1#1) true h) := by
  obtain ⟨S, hAcc, hm⟩ := hA
  have hb : q * 16 + 16 ≤ 65536 := by omega
  have htgt : ∀ l : Fin 16, idxAt ![iv] h (Shape.ofLane l)
      = tgtOf Oc hin ⟨kk, hk⟩ ⟨q * 16 + l.val, by omega⟩ := by
    intro l
    rw [eq_ix1 (idxAt ![iv] h (Shape.ofLane l))]
    unfold tgtOf
    refine congrArg ix1 (Fin.ext ?_)
    show (iv (Shape.ofLane l)).toNat = _
    rw [hiv l]
  have hdt : ∀ l : Fin 16, dv (Shape.ofLane l) = dtOf X ch ⟨kk, hk⟩ ⟨q * 16 + l.val, by omega⟩ :=
    fun l => hdv l
  have hS : ∀ l : Fin 16, ((⟨kk, hk⟩ : Fin 27), (⟨q * 16 + l.val, by omega⟩ : Fin 65536)) ∉ S :=
    fun l hl => not_Done_lane q kk hk l.val l.isLt (by omega) ((hm _).mp hl)
  obtain ⟨S', hA', hm'⟩ := Acc.storeIdx hAcc iv dv h ⟨kk, hk⟩ (q * 16) hb htgt hdt hS
  exact ⟨S', hA', fun p => (hm' p).trans ((or_congr_left (hm p)).trans (Done_succ q kk hk p))⟩

end Inv

section Reading

variable {F : FTy → Type} [FloatOps F]

/-- Sixteen lanes of row kk of a staged chunk g of the table, starting at lane 16·i, are the table words of slot kk at
    the sixteen columns of block 32·g + i. -/
theorem IdxChunk.lane {Oc : IVec S27x65536 32} {g : Nat} {C : IVec S27x512 32} (hC : IdxChunk Oc g C)
    (v : S1x16.Idx → BitVec 32) (hcast : S1x16.ShapeCasts S16) (kk : Fin 27) (i : Nat) (hi : i < 32) (hg : g < 128)
    (hv : ∀ l : Fin 16, v (ix2 0 l) = C (ix2 kk ⟨16 * i + l.val, by omega⟩)) (l : Fin 16) :
    shapeCast S16 v hcast (Shape.ofLane l) = Oc (ix2 kk ⟨(32 * g + i) * 16 + l.val, by omega⟩) := by
  rw [cast16_lane, hv l]
  have h1 : 512 * g + (16 * i + l.val) < 65536 := by omega
  refine (hC kk ⟨16 * i + l.val, by omega⟩ h1).trans ?_
  refine congrArg (fun h : Fin 65536 => Oc (ix2 kk h)) (Fin.ext ?_)
  show 512 * g + (16 * i + l.val) = (32 * g + i) * 16 + l.val
  omega

/-- The same for a staged chunk of one channel's data. -/
theorem DatChunk.lane {X : Vec F S27x32x65536 .f32} {ch : Fin 32} {g : Nat} {C : Vec F S27x512 .f32}
    (hC : DatChunk X ch g C) (v : Vec F S1x16 .f32) (hcast : S1x16.ShapeCasts S16) (kk : Fin 27) (i : Nat)
    (hi : i < 32) (hg : g < 128)
    (hv : ∀ l : Fin 16, v (ix2 0 l) = C (ix2 kk ⟨16 * i + l.val, by omega⟩)) (l : Fin 16) :
    shapeCast S16 v hcast (Shape.ofLane l) = X (ix3 kk ch ⟨(32 * g + i) * 16 + l.val, by omega⟩) := by
  rw [cast16_lane, hv l]
  have h1 : 512 * g + (16 * i + l.val) < 65536 := by omega
  refine (hC kk ⟨16 * i + l.val, by omega⟩ h1).trans ?_
  refine congrArg (fun h : Fin 65536 => X (ix3 kk ch h)) (Fin.ext ?_)
  show 512 * g + (16 * i + l.val) = (32 * g + i) * 16 + l.val
  omega

end Reading

end Cert.ColSum

end
-- ==== Proof.SetupKI.lean ====
/-
  The names shared by the modules about the scatter-accumulate kernel's subcore task: the launch configuration, the ghost
  state (handshake rounds beside transfer counters), the arrays' locations, a subcore's channel and its row of the
  result, and the statement that a row holds a finished accumulator.
-/
import proofs.«204569_g29265907155619_cont_9to1_682_25_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«204569_g29265907155619_cont_9to1_682_25_alg».proof.Proof.Gen.KernelIdeal
import proofs.«204569_g29265907155619_cont_9to1_682_25_alg».proof.Proof.Gen.KernelIdeal.Skeleton
import proofs.«204569_g29265907155619_cont_9to1_682_25_alg».proof.Proof.AccSteps

noncomputable section

namespace Cert.KernelIdeal.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.ColSum

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays and a subcore's scratch -/

local notation "xW" => (Memref.whole Cert.KernelIdeal.main_v0_scv : Memref Cert.KernelIdeal.sig Kind.scVector Space.hbm Cert.KernelIdeal.S27x32x65536 EltTy.f32)
local notation "oW" => (Memref.whole Cert.KernelIdeal.main_v1_scv : Memref Cert.KernelIdeal.sig Kind.scVector Space.hbm Cert.KernelIdeal.S27x65536 EltTy.i32)
local notation "rW" => (Memref.whole Cert.KernelIdeal.main_v2_scv : Memref Cert.KernelIdeal.sig Kind.scVector Space.hbm Cert.KernelIdeal.S32x65536 EltTy.f32)
local notation "accW" => (Memref.whole Cert.KernelIdeal.cc0_scratch0 : Memref Cert.KernelIdeal.sig Kind.scVector Space.vmem Cert.KernelIdeal.S65536 EltTy.f32)
local notation "ib0W" => (Memref.whole Cert.KernelIdeal.cc0_scratch1 : Memref Cert.KernelIdeal.sig Kind.scVector Space.vmem Cert.KernelIdeal.S27x512 EltTy.i32)
local notation "ib1W" => (Memref.whole Cert.KernelIdeal.cc0_scratch2 : Memref Cert.KernelIdeal.sig Kind.scVector Space.vmem Cert.KernelIdeal.S27x512 EltTy.i32)
local notation "db0W" => (Memref.whole Cert.KernelIdeal.cc0_scratch3 : Memref Cert.KernelIdeal.sig Kind.scVector Space.vmem Cert.KernelIdeal.S27x512 EltTy.f32)
local notation "db1W" => (Memref.whole Cert.KernelIdeal.cc0_scratch4 : Memref Cert.KernelIdeal.sig Kind.scVector Space.vmem Cert.KernelIdeal.S27x512 EltTy.f32)

abbrev xLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

variable [FloatOps F]

/-! ## A subcore's channel and its row of the result -/

theorem bound_zero : grid0.bound 0 = 2 := rfl
theorem bound_one : grid0.bound 1 = 16 := rfl

/-- The channel of the subcore at grid coordinates L: twice the subcore number plus the core number. -/
def chan (L : grid0.Coords) : Fin 32 :=
  ⟨2 * (L 1).val + (L 0).val, by
    have h0 : (L 0).val < 2 := (L 0).isLt
    have h1 : (L 1).val < 16 := (L 1).isLt
    omega⟩

theorem hdiv32 : 32 ∣ S32x65536.size 0 := ⟨1, rfl⟩
abbrev row (c : Fin 32) : Rect S32x65536 := Rect.part (s := S32x65536) (a₀ := 0) hdiv32 c
abbrev rowSet (c : Fin 32) : Finset S32x65536.Idx := ((rW).view.slice (row c)).set

/-- Row c of the result holds the finished accumulator of channel c: every pair (k, h) added once, from zero. -/
def RowDone (X : Vec F S27x32x65536 .f32) (Oc : IVec S27x65536 32) (hin : ∀ j, (Oc j).toNat < 65536) (c : Fin 32)
    (f : Vec F S32x65536 .f32) : Prop :=
  ∃ g, Acc (tgtOf Oc hin) (dtOf X c) (zeroAcc (F := F)) Finset.univ g ∧ ∀ n : Fin 65536, f (ValueIdx.ix2 c n) = g (ValueIdx.ix1 n)

abbrev cV (L : grid0.Coords) : Fin τ.nSC := (L 0).castLE hcore0
abbrev jV (L : grid0.Coords) : Fin τ.nSub := (L 1).castLE hsub0

end Cert.KernelIdeal.Tile

end
-- ==== Proof.TripsKI.lean ====
/-
  One trip of each of the two scatter loops of a subcore's task.  A trip reads, for each of the 27 slots, the 16-lane piece
  of the staged table chunk and of the staged data chunk at its lane block, and adds the data piece into the accumulator
  at the entries the table piece names.  Through the trip the accumulator is followed by the relation AccInv: before the
  trip exactly the pairs of the earlier sixteen-column blocks have been added, after slot k also the pairs (k', h) with
  k' ≤ k and h in this block.  The staged pieces are identified with entries of the whole arrays through the facts
  IdxChunk and DatChunk about what a staging buffer holds.
-/
import proofs.«204569_g29265907155619_cont_9to1_682_25_alg».proof.Proof.SetupKI

noncomputable section

namespace Cert.KernelIdeal.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.ColSum

variable {F : FTy → Type}

local notation "𝕄" => MT nD τ sig (HIx 1) (Elt F) ℕ UU ℕ
local notation "xW" => (Memref.whole Cert.KernelIdeal.main_v0_scv : Memref Cert.KernelIdeal.sig Kind.scVector Space.hbm Cert.KernelIdeal.S27x32x65536 EltTy.f32)
local notation "oW" => (Memref.whole Cert.KernelIdeal.main_v1_scv : Memref Cert.KernelIdeal.sig Kind.scVector Space.hbm Cert.KernelIdeal.S27x65536 EltTy.i32)
local notation "rW" => (Memref.whole Cert.KernelIdeal.main_v2_scv : Memref Cert.KernelIdeal.sig Kind.scVector Space.hbm Cert.KernelIdeal.S32x65536 EltTy.f32)
local notation "accW" => (Memref.whole Cert.KernelIdeal.cc0_scratch0 : Memref Cert.KernelIdeal.sig Kind.scVector Space.vmem Cert.KernelIdeal.S65536 EltTy.f32)
local notation "ib0W" => (Memref.whole Cert.KernelIdeal.cc0_scratch1 : Memref Cert.KernelIdeal.sig Kind.scVector Space.vmem Cert.KernelIdeal.S27x512 EltTy.i32)
local notation "ib1W" => (Memref.whole Cert.KernelIdeal.cc0_scratch2 : Memref Cert.KernelIdeal.sig Kind.scVector Space.vmem Cert.KernelIdeal.S27x512 EltTy.i32)
local notation "db0W" => (Memref.whole Cert.KernelIdeal.cc0_scratch3 : Memref Cert.KernelIdeal.sig Kind.scVector Space.vmem Cert.KernelIdeal.S27x512 EltTy.f32)
local notation "db1W" => (Memref.whole Cert.KernelIdeal.cc0_scratch4 : Memref Cert.KernelIdeal.sig Kind.scVector Space.vmem Cert.KernelIdeal.S27x512 EltTy.f32)

variable [FloatOps F]

section TileSec
variable (d : Dev nD) (L : grid0.Coords)

omit [FloatOps F] in
/-- Every word of a staged chunk of the table is a node number. -/
theorem chunk_inb {Oc : IVec S27x65536 32} {gch : Nat} {C : IVec S27x512 32} (hC : IdxChunk Oc gch C) (hin : ∀ j, (Oc j).toNat < 65536)
    (hg : gch < 128) : ∀ j, (C j).toNat < 65536 := by
  intro j
  obtain ⟨r, c, rfl⟩ : ∃ (r : Fin 27) (c : Fin 512), j = ValueIdx.ix2 r c := ⟨j 0, j 1, ValueIdx.eq_ix2 j⟩
  rw [hC r c (by have := c.isLt; omega)]
  exact hin _

/-- Writing the whole accumulator last leaves exactly what was written. -/
theorem writes_whole_cons (f : Buf (Elt F) ((V d (cV L) (jV L)).loc cc0_scratch0)) (w : S65536.Idx → Elt F .f32)
    (Lp : List (View.Piece (Elt F) S65536 .f32)) :
    (accW).view.writes (Elt F) f (⟨Rect.whole S65536, w⟩ :: Lp) = w :=
  (View.write_univ_eq_writes_whole (accW).view f Lp w).symm.trans (View.write_whole_univ (cc0_scratch0 : Ref sig .scVector) _ w)

/-- Reading the whole accumulator back after such a write reads what was written. -/
theorem readCov_whole_cons (w : S65536.Idx → Elt F .f32) (Lp : List (View.Piece (Elt F) S65536 .f32)) :
    (accW).view.readCov (⟨Rect.whole S65536, w⟩ :: Lp) (LoadRect.whole S65536) = w :=
  View.readCov_cons_toLoadRect (accW).view (Rect.whole S65536) w Lp

/-- A 16-lane piece of the staged table chunk at row `kk`, lane block `t`. -/
theorem idx_piece0 {Oc : IVec S27x65536 32} {gch : Nat} {Ci : Buf (Elt F) ((V d (cV L) (jV L)).loc cc0_scratch1)}
    (hCi : IdxChunk Oc gch Ci) (hgch : gch < 128) (t : Fin k0_t3_loop.trips) (off : Fin 2 → Nat) (inb : ∀ a, off a + S1x16.size a ≤ S27x512.size a)
    (kk : Fin 27) (hoff : off = ![kk.val, 16 * t.val]) (l : Fin 16) :
    shapeCast S16 (View.readAt (Elt F) (ib0W).view (Rect.unit (s := S27x512) off S1x16.size inb).toLoadRect Ci) shapeCasts_S1x16_S16 (Shape.ofLane l)
      = Oc (ValueIdx.ix2 kk ⟨(32 * gch + t.val) * 16 + l.val, by have := t.isLt; have : k0_t3_loop.trips = 32 := rfl; omega⟩) := by
  have ht : t.val < 32 := t.isLt
  refine IdxChunk.lane hCi _ _ kk t.val ht hgch (fun l' => ?_) l
  subst hoff
  rw [View.readAt_apply]
  show Ci ((Rect.unit (s := S27x512) ![kk.val, 16 * t.val] S1x16.size inb).toLoadRect.idx (ValueIdx.ix2 0 l')) = Ci _
  congr 1
  funext a
  apply Fin.ext
  rw [LoadRect.idx_apply]
  match a with
  | ⟨0, _⟩ => first | (show kk.val + 1 * (0 : Nat) = kk.val; omega) | (simp [Rect.unit])
  | ⟨1, _⟩ => first | (show 16 * t.val + 1 * l'.val = 16 * t.val + l'.val; omega) | (simp [Rect.unit]; try omega)

/-- The same piece of the staged data chunk. -/
theorem dat_piece0 {X : Vec F S27x32x65536 .f32} {ch : Fin 32} {gch : Nat} {Cd : Buf (Elt F) ((V d (cV L) (jV L)).loc cc0_scratch3)}
    (hCd : DatChunk X ch gch Cd) (hgch : gch < 128) (t : Fin k0_t3_loop.trips) (off : Fin 2 → Nat) (inb : ∀ a, off a + S1x16.size a ≤ S27x512.size a)
    (kk : Fin 27) (hoff : off = ![kk.val, 16 * t.val]) (l : Fin 16) :
    shapeCast S16 (View.readAt (Elt F) (db0W).view (Rect.unit (s := S27x512) off S1x16.size inb).toLoadRect Cd) shapeCasts_S1x16_S16 (Shape.ofLane l)
      = X (ValueIdx.ix3 kk ch ⟨(32 * gch + t.val) * 16 + l.val, by have := t.isLt; have : k0_t3_loop.trips = 32 := rfl; omega⟩) := by
  have ht : t.val < 32 := t.isLt
  refine DatChunk.lane hCd _ _ kk t.val ht hgch (fun l' => ?_) l
  subst hoff
  rw [View.readAt_apply]
  show Cd ((Rect.unit (s := S27x512) ![kk.val, 16 * t.val] S1x16.size inb).toLoadRect.idx (ValueIdx.ix2 0 l')) = Cd _
  congr 1
  funext a
  apply Fin.ext
  rw [LoadRect.idx_apply]
  match a with
  | ⟨0, _⟩ => first | (show kk.val + 1 * (0 : Nat) = kk.val; omega) | (simp [Rect.unit])
  | ⟨1, _⟩ => first | (show 16 * t.val + 1 * l'.val = 16 * t.val + l'.val; omega) | (simp [Rect.unit]; try omega)

/-- One trip of the scatter loop over staging pair 0: the 27 rows' pieces of lane block `t` are added, slot by slot. -/
theorem trip0 (k0_t2 : Fin k0_t2_loop.trips) (k0_t3 : Fin k0_t3_loop.trips)
    {X : Vec F S27x32x65536 .f32} {Oc : IVec S27x65536 32} {hin : ∀ j, (Oc j).toNat < 65536} {ch : Fin 32} {gch : Nat} (hgch : gch < 128)
    (g : Buf (Elt F) ((V d (cV L) (jV L)).loc cc0_scratch0)) (Ci : Buf (Elt F) ((V d (cV L) (jV L)).loc cc0_scratch1))
    (Cd : Buf (Elt F) ((V d (cV L) (jV L)).loc cc0_scratch3)) (hCi : IdxChunk Oc gch Ci) (hCd : DatChunk X ch gch Cd)
    (hA : AccInv (tgtOf Oc hin) (dtOf X ch) (zeroAcc (F := F)) (32 * gch + k0_t3.val) 0 g) :
    (iprop(((V d (cV L) (jV L)).loc cc0_scratch0 ↦{fullShare} g)
        ∗ ((V d (cV L) (jV L)).loc cc0_scratch1 ↦{fullShare} Ci)
        ∗ ((V d (cV L) (jV L)).loc cc0_scratch3 ↦{fullShare} Cd)) : sProp 𝕄)
      ⊢ wp frame (wpE (defs₀ (F := F)) 𝒱₀ (V d (cV L) (jV L)) none) Set.univ
          (k0_t3_body L xW (Memref.isWhole_whole _) oW (Memref.isWhole_whole _) rW (Memref.isWhole_whole _)
            accW (Memref.isWhole_whole _) ib0W (Memref.isWhole_whole _) ib1W (Memref.isWhole_whole _)
            db0W (Memref.isWhole_whole _) db1W (Memref.isWhole_whole _) cc0_scratch5 cc0_scratch6 cc0_scratch7 cc0_scratch8 cc0_scoped0
            0#32 1#32 k0_t2 k0_t3 ())
          fun _ => iprop((∃ g' : Buf (Elt F) ((V d (cV L) (jV L)).loc cc0_scratch0),
              ((V d (cV L) (jV L)).loc cc0_scratch0 ↦{fullShare} g') ∗ ⌜AccInv (tgtOf Oc hin) (dtOf X ch) (zeroAcc (F := F)) (32 * gch + k0_t3.val + 1) 0 g'⌝)
            ∗ ((V d (cV L) (jV L)).loc cc0_scratch1 ↦{fullShare} Ci)
            ∗ ((V d (cV L) (jV L)).loc cc0_scratch3 ↦{fullShare} Cd)) := by
  have hC : ∀ j, (Ci j).toNat < 65536 := chunk_inb hCi hin hgch
  have hq : 32 * gch + k0_t3.val < 4096 := by have := k0_t3.isLt; have : k0_t3_loop.trips = 32 := rfl; omega
  unfold k0_t3_body
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [SparseCore.vectorStoreIdx_bind (V d (cV L) (jV L))]
  iintro ⟨Hacc, Hi, Hd⟩
  ihave Hacc' := (Entails.of_eq (show (_ : sProp 𝕄) = ((accW).view.loc (V d (cV L) (jV L)) ↦{fullShare} g) from rfl)) $$ Hacc
  ihave Hi' := (Entails.of_eq (show (_ : sProp 𝕄) = ((ib0W).view.loc (V d (cV L) (jV L)) ↦{fullShare} Ci) from rfl)) $$ Hi
  ihave Hd' := (Entails.of_eq (show (_ : sProp 𝕄) = ((db0W).view.loc (V d (cV L) (jV L)) ↦{fullShare} Cd) from rfl)) $$ Hd
  sl_exec (disch := (intro a x; obtain rfl : a = 0 := Subsingleton.elim _ _; exact hC _))
  sl_step
  isplitl [Hacc']
  · iexists _
    isplitl [Hacc']
    · iexact Hacc'
    · ipureintro
      refine AccInv.next ?_
      rw [writes_whole_cons]
      refine AccInv.row ?_ (by decide : 26 < 27) hq _ _ _ (idx_piece0 d L hCi hgch k0_t3 (k0_off32 k0_t3) _ ⟨26, by decide⟩ (k0_off32_eq k0_t3)) (dat_piece0 d L hCd hgch k0_t3 (k0_off32 k0_t3) _ ⟨26, by decide⟩ (k0_off32_eq k0_t3))
      show AccInv _ _ _ _ 26 (View.readCov _ (⟨Rect.whole S65536, storeIdx _ _ _ _ _ _⟩ :: _) (LoadRect.whole S65536))
      rw [readCov_whole_cons]
      refine AccInv.row ?_ (by decide : 25 < 27) hq _ _ _ (idx_piece0 d L hCi hgch k0_t3 (k0_off31 k0_t3) _ ⟨25, by decide⟩ (k0_off31_eq k0_t3)) (dat_piece0 d L hCd hgch k0_t3 (k0_off31 k0_t3) _ ⟨25, by decide⟩ (k0_off31_eq k0_t3))
      show AccInv _ _ _ _ 25 (View.readCov _ (⟨Rect.whole S65536, storeIdx _ _ _ _ _ _⟩ :: _) (LoadRect.whole S65536))
      rw [readCov_whole_cons]
      refine AccInv.row ?_ (by decide : 24 < 27) hq _ _ _ (idx_piece0 d L hCi hgch k0_t3 (k0_off30 k0_t3) _ ⟨24, by decide⟩ (k0_off30_eq k0_t3)) (dat_piece0 d L hCd hgch k0_t3 (k0_off30 k0_t3) _ ⟨24, by decide⟩ (k0_off30_eq k0_t3))
      show AccInv _ _ _ _ 24 (View.readCov _ (⟨Rect.whole S65536, storeIdx _ _ _ _ _ _⟩ :: _) (LoadRect.whole S65536))
      rw [readCov_whole_cons]
      refine AccInv.row ?_ (by decide : 23 < 27) hq _ _ _ (idx_piece0 d L hCi hgch k0_t3 (k0_off29 k0_t3) _ ⟨23, by decide⟩ (k0_off29_eq k0_t3)) (dat_piece0 d L hCd hgch k0_t3 (k0_off29 k0_t3) _ ⟨23, by decide⟩ (k0_off29_eq k0_t3))
      show AccInv _ _ _ _ 23 (View.readCov _ (⟨Rect.whole S65536, storeIdx _ _ _ _ _ _⟩ :: _) (LoadRect.whole S65536))
      rw [readCov_whole_cons]
      refine AccInv.row ?_ (by decide : 22 < 27) hq _ _ _ (idx_piece0 d L hCi hgch k0_t3 (k0_off28 k0_t3) _ ⟨22, by decide⟩ (k0_off28_eq k0_t3)) (dat_piece0 d L hCd hgch k0_t3 (k0_off28 k0_t3) _ ⟨22, by decide⟩ (k0_off28_eq k0_t3))
      show AccInv _ _ _ _ 22 (View.readCov _ (⟨Rect.whole S65536, storeIdx _ _ _ _ _ _⟩ :: _) (LoadRect.whole S65536))
      rw [readCov_whole_cons]
      refine AccInv.row ?_ (by decide : 21 < 27) hq _ _ _ (idx_piece0 d L hCi hgch k0_t3 (k0_off27 k0_t3) _ ⟨21, by decide⟩ (k0_off27_eq k0_t3)) (dat_piece0 d L hCd hgch k0_t3 (k0_off27 k0_t3) _ ⟨21, by decide⟩ (k0_off27_eq k0_t3))
      show AccInv _ _ _ _ 21 (View.readCov _ (⟨Rect.whole S65536, storeIdx _ _ _ _ _ _⟩ :: _) (LoadRect.whole S65536))
      rw [readCov_whole_cons]
      refine AccInv.row ?_ (by decide : 20 < 27) hq _ _ _ (idx_piece0 d L hCi hgch k0_t3 (k0_off26 k0_t3) _ ⟨20, by decide⟩ (k0_off26_eq k0_t3)) (dat_piece0 d L hCd hgch k0_t3 (k0_off26 k0_t3) _ ⟨20, by decide⟩ (k0_off26_eq k0_t3))
      show AccInv _ _ _ _ 20 (View.readCov _ (⟨Rect.whole S65536, storeIdx _ _ _ _ _ _⟩ :: _) (LoadRect.whole S65536))
      rw [readCov_whole_cons]
      refine AccInv.row ?_ (by decide : 19 < 27) hq _ _ _ (idx_piece0 d L hCi hgch k0_t3 (k0_off25 k0_t3) _ ⟨19, by decide⟩ (k0_off25_eq k0_t3)) (dat_piece0 d L hCd hgch k0_t3 (k0_off25 k0_t3) _ ⟨19, by decide⟩ (k0_off25_eq k0_t3))
      show AccInv _ _ _ _ 19 (View.readCov _ (⟨Rect.whole S65536, storeIdx _ _ _ _ _ _⟩ :: _) (LoadRect.whole S65536))
      rw [readCov_whole_cons]
      refine AccInv.row ?_ (by decide : 18 < 27) hq _ _ _ (idx_piece0 d L hCi hgch k0_t3 (k0_off24 k0_t3) _ ⟨18, by decide⟩ (k0_off24_eq k0_t3)) (dat_piece0 d L hCd hgch k0_t3 (k0_off24 k0_t3) _ ⟨18, by decide⟩ (k0_off24_eq k0_t3))
      show AccInv _ _ _ _ 18 (View.readCov _ (⟨Rect.whole S65536, storeIdx _ _ _ _ _ _⟩ :: _) (LoadRect.whole S65536))
      rw [readCov_whole_cons]
      refine AccInv.row ?_ (by decide : 17 < 27) hq _ _ _ (idx_piece0 d L hCi hgch k0_t3 (k0_off23 k0_t3) _ ⟨17, by decide⟩ (k0_off23_eq k0_t3)) (dat_piece0 d L hCd hgch k0_t3 (k0_off23 k0_t3) _ ⟨17, by decide⟩ (k0_off23_eq k0_t3))
      show AccInv _ _ _ _ 17 (View.readCov _ (⟨Rect.whole S65536, storeIdx _ _ _ _ _ _⟩ :: _) (LoadRect.whole S65536))
      rw [readCov_whole_cons]
      refine AccInv.row ?_ (by decide : 16 < 27) hq _ _ _ (idx_piece0 d L hCi hgch k0_t3 (k0_off22 k0_t3) _ ⟨16, by decide⟩ (k0_off22_eq k0_t3)) (dat_piece0 d L hCd hgch k0_t3 (k0_off22 k0_t3) _ ⟨16, by decide⟩ (k0_off22_eq k0_t3))
      show AccInv _ _ _ _ 16 (View.readCov _ (⟨Rect.whole S65536, storeIdx _ _ _ _ _ _⟩ :: _) (LoadRect.whole S65536))
      rw [readCov_whole_cons]
      refine AccInv.row ?_ (by decide : 15 < 27) hq _ _ _ (idx_piece0 d L hCi hgch k0_t3 (k0_off21 k0_t3) _ ⟨15, by decide⟩ (k0_off21_eq k0_t3)) (dat_piece0 d L hCd hgch k0_t3 (k0_off21 k0_t3) _ ⟨15, by decide⟩ (k0_off21_eq k0_t3))
      show AccInv _ _ _ _ 15 (View.readCov _ (⟨Rect.whole S65536, storeIdx _ _ _ _ _ _⟩ :: _) (LoadRect.whole S65536))
      rw [readCov_whole_cons]
      refine AccInv.row ?_ (by decide : 14 < 27) hq _ _ _ (idx_piece0 d L hCi hgch k0_t3 (k0_off20 k0_t3) _ ⟨14, by decide⟩ (k0_off20_eq k0_t3)) (dat_piece0 d L hCd hgch k0_t3 (k0_off20 k0_t3) _ ⟨14, by decide⟩ (k0_off20_eq k0_t3))
      show AccInv _ _ _ _ 14 (View.readCov _ (⟨Rect.whole S65536, storeIdx _ _ _ _ _ _⟩ :: _) (LoadRect.whole S65536))
      rw [readCov_whole_cons]
      refine AccInv.row ?_ (by decide : 13 < 27) hq _ _ _ (idx_piece0 d L hCi hgch k0_t3 (k0_off19 k0_t3) _ ⟨13, by decide⟩ (k0_off19_eq k0_t3)) (dat_piece0 d L hCd hgch k0_t3 (k0_off19 k0_t3) _ ⟨13, by decide⟩ (k0_off19_eq k0_t3))
      show AccInv _ _ _ _ 13 (View.readCov _ (⟨Rect.whole S65536, storeIdx _ _ _ _ _ _⟩ :: _) (LoadRect.whole S65536))
      rw [readCov_whole_cons]
      refine AccInv.row ?_ (by decide : 12 < 27) hq _ _ _ (idx_piece0 d L hCi hgch k0_t3 (k0_off18 k0_t3) _ ⟨12, by decide⟩ (k0_off18_eq k0_t3)) (dat_piece0 d L hCd hgch k0_t3 (k0_off18 k0_t3) _ ⟨12, by decide⟩ (k0_off18_eq k0_t3))
      show AccInv _ _ _ _ 12 (View.readCov _ (⟨Rect.whole S65536, storeIdx _ _ _ _ _ _⟩ :: _) (LoadRect.whole S65536))
      rw [readCov_whole_cons]
      refine AccInv.row ?_ (by decide : 11 < 27) hq _ _ _ (idx_piece0 d L hCi hgch k0_t3 (k0_off17 k0_t3) _ ⟨11, by decide⟩ (k0_off17_eq k0_t3)) (dat_piece0 d L hCd hgch k0_t3 (k0_off17 k0_t3) _ ⟨11, by decide⟩ (k0_off17_eq k0_t3))
      show AccInv _ _ _ _ 11 (View.readCov _ (⟨Rect.whole S65536, storeIdx _ _ _ _ _ _⟩ :: _) (LoadRect.whole S65536))
      rw [readCov_whole_cons]
      refine AccInv.row ?_ (by decide : 10 < 27) hq _ _ _ (idx_piece0 d L hCi hgch k0_t3 (k0_off16 k0_t3) _ ⟨10, by decide⟩ (k0_off16_eq k0_t3)) (dat_piece0 d L hCd hgch k0_t3 (k0_off16 k0_t3) _ ⟨10, by decide⟩ (k0_off16_eq k0_t3))
      show AccInv _ _ _ _ 10 (View.readCov _ (⟨Rect.whole S65536, storeIdx _ _ _ _ _ _⟩ :: _) (LoadRect.whole S65536))
      rw [readCov_whole_cons]
      refine AccInv.row ?_ (by decide : 9 < 27) hq _ _ _ (idx_piece0 d L hCi hgch k0_t3 (k0_off15 k0_t3) _ ⟨9, by decide⟩ (k0_off15_eq k0_t3)) (dat_piece0 d L hCd hgch k0_t3 (k0_off15 k0_t3) _ ⟨9, by decide⟩ (k0_off15_eq k0_t3))
      show AccInv _ _ _ _ 9 (View.readCov _ (⟨Rect.whole S65536, storeIdx _ _ _ _ _ _⟩ :: _) (LoadRect.whole S65536))
      rw [readCov_whole_cons]
      refine AccInv.row ?_ (by decide : 8 < 27) hq _ _ _ (idx_piece0 d L hCi hgch k0_t3 (k0_off14 k0_t3) _ ⟨8, by decide⟩ (k0_off14_eq k0_t3)) (dat_piece0 d L hCd hgch k0_t3 (k0_off14 k0_t3) _ ⟨8, by decide⟩ (k0_off14_eq k0_t3))
      show AccInv _ _ _ _ 8 (View.readCov _ (⟨Rect.whole S65536, storeIdx _ _ _ _ _ _⟩ :: _) (LoadRect.whole S65536))
      rw [readCov_whole_cons]
      refine AccInv.row ?_ (by decide : 7 < 27) hq _ _ _ (idx_piece0 d L hCi hgch k0_t3 (k0_off13 k0_t3) _ ⟨7, by decide⟩ (k0_off13_eq k0_t3)) (dat_piece0 d L hCd hgch k0_t3 (k0_off13 k0_t3) _ ⟨7, by decide⟩ (k0_off13_eq k0_t3))
      show AccInv _ _ _ _ 7 (View.readCov _ (⟨Rect.whole S65536, storeIdx _ _ _ _ _ _⟩ :: _) (LoadRect.whole S65536))
      rw [readCov_whole_cons]
      refine AccInv.row ?_ (by decide : 6 < 27) hq _ _ _ (idx_piece0 d L hCi hgch k0_t3 (k0_off12 k0_t3) _ ⟨6, by decide⟩ (k0_off12_eq k0_t3)) (dat_piece0 d L hCd hgch k0_t3 (k0_off12 k0_t3) _ ⟨6, by decide⟩ (k0_off12_eq k0_t3))
      show AccInv _ _ _ _ 6 (View.readCov _ (⟨Rect.whole S65536, storeIdx _ _ _ _ _ _⟩ :: _) (LoadRect.whole S65536))
      rw [readCov_whole_cons]
      refine AccInv.row ?_ (by decide : 5 < 27) hq _ _ _ (idx_piece0 d L hCi hgch k0_t3 (k0_off11 k0_t3) _ ⟨5, by decide⟩ (k0_off11_eq k0_t3)) (dat_piece0 d L hCd hgch k0_t3 (k0_off11 k0_t3) _ ⟨5, by decide⟩ (k0_off11_eq k0_t3))
      show AccInv _ _ _ _ 5 (View.readCov _ (⟨Rect.whole S65536, storeIdx _ _ _ _ _ _⟩ :: _) (LoadRect.whole S65536))
      rw [readCov_whole_cons]
      refine AccInv.row ?_ (by decide : 4 < 27) hq _ _ _ (idx_piece0 d L hCi hgch k0_t3 (k0_off10 k0_t3) _ ⟨4, by decide⟩ (k0_off10_eq k0_t3)) (dat_piece0 d L hCd hgch k0_t3 (k0_off10 k0_t3) _ ⟨4, by decide⟩ (k0_off10_eq k0_t3))
      show AccInv _ _ _ _ 4 (View.readCov _ (⟨Rect.whole S65536, storeIdx _ _ _ _ _ _⟩ :: _) (LoadRect.whole S65536))
      rw [readCov_whole_cons]
      refine AccInv.row ?_ (by decide : 3 < 27) hq _ _ _ (idx_piece0 d L hCi hgch k0_t3 (k0_off9 k0_t3) _ ⟨3, by decide⟩ (k0_off9_eq k0_t3)) (dat_piece0 d L hCd hgch k0_t3 (k0_off9 k0_t3) _ ⟨3, by decide⟩ (k0_off9_eq k0_t3))
      show AccInv _ _ _ _ 3 (View.readCov _ (⟨Rect.whole S65536, storeIdx _ _ _ _ _ _⟩ :: _) (LoadRect.whole S65536))
      rw [readCov_whole_cons]
      refine AccInv.row ?_ (by decide : 2 < 27) hq _ _ _ (idx_piece0 d L hCi hgch k0_t3 (k0_off8 k0_t3) _ ⟨2, by decide⟩ (k0_off8_eq k0_t3)) (dat_piece0 d L hCd hgch k0_t3 (k0_off8 k0_t3) _ ⟨2, by decide⟩ (k0_off8_eq k0_t3))
      show AccInv _ _ _ _ 2 (View.readCov _ (⟨Rect.whole S65536, storeIdx _ _ _ _ _ _⟩ :: _) (LoadRect.whole S65536))
      rw [readCov_whole_cons]
      refine AccInv.row ?_ (by decide : 1 < 27) hq _ _ _ (idx_piece0 d L hCi hgch k0_t3 (k0_off7 k0_t3) _ ⟨1, by decide⟩ (k0_off7_eq k0_t3)) (dat_piece0 d L hCd hgch k0_t3 (k0_off7 k0_t3) _ ⟨1, by decide⟩ (k0_off7_eq k0_t3))
      show AccInv _ _ _ _ 1 (View.readCov _ (⟨Rect.whole S65536, storeIdx _ _ _ _ _ _⟩ :: _) (LoadRect.whole S65536))
      rw [readCov_whole_cons]
      refine AccInv.row ?_ (by decide : 0 < 27) hq _ _ _ (idx_piece0 d L hCi hgch k0_t3 (k0_off6 k0_t3) _ ⟨0, by decide⟩ (k0_off6_eq k0_t3)) (dat_piece0 d L hCd hgch k0_t3 (k0_off6 k0_t3) _ ⟨0, by decide⟩ (k0_off6_eq k0_t3))

      rw [show View.readAt (Elt F) (accW).view (LoadRect.whole S65536) g = g from Memref.readAt_whole (Elt F) (cc0_scratch0 : Ref sig .scVector) g]
      exact hA
  isplitl [Hi']
  · iexact Hi'
  · iexact Hd'

/-- A 16-lane piece of the staged table chunk at row `kk`, lane block `t`. -/
theorem idx_piece1 {Oc : IVec S27x65536 32} {gch : Nat} {Ci : Buf (Elt F) ((V d (cV L) (jV L)).loc cc0_scratch2)}
    (hCi : IdxChunk Oc gch Ci) (hgch : gch < 128) (t : Fin k0_t4_loop.trips) (off : Fin 2 → Nat) (inb : ∀ a, off a + S1x16.size a ≤ S27x512.size a)
    (kk : Fin 27) (hoff : off = ![kk.val, 16 * t.val]) (l : Fin 16) :
    shapeCast S16 (View.readAt (Elt F) (ib1W).view (Rect.unit (s := S27x512) off S1x16.size inb).toLoadRect Ci) shapeCasts_S1x16_S16 (Shape.ofLane l)
      = Oc (ValueIdx.ix2 kk ⟨(32 * gch + t.val) * 16 + l.val, by have := t.isLt; have : k0_t4_loop.trips = 32 := rfl; omega⟩) := by
  have ht : t.val < 32 := t.isLt
  refine IdxChunk.lane hCi _ _ kk t.val ht hgch (fun l' => ?_) l
  subst hoff
  rw [View.readAt_apply]
  show Ci ((Rect.unit (s := S27x512) ![kk.val, 16 * t.val] S1x16.size inb).toLoadRect.idx (ValueIdx.ix2 0 l')) = Ci _
  congr 1
  funext a
  apply Fin.ext
  rw [LoadRect.idx_apply]
  match a with
  | ⟨0, _⟩ => first | (show kk.val + 1 * (0 : Nat) = kk.val; omega) | (simp [Rect.unit])
  | ⟨1, _⟩ => first | (show 16 * t.val + 1 * l'.val = 16 * t.val + l'.val; omega) | (simp [Rect.unit]; try omega)

/-- The same piece of the staged data chunk. -/
theorem dat_piece1 {X : Vec F S27x32x65536 .f32} {ch : Fin 32} {gch : Nat} {Cd : Buf (Elt F) ((V d (cV L) (jV L)).loc cc0_scratch4)}
    (hCd : DatChunk X ch gch Cd) (hgch : gch < 128) (t : Fin k0_t4_loop.trips) (off : Fin 2 → Nat) (inb : ∀ a, off a + S1x16.size a ≤ S27x512.size a)
    (kk : Fin 27) (hoff : off = ![kk.val, 16 * t.val]) (l : Fin 16) :
    shapeCast S16 (View.readAt (Elt F) (db1W).view (Rect.unit (s := S27x512) off S1x16.size inb).toLoadRect Cd) shapeCasts_S1x16_S16 (Shape.ofLane l)
      = X (ValueIdx.ix3 kk ch ⟨(32 * gch + t.val) * 16 + l.val, by have := t.isLt; have : k0_t4_loop.trips = 32 := rfl; omega⟩) := by
  have ht : t.val < 32 := t.isLt
  refine DatChunk.lane hCd _ _ kk t.val ht hgch (fun l' => ?_) l
  subst hoff
  rw [View.readAt_apply]
  show Cd ((Rect.unit (s := S27x512) ![kk.val, 16 * t.val] S1x16.size inb).toLoadRect.idx (ValueIdx.ix2 0 l')) = Cd _
  congr 1
  funext a
  apply Fin.ext
  rw [LoadRect.idx_apply]
  match a with
  | ⟨0, _⟩ => first | (show kk.val + 1 * (0 : Nat) = kk.val; omega) | (simp [Rect.unit])
  | ⟨1, _⟩ => first | (show 16 * t.val + 1 * l'.val = 16 * t.val + l'.val; omega) | (simp [Rect.unit]; try omega)

/-- One trip of the scatter loop over staging pair 1: the 27 rows' pieces of lane block `t` are added, slot by slot. -/
theorem trip1 (k0_t4 : Fin k0_t4_loop.trips)
    {X : Vec F S27x32x65536 .f32} {Oc : IVec S27x65536 32} {hin : ∀ j, (Oc j).toNat < 65536} {ch : Fin 32} {gch : Nat} (hgch : gch < 128)
    (g : Buf (Elt F) ((V d (cV L) (jV L)).loc cc0_scratch0)) (Ci : Buf (Elt F) ((V d (cV L) (jV L)).loc cc0_scratch2))
    (Cd : Buf (Elt F) ((V d (cV L) (jV L)).loc cc0_scratch4)) (hCi : IdxChunk Oc gch Ci) (hCd : DatChunk X ch gch Cd)
    (hA : AccInv (tgtOf Oc hin) (dtOf X ch) (zeroAcc (F := F)) (32 * gch + k0_t4.val) 0 g) :
    (iprop(((V d (cV L) (jV L)).loc cc0_scratch0 ↦{fullShare} g)
        ∗ ((V d (cV L) (jV L)).loc cc0_scratch2 ↦{fullShare} Ci)
        ∗ ((V d (cV L) (jV L)).loc cc0_scratch4 ↦{fullShare} Cd)) : sProp 𝕄)
      ⊢ wp frame (wpE (defs₀ (F := F)) 𝒱₀ (V d (cV L) (jV L)) none) Set.univ
          (k0_t4_body L xW (Memref.isWhole_whole _) oW (Memref.isWhole_whole _) rW (Memref.isWhole_whole _)
            accW (Memref.isWhole_whole _) ib0W (Memref.isWhole_whole _) ib1W (Memref.isWhole_whole _)
            db0W (Memref.isWhole_whole _) db1W (Memref.isWhole_whole _) cc0_scratch5 cc0_scratch6 cc0_scratch7 cc0_scratch8 cc0_scoped0
            0#32 k0_t4 ())
          fun _ => iprop((∃ g' : Buf (Elt F) ((V d (cV L) (jV L)).loc cc0_scratch0),
              ((V d (cV L) (jV L)).loc cc0_scratch0 ↦{fullShare} g') ∗ ⌜AccInv (tgtOf Oc hin) (dtOf X ch) (zeroAcc (F := F)) (32 * gch + k0_t4.val + 1) 0 g'⌝)
            ∗ ((V d (cV L) (jV L)).loc cc0_scratch2 ↦{fullShare} Ci)
            ∗ ((V d (cV L) (jV L)).loc cc0_scratch4 ↦{fullShare} Cd)) := by
  have hC : ∀ j, (Ci j).toNat < 65536 := chunk_inb hCi hin hgch
  have hq : 32 * gch + k0_t4.val < 4096 := by have := k0_t4.isLt; have : k0_t4_loop.trips = 32 := rfl; omega
  unfold k0_t4_body
  simp only [k0_part6_eq_skeleton, k0_part7_eq_skeleton, k0_part8_eq_skeleton, k0_part9_eq_skeleton, k0_part10_eq_skeleton]
  unfold k0_part6_skel k0_part7_skel k0_part8_skel k0_part9_skel k0_part10_skel
  simp only [SparseCore.vectorStoreIdx_bind (V d (cV L) (jV L))]
  iintro ⟨Hacc, Hi, Hd⟩
  ihave Hacc' := (Entails.of_eq (show (_ : sProp 𝕄) = ((accW).view.loc (V d (cV L) (jV L)) ↦{fullShare} g) from rfl)) $$ Hacc
  ihave Hi' := (Entails.of_eq (show (_ : sProp 𝕄) = ((ib1W).view.loc (V d (cV L) (jV L)) ↦{fullShare} Ci) from rfl)) $$ Hi
  ihave Hd' := (Entails.of_eq (show (_ : sProp 𝕄) = ((db1W).view.loc (V d (cV L) (jV L)) ↦{fullShare} Cd) from rfl)) $$ Hd
  sl_exec (disch := (intro a x; obtain rfl : a = 0 := Subsingleton.elim _ _; exact hC _))
  sl_step
  isplitl [Hacc']
  · iexists _
    isplitl [Hacc']
    · iexact Hacc'
    · ipureintro
      refine AccInv.next ?_
      rw [writes_whole_cons]
      refine AccInv.row ?_ (by decide : 26 < 27) hq _ _ _ (idx_piece1 d L hCi hgch k0_t4 (k0_off61 k0_t4) _ ⟨26, by decide⟩ (k0_off61_eq k0_t4)) (dat_piece1 d L hCd hgch k0_t4 (k0_off61 k0_t4) _ ⟨26, by decide⟩ (k0_off61_eq k0_t4))
      show AccInv _ _ _ _ 26 (View.readCov _ (⟨Rect.whole S65536, storeIdx _ _ _ _ _ _⟩ :: _) (LoadRect.whole S65536))
      rw [readCov_whole_cons]
      refine AccInv.row ?_ (by decide : 25 < 27) hq _ _ _ (idx_piece1 d L hCi hgch k0_t4 (k0_off60 k0_t4) _ ⟨25, by decide⟩ (k0_off60_eq k0_t4)) (dat_piece1 d L hCd hgch k0_t4 (k0_off60 k0_t4) _ ⟨25, by decide⟩ (k0_off60_eq k0_t4))
      show AccInv _ _ _ _ 25 (View.readCov _ (⟨Rect.whole S65536, storeIdx _ _ _ _ _ _⟩ :: _) (LoadRect.whole S65536))
      rw [readCov_whole_cons]
      refine AccInv.row ?_ (by decide : 24 < 27) hq _ _ _ (idx_piece1 d L hCi hgch k0_t4 (k0_off59 k0_t4) _ ⟨24, by decide⟩ (k0_off59_eq k0_t4)) (dat_piece1 d L hCd hgch k0_t4 (k0_off59 k0_t4) _ ⟨24, by decide⟩ (k0_off59_eq k0_t4))
      show AccInv _ _ _ _ 24 (View.readCov _ (⟨Rect.whole S65536, storeIdx _ _ _ _ _ _⟩ :: _) (LoadRect.whole S65536))
      rw [readCov_whole_cons]
      refine AccInv.row ?_ (by decide : 23 < 27) hq _ _ _ (idx_piece1 d L hCi hgch k0_t4 (k0_off58 k0_t4) _ ⟨23, by decide⟩ (k0_off58_eq k0_t4)) (dat_piece1 d L hCd hgch k0_t4 (k0_off58 k0_t4) _ ⟨23, by decide⟩ (k0_off58_eq k0_t4))
      show AccInv _ _ _ _ 23 (View.readCov _ (⟨Rect.whole S65536, storeIdx _ _ _ _ _ _⟩ :: _) (LoadRect.whole S65536))
      rw [readCov_whole_cons]
      refine AccInv.row ?_ (by decide : 22 < 27) hq _ _ _ (idx_piece1 d L hCi hgch k0_t4 (k0_off57 k0_t4) _ ⟨22, by decide⟩ (k0_off57_eq k0_t4)) (dat_piece1 d L hCd hgch k0_t4 (k0_off57 k0_t4) _ ⟨22, by decide⟩ (k0_off57_eq k0_t4))
      show AccInv _ _ _ _ 22 (View.readCov _ (⟨Rect.whole S65536, storeIdx _ _ _ _ _ _⟩ :: _) (LoadRect.whole S65536))
      rw [readCov_whole_cons]
      refine AccInv.row ?_ (by decide : 21 < 27) hq _ _ _ (idx_piece1 d L hCi hgch k0_t4 (k0_off56 k0_t4) _ ⟨21, by decide⟩ (k0_off56_eq k0_t4)) (dat_piece1 d L hCd hgch k0_t4 (k0_off56 k0_t4) _ ⟨21, by decide⟩ (k0_off56_eq k0_t4))
      show AccInv _ _ _ _ 21 (View.readCov _ (⟨Rect.whole S65536, storeIdx _ _ _ _ _ _⟩ :: _) (LoadRect.whole S65536))
      rw [readCov_whole_cons]
      refine AccInv.row ?_ (by decide : 20 < 27) hq _ _ _ (idx_piece1 d L hCi hgch k0_t4 (k0_off55 k0_t4) _ ⟨20, by decide⟩ (k0_off55_eq k0_t4)) (dat_piece1 d L hCd hgch k0_t4 (k0_off55 k0_t4) _ ⟨20, by decide⟩ (k0_off55_eq k0_t4))
      show AccInv _ _ _ _ 20 (View.readCov _ (⟨Rect.whole S65536, storeIdx _ _ _ _ _ _⟩ :: _) (LoadRect.whole S65536))
      rw [readCov_whole_cons]
      refine AccInv.row ?_ (by decide : 19 < 27) hq _ _ _ (idx_piece1 d L hCi hgch k0_t4 (k0_off54 k0_t4) _ ⟨19, by decide⟩ (k0_off54_eq k0_t4)) (dat_piece1 d L hCd hgch k0_t4 (k0_off54 k0_t4) _ ⟨19, by decide⟩ (k0_off54_eq k0_t4))
      show AccInv _ _ _ _ 19 (View.readCov _ (⟨Rect.whole S65536, storeIdx _ _ _ _ _ _⟩ :: _) (LoadRect.whole S65536))
      rw [readCov_whole_cons]
      refine AccInv.row ?_ (by decide : 18 < 27) hq _ _ _ (idx_piece1 d L hCi hgch k0_t4 (k0_off53 k0_t4) _ ⟨18, by decide⟩ (k0_off53_eq k0_t4)) (dat_piece1 d L hCd hgch k0_t4 (k0_off53 k0_t4) _ ⟨18, by decide⟩ (k0_off53_eq k0_t4))
      show AccInv _ _ _ _ 18 (View.readCov _ (⟨Rect.whole S65536, storeIdx _ _ _ _ _ _⟩ :: _) (LoadRect.whole S65536))
      rw [readCov_whole_cons]
      refine AccInv.row ?_ (by decide : 17 < 27) hq _ _ _ (idx_piece1 d L hCi hgch k0_t4 (k0_off52 k0_t4) _ ⟨17, by decide⟩ (k0_off52_eq k0_t4)) (dat_piece1 d L hCd hgch k0_t4 (k0_off52 k0_t4) _ ⟨17, by decide⟩ (k0_off52_eq k0_t4))
      show AccInv _ _ _ _ 17 (View.readCov _ (⟨Rect.whole S65536, storeIdx _ _ _ _ _ _⟩ :: _) (LoadRect.whole S65536))
      rw [readCov_whole_cons]
      refine AccInv.row ?_ (by decide : 16 < 27) hq _ _ _ (idx_piece1 d L hCi hgch k0_t4 (k0_off51 k0_t4) _ ⟨16, by decide⟩ (k0_off51_eq k0_t4)) (dat_piece1 d L hCd hgch k0_t4 (k0_off51 k0_t4) _ ⟨16, by decide⟩ (k0_off51_eq k0_t4))
      show AccInv _ _ _ _ 16 (View.readCov _ (⟨Rect.whole S65536, storeIdx _ _ _ _ _ _⟩ :: _) (LoadRect.whole S65536))
      rw [readCov_whole_cons]
      refine AccInv.row ?_ (by decide : 15 < 27) hq _ _ _ (idx_piece1 d L hCi hgch k0_t4 (k0_off50 k0_t4) _ ⟨15, by decide⟩ (k0_off50_eq k0_t4)) (dat_piece1 d L hCd hgch k0_t4 (k0_off50 k0_t4) _ ⟨15, by decide⟩ (k0_off50_eq k0_t4))
      show AccInv _ _ _ _ 15 (View.readCov _ (⟨Rect.whole S65536, storeIdx _ _ _ _ _ _⟩ :: _) (LoadRect.whole S65536))
      rw [readCov_whole_cons]
      refine AccInv.row ?_ (by decide : 14 < 27) hq _ _ _ (idx_piece1 d L hCi hgch k0_t4 (k0_off49 k0_t4) _ ⟨14, by decide⟩ (k0_off49_eq k0_t4)) (dat_piece1 d L hCd hgch k0_t4 (k0_off49 k0_t4) _ ⟨14, by decide⟩ (k0_off49_eq k0_t4))
      show AccInv _ _ _ _ 14 (View.readCov _ (⟨Rect.whole S65536, storeIdx _ _ _ _ _ _⟩ :: _) (LoadRect.whole S65536))
      rw [readCov_whole_cons]
      refine AccInv.row ?_ (by decide : 13 < 27) hq _ _ _ (idx_piece1 d L hCi hgch k0_t4 (k0_off48 k0_t4) _ ⟨13, by decide⟩ (k0_off48_eq k0_t4)) (dat_piece1 d L hCd hgch k0_t4 (k0_off48 k0_t4) _ ⟨13, by decide⟩ (k0_off48_eq k0_t4))
      show AccInv _ _ _ _ 13 (View.readCov _ (⟨Rect.whole S65536, storeIdx _ _ _ _ _ _⟩ :: _) (LoadRect.whole S65536))
      rw [readCov_whole_cons]
      refine AccInv.row ?_ (by decide : 12 < 27) hq _ _ _ (idx_piece1 d L hCi hgch k0_t4 (k0_off47 k0_t4) _ ⟨12, by decide⟩ (k0_off47_eq k0_t4)) (dat_piece1 d L hCd hgch k0_t4 (k0_off47 k0_t4) _ ⟨12, by decide⟩ (k0_off47_eq k0_t4))
      show AccInv _ _ _ _ 12 (View.readCov _ (⟨Rect.whole S65536, storeIdx _ _ _ _ _ _⟩ :: _) (LoadRect.whole S65536))
      rw [readCov_whole_cons]
      refine AccInv.row ?_ (by decide : 11 < 27) hq _ _ _ (idx_piece1 d L hCi hgch k0_t4 (k0_off46 k0_t4) _ ⟨11, by decide⟩ (k0_off46_eq k0_t4)) (dat_piece1 d L hCd hgch k0_t4 (k0_off46 k0_t4) _ ⟨11, by decide⟩ (k0_off46_eq k0_t4))
      show AccInv _ _ _ _ 11 (View.readCov _ (⟨Rect.whole S65536, storeIdx _ _ _ _ _ _⟩ :: _) (LoadRect.whole S65536))
      rw [readCov_whole_cons]
      refine AccInv.row ?_ (by decide : 10 < 27) hq _ _ _ (idx_piece1 d L hCi hgch k0_t4 (k0_off45 k0_t4) _ ⟨10, by decide⟩ (k0_off45_eq k0_t4)) (dat_piece1 d L hCd hgch k0_t4 (k0_off45 k0_t4) _ ⟨10, by decide⟩ (k0_off45_eq k0_t4))
      show AccInv _ _ _ _ 10 (View.readCov _ (⟨Rect.whole S65536, storeIdx _ _ _ _ _ _⟩ :: _) (LoadRect.whole S65536))
      rw [readCov_whole_cons]
      refine AccInv.row ?_ (by decide : 9 < 27) hq _ _ _ (idx_piece1 d L hCi hgch k0_t4 (k0_off44 k0_t4) _ ⟨9, by decide⟩ (k0_off44_eq k0_t4)) (dat_piece1 d L hCd hgch k0_t4 (k0_off44 k0_t4) _ ⟨9, by decide⟩ (k0_off44_eq k0_t4))
      show AccInv _ _ _ _ 9 (View.readCov _ (⟨Rect.whole S65536, storeIdx _ _ _ _ _ _⟩ :: _) (LoadRect.whole S65536))
      rw [readCov_whole_cons]
      refine AccInv.row ?_ (by decide : 8 < 27) hq _ _ _ (idx_piece1 d L hCi hgch k0_t4 (k0_off43 k0_t4) _ ⟨8, by decide⟩ (k0_off43_eq k0_t4)) (dat_piece1 d L hCd hgch k0_t4 (k0_off43 k0_t4) _ ⟨8, by decide⟩ (k0_off43_eq k0_t4))
      show AccInv _ _ _ _ 8 (View.readCov _ (⟨Rect.whole S65536, storeIdx _ _ _ _ _ _⟩ :: _) (LoadRect.whole S65536))
      rw [readCov_whole_cons]
      refine AccInv.row ?_ (by decide : 7 < 27) hq _ _ _ (idx_piece1 d L hCi hgch k0_t4 (k0_off42 k0_t4) _ ⟨7, by decide⟩ (k0_off42_eq k0_t4)) (dat_piece1 d L hCd hgch k0_t4 (k0_off42 k0_t4) _ ⟨7, by decide⟩ (k0_off42_eq k0_t4))
      show AccInv _ _ _ _ 7 (View.readCov _ (⟨Rect.whole S65536, storeIdx _ _ _ _ _ _⟩ :: _) (LoadRect.whole S65536))
      rw [readCov_whole_cons]
      refine AccInv.row ?_ (by decide : 6 < 27) hq _ _ _ (idx_piece1 d L hCi hgch k0_t4 (k0_off41 k0_t4) _ ⟨6, by decide⟩ (k0_off41_eq k0_t4)) (dat_piece1 d L hCd hgch k0_t4 (k0_off41 k0_t4) _ ⟨6, by decide⟩ (k0_off41_eq k0_t4))
      show AccInv _ _ _ _ 6 (View.readCov _ (⟨Rect.whole S65536, storeIdx _ _ _ _ _ _⟩ :: _) (LoadRect.whole S65536))
      rw [readCov_whole_cons]
      refine AccInv.row ?_ (by decide : 5 < 27) hq _ _ _ (idx_piece1 d L hCi hgch k0_t4 (k0_off40 k0_t4) _ ⟨5, by decide⟩ (k0_off40_eq k0_t4)) (dat_piece1 d L hCd hgch k0_t4 (k0_off40 k0_t4) _ ⟨5, by decide⟩ (k0_off40_eq k0_t4))
      show AccInv _ _ _ _ 5 (View.readCov _ (⟨Rect.whole S65536, storeIdx _ _ _ _ _ _⟩ :: _) (LoadRect.whole S65536))
      rw [readCov_whole_cons]
      refine AccInv.row ?_ (by decide : 4 < 27) hq _ _ _ (idx_piece1 d L hCi hgch k0_t4 (k0_off39 k0_t4) _ ⟨4, by decide⟩ (k0_off39_eq k0_t4)) (dat_piece1 d L hCd hgch k0_t4 (k0_off39 k0_t4) _ ⟨4, by decide⟩ (k0_off39_eq k0_t4))
      show AccInv _ _ _ _ 4 (View.readCov _ (⟨Rect.whole S65536, storeIdx _ _ _ _ _ _⟩ :: _) (LoadRect.whole S65536))
      rw [readCov_whole_cons]
      refine AccInv.row ?_ (by decide : 3 < 27) hq _ _ _ (idx_piece1 d L hCi hgch k0_t4 (k0_off38 k0_t4) _ ⟨3, by decide⟩ (k0_off38_eq k0_t4)) (dat_piece1 d L hCd hgch k0_t4 (k0_off38 k0_t4) _ ⟨3, by decide⟩ (k0_off38_eq k0_t4))
      show AccInv _ _ _ _ 3 (View.readCov _ (⟨Rect.whole S65536, storeIdx _ _ _ _ _ _⟩ :: _) (LoadRect.whole S65536))
      rw [readCov_whole_cons]
      refine AccInv.row ?_ (by decide : 2 < 27) hq _ _ _ (idx_piece1 d L hCi hgch k0_t4 (k0_off37 k0_t4) _ ⟨2, by decide⟩ (k0_off37_eq k0_t4)) (dat_piece1 d L hCd hgch k0_t4 (k0_off37 k0_t4) _ ⟨2, by decide⟩ (k0_off37_eq k0_t4))
      show AccInv _ _ _ _ 2 (View.readCov _ (⟨Rect.whole S65536, storeIdx _ _ _ _ _ _⟩ :: _) (LoadRect.whole S65536))
      rw [readCov_whole_cons]
      refine AccInv.row ?_ (by decide : 1 < 27) hq _ _ _ (idx_piece1 d L hCi hgch k0_t4 (k0_off36 k0_t4) _ ⟨1, by decide⟩ (k0_off36_eq k0_t4)) (dat_piece1 d L hCd hgch k0_t4 (k0_off36 k0_t4) _ ⟨1, by decide⟩ (k0_off36_eq k0_t4))
      show AccInv _ _ _ _ 1 (View.readCov _ (⟨Rect.whole S65536, storeIdx _ _ _ _ _ _⟩ :: _) (LoadRect.whole S65536))
      rw [readCov_whole_cons]
      refine AccInv.row ?_ (by decide : 0 < 27) hq _ _ _ (idx_piece1 d L hCi hgch k0_t4 (k0_off35 k0_t4) _ ⟨0, by decide⟩ (k0_off35_eq k0_t4)) (dat_piece1 d L hCd hgch k0_t4 (k0_off35 k0_t4) _ ⟨0, by decide⟩ (k0_off35_eq k0_t4))

      rw [show View.readAt (Elt F) (accW).view (LoadRect.whole S65536) g = g from Memref.readAt_whole (Elt F) (cc0_scratch0 : Ref sig .scVector) g]
      exact hA
  isplitl [Hi']
  · iexact Hi'
  · iexact Hd'

end TileSec

end Cert.KernelIdeal.Tile

end
-- ==== Proof.ViewsKI.lean ====
/-
  The views the kernel reads and writes through, as functions of the chunk number.

  A chunk is 512 consecutive columns.  The slices of the transposed table and of one channel's data that the program
  forms are the canonical slices at a chunk number; what such a slice reads off the array's contents is the array at the
  chunk's columns; copied whole into a staging buffer it leaves that chunk there; and the sixteen-entry fills of the
  accumulator, block after block from the first, leave the zero word at every entry.
-/
import proofs.«204569_g29265907155619_cont_9to1_682_25_alg».proof.Proof.Gen.KernelIdeal
import proofs.«204569_g29265907155619_cont_9to1_682_25_alg».proof.Proof.Gen.KernelIdeal.Skeleton
import proofs.«204569_g29265907155619_cont_9to1_682_25_alg».proof.Proof.AccSteps
import Idealize.ShloMosaic.Lib.Writes

noncomputable section

namespace Cert.KernelIdeal.Views

open Cert.KernelIdeal Cert.KernelIdeal.Gen Idealize.ShloMosaic Idealize.ShloMosaic.ValueIdx Cert.ColSum

variable {F : FTy → Type} [FloatOps F]

local notation "xW" => (Memref.whole Cert.KernelIdeal.main_v0_scv : Memref Cert.KernelIdeal.sig Kind.scVector Space.hbm Cert.KernelIdeal.S27x32x65536 EltTy.f32)
local notation "oW" => (Memref.whole Cert.KernelIdeal.main_v1_scv : Memref Cert.KernelIdeal.sig Kind.scVector Space.hbm Cert.KernelIdeal.S27x65536 EltTy.i32)
local notation "accW" => (Memref.whole Cert.KernelIdeal.cc0_scratch0 : Memref Cert.KernelIdeal.sig Kind.scVector Space.vmem Cert.KernelIdeal.S65536 EltTy.f32)
local notation "ib0W" => (Memref.whole Cert.KernelIdeal.cc0_scratch1 : Memref Cert.KernelIdeal.sig Kind.scVector Space.vmem Cert.KernelIdeal.S27x512 EltTy.i32)
local notation "ib1W" => (Memref.whole Cert.KernelIdeal.cc0_scratch2 : Memref Cert.KernelIdeal.sig Kind.scVector Space.vmem Cert.KernelIdeal.S27x512 EltTy.i32)
local notation "db0W" => (Memref.whole Cert.KernelIdeal.cc0_scratch3 : Memref Cert.KernelIdeal.sig Kind.scVector Space.vmem Cert.KernelIdeal.S27x512 EltTy.f32)
local notation "db1W" => (Memref.whole Cert.KernelIdeal.cc0_scratch4 : Memref Cert.KernelIdeal.sig Kind.scVector Space.vmem Cert.KernelIdeal.S27x512 EltTy.f32)

/-! ## The canonical slices of a chunk -/

/-- Chunk g of the table lies inside it. -/
theorem oct_inb (g : Nat) (hg : g < 128) :
    ∀ a, (![0, 512 * g] : Fin 2 → Nat) a + S27x512.size a ≤ S27x65536.size a := by
  intro a
  match a with
  | ⟨0, _⟩ => show 0 + 27 ≤ 27; omega
  | ⟨1, _⟩ => show 512 * g + 512 ≤ 65536; omega

/-- The channel of a processor at grid coordinates L: twice the subcore number plus the core number, below 32. -/
theorem chan_lt (L : grid0.Coords) : 2 * (L 1).val + (L 0).val < 32 := by
  have h1 : (L 1).val < 16 := (L 1).isLt
  have h0 : (L 0).val < 2 := (L 0).isLt
  omega

/-- Chunk g of the channel's data lies inside the data. -/
theorem dat_inb (L : grid0.Coords) (g : Nat) (hg : g < 128) :
    ∀ a, (![0, 2 * (L 1).val + (L 0).val, 512 * g] : Fin 3 → Nat) a + S27x1x512.size a ≤ S27x32x65536.size a := by
  have hc := chan_lt L
  intro a
  match a with
  | ⟨0, _⟩ => show 0 + 27 ≤ 27; omega
  | ⟨1, _⟩ => show 2 * (L 1).val + (L 0).val + 1 ≤ 32; omega
  | ⟨2, _⟩ => show 512 * g + 512 ≤ 65536; omega

/-- Chunk g of the transposed table: all 27 rows, columns 512·g … 512·g + 511. -/
abbrev octSlice (g : Nat) (hg : g < 128) : Memref sig .scVector .hbm S27x512 .i32 :=
  (oW).slice (Rect.unit (s := S27x65536) ![0, 512 * g] S27x512.size (oct_inb g hg)) (fun _ => rfl)

/-- Chunk g of the data of the channel of the processor at L: all 27 rows of that channel, columns 512·g … -/
abbrev datSlice (L : grid0.Coords) (g : Nat) (hg : g < 128) : Memref sig .scVector .hbm S27x512 .f32 :=
  ((xW).slice (Rect.unit (s := S27x32x65536) ![0, 2 * (L 1).val + (L 0).val, 512 * g] S27x1x512.size
    (dat_inb L g hg)) (fun _ => rfl)).squeeze S27x512 squeezes_S27x1x512_S27x512

/-- Slices of the table at equal offsets are equal. -/
theorem oct_congr {off off' : Fin 2 → Nat} (h : off = off')
    (p : ∀ a, off a + S27x512.size a ≤ S27x65536.size a) (p' : ∀ a, off' a + S27x512.size a ≤ S27x65536.size a) :
    (oW).slice (Rect.unit (s := S27x65536) off S27x512.size p) (fun _ => rfl)
      = (oW).slice (Rect.unit (s := S27x65536) off' S27x512.size p') (fun _ => rfl) := by
  subst h; rfl

/-- Squeezed slices of the data at equal offsets are equal. -/
theorem dat_congr {off off' : Fin 3 → Nat} (h : off = off')
    (p : ∀ a, off a + S27x1x512.size a ≤ S27x32x65536.size a)
    (p' : ∀ a, off' a + S27x1x512.size a ≤ S27x32x65536.size a) :
    ((xW).slice (Rect.unit (s := S27x32x65536) off S27x1x512.size p) (fun _ => rfl)).squeeze S27x512
        squeezes_S27x1x512_S27x512
      = ((xW).slice (Rect.unit (s := S27x32x65536) off' S27x1x512.size p') (fun _ => rfl)).squeeze S27x512
        squeezes_S27x1x512_S27x512 := by
  subst h; rfl

/-- The first guard holds exactly while chunk 2·t + 2 exists. -/
theorem cond1_lt : ∀ t : Fin k0_t2_loop.trips, k0_cond1 t = 1#1 → 2 * t.val + 2 < 128 := by decide +kernel

/-- The second guard holds exactly while chunk 2·t + 3 exists. -/
theorem cond2_lt : ∀ t : Fin k0_t2_loop.trips, k0_cond2 t = 1#1 → 2 * t.val + 3 < 128 := by decide +kernel

/-! ## The program's slices are the canonical ones -/

theorem oct_0 :
    (oW).slice (Rect.unit (s := S27x65536) ![0, 0] S27x512.size inb_S27x65536_S27x512_0_0) (fun _ => rfl)
      = octSlice 0 (by omega) :=
  oct_congr (by rfl) _ _

theorem oct_1 :
    (oW).slice (Rect.unit (s := S27x65536) ![0, 512] S27x512.size inb_S27x65536_S27x512_0_512) (fun _ => rfl)
      = octSlice 1 (by omega) :=
  oct_congr (by rfl) _ _

theorem oct_33 (t : Fin k0_t2_loop.trips) (h : k0_cond1 t = 1#1) :
    (oW).slice (Rect.unit (s := S27x65536) (k0_off33 t) S27x512.size (k0_off33_inb t h)) (fun _ => rfl)
      = octSlice (2 * t.val + 2) (cond1_lt t h) :=
  oct_congr ((k0_off33_eq t).trans (by rw [show 1024 * t.val + 1024 = 512 * (2 * t.val + 2) by omega])) _ _

theorem oct_62 (t : Fin k0_t2_loop.trips) (h : k0_cond2 t = 1#1) :
    (oW).slice (Rect.unit (s := S27x65536) (k0_off62 t) S27x512.size (k0_off62_inb t h)) (fun _ => rfl)
      = octSlice (2 * t.val + 3) (cond2_lt t h) :=
  oct_congr ((k0_off62_eq t).trans (by rw [show 1024 * t.val + 1536 = 512 * (2 * t.val + 3) by omega])) _ _

theorem dat_1 (L : grid0.Coords) :
    ((xW).slice (Rect.unit (s := S27x32x65536) (k0_off1 L) S27x1x512.size (k0_off1_inb L)) (fun _ => rfl)).squeeze
        S27x512 squeezes_S27x1x512_S27x512 = datSlice L 0 (by omega) :=
  dat_congr ((k0_off1_eq L).trans (by rfl)) _ _

theorem dat_2 (L : grid0.Coords) :
    ((xW).slice (Rect.unit (s := S27x32x65536) (k0_off2 L) S27x1x512.size (k0_off2_inb L)) (fun _ => rfl)).squeeze
        S27x512 squeezes_S27x1x512_S27x512 = datSlice L 1 (by omega) :=
  dat_congr ((k0_off2_eq L).trans (by rfl)) _ _

theorem dat_34 (L : grid0.Coords) (t : Fin k0_t2_loop.trips) (h : k0_cond1 t = 1#1) :
    ((xW).slice (Rect.unit (s := S27x32x65536) (k0_off34 L t) S27x1x512.size (k0_off34_inb L t h))
        (fun _ => rfl)).squeeze S27x512 squeezes_S27x1x512_S27x512 = datSlice L (2 * t.val + 2) (cond1_lt t h) :=
  dat_congr ((k0_off34_eq L t).trans (by rw [show 1024 * t.val + 1024 = 512 * (2 * t.val + 2) by omega])) _ _

theorem dat_63 (L : grid0.Coords) (t : Fin k0_t2_loop.trips) (h : k0_cond2 t = 1#1) :
    ((xW).slice (Rect.unit (s := S27x32x65536) (k0_off63 L t) S27x1x512.size (k0_off63_inb L t h))
        (fun _ => rfl)).squeeze S27x512 squeezes_S27x1x512_S27x512 = datSlice L (2 * t.val + 3) (cond2_lt t h) :=
  dat_congr ((k0_off63_eq L t).trans (by rw [show 1024 * t.val + 1536 = 512 * (2 * t.val + 3) by omega])) _ _

/-! ## What the canonical slices read -/

/-- Chunk g of the table read at (r, c) is the table at row r, column 512·g + c. -/
theorem octSlice_read (g : Nat) (hg : g < 128) (Oc : (⟨S27x65536, .i32⟩ : BufTy).Contents (Elt F))
    (r : Fin 27) (c : Fin 512) :
    (octSlice g hg).view.read (Elt F) Oc (ix2 r c) = Oc (ix2 r ⟨512 * g + c.val, by omega⟩) := by
  show Oc ((Rect.unit (s := S27x65536) ![0, 512 * g] S27x512.size (oct_inb g hg)).emb (ix2 r c)) = _
  congr 1
  funext a
  match a with
  | ⟨0, _⟩ => exact Fin.ext (by show 0 + 1 * r.val = r.val; omega)
  | ⟨1, _⟩ => exact Fin.ext (by show 512 * g + 1 * c.val = 512 * g + c.val; omega)

/-- Chunk g of the channel's data read at (r, c) is the data at row r, that channel, column 512·g + c. -/
theorem datSlice_read (L : grid0.Coords) (g : Nat) (hg : g < 128)
    (X : (⟨S27x32x65536, .f32⟩ : BufTy).Contents (Elt F)) (r : Fin 27) (c : Fin 512) :
    (datSlice L g hg).view.read (Elt F) X (ix2 r c)
      = X (ix3 r ⟨2 * (L 1).val + (L 0).val, chan_lt L⟩ ⟨512 * g + c.val, by omega⟩) := by
  have hre : Shape.reshapeEquiv (s := (⟨3, ![27, 1, 512]⟩ : Shape)) (s' := S27x512)
      (squeezes_S27x1x512_S27x512).numel_eq (ix2 r c) = ix3 r (0 : Fin 1) c :=
    Shape.reshapeEquiv_eq_of_rowMajor _ (by
      rw [Shape.rowMajor_val_three, Shape.rowMajor_val_two]
      show (r.val * 1 + 0) * 512 + c.val = r.val * 512 + c.val
      omega)
  show X ((Rect.unit (s := S27x32x65536) ![0, 2 * (L 1).val + (L 0).val, 512 * g] S27x1x512.size
    (dat_inb L g hg)).emb (Shape.reshapeEquiv (squeezes_S27x1x512_S27x512).numel_eq (ix2 r c))) = _
  rw [hre]
  congr 1
  funext a
  match a with
  | ⟨0, _⟩ => exact Fin.ext (by show 0 + 1 * r.val = r.val; omega)
  | ⟨1, _⟩ => exact Fin.ext (by show 2 * (L 1).val + (L 0).val + 1 * 0 = 2 * (L 1).val + (L 0).val; omega)
  | ⟨2, _⟩ => exact Fin.ext (by show 512 * g + 1 * c.val = 512 * g + c.val; omega)

/-! ## What lands in the staging buffers -/

/-- Chunk g of the table copied whole into the first table staging buffer leaves chunk g there. -/
theorem idxChunk_ib0 (g : Nat) (hg : g < 128) (Oc : (⟨S27x65536, .i32⟩ : BufTy).Contents (Elt F))
    (f : (⟨S27x512, .i32⟩ : BufTy).Contents (Elt F)) :
    IdxChunk Oc g (View.write (Elt F) (ib0W).view f
      (ReadAs.same.apply ((octSlice g hg).view.read (Elt F) Oc)) Finset.univ) := by
  intro r c h
  exact (congrFun (View.write_whole_univ (Val := Elt F) cc0_scratch1 f
    ((octSlice g hg).view.read (Elt F) Oc)) (ix2 r c)).trans (octSlice_read g hg Oc r c)

/-- The same into the second table staging buffer. -/
theorem idxChunk_ib1 (g : Nat) (hg : g < 128) (Oc : (⟨S27x65536, .i32⟩ : BufTy).Contents (Elt F))
    (f : (⟨S27x512, .i32⟩ : BufTy).Contents (Elt F)) :
    IdxChunk Oc g (View.write (Elt F) (ib1W).view f
      (ReadAs.same.apply ((octSlice g hg).view.read (Elt F) Oc)) Finset.univ) := by
  intro r c h
  exact (congrFun (View.write_whole_univ (Val := Elt F) cc0_scratch2 f
    ((octSlice g hg).view.read (Elt F) Oc)) (ix2 r c)).trans (octSlice_read g hg Oc r c)

/-- Chunk g of the channel's data copied whole into the first data staging buffer leaves chunk g there. -/
theorem datChunk_db0 (L : grid0.Coords) (g : Nat) (hg : g < 128)
    (X : (⟨S27x32x65536, .f32⟩ : BufTy).Contents (Elt F)) (f : (⟨S27x512, .f32⟩ : BufTy).Contents (Elt F)) :
    DatChunk X ⟨2 * (L 1).val + (L 0).val, chan_lt L⟩ g (View.write (Elt F) (db0W).view f
      (ReadAs.same.apply ((datSlice L g hg).view.read (Elt F) X)) Finset.univ) := by
  intro r c h
  exact (congrFun (View.write_whole_univ (Val := Elt F) cc0_scratch3 f
    ((datSlice L g hg).view.read (Elt F) X)) (ix2 r c)).trans (datSlice_read L g hg X r c)

/-- The same into the second data staging buffer. -/
theorem datChunk_db1 (L : grid0.Coords) (g : Nat) (hg : g < 128)
    (X : (⟨S27x32x65536, .f32⟩ : BufTy).Contents (Elt F)) (f : (⟨S27x512, .f32⟩ : BufTy).Contents (Elt F)) :
    DatChunk X ⟨2 * (L 1).val + (L 0).val, chan_lt L⟩ g (View.write (Elt F) (db1W).view f
      (ReadAs.same.apply ((datSlice L g hg).view.read (Elt F) X)) Finset.univ) := by
  intro r c h
  exact (congrFun (View.write_whole_univ (Val := Elt F) cc0_scratch4 f
    ((datSlice L g hg).view.read (Elt F) X)) (ix2 r c)).trans (datSlice_read L g hg X r c)

/-- A staged chunk of a table whose words are node numbers holds node numbers. -/
theorem IdxChunk.inRange {Oc : IVec S27x65536 32} {g : Nat} {C : IVec S27x512 32} (hC : IdxChunk Oc g C)
    (hg : g < 128) (hO : ∀ j, (Oc j).toNat < 65536) : ∀ j, (C j).toNat < 65536 := by
  intro j
  obtain ⟨a, b, rfl⟩ : ∃ (a : Fin 27) (b : Fin 512), j = ix2 a b := ⟨j 0, j 1, eq_ix2 j⟩
  rw [hC a b (by omega)]
  exact hO _

/-! ## The zero-fill of the accumulator -/

/-- One fill writes the zero word at the sixteen entries of block k: if the entries of the earlier blocks hold the zero
    word before it, the entries of the blocks up to k do after it. -/
theorem zero_step (g0 : (⟨S65536, .f32⟩ : BufTy).Contents (Elt F)) (k : Fin k0_t1_loop.trips)
    (h : ∀ j : S65536.Idx, (j 0).val < 16 * k.val → g0 j = (Scalar.ofBits .f32 0x00000000#32 : F .f32)) :
    ∀ j : S65536.Idx, (j 0).val < 16 * (k.val + 1) →
      (accW).view.writes (Elt F) g0
        [⟨Rect.unit (s := S65536) (k0_off3 k) S16.size (k0_off3_inb k), k0_pay51 (F := F)⟩] j
        = (Scalar.ofBits .f32 0x00000000#32 : F .f32) := by
  intro j hj
  have h0 : k0_off3 k 0 = 16 * k.val := by rw [k0_off3_eq]; rfl
  rw [View.writes_singleton]
  by_cases hlt : (j 0).val < 16 * k.val
  · rw [View.write_of_not_mem]
    · exact h j hlt
    · rw [View.setOn_univ, View.set_slice_whole, Rect.mem_set_unit]
      intro hall
      have := (hall 0).1
      omega
  · have hx : (j 0).val - 16 * k.val < 16 := by omega
    have hemb : ((accW).view.slice (Rect.unit (s := S65536) (k0_off3 k) S16.size (k0_off3_inb k))).emb
        (Shape.ofLane (d := S16.size) ⟨(j 0).val - 16 * k.val, hx⟩) = j := by
      funext a
      match a with
      | ⟨0, _⟩ =>
        apply Fin.ext
        show k0_off3 k 0 + 1 * ((j 0).val - 16 * k.val) = (j 0).val
        omega
    rw [← hemb, View.write_emb_of_mem _ _ (Finset.mem_univ _)]
    rfl

/-- An accumulator holding the zero word at every entry is the zero accumulator. -/
theorem eq_zeroAcc (g0 : (⟨S65536, .f32⟩ : BufTy).Contents (Elt F))
    (h : ∀ j : S65536.Idx, g0 j = (Scalar.ofBits .f32 0x00000000#32 : F .f32)) : g0 = zeroAcc (F := F) :=
  funext h

/-- After all 4096 fills every entry holds the zero word. -/
theorem eq_zeroAcc_of_filled (g0 : (⟨S65536, .f32⟩ : BufTy).Contents (Elt F))
    (h : ∀ j : S65536.Idx, (j 0).val < 16 * 4096 → g0 j = (Scalar.ofBits .f32 0x00000000#32 : F .f32)) :
    g0 = zeroAcc (F := F) :=
  funext fun j => h j (by have : (j 0).val < 65536 := (j 0).isLt; omega)

end Cert.KernelIdeal.Views

end
-- ==== Proof.ViewsOutKI.lean ====
/-
  The write-out of the accumulator to the processor's row of the result.

  The processor at grid coordinates L owns row 2·L₁ + L₀ of the result: the program's slice of that row, squeezed to its
  65536 entries, places entry n at (2·L₁ + L₀, n); the accumulator copied whole through it leaves the accumulator's entry
  n there.
-/
import proofs.«204569_g29265907155619_cont_9to1_682_25_alg».proof.Proof.ViewsKI

noncomputable section

namespace Cert.KernelIdeal.Views

open Cert.KernelIdeal Cert.KernelIdeal.Gen Idealize.ShloMosaic Idealize.ShloMosaic.ValueIdx Cert.ColSum

variable {F : FTy → Type} [FloatOps F]

local notation "accW" => (Memref.whole Cert.KernelIdeal.cc0_scratch0 : Memref Cert.KernelIdeal.sig Kind.scVector Space.vmem Cert.KernelIdeal.S65536 EltTy.f32)
local notation "rW" => (Memref.whole Cert.KernelIdeal.main_v2_scv : Memref Cert.KernelIdeal.sig Kind.scVector Space.hbm Cert.KernelIdeal.S32x65536 EltTy.f32)

/-- The row of the result the processor at L writes: the program's slice of it, squeezed to its 65536 entries. -/
abbrev outRowK (L : grid0.Coords) : Memref sig .scVector .hbm S65536 .f32 :=
  ((rW).slice (Rect.unit (s := S32x65536) (k0_off64 L) S1x65536.size (k0_off64_inb L)) (fun _ => rfl)).squeeze
    S65536 squeezes_S1x65536_S65536

/-- Entry n of the processor's row sits at (2·L₁ + L₀, n) of the result. -/
theorem outRowK_emb (L : grid0.Coords) (n : Fin 65536) :
    (outRowK L).view.emb (ix1 n) = ix2 ⟨2 * (L 1).val + (L 0).val, chan_lt L⟩ n := by
  have hre : Shape.reshapeEquiv (s := (⟨2, ![1, 65536]⟩ : Shape)) (s' := S65536)
      (squeezes_S1x65536_S65536).numel_eq (ix1 n) = ix2 (0 : Fin 1) n :=
    Shape.reshapeEquiv_eq_of_rowMajor _ (by
      rw [Shape.rowMajor_val_two, Shape.rowMajor_val_one]
      show 0 * 65536 + n.val = n.val
      omega)
  show (Rect.unit (s := S32x65536) (k0_off64 L) S1x65536.size (k0_off64_inb L)).emb
    (Shape.reshapeEquiv (squeezes_S1x65536_S65536).numel_eq (ix1 n)) = _
  rw [hre]
  have h0 : k0_off64 L 0 = 2 * (L 1).val + (L 0).val := by rw [k0_off64_eq]; rfl
  have h1 : k0_off64 L 1 = 0 := by rw [k0_off64_eq]; rfl
  funext a
  match a with
  | ⟨0, _⟩ => exact Fin.ext (by show k0_off64 L 0 + 1 * 0 = 2 * (L 1).val + (L 0).val; omega)
  | ⟨1, _⟩ => exact Fin.ext (by show k0_off64 L 1 + 1 * n.val = n.val; omega)

/-- The accumulator copied whole through the processor's row leaves its entry n at (2·L₁ + L₀, n). -/
theorem outRowK_write (L : grid0.Coords) (fr : (⟨S32x65536, .f32⟩ : BufTy).Contents (Elt F))
    (g : (⟨S65536, .f32⟩ : BufTy).Contents (Elt F)) (n : Fin 65536) :
    (View.write (Elt F) (outRowK L).view fr (ReadAs.same.apply ((accW).view.read (Elt F) g)) Finset.univ)
        (ix2 ⟨2 * (L 1).val + (L 0).val, chan_lt L⟩ n) = g (ix1 n) := by
  have hw := View.write_emb_of_mem (v := (outRowK L).view) (Val := Elt F) fr
    (ReadAs.same.apply ((accW).view.read (Elt F) g)) (M := Finset.univ) (x := ix1 n) (Finset.mem_univ _)
  rw [outRowK_emb L n] at hw
  exact hw.trans rfl

/-- The same with the landed contents written as one whole-shape piece over the earlier contents. -/
theorem outRowK_writes (L : grid0.Coords) (fr : (⟨S32x65536, .f32⟩ : BufTy).Contents (Elt F))
    (g : (⟨S65536, .f32⟩ : BufTy).Contents (Elt F)) (n : Fin 65536) :
    ((outRowK L).view.writes (Elt F) fr
        [⟨Rect.whole S65536, ReadAs.same.apply ((accW).view.read (Elt F) g)⟩])
        (ix2 ⟨2 * (L 1).val + (L 0).val, chan_lt L⟩ n) = g (ix1 n) := by
  rw [← View.write_univ_eq_writes_whole, View.writes_nil]
  exact outRowK_write L fr g n

end Cert.KernelIdeal.Views

end
-- ==== Proof.CoreKI.lean ====
/-
  The loops of a subcore's task, one trip at a time.  The zero-fill loop clears the accumulator sixteen entries a trip.
  The chunk loop keeps two chunks of 512 columns in flight, one per pair of staging buffers: a trip waits for chunk 2k in
  the first pair, adds its 32 lane blocks (the first scatter loop), starts chunk 2k + 2 into that pair, then does the same
  with chunk 2k + 1 and the second pair.  Each transfer has its own counter and its own read share of the array it
  reads, so between a transfer's start and its wait nothing else touches its source or its destination.  The invariant
  of the chunk loop says which pairs have been added into the accumulator (the relation AccInv at block 64k) and what
  is in flight; after the last trip both pairs are at rest.
-/
import proofs.«204569_g29265907155619_cont_9to1_682_25_alg».proof.Proof.TripsKI
import proofs.«204569_g29265907155619_cont_9to1_682_25_alg».proof.Proof.ViewsKI
import proofs.«204569_g29265907155619_cont_9to1_682_25_alg».proof.Proof.ViewsOutKI

noncomputable section

namespace Cert.KernelIdeal.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.ColSum

variable {F : FTy → Type}

local notation "𝕄" => MT nD τ sig (HIx 1) (Elt F) ℕ UU ℕ
local notation "xW" => (Memref.whole Cert.KernelIdeal.main_v0_scv : Memref Cert.KernelIdeal.sig Kind.scVector Space.hbm Cert.KernelIdeal.S27x32x65536 EltTy.f32)
local notation "oW" => (Memref.whole Cert.KernelIdeal.main_v1_scv : Memref Cert.KernelIdeal.sig Kind.scVector Space.hbm Cert.KernelIdeal.S27x65536 EltTy.i32)
local notation "rW" => (Memref.whole Cert.KernelIdeal.main_v2_scv : Memref Cert.KernelIdeal.sig Kind.scVector Space.hbm Cert.KernelIdeal.S32x65536 EltTy.f32)
local notation "accW" => (Memref.whole Cert.KernelIdeal.cc0_scratch0 : Memref Cert.KernelIdeal.sig Kind.scVector Space.vmem Cert.KernelIdeal.S65536 EltTy.f32)
local notation "ib0W" => (Memref.whole Cert.KernelIdeal.cc0_scratch1 : Memref Cert.KernelIdeal.sig Kind.scVector Space.vmem Cert.KernelIdeal.S27x512 EltTy.i32)
local notation "ib1W" => (Memref.whole Cert.KernelIdeal.cc0_scratch2 : Memref Cert.KernelIdeal.sig Kind.scVector Space.vmem Cert.KernelIdeal.S27x512 EltTy.i32)
local notation "db0W" => (Memref.whole Cert.KernelIdeal.cc0_scratch3 : Memref Cert.KernelIdeal.sig Kind.scVector Space.vmem Cert.KernelIdeal.S27x512 EltTy.f32)
local notation "db1W" => (Memref.whole Cert.KernelIdeal.cc0_scratch4 : Memref Cert.KernelIdeal.sig Kind.scVector Space.vmem Cert.KernelIdeal.S27x512 EltTy.f32)

variable [FloatOps F]

section TileSec
variable (d : Dev nD) (L : grid0.Coords)

/-- The flight of a table chunk into staging buffer 0 from the slice at offsets `off`: at the wait it delivers the buffer
    rewritten with the slice and the lent part of the read share. -/
def flyI0 (Oc : Buf (Elt F) (oLoc d)) (qo : PosShare TreeShare) (off : Fin 2 → Nat) (p : ∀ a, off a + S27x512.size a ≤ S27x65536.size a)
    (f : Buf (Elt F) ((V d (cV L) (jV L)).loc cc0_scratch1)) : sProp 𝕄 :=
  Transfers.Flight countersEmb (V d (cV L) (jV L)) (SemLoc.dma cc0_scratch5.sem) default 442368 iprop(((ib0W).view.loc (V d (cV L) (jV L)) ↦{fullShare} View.write (Elt F) (ib0W).view f (ReadAs.same.apply (((oW).slice (Rect.unit (s := S27x65536) off S27x512.size p) (fun _ => rfl)).view.read (Elt F) Oc)) Finset.univ) ∗ ((oW).view.loc (V d (cV L) (jV L)) ↦[((oW).slice (Rect.unit (s := S27x65536) off S27x512.size p) (fun _ => rfl)).view.set]{Transfers.shareTokN qo 0} Oc))
/-- What is left of the table's read share 0 meanwhile. -/
def restI0 (Oc : Buf (Elt F) (oLoc d)) (qo : PosShare TreeShare) (off : Fin 2 → Nat) (p : ∀ a, off a + S27x512.size a ≤ S27x65536.size a) : sProp 𝕄 :=
  ((oW).view.loc (V d (cV L) (jV L)) ↦[Finset.univ \ ((oW).slice (Rect.unit (s := S27x65536) off S27x512.size p) (fun _ => rfl)).view.set]{Transfers.shareTokN qo 0} Oc)
/-- The flight of a data chunk into staging buffer 0. -/
def flyD0 (X : Buf (Elt F) (xLoc d)) (qx : PosShare TreeShare) (off : Fin 3 → Nat) (p : ∀ a, off a + S27x1x512.size a ≤ S27x32x65536.size a)
    (f : Buf (Elt F) ((V d (cV L) (jV L)).loc cc0_scratch3)) : sProp 𝕄 :=
  Transfers.Flight countersEmb (V d (cV L) (jV L)) (SemLoc.dma cc0_scratch7.sem) default 442368 iprop(((db0W).view.loc (V d (cV L) (jV L)) ↦{fullShare} View.write (Elt F) (db0W).view f (ReadAs.same.apply ((((xW).slice (Rect.unit (s := S27x32x65536) off S27x1x512.size p) (fun _ => rfl)).squeeze S27x512 squeezes_S27x1x512_S27x512).view.read (Elt F) X)) Finset.univ) ∗ ((xW).view.loc (V d (cV L) (jV L)) ↦[(((xW).slice (Rect.unit (s := S27x32x65536) off S27x1x512.size p) (fun _ => rfl)).squeeze S27x512 squeezes_S27x1x512_S27x512).view.set]{Transfers.shareTokN qx 2} X))
/-- What is left of the data's read share 2 meanwhile. -/
def restD0 (X : Buf (Elt F) (xLoc d)) (qx : PosShare TreeShare) (off : Fin 3 → Nat) (p : ∀ a, off a + S27x1x512.size a ≤ S27x32x65536.size a) : sProp 𝕄 :=
  ((xW).view.loc (V d (cV L) (jV L)) ↦[Finset.univ \ (((xW).slice (Rect.unit (s := S27x32x65536) off S27x1x512.size p) (fun _ => rfl)).squeeze S27x512 squeezes_S27x1x512_S27x512).view.set]{Transfers.shareTokN qx 2} X)

omit [FloatOps F] in
theorem flyI0_congr (Oc : Buf (Elt F) (oLoc d)) (qo : PosShare TreeShare) {off off' : Fin 2 → Nat} (h : off = off') (p p') (f) :
    flyI0 (F := F) d L Oc qo off p f = flyI0 d L Oc qo off' p' f := by subst h; rfl
omit [FloatOps F] in
theorem restI0_congr (Oc : Buf (Elt F) (oLoc d)) (qo : PosShare TreeShare) {off off' : Fin 2 → Nat} (h : off = off') (p p') :
    restI0 (F := F) d L Oc qo off p = restI0 d L Oc qo off' p' := by subst h; rfl
omit [FloatOps F] in
theorem flyD0_congr (X : Buf (Elt F) (xLoc d)) (qx : PosShare TreeShare) {off off' : Fin 3 → Nat} (h : off = off') (p p') (f) :
    flyD0 (F := F) d L X qx off p f = flyD0 d L X qx off' p' f := by subst h; rfl
omit [FloatOps F] in
theorem restD0_congr (X : Buf (Elt F) (xLoc d)) (qx : PosShare TreeShare) {off off' : Fin 3 → Nat} (h : off = off') (p p') :
    restD0 (F := F) d L X qx off p = restD0 d L X qx off' p' := by subst h; rfl

/-- Staging pair 0 while chunk g is in flight into it. -/
def slotFly0 (X : Buf (Elt F) (xLoc d)) (Oc : Buf (Elt F) (oLoc d)) (qx qo : PosShare TreeShare) (g : Nat) (hg : g < 128) : sProp 𝕄 :=
  iprop((∃ f, flyI0 d L Oc qo ![0, 512 * g] (Views.oct_inb g hg) f) ∗ restI0 d L Oc qo ![0, 512 * g] (Views.oct_inb g hg)
    ∗ (∃ f, flyD0 d L X qx ![0, 2 * (L 1).val + (L 0).val, 512 * g] (Views.dat_inb L g hg) f) ∗ restD0 d L X qx ![0, 2 * (L 1).val + (L 0).val, 512 * g] (Views.dat_inb L g hg))

/-- Staging pair 0 at rest: the buffers at some contents, the read shares whole, the two counters at zero. -/
def slotIdle0 (X : Buf (Elt F) (xLoc d)) (Oc : Buf (Elt F) (oLoc d)) (qx qo : PosShare TreeShare) : sProp 𝕄 :=
  iprop((∃ f, (ib0W).view.loc (V d (cV L) (jV L)) ↦{fullShare} f) ∗ ((oW).view.loc (V d (cV L) (jV L)) ↦{Transfers.shareTokN qo 0} Oc) ∗ semVal ((V d (cV L) (jV L)), SemLoc.dma cc0_scratch5.sem) 0
    ∗ (∃ f, (db0W).view.loc (V d (cV L) (jV L)) ↦{fullShare} f) ∗ ((xW).view.loc (V d (cV L) (jV L)) ↦{Transfers.shareTokN qx 2} X) ∗ semVal ((V d (cV L) (jV L)), SemLoc.dma cc0_scratch7.sem) 0)

/-- The flight of a table chunk into staging buffer 1 from the slice at offsets `off`: at the wait it delivers the buffer
    rewritten with the slice and the lent part of the read share. -/
def flyI1 (Oc : Buf (Elt F) (oLoc d)) (qo : PosShare TreeShare) (off : Fin 2 → Nat) (p : ∀ a, off a + S27x512.size a ≤ S27x65536.size a)
    (f : Buf (Elt F) ((V d (cV L) (jV L)).loc cc0_scratch2)) : sProp 𝕄 :=
  Transfers.Flight countersEmb (V d (cV L) (jV L)) (SemLoc.dma cc0_scratch6.sem) default 442368 iprop(((ib1W).view.loc (V d (cV L) (jV L)) ↦{fullShare} View.write (Elt F) (ib1W).view f (ReadAs.same.apply (((oW).slice (Rect.unit (s := S27x65536) off S27x512.size p) (fun _ => rfl)).view.read (Elt F) Oc)) Finset.univ) ∗ ((oW).view.loc (V d (cV L) (jV L)) ↦[((oW).slice (Rect.unit (s := S27x65536) off S27x512.size p) (fun _ => rfl)).view.set]{Transfers.shareTokN qo 1} Oc))
/-- What is left of the table's read share 1 meanwhile. -/
def restI1 (Oc : Buf (Elt F) (oLoc d)) (qo : PosShare TreeShare) (off : Fin 2 → Nat) (p : ∀ a, off a + S27x512.size a ≤ S27x65536.size a) : sProp 𝕄 :=
  ((oW).view.loc (V d (cV L) (jV L)) ↦[Finset.univ \ ((oW).slice (Rect.unit (s := S27x65536) off S27x512.size p) (fun _ => rfl)).view.set]{Transfers.shareTokN qo 1} Oc)
/-- The flight of a data chunk into staging buffer 1. -/
def flyD1 (X : Buf (Elt F) (xLoc d)) (qx : PosShare TreeShare) (off : Fin 3 → Nat) (p : ∀ a, off a + S27x1x512.size a ≤ S27x32x65536.size a)
    (f : Buf (Elt F) ((V d (cV L) (jV L)).loc cc0_scratch4)) : sProp 𝕄 :=
  Transfers.Flight countersEmb (V d (cV L) (jV L)) (SemLoc.dma cc0_scratch8.sem) default 442368 iprop(((db1W).view.loc (V d (cV L) (jV L)) ↦{fullShare} View.write (Elt F) (db1W).view f (ReadAs.same.apply ((((xW).slice (Rect.unit (s := S27x32x65536) off S27x1x512.size p) (fun _ => rfl)).squeeze S27x512 squeezes_S27x1x512_S27x512).view.read (Elt F) X)) Finset.univ) ∗ ((xW).view.loc (V d (cV L) (jV L)) ↦[(((xW).slice (Rect.unit (s := S27x32x65536) off S27x1x512.size p) (fun _ => rfl)).squeeze S27x512 squeezes_S27x1x512_S27x512).view.set]{Transfers.shareTokN qx 3} X))
/-- What is left of the data's read share 3 meanwhile. -/
def restD1 (X : Buf (Elt F) (xLoc d)) (qx : PosShare TreeShare) (off : Fin 3 → Nat) (p : ∀ a, off a + S27x1x512.size a ≤ S27x32x65536.size a) : sProp 𝕄 :=
  ((xW).view.loc (V d (cV L) (jV L)) ↦[Finset.univ \ (((xW).slice (Rect.unit (s := S27x32x65536) off S27x1x512.size p) (fun _ => rfl)).squeeze S27x512 squeezes_S27x1x512_S27x512).view.set]{Transfers.shareTokN qx 3} X)

omit [FloatOps F] in
theorem flyI1_congr (Oc : Buf (Elt F) (oLoc d)) (qo : PosShare TreeShare) {off off' : Fin 2 → Nat} (h : off = off') (p p') (f) :
    flyI1 (F := F) d L Oc qo off p f = flyI1 d L Oc qo off' p' f := by subst h; rfl
omit [FloatOps F] in
theorem restI1_congr (Oc : Buf (Elt F) (oLoc d)) (qo : PosShare TreeShare) {off off' : Fin 2 → Nat} (h : off = off') (p p') :
    restI1 (F := F) d L Oc qo off p = restI1 d L Oc qo off' p' := by subst h; rfl
omit [FloatOps F] in
theorem flyD1_congr (X : Buf (Elt F) (xLoc d)) (qx : PosShare TreeShare) {off off' : Fin 3 → Nat} (h : off = off') (p p') (f) :
    flyD1 (F := F) d L X qx off p f = flyD1 d L X qx off' p' f := by subst h; rfl
omit [FloatOps F] in
theorem restD1_congr (X : Buf (Elt F) (xLoc d)) (qx : PosShare TreeShare) {off off' : Fin 3 → Nat} (h : off = off') (p p') :
    restD1 (F := F) d L X qx off p = restD1 d L X qx off' p' := by subst h; rfl

/-- Staging pair 1 while chunk g is in flight into it. -/
def slotFly1 (X : Buf (Elt F) (xLoc d)) (Oc : Buf (Elt F) (oLoc d)) (qx qo : PosShare TreeShare) (g : Nat) (hg : g < 128) : sProp 𝕄 :=
  iprop((∃ f, flyI1 d L Oc qo ![0, 512 * g] (Views.oct_inb g hg) f) ∗ restI1 d L Oc qo ![0, 512 * g] (Views.oct_inb g hg)
    ∗ (∃ f, flyD1 d L X qx ![0, 2 * (L 1).val + (L 0).val, 512 * g] (Views.dat_inb L g hg) f) ∗ restD1 d L X qx ![0, 2 * (L 1).val + (L 0).val, 512 * g] (Views.dat_inb L g hg))

/-- Staging pair 1 at rest: the buffers at some contents, the read shares whole, the two counters at zero. -/
def slotIdle1 (X : Buf (Elt F) (xLoc d)) (Oc : Buf (Elt F) (oLoc d)) (qx qo : PosShare TreeShare) : sProp 𝕄 :=
  iprop((∃ f, (ib1W).view.loc (V d (cV L) (jV L)) ↦{fullShare} f) ∗ ((oW).view.loc (V d (cV L) (jV L)) ↦{Transfers.shareTokN qo 1} Oc) ∗ semVal ((V d (cV L) (jV L)), SemLoc.dma cc0_scratch6.sem) 0
    ∗ (∃ f, (db1W).view.loc (V d (cV L) (jV L)) ↦{fullShare} f) ∗ ((xW).view.loc (V d (cV L) (jV L)) ↦{Transfers.shareTokN qx 3} X) ∗ semVal ((V d (cV L) (jV L)), SemLoc.dma cc0_scratch8.sem) 0)

/-- The chunk loop's invariant before trip k: the accumulator holds the pairs of the first 2k chunks (64k sixteen-column
    blocks); chunks 2k and 2k + 1 are in flight into the two staging pairs, or after the last trip the pairs are at rest. -/
def invO (X : Buf (Elt F) (xLoc d)) (Oc : Buf (Elt F) (oLoc d)) (hin : ∀ j, (Oc j).toNat < 65536) (qx qo : PosShare TreeShare)
    (O : CellTallies nD τ sig (HIx 1)) (W : Waits sig (HIx 1)) (k : Nat) (_ : PUnit) : sProp 𝕄 :=
  iprop(Transfers.MayWaits (V d (cV L) (jV L)) (none : HIx 1) O
    ∗ (∃ g : Buf (Elt F) ((V d (cV L) (jV L)).loc cc0_scratch0), ((accW).view.loc (V d (cV L) (jV L)) ↦{fullShare} g)
        ∗ ⌜AccInv (tgtOf Oc hin) (dtOf X (chan L)) (zeroAcc (F := F)) (64 * k) 0 g⌝)
    ∗ (if h : k < 64 then iprop(slotFly0 d L X Oc qx qo (2 * k) (by omega) ∗ slotFly1 d L X Oc qx qo (2 * k + 1) (by omega))
       else iprop(slotIdle0 d L X Oc qx qo ∗ slotIdle1 d L X Oc qx qo))
    ∗ ∃ W', ⌜∀ p ∈ W', p ∈ W ∨ p.2 = none⌝ ∗ owes (V d (cV L) (jV L)) O W')

/-- A scatter loop's invariant before lane block i of chunk gch (staging pair b's buffers at the chunk). -/
def invI0 (X : Buf (Elt F) (xLoc d)) (Oc : Buf (Elt F) (oLoc d)) (hin : ∀ j, (Oc j).toNat < 65536) (gch : Nat)
    (Ci : Buf (Elt F) ((V d (cV L) (jV L)).loc cc0_scratch1)) (Cd : Buf (Elt F) ((V d (cV L) (jV L)).loc cc0_scratch3)) (i : Nat) (_ : PUnit) : sProp 𝕄 :=
  iprop((∃ g : Buf (Elt F) ((V d (cV L) (jV L)).loc cc0_scratch0), ((accW).view.loc (V d (cV L) (jV L)) ↦{fullShare} g)
        ∗ ⌜AccInv (tgtOf Oc hin) (dtOf X (chan L)) (zeroAcc (F := F)) (32 * gch + i) 0 g⌝)
    ∗ ((ib0W).view.loc (V d (cV L) (jV L)) ↦{fullShare} Ci) ∗ ((db0W).view.loc (V d (cV L) (jV L)) ↦{fullShare} Cd))
def invI1 (X : Buf (Elt F) (xLoc d)) (Oc : Buf (Elt F) (oLoc d)) (hin : ∀ j, (Oc j).toNat < 65536) (gch : Nat)
    (Ci : Buf (Elt F) ((V d (cV L) (jV L)).loc cc0_scratch2)) (Cd : Buf (Elt F) ((V d (cV L) (jV L)).loc cc0_scratch4)) (i : Nat) (_ : PUnit) : sProp 𝕄 :=
  iprop((∃ g : Buf (Elt F) ((V d (cV L) (jV L)).loc cc0_scratch0), ((accW).view.loc (V d (cV L) (jV L)) ↦{fullShare} g)
        ∗ ⌜AccInv (tgtOf Oc hin) (dtOf X (chan L)) (zeroAcc (F := F)) (32 * gch + i) 0 g⌝)
    ∗ ((ib1W).view.loc (V d (cV L) (jV L)) ↦{fullShare} Ci) ∗ ((db1W).view.loc (V d (cV L) (jV L)) ↦{fullShare} Cd))

omit [FloatOps F] in
theorem cond1_iff : ∀ t : Fin k0_t2_loop.trips, k0_cond1 t = 1#1 ↔ t.val < 63 := by decide +kernel
omit [FloatOps F] in
theorem cond2_iff : ∀ t : Fin k0_t2_loop.trips, k0_cond2 t = 1#1 ↔ t.val < 63 := by decide +kernel
omit [FloatOps F] in
theorem trips3 : Scf.trips k0_t3_loop.lb k0_t3_loop.ub k0_t3_loop.st = 32 := by decide +kernel
omit [FloatOps F] in
theorem trips4 : Scf.trips k0_t4_loop.lb k0_t4_loop.ub k0_t4_loop.st = 32 := by decide +kernel
omit [FloatOps F] in
theorem trips1 : Scf.trips k0_t1_loop.lb k0_t1_loop.ub k0_t1_loop.st = 4096 := by decide +kernel
omit [FloatOps F] in
theorem trips2 : Scf.trips k0_t2_loop.lb k0_t2_loop.ub k0_t2_loop.st = 64 := by decide +kernel

omit [FloatOps F] in
theorem off33 (k : Fin k0_t2_loop.trips) : k0_off33 k = ![0, 512 * (2 * (k.val + 1))] := by
  rw [k0_off33_eq k, show 1024 * k.val + 1024 = 512 * (2 * (k.val + 1)) from by omega]
omit [FloatOps F] in
theorem off62 (k : Fin k0_t2_loop.trips) : k0_off62 k = ![0, 512 * (2 * (k.val + 1) + 1)] := by
  rw [k0_off62_eq k, show 1024 * k.val + 1536 = 512 * (2 * (k.val + 1) + 1) from by omega]
omit [FloatOps F] in
theorem off34 (L : grid0.Coords) (k : Fin k0_t2_loop.trips) : k0_off34 L k = ![0, 2 * (L 1).val + (L 0).val, 512 * (2 * (k.val + 1))] := by
  rw [k0_off34_eq L k, show 1024 * k.val + 1024 = 512 * (2 * (k.val + 1)) from by omega]
omit [FloatOps F] in
theorem off63 (L : grid0.Coords) (k : Fin k0_t2_loop.trips) : k0_off63 L k = ![0, 2 * (L 1).val + (L 0).val, 512 * (2 * (k.val + 1) + 1)] := by
  rw [k0_off63_eq L k, show 1024 * k.val + 1536 = 512 * (2 * (k.val + 1) + 1) from by omega]
/-- The zero-fill loop's invariant: the first 16·k entries of the accumulator are the zero word. -/
def invZ (k : Nat) (_ : PUnit) : sProp 𝕄 :=
  iprop(∃ g : Buf (Elt F) ((V d (cV L) (jV L)).loc cc0_scratch0), ((accW).view.loc (V d (cV L) (jV L)) ↦{fullShare} g)
    ∗ ⌜∀ j : S65536.Idx, (j 0).val < 16 * k → g j = (Scalar.ofBits .f32 0x00000000#32 : F .f32)⌝)
/-- One trip of the zero-fill loop: sixteen more entries of the accumulator become the zero word. -/
theorem ztrip (k : Fin k0_t1_loop.trips) (g : Buf (Elt F) ((V d (cV L) (jV L)).loc cc0_scratch0))
    (hz : ∀ j : S65536.Idx, (j 0).val < 16 * k.val → g j = (Scalar.ofBits .f32 0x00000000#32 : F .f32)) :
    ((V d (cV L) (jV L)).loc cc0_scratch0 ↦{fullShare} g : sProp 𝕄)
      ⊢ wp frame (wpE (defs₀ (F := F)) 𝒱₀ (V d (cV L) (jV L)) none) Set.univ
          (k0_t1_body L xW (Memref.isWhole_whole _) oW (Memref.isWhole_whole _) rW (Memref.isWhole_whole _)
            accW (Memref.isWhole_whole _) ib0W (Memref.isWhole_whole _) ib1W (Memref.isWhole_whole _)
            db0W (Memref.isWhole_whole _) db1W (Memref.isWhole_whole _) cc0_scratch5 cc0_scratch6 cc0_scratch7 cc0_scratch8 cc0_scoped0 k ())
          (fun _ => iprop(∃ g' : Buf (Elt F) ((V d (cV L) (jV L)).loc cc0_scratch0), ((V d (cV L) (jV L)).loc cc0_scratch0 ↦{fullShare} g')
            ∗ ⌜∀ j : S65536.Idx, (j 0).val < 16 * (k.val + 1) → g' j = (Scalar.ofBits .f32 0x00000000#32 : F .f32)⌝)) := by
  unfold k0_t1_body
  iintro Hacc
  ihave Hacc' := (Entails.of_eq (show (_ : sProp 𝕄) = ((accW).view.loc (V d (cV L) (jV L)) ↦{fullShare} g) from rfl)) $$ Hacc
  sl_exec
  sl_step
  iexists _
  isplitl [Hacc']
  · iexact Hacc'
  · ipureintro
    exact Views.zero_step g k hz

theorem otripQ (X : Buf (Elt F) (xLoc d)) (Oc : Buf (Elt F) (oLoc d)) (hin : ∀ j, (Oc j).toNat < 65536) (qx qo : PosShare TreeShare)
    (O : CellTallies nD τ sig (HIx 1)) (W : Waits sig (HIx 1)) (k : Fin k0_t2_loop.trips)
    (Q : PUnit → sProp 𝕄) (hQ : ∀ r, invO (F := F) d L X Oc hin qx qo O W (k.val + 1) r ⊢ Q r) :
    invO (F := F) d L X Oc hin qx qo O W k.val ⟨⟩
      ⊢ wp frame (wpE (defs₀ (F := F)) 𝒱₀ (V d (cV L) (jV L)) none) Set.univ
          (k0_t2_body L xW (Memref.isWhole_whole _) oW (Memref.isWhole_whole _) rW (Memref.isWhole_whole _)
            accW (Memref.isWhole_whole _) ib0W (Memref.isWhole_whole _) ib1W (Memref.isWhole_whole _)
            db0W (Memref.isWhole_whole _) db1W (Memref.isWhole_whole _) cc0_scratch5 cc0_scratch6 cc0_scratch7 cc0_scratch8 cc0_scoped0 k ())
          Q := by
  have hk : k.val < 64 := k.isLt
  unfold invO
  rw [dif_pos hk]
  unfold slotFly0 slotFly1 flyI0 flyI1 flyD0 flyD1 restI0 restI1 restD0 restD1
  iintro ⟨#Hmw, ⟨%g, Hacc, %hA⟩, ⟨⟨⟨%fI0, Hs0⟩, Ho0, ⟨%fD0, Hs2⟩, Hx2⟩, ⟨⟨%fI1, Hs1⟩, Ho1, ⟨%fD1, Hs3⟩, Hx3⟩⟩, %W', %hW', HO⟩
  sl_unfold [k0_t2_body]
  sl_unfold [k0_part11]
  rcases Classical.em (k0_cond1 k = 1#1) with hc1 | hc1
  · have hc2 : k0_cond2 k = 1#1 := (cond2_iff k).mpr ((cond1_iff k).mp hc1)
    sl_exec
    have hCi0 := Views.idxChunk_ib0 (F := F) (2 * k.val) (by omega) Oc fI0
    have hCd0 := Views.datChunk_db0 (F := F) L (2 * k.val) (by omega) X fD0
    sl_for (invI0 (F := F) d L X Oc hin (2 * k.val) _ _) $$ [Hacc Hs0_dst Hs2_dst]
    case region =>
      intro i _
      unfold invI0
      iintro ⟨⟨%g', Hacc, %hA'⟩, Hi, Hd⟩
      iapply (trip0 (F := F) d L k i (hin := hin) (by omega : 2 * k.val < 128) g' _ _ hCi0 hCd0 hA') $$ [Hacc Hi Hd]
      isplitl [Hacc]; · iexact Hacc
      isplitl [Hi]; · iexact Hi
      iexact Hd
    · unfold invI0
      isplitl [Hacc]
      · iexists g; isplitl [Hacc]; · iexact Hacc
        ipureintro; rw [show 32 * (2 * k.val) + 0 = 64 * k.val from by omega]; exact hA
      isplitl [Hs0_dst]; · iexact Hs0_dst
      iexact Hs2_dst
    iintro %_ HI
    unfold invI0
    icases HI with ⟨⟨%g1, Hacc, %hA1⟩, Hi0, Hd0⟩
    rw [trips3] at hA1
    sl_exec
    have hCi1 := Views.idxChunk_ib1 (F := F) (2 * k.val + 1) (by omega) Oc fI1
    have hCd1 := Views.datChunk_db1 (F := F) L (2 * k.val + 1) (by omega) X fD1
    sl_for (invI1 (F := F) d L X Oc hin (2 * k.val + 1) _ _) $$ [Hacc Hs1_dst Hs3_dst]
    case region =>
      intro i _
      unfold invI1
      iintro ⟨⟨%g', Hacc, %hA'⟩, Hi, Hd⟩
      iapply (trip1 (F := F) d L i (hin := hin) (by omega : 2 * k.val + 1 < 128) g' _ _ hCi1 hCd1 hA') $$ [Hacc Hi Hd]
      isplitl [Hacc]; · iexact Hacc
      isplitl [Hi]; · iexact Hi
      iexact Hd
    · unfold invI1
      isplitl [Hacc]
      · iexists g1; isplitl [Hacc]; · iexact Hacc
        ipureintro; rw [show 32 * (2 * k.val + 1) + 0 = 32 * (2 * k.val) + 32 from by omega]; exact hA1
      isplitl [Hs1_dst]; · iexact Hs1_dst
      iexact Hs3_dst
    iintro %_ HI
    unfold invI1
    icases HI with ⟨⟨%g2, Hacc, %hA2⟩, Hi1, Hd1⟩
    rw [trips4] at hA2
    sl_exec
    sl_step
    have hk1 : k.val + 1 < 64 := by have := (cond1_iff k).mp hc1; omega
    iapply (hQ _)
    unfold invO
    rw [dif_pos hk1]
    unfold slotFly0 slotFly1
    isplitl []; · iexact Hmw
    iclear Hmw
    isplitl [Hacc]
    · iexists g2; isplitl [Hacc]; · iexact Hacc
      ipureintro; rw [show 64 * (k.val + 1) = 32 * (2 * k.val + 1) + 32 from by omega]; exact hA2
    ihave Hs0' : (iprop(∃ f, flyI0 (F := F) d L Oc qo ![0, 512 * (2 * (k.val + 1))] (Views.oct_inb _ (by omega)) f)) $$ [Hs0]
    · iexists _; istop; exact Entails.of_eq (flyI0_congr (F := F) d L Oc qo (off33 k) (k0_off33_inb k hc1) _ _)
    ihave Ho0' : (restI0 (F := F) d L Oc qo ![0, 512 * (2 * (k.val + 1))] (Views.oct_inb _ (by omega))) $$ [Ho0]
    · istop; exact Entails.of_eq (restI0_congr (F := F) d L Oc qo (off33 k) (k0_off33_inb k hc1) _)
    ihave Hs2' : (iprop(∃ f, flyD0 (F := F) d L X qx ![0, 2 * (L 1).val + (L 0).val, 512 * (2 * (k.val + 1))] (Views.dat_inb L _ (by omega)) f)) $$ [Hs2]
    · iexists _; istop; exact Entails.of_eq (flyD0_congr (F := F) d L X qx (off34 L k) (k0_off34_inb L k hc1) _ _)
    ihave Hx2' : (restD0 (F := F) d L X qx ![0, 2 * (L 1).val + (L 0).val, 512 * (2 * (k.val + 1))] (Views.dat_inb L _ (by omega))) $$ [Hx2]
    · istop; exact Entails.of_eq (restD0_congr (F := F) d L X qx (off34 L k) (k0_off34_inb L k hc1) _)
    ihave Hs1' : (iprop(∃ f, flyI1 (F := F) d L Oc qo ![0, 512 * (2 * (k.val + 1) + 1)] (Views.oct_inb _ (by omega)) f)) $$ [Hs1]
    · iexists _; istop; exact Entails.of_eq (flyI1_congr (F := F) d L Oc qo (off62 k) (k0_off62_inb k hc2) _ _)
    ihave Ho1' : (restI1 (F := F) d L Oc qo ![0, 512 * (2 * (k.val + 1) + 1)] (Views.oct_inb _ (by omega))) $$ [Ho1]
    · istop; exact Entails.of_eq (restI1_congr (F := F) d L Oc qo (off62 k) (k0_off62_inb k hc2) _)
    ihave Hs3' : (iprop(∃ f, flyD1 (F := F) d L X qx ![0, 2 * (L 1).val + (L 0).val, 512 * (2 * (k.val + 1) + 1)] (Views.dat_inb L _ (by omega)) f)) $$ [Hs3]
    · iexists _; istop; exact Entails.of_eq (flyD1_congr (F := F) d L X qx (off63 L k) (k0_off63_inb L k hc2) _ _)
    ihave Hx3' : (restD1 (F := F) d L X qx ![0, 2 * (L 1).val + (L 0).val, 512 * (2 * (k.val + 1) + 1)] (Views.dat_inb L _ (by omega))) $$ [Hx3]
    · istop; exact Entails.of_eq (restD1_congr (F := F) d L X qx (off63 L k) (k0_off63_inb L k hc2) _)
    isplitl [Hs0' Ho0' Hs2' Hx2' Hs1' Ho1' Hs3' Hx3']
    · isplitl [Hs0' Ho0' Hs2' Hx2']
      · isplitl [Hs0']; · iexact Hs0'
        isplitl [Ho0']; · iexact Ho0'
        isplitl [Hs2']; · iexact Hs2'
        iexact Hx2'
      · isplitl [Hs1']; · iexact Hs1'
        isplitl [Ho1']; · iexact Ho1'
        isplitl [Hs3']; · iexact Hs3'
        iexact Hx3'
    iexists _; isplitr
    rotate_left
    · iexact HO
    · ipureintro
      intro p hp
      simp only [Finset.mem_insert] at hp
      rcases hp with rfl | rfl | rfl | rfl | hp
      · exact .inr rfl
      · exact .inr rfl
      · exact .inr rfl
      · exact .inr rfl
      · exact hW' p hp

  · have hc2 : ¬ k0_cond2 k = 1#1 := fun h => hc1 ((cond1_iff k).mpr ((cond2_iff k).mp h))
    sl_exec
    have hCi0 := Views.idxChunk_ib0 (F := F) (2 * k.val) (by omega) Oc fI0
    have hCd0 := Views.datChunk_db0 (F := F) L (2 * k.val) (by omega) X fD0
    sl_for (invI0 (F := F) d L X Oc hin (2 * k.val) _ _) $$ [Hacc Hs0_dst Hs2_dst]
    case region =>
      intro i _
      unfold invI0
      iintro ⟨⟨%g', Hacc, %hA'⟩, Hi, Hd⟩
      iapply (trip0 (F := F) d L k i (hin := hin) (by omega : 2 * k.val < 128) g' _ _ hCi0 hCd0 hA') $$ [Hacc Hi Hd]
      isplitl [Hacc]; · iexact Hacc
      isplitl [Hi]; · iexact Hi
      iexact Hd
    · unfold invI0
      isplitl [Hacc]
      · iexists g; isplitl [Hacc]; · iexact Hacc
        ipureintro; rw [show 32 * (2 * k.val) + 0 = 64 * k.val from by omega]; exact hA
      isplitl [Hs0_dst]; · iexact Hs0_dst
      iexact Hs2_dst
    iintro %_ HI
    unfold invI0
    icases HI with ⟨⟨%g1, Hacc, %hA1⟩, Hi0, Hd0⟩
    rw [trips3] at hA1
    sl_exec
    have hCi1 := Views.idxChunk_ib1 (F := F) (2 * k.val + 1) (by omega) Oc fI1
    have hCd1 := Views.datChunk_db1 (F := F) L (2 * k.val + 1) (by omega) X fD1
    sl_for (invI1 (F := F) d L X Oc hin (2 * k.val + 1) _ _) $$ [Hacc Hs1_dst Hs3_dst]
    case region =>
      intro i _
      unfold invI1
      iintro ⟨⟨%g', Hacc, %hA'⟩, Hi, Hd⟩
      iapply (trip1 (F := F) d L i (hin := hin) (by omega : 2 * k.val + 1 < 128) g' _ _ hCi1 hCd1 hA') $$ [Hacc Hi Hd]
      isplitl [Hacc]; · iexact Hacc
      isplitl [Hi]; · iexact Hi
      iexact Hd
    · unfold invI1
      isplitl [Hacc]
      · iexists g1; isplitl [Hacc]; · iexact Hacc
        ipureintro; rw [show 32 * (2 * k.val + 1) + 0 = 32 * (2 * k.val) + 32 from by omega]; exact hA1
      isplitl [Hs1_dst]; · iexact Hs1_dst
      iexact Hs3_dst
    iintro %_ HI
    unfold invI1
    icases HI with ⟨⟨%g2, Hacc, %hA2⟩, Hi1, Hd1⟩
    rw [trips4] at hA2
    sl_exec
    sl_step
    have hk1 : ¬ k.val + 1 < 64 := by have := (cond1_iff k).not.mp hc1; omega
    iapply (hQ _)
    unfold invO
    rw [dif_neg hk1]
    unfold slotIdle0 slotIdle1
    isplitl []; · iexact Hmw
    isplitl [Hacc]
    · iexists g2; isplitl [Hacc]; · iexact Hacc
      ipureintro; rw [show 64 * (k.val + 1) = 32 * (2 * k.val + 1) + 32 from by omega]; exact hA2
    isplitl [Hi0 Ho0 Hs0 Hd0 Hx2 Hs2 Hi1 Ho1 Hs1 Hd1 Hx3 Hs3]
    · isplitl [Hi0 Ho0 Hs0 Hd0 Hx2 Hs2]
      · isplitl [Hi0]; · iexists _; iexact Hi0
        isplitl [Ho0]; · iexact Ho0
        isplitl [Hs0]; · iexact Hs0
        isplitl [Hd0]; · iexists _; iexact Hd0
        isplitl [Hx2]; · iexact Hx2
        iexact Hs2
      · isplitl [Hi1]; · iexists _; iexact Hi1
        isplitl [Ho1]; · iexact Ho1
        isplitl [Hs1]; · iexact Hs1
        isplitl [Hd1]; · iexists _; iexact Hd1
        isplitl [Hx3]; · iexact Hx3
        iexact Hs3
    iexists _; isplitr
    rotate_left
    · iexact HO
    · ipureintro
      intro p hp
      simp only [Finset.mem_insert] at hp
      rcases hp with rfl | rfl | rfl | rfl | hp
      · exact .inr rfl
      · exact .inr rfl
      · exact .inr rfl
      · exact .inr rfl
      · exact hW' p hp

theorem otrip (X : Buf (Elt F) (xLoc d)) (Oc : Buf (Elt F) (oLoc d)) (hin : ∀ j, (Oc j).toNat < 65536) (qx qo : PosShare TreeShare)
    (O : CellTallies nD τ sig (HIx 1)) (W : Waits sig (HIx 1)) (k : Fin k0_t2_loop.trips) :
    invO (F := F) d L X Oc hin qx qo O W k.val ⟨⟩
      ⊢ wp frame (wpE (defs₀ (F := F)) 𝒱₀ (V d (cV L) (jV L)) none) Set.univ
          (k0_t2_body L xW (Memref.isWhole_whole _) oW (Memref.isWhole_whole _) rW (Memref.isWhole_whole _)
            accW (Memref.isWhole_whole _) ib0W (Memref.isWhole_whole _) ib1W (Memref.isWhole_whole _)
            db0W (Memref.isWhole_whole _) db1W (Memref.isWhole_whole _) cc0_scratch5 cc0_scratch6 cc0_scratch7 cc0_scratch8 cc0_scoped0 k ())
          (fun r => invO (F := F) d L X Oc hin qx qo O W (k.val + 1) r) :=
  otripQ (F := F) d L X Oc hin qx qo O W k _ (fun _ => Entails.of_eq rfl)

end TileSec

end Cert.KernelIdeal.Tile

end
-- ==== Proof.BodyKI.lean ====
/-
  One vector subcore's task of the scatter-accumulate kernel, at a symbolic subcore: the subcore owns one channel.  It
  zeroes a 65536-entry accumulator, streams the table and its channel's data through two pairs of staging buffers
  (chunks of 512 columns, even chunks through the first pair, odd chunks through the second), adds every staged
  16-lane piece into the accumulator at the entries the staged table words name, and copies the accumulator out to its
  row of the result.  What the accumulator holds is carried through the loops as the relation `Acc`: after the pieces
  of the first q sixteen-column blocks and of the first kk slots of block q, exactly those pairs have been added.
-/
import proofs.«204569_g29265907155619_cont_9to1_682_25_alg».proof.Proof.CoreKI

noncomputable section

namespace Cert.KernelIdeal.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.ColSum

variable {F : FTy → Type}

local notation "𝕄" => MT nD τ sig (HIx 1) (Elt F) ℕ UU ℕ
local notation "xW" => (Memref.whole Cert.KernelIdeal.main_v0_scv : Memref Cert.KernelIdeal.sig Kind.scVector Space.hbm Cert.KernelIdeal.S27x32x65536 EltTy.f32)
local notation "oW" => (Memref.whole Cert.KernelIdeal.main_v1_scv : Memref Cert.KernelIdeal.sig Kind.scVector Space.hbm Cert.KernelIdeal.S27x65536 EltTy.i32)
local notation "rW" => (Memref.whole Cert.KernelIdeal.main_v2_scv : Memref Cert.KernelIdeal.sig Kind.scVector Space.hbm Cert.KernelIdeal.S32x65536 EltTy.f32)
local notation "accW" => (Memref.whole Cert.KernelIdeal.cc0_scratch0 : Memref Cert.KernelIdeal.sig Kind.scVector Space.vmem Cert.KernelIdeal.S65536 EltTy.f32)
local notation "ib0W" => (Memref.whole Cert.KernelIdeal.cc0_scratch1 : Memref Cert.KernelIdeal.sig Kind.scVector Space.vmem Cert.KernelIdeal.S27x512 EltTy.i32)
local notation "ib1W" => (Memref.whole Cert.KernelIdeal.cc0_scratch2 : Memref Cert.KernelIdeal.sig Kind.scVector Space.vmem Cert.KernelIdeal.S27x512 EltTy.i32)
local notation "db0W" => (Memref.whole Cert.KernelIdeal.cc0_scratch3 : Memref Cert.KernelIdeal.sig Kind.scVector Space.vmem Cert.KernelIdeal.S27x512 EltTy.f32)
local notation "db1W" => (Memref.whole Cert.KernelIdeal.cc0_scratch4 : Memref Cert.KernelIdeal.sig Kind.scVector Space.vmem Cert.KernelIdeal.S27x512 EltTy.f32)

variable [FloatOps F]

section TileSec
variable (d : Dev nD) (L : grid0.Coords)

/-! ### The subcore's row of the result, as the program slices it -/

/-- Row `chan L` of the result as the write-out slices it: one row at offset (2 (L 1) + L 0, 0), squeezed. -/
abbrev outRowK (L : grid0.Coords) : Memref sig .scVector .hbm S65536 .f32 :=
  ((rW).slice (Rect.unit (s := S32x65536) (k0_off64 L) S1x65536.size (k0_off64_inb L)) (fun _ => rfl)).squeeze S65536 squeezes_S1x65536_S65536

omit [FloatOps F] in
/-- The sliced rectangle is the `chan L`-th of the thirty-two equal parts along the first axis. -/
theorem outRect_eq : Rect.unit (s := S32x65536) (k0_off64 L) S1x65536.size (k0_off64_inb L) = row (chan L) := by
  unfold row Rect.part Rect.block
  congr 1 <;> funext a
  · rw [k0_off64_eq]
    match a with
    | 0 => simp [Shape.partIx, Shape.partSize, chan]
    | 1 => simp [Shape.partIx, Shape.partSize]
  · match a with
    | 0 => simp [Shape.partSize]
    | 1 => simp [Shape.partSize]

omit [FloatOps F] in
theorem set_outRowK : (outRowK L).view.set = rowSet (chan L) := by
  show (((rW).view.slice (Rect.unit (s := S32x65536) (k0_off64 L) S1x65536.size (k0_off64_inb L))).reshape S65536 squeezes_S1x65536_S65536.numel_eq).set
    = ((rW).view.slice (row (chan L))).set
  rw [View.set_reshape]
  exact outRect_eq L ▸ rfl

/-! ### A read share as four tokens and a remainder -/

omit [FloatOps F] in
/-- A points-to at share q is the remainder after four tokens and the four tokens. -/
theorem toks4 {ℓ : Loc nD τ sig} (f : Buf (Elt F) ℓ) (q : PosShare TreeShare) :
    (ℓ ↦{q} f : sProp 𝕄) ⊣⊢ iprop((ℓ ↦{Transfers.shareDrop q 4} f) ∗ (ℓ ↦{Transfers.shareTokN q 0} f) ∗ (ℓ ↦{Transfers.shareTokN q 1} f)
      ∗ (ℓ ↦{Transfers.shareTokN q 2} f) ∗ (ℓ ↦{Transfers.shareTokN q 3} f)) := by
  have h : (ℓ ↦{q} f : sProp 𝕄) ⊣⊢ iprop((ℓ ↦{Transfers.shareDrop q 4} f) ∗ bigSep (Finset.range 4) (fun i => ℓ ↦{Transfers.shareTokN q i} f)) :=
    Transfers.pointsTo_toks_range q 4
  rw [show Finset.range 4 = {0, 1, 2, 3} from by decide, SparseCore.bigSep_insert' (by decide), SparseCore.bigSep_insert' (by decide),
    SparseCore.bigSep_insert' (by decide), bigSep_singleton] at h
  exact h

/-! ### The subcore's scoped storage, opened -/

omit [FloatOps F] in
theorem ownSems0_V :
    (ownSems0 (V d (cV L) (jV L)) : sProp 𝕄)
      = iprop(semVal ((V d (cV L) (jV L), SemLoc.dma cc0_scratch5.sem) : GSem nD τ sig) 0 ∗ semVal ((V d (cV L) (jV L), SemLoc.dma cc0_scratch6.sem) : GSem nD τ sig) 0 ∗ semVal ((V d (cV L) (jV L), SemLoc.dma cc0_scratch7.sem) : GSem nD τ sig) 0 ∗ semVal ((V d (cV L) (jV L), SemLoc.dma cc0_scratch8.sem) : GSem nD τ sig) 0 ∗ semVal ((V d (cV L) (jV L), SemLoc.dma cc0_scoped0.sem) : GSem nD τ sig) 0
          ∗ bigSep ((((((ownCells (V d (cV L) (jV L))).erase ((V d (cV L) (jV L), SemLoc.dma cc0_scratch5.sem) : GSem nD τ sig)).erase ((V d (cV L) (jV L), SemLoc.dma cc0_scratch6.sem) : GSem nD τ sig)).erase ((V d (cV L) (jV L), SemLoc.dma cc0_scratch7.sem) : GSem nD τ sig)).erase ((V d (cV L) (jV L), SemLoc.dma cc0_scratch8.sem) : GSem nD τ sig)).erase ((V d (cV L) (jV L), SemLoc.dma cc0_scoped0.sem) : GSem nD τ sig)) fun g => semVal g 0) := by
  unfold SparseCore.Cfg.ownSems0
  rw [SparseCore.bigSep_erase' ((mem_ownCells (g := ((V d (cV L) (jV L), SemLoc.dma cc0_scratch5.sem) : GSem nD τ sig))).mpr ⟨rfl, by show (SemLoc.dma cc0_scratch5.sem : SemLoc sig).isScoped .scVector = true; decide⟩),
    SparseCore.bigSep_erase' (Finset.mem_erase.mpr ⟨fun e => absurd (congrArg Prod.snd e) (show (SemLoc.dma cc0_scratch6.sem : SemLoc sig) ≠ SemLoc.dma cc0_scratch5.sem by decide), (mem_ownCells (g := ((V d (cV L) (jV L), SemLoc.dma cc0_scratch6.sem) : GSem nD τ sig))).mpr ⟨rfl, by show (SemLoc.dma cc0_scratch6.sem : SemLoc sig).isScoped .scVector = true; decide⟩⟩),
    SparseCore.bigSep_erase' (Finset.mem_erase.mpr ⟨fun e => absurd (congrArg Prod.snd e) (show (SemLoc.dma cc0_scratch7.sem : SemLoc sig) ≠ SemLoc.dma cc0_scratch6.sem by decide), Finset.mem_erase.mpr ⟨fun e => absurd (congrArg Prod.snd e) (show (SemLoc.dma cc0_scratch7.sem : SemLoc sig) ≠ SemLoc.dma cc0_scratch5.sem by decide), (mem_ownCells (g := ((V d (cV L) (jV L), SemLoc.dma cc0_scratch7.sem) : GSem nD τ sig))).mpr ⟨rfl, by show (SemLoc.dma cc0_scratch7.sem : SemLoc sig).isScoped .scVector = true; decide⟩⟩⟩),
    SparseCore.bigSep_erase' (Finset.mem_erase.mpr ⟨fun e => absurd (congrArg Prod.snd e) (show (SemLoc.dma cc0_scratch8.sem : SemLoc sig) ≠ SemLoc.dma cc0_scratch7.sem by decide), Finset.mem_erase.mpr ⟨fun e => absurd (congrArg Prod.snd e) (show (SemLoc.dma cc0_scratch8.sem : SemLoc sig) ≠ SemLoc.dma cc0_scratch6.sem by decide), Finset.mem_erase.mpr ⟨fun e => absurd (congrArg Prod.snd e) (show (SemLoc.dma cc0_scratch8.sem : SemLoc sig) ≠ SemLoc.dma cc0_scratch5.sem by decide), (mem_ownCells (g := ((V d (cV L) (jV L), SemLoc.dma cc0_scratch8.sem) : GSem nD τ sig))).mpr ⟨rfl, by show (SemLoc.dma cc0_scratch8.sem : SemLoc sig).isScoped .scVector = true; decide⟩⟩⟩⟩),
    SparseCore.bigSep_erase' (Finset.mem_erase.mpr ⟨fun e => absurd (congrArg Prod.snd e) (show (SemLoc.dma cc0_scoped0.sem : SemLoc sig) ≠ SemLoc.dma cc0_scratch8.sem by decide), Finset.mem_erase.mpr ⟨fun e => absurd (congrArg Prod.snd e) (show (SemLoc.dma cc0_scoped0.sem : SemLoc sig) ≠ SemLoc.dma cc0_scratch7.sem by decide), Finset.mem_erase.mpr ⟨fun e => absurd (congrArg Prod.snd e) (show (SemLoc.dma cc0_scoped0.sem : SemLoc sig) ≠ SemLoc.dma cc0_scratch6.sem by decide), Finset.mem_erase.mpr ⟨fun e => absurd (congrArg Prod.snd e) (show (SemLoc.dma cc0_scoped0.sem : SemLoc sig) ≠ SemLoc.dma cc0_scratch5.sem by decide), (mem_ownCells (g := ((V d (cV L) (jV L), SemLoc.dma cc0_scoped0.sem) : GSem nD τ sig))).mpr ⟨rfl, by show (SemLoc.dma cc0_scoped0.sem : SemLoc sig).isScoped .scVector = true; decide⟩⟩⟩⟩⟩)]

omit [FloatOps F] in
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f) ∗ (∃ f, (V d (cV L) (jV L)).loc cc0_scratch3 ↦{fullShare} f) ∗ (∃ f, (V d (cV L) (jV L)).loc cc0_scratch4 ↦{fullShare} f)
          ∗ bigSep ((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4))
              fun b => iprop(∃ f, ((d, b) : Loc nD τ sig) ↦{fullShare} f)) := by
  unfold SparseCore.Cfg.ownBufs
  rw [SparseCore.bigSep_erase' (SparseCore.Cfg.mem_ownRefs_of_owner (p := Proc.scVector (cV L) (jV L)) (b := ((Proc.scVector (cV L) (jV L)).devRef cc0_scratch0)) rfl),
    SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := ((Proc.scVector (cV L) (jV L)).devRef cc0_scratch1)) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := ((Proc.scVector (cV L) (jV L)).devRef cc0_scratch2)) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := ((Proc.scVector (cV L) (jV L)).devRef cc0_scratch3)) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := ((Proc.scVector (cV L) (jV L)).devRef cc0_scratch4)) rfl⟩⟩⟩⟩)]

/-! ### The task's core, over explicit resources -/

theorem tile_core (hF : (K (F := F)).Facts) (X : Buf (Elt F) (xLoc d)) (Oc : Buf (Elt F) (oLoc d)) (hin : ∀ j, (Oc j).toNat < 65536)
    (qx qo : PosShare TreeShare) (O : CellTallies nD τ sig (HIx 1)) (W : Waits sig (HIx 1)) (hO : ∀ g, O g none = 0)
    (fa : Buf (Elt F) ((V d (cV L) (jV L)).loc cc0_scratch0)) (f1 : Buf (Elt F) ((V d (cV L) (jV L)).loc cc0_scratch1))
    (f2 : Buf (Elt F) ((V d (cV L) (jV L)).loc cc0_scratch2)) (f3 : Buf (Elt F) ((V d (cV L) (jV L)).loc cc0_scratch3))
    (f4 : Buf (Elt F) ((V d (cV L) (jV L)).loc cc0_scratch4)) (fr : Buf (Elt F) (rLoc d)) :
    (iprop(levAts (K (F := F)).L (K (F := F)).lev
        ∗ (xLoc d ↦{Transfers.shareTokN qx 2} X) ∗ (xLoc d ↦{Transfers.shareTokN qx 3} X)
        ∗ (oLoc d ↦{Transfers.shareTokN qo 0} Oc) ∗ (oLoc d ↦{Transfers.shareTokN qo 1} Oc)
        ∗ (rLoc d ↦[rowSet (chan L)]{fullShare} fr)
        ∗ ((V d (cV L) (jV L)).loc cc0_scratch0 ↦{fullShare} fa)
        ∗ ((V d (cV L) (jV L)).loc cc0_scratch1 ↦{fullShare} f1) ∗ ((V d (cV L) (jV L)).loc cc0_scratch2 ↦{fullShare} f2)
        ∗ ((V d (cV L) (jV L)).loc cc0_scratch3 ↦{fullShare} f3) ∗ ((V d (cV L) (jV L)).loc cc0_scratch4 ↦{fullShare} f4)
        ∗ semVal (V d (cV L) (jV L), SemLoc.dma cc0_scratch5.sem) 0 ∗ semVal (V d (cV L) (jV L), SemLoc.dma cc0_scratch6.sem) 0
        ∗ semVal (V d (cV L) (jV L), SemLoc.dma cc0_scratch7.sem) 0 ∗ semVal (V d (cV L) (jV L), SemLoc.dma cc0_scratch8.sem) 0
        ∗ semVal (V d (cV L) (jV L), SemLoc.dma cc0_scoped0.sem) 0
        ∗ owes (V d (cV L) (jV L)) O W) : sProp 𝕄)
      ⊢ wp frame (wpE (defs₀ (F := F)) 𝒱₀ (V d (cV L) (jV L)) none) Set.univ
          (cc0_k L xW (Memref.isWhole_whole _) oW (Memref.isWhole_whole _) rW (Memref.isWhole_whole _)
            accW (Memref.isWhole_whole _) ib0W (Memref.isWhole_whole _) ib1W (Memref.isWhole_whole _)
            db0W (Memref.isWhole_whole _) db1W (Memref.isWhole_whole _) cc0_scratch5 cc0_scratch6 cc0_scratch7 cc0_scratch8 cc0_scoped0)
          fun _ => iprop((xLoc d ↦{Transfers.shareTokN qx 2} X) ∗ (xLoc d ↦{Transfers.shareTokN qx 3} X)
            ∗ (oLoc d ↦{Transfers.shareTokN qo 0} Oc) ∗ (oLoc d ↦{Transfers.shareTokN qo 1} Oc)
            ∗ (∃ f, ⌜RowDone X Oc hin (chan L) f⌝ ∗ rLoc d ↦[rowSet (chan L)]{fullShare} f)
            ∗ (∃ f, (V d (cV L) (jV L)).loc cc0_scratch0 ↦{fullShare} f)
            ∗ (∃ f, (V d (cV L) (jV L)).loc cc0_scratch1 ↦{fullShare} f) ∗ (∃ f, (V d (cV L) (jV L)).loc cc0_scratch2 ↦{fullShare} f)
            ∗ (∃ f, (V d (cV L) (jV L)).loc cc0_scratch3 ↦{fullShare} f) ∗ (∃ f, (V d (cV L) (jV L)).loc cc0_scratch4 ↦{fullShare} f)
            ∗ semVal (V d (cV L) (jV L), SemLoc.dma cc0_scratch5.sem) 0 ∗ semVal (V d (cV L) (jV L), SemLoc.dma cc0_scratch6.sem) 0
            ∗ semVal (V d (cV L) (jV L), SemLoc.dma cc0_scratch7.sem) 0 ∗ semVal (V d (cV L) (jV L), SemLoc.dma cc0_scratch8.sem) 0
            ∗ semVal (V d (cV L) (jV L), SemLoc.dma cc0_scoped0.sem) 0
            ∗ ∃ W', ⌜∀ p ∈ W', p ∈ W ∨ p.2 = none⌝ ∗ owes (V d (cV L) (jV L)) O W') := by
  simp only [cc0_k_eq_skeleton]; unfold cc0_k_skel
  simp only [k0_part12_eq_skeleton]; unfold k0_part12_skel
  iintro ⟨#Hlv, Hx2, Hx3, Ho0, Ho1, Hr, Hacc, Hi0, Hi1, Hd0, Hd1, Hs0, Hs1, Hs2, Hs3, Hs4, HO⟩
  ihave Hmw := ((K (F := F)).mayWaits_none (thr := (V d (cV L) (jV L))) hO) $$ Hlv
  ihave Hx2' := (Entails.of_eq (show (_ : sProp 𝕄) = ((xW).view.loc (V d (cV L) (jV L)) ↦{Transfers.shareTokN qx 2} X) from rfl)) $$ Hx2
  ihave Hx3' := (Entails.of_eq (show (_ : sProp 𝕄) = ((xW).view.loc (V d (cV L) (jV L)) ↦{Transfers.shareTokN qx 3} X) from rfl)) $$ Hx3
  ihave Ho0' := (Entails.of_eq (show (_ : sProp 𝕄) = ((oW).view.loc (V d (cV L) (jV L)) ↦{Transfers.shareTokN qo 0} Oc) from rfl)) $$ Ho0
  ihave Ho1' := (Entails.of_eq (show (_ : sProp 𝕄) = ((oW).view.loc (V d (cV L) (jV L)) ↦{Transfers.shareTokN qo 1} Oc) from rfl)) $$ Ho1
  ihave Hr' := (Entails.of_eq (show (rLoc d ↦[rowSet (chan L)]{fullShare} fr : sProp 𝕄) = ((outRowK L).view.loc (V d (cV L) (jV L)) ↦[(outRowK L).view.set]{fullShare} fr) from by rw [set_outRowK])) $$ Hr
  ihave Hacc' := (Entails.of_eq (show (_ : sProp 𝕄) = ((accW).view.loc (V d (cV L) (jV L)) ↦{fullShare} fa) from rfl)) $$ Hacc
  ihave Hi0' := (Entails.of_eq (show (_ : sProp 𝕄) = ((ib0W).view.loc (V d (cV L) (jV L)) ↦{fullShare} f1) from rfl)) $$ Hi0
  ihave Hi1' := (Entails.of_eq (show (_ : sProp 𝕄) = ((ib1W).view.loc (V d (cV L) (jV L)) ↦{fullShare} f2) from rfl)) $$ Hi1
  ihave Hd0' := (Entails.of_eq (show (_ : sProp 𝕄) = ((db0W).view.loc (V d (cV L) (jV L)) ↦{fullShare} f3) from rfl)) $$ Hd0
  ihave Hd1' := (Entails.of_eq (show (_ : sProp 𝕄) = ((db1W).view.loc (V d (cV L) (jV L)) ↦{fullShare} f4) from rfl)) $$ Hd1
  sl_exec
  conv => { arg 2; pattern (Idealize.SL.Sem.wp _ _ _ _); arg 4; simp only [bind_assoc] }
  sl_for (invZ (F := F) d L) $$ [Hacc']
  case region =>
    intro k _
    unfold invZ
    iintro ⟨%g, Hacc, %hz⟩
    iapply (ztrip (F := F) d L k g hz) $$ Hacc
  · unfold invZ
    iexists fa
    isplitl [Hacc']
    · iexact Hacc'
    · ipureintro; intro j hj; omega
  iintro %_ HI
  unfold invZ
  icases HI with ⟨%g0, Hacc, %hz⟩
  rw [trips1] at hz
  have hg0 : g0 = zeroAcc (F := F) := Views.eq_zeroAcc_of_filled g0 hz
  sl_for (invO (F := F) d L X Oc hin qx qo O W) $$ [Hmw Hacc Hs0 Ho0' Hs2 Hx2' Hs1 Ho1' Hs3 Hx3' HO]
  case region =>
    intro k _
    exact otrip (F := F) d L X Oc hin qx qo O W k
  · unfold invO
    rw [dif_pos (by omega : 0 < 64)]
    unfold slotFly0 slotFly1
    isplitl []; · iexact Hmw
    iclear Hmw
    iclear Hlv
    isplitl [Hacc]
    · iexists g0; isplitl [Hacc]; · iexact Hacc
      ipureintro; rw [hg0]; exact AccInv.init
    isplitl [Hs0 Ho0' Hs2 Hx2' Hs1 Ho1' Hs3 Hx3']
    · isplitl [Hs0 Ho0' Hs2 Hx2']
      · isplitl [Hs0]
        · ihave H : (iprop(∃ f, flyI0 (F := F) d L Oc qo ![0, 512 * (2 * 0)] (Views.oct_inb _ (by omega)) f)) $$ [Hs0]
          · iexists _; istop; exact Entails.of_eq (flyI0_congr (F := F) d L Oc qo (show (![0, 0] : Fin 2 → Nat) = ![0, 512 * (2 * 0)] from rfl) inb_S27x65536_S27x512_0_0 _ _)
          iexact H
        isplitl [Ho0']
        · ihave H : (restI0 (F := F) d L Oc qo ![0, 512 * (2 * 0)] (Views.oct_inb _ (by omega))) $$ [Ho0']
          · istop; exact Entails.of_eq (restI0_congr (F := F) d L Oc qo (show (![0, 0] : Fin 2 → Nat) = ![0, 512 * (2 * 0)] from rfl) inb_S27x65536_S27x512_0_0 _)
          iexact H
        isplitl [Hs2]
        · ihave H : (iprop(∃ f, flyD0 (F := F) d L X qx ![0, 2 * (L 1).val + (L 0).val, 512 * (2 * 0)] (Views.dat_inb L _ (by omega)) f)) $$ [Hs2]
          · iexists _; istop; exact Entails.of_eq (flyD0_congr (F := F) d L X qx (k0_off1_eq L) (k0_off1_inb L) _ _)
          iexact H
        · ihave H : (restD0 (F := F) d L X qx ![0, 2 * (L 1).val + (L 0).val, 512 * (2 * 0)] (Views.dat_inb L _ (by omega))) $$ [Hx2']
          · istop; exact Entails.of_eq (restD0_congr (F := F) d L X qx (k0_off1_eq L) (k0_off1_inb L) _)
          iexact H
      · isplitl [Hs1]
        · ihave H : (iprop(∃ f, flyI1 (F := F) d L Oc qo ![0, 512 * (2 * 0 + 1)] (Views.oct_inb _ (by omega)) f)) $$ [Hs1]
          · iexists _; istop; exact Entails.of_eq (flyI1_congr (F := F) d L Oc qo (show (![0, 512] : Fin 2 → Nat) = ![0, 512 * (2 * 0 + 1)] from rfl) inb_S27x65536_S27x512_0_512 _ _)
          iexact H
        isplitl [Ho1']
        · ihave H : (restI1 (F := F) d L Oc qo ![0, 512 * (2 * 0 + 1)] (Views.oct_inb _ (by omega))) $$ [Ho1']
          · istop; exact Entails.of_eq (restI1_congr (F := F) d L Oc qo (show (![0, 512] : Fin 2 → Nat) = ![0, 512 * (2 * 0 + 1)] from rfl) inb_S27x65536_S27x512_0_512 _)
          iexact H
        isplitl [Hs3]
        · ihave H : (iprop(∃ f, flyD1 (F := F) d L X qx ![0, 2 * (L 1).val + (L 0).val, 512 * (2 * 0 + 1)] (Views.dat_inb L _ (by omega)) f)) $$ [Hs3]
          · iexists _; istop; exact Entails.of_eq (flyD1_congr (F := F) d L X qx (k0_off2_eq L) (k0_off2_inb L) _ _)
          iexact H
        · ihave H : (restD1 (F := F) d L X qx ![0, 2 * (L 1).val + (L 0).val, 512 * (2 * 0 + 1)] (Views.dat_inb L _ (by omega))) $$ [Hx3']
          · istop; exact Entails.of_eq (restD1_congr (F := F) d L X qx (k0_off2_eq L) (k0_off2_inb L) _)
          iexact H
    iexists W; isplitr
    · ipureintro; exact fun p hp => .inl hp
    · iexact HO
  iintro %_ HI
  unfold invO
  rw [dif_neg (by rw [trips2]; omega : ¬ Scf.trips k0_t2_loop.lb k0_t2_loop.ub k0_t2_loop.st < 64)]
  unfold slotIdle0 slotIdle1
  icases HI with ⟨-, ⟨%gF, Hacc, %hAF⟩, ⟨⟨⟨%a1, Hi0⟩, Ho0, Hs0, ⟨%a2, Hd0⟩, Hx2, Hs2⟩, ⟨⟨%a3, Hi1⟩, Ho1, Hs1, ⟨%a4, Hd1⟩, Hx3, Hs3⟩⟩, %W', %hW', HO⟩
  rw [trips2] at hAF
  sl_exec
  sl_step
  isplitl [Hx2]; · iexact Hx2
  isplitl [Hx3]; · iexact Hx3
  isplitl [Ho0]; · iexact Ho0
  isplitl [Ho1]; · iexact Ho1
  isplitl [Hr']
  · iexists _
    isplitr
    rotate_left
    · iapply (Entails.of_eq (show ((outRowK L).view.loc (V d (cV L) (jV L)) ↦[(outRowK L).view.set]{fullShare} _ : sProp 𝕄) = (rLoc d ↦[rowSet (chan L)]{fullShare} _) from by rw [set_outRowK])) $$ Hr'
    · ipureintro
      exact ⟨gF, AccInv.full (show AccInv _ _ _ 4096 0 gF from hAF), fun n => Views.outRowK_writes L fr gF n⟩
  isplitl [Hacc]; · iexists _; iexact Hacc
  isplitl [Hi0]; · iexists _; iexact Hi0
  isplitl [Hi1]; · iexists _; iexact Hi1
  isplitl [Hd0]; · iexists _; iexact Hd0
  isplitl [Hd1]; · iexists _; iexact Hd1
  isplitl [Hs0]; · iexact Hs0
  isplitl [Hs1]; · iexact Hs1
  isplitl [Hs2]; · iexact Hs2
  isplitl [Hs3]; · iexact Hs3
  isplitl [Hs4]; · iexact Hs4
  iexists _; isplitr
  rotate_left
  · iexact HO
  · ipureintro
    intro p hp
    rcases Finset.mem_insert.mp hp with rfl | hp
    · exact .inr rfl
    · exact hW' p hp

/-- The task on the vector subcore at L: from read shares of the two arrays and its row of the result, to the same
    shares and the row at the finished accumulator. -/
theorem tile_body (hF : (K (F := F)).Facts) (X : Buf (Elt F) (xLoc d)) (Oc : Buf (Elt F) (oLoc d)) (hin : ∀ j, (Oc j).toNat < 65536)
    (qx qo : PosShare TreeShare) (O : CellTallies nD τ sig (HIx 1)) (W : Waits sig (HIx 1)) (hO : ∀ g, O g none = 0) :
    (iprop(levAts (K (F := F)).L (K (F := F)).lev ∗ emp
        ∗ ((xLoc d ↦{qx} X) ∗ (oLoc d ↦{qo} Oc) ∗ ∃ f, rLoc d ↦[rowSet (chan L)]{fullShare} f)
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0_k L xW (Memref.isWhole_whole _) oW (Memref.isWhole_whole _) rW (Memref.isWhole_whole _)
            accW (Memref.isWhole_whole _) ib0W (Memref.isWhole_whole _) ib1W (Memref.isWhole_whole _)
            db0W (Memref.isWhole_whole _) db1W (Memref.isWhole_whole _) cc0_scratch5 cc0_scratch6 cc0_scratch7 cc0_scratch8 cc0_scoped0)
          fun _ => iprop(((xLoc d ↦{qx} X) ∗ (oLoc d ↦{qo} Oc) ∗ ∃ f, ⌜RowDone X Oc hin (chan L) f⌝ ∗ rLoc d ↦[rowSet (chan L)]{fullShare} f)
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems0_V, ownBufs_V]
  iintro ⟨#Hlv, -, ⟨Hx, Ho, %fr, Hr⟩, ⟨⟨%fa, Ha⟩, ⟨%f1, H1⟩, ⟨%f2, H2⟩, ⟨%f3, H3⟩, ⟨%f4, H4⟩, Hbufs⟩, ⟨Hs5, Hs6, Hs7, Hs8, Hs0, Hsems⟩, HO⟩
  -- each read share: four tokens and a remainder; the core takes two tokens of each array
  ihave Hx' := (toks4 X qx).1 $$ Hx
  icases Hx' with ⟨HxR, Hx0, Hx1, Hx2, Hx3⟩
  ihave Ho' := (toks4 Oc qo).1 $$ Ho
  icases Ho' with ⟨HoR, Ho0, Ho1, Ho2, Ho3⟩
  iapply (wp_wand_r frame _ Set.univ)
  isplitl [Hx2 Hx3 Ho0 Ho1 Hr Ha H1 H2 H3 H4 Hs5 Hs6 Hs7 Hs8 Hs0 HO]
  · iapply (tile_core d L hF X Oc hin qx qo O W hO fa f1 f2 f3 f4 fr)
    isplitr; · iexact Hlv
    isplitl [Hx2]; · iexact Hx2
    isplitl [Hx3]; · iexact Hx3
    isplitl [Ho0]; · iexact Ho0
    isplitl [Ho1]; · iexact Ho1
    isplitl [Hr]; · iexact Hr
    isplitl [Ha]; · iexact Ha
    isplitl [H1]; · iexact H1
    isplitl [H2]; · iexact H2
    isplitl [H3]; · iexact H3
    isplitl [H4]; · iexact H4
    isplitl [Hs5]; · iexact Hs5
    isplitl [Hs6]; · iexact Hs6
    isplitl [Hs7]; · iexact Hs7
    isplitl [Hs8]; · iexact Hs8
    isplitl [Hs0]; · iexact Hs0
    iexact HO
  · iintro %_ ⟨Hx2, Hx3, Ho0, Ho1, Hrow, Ha, H1, H2, H3, H4, Hs5, Hs6, Hs7, Hs8, Hs0, HO⟩
    -- the shares joined back, the scoped storage folded back
    ihave Hx := (toks4 X qx).2 $$ [HxR Hx0 Hx1 Hx2 Hx3]
    · isplitl [HxR]; · iexact HxR
      isplitl [Hx0]; · iexact Hx0
      isplitl [Hx1]; · iexact Hx1
      isplitl [Hx2]; · iexact Hx2
      iexact Hx3
    ihave Ho := (toks4 Oc qo).2 $$ [HoR Ho0 Ho1 Ho2 Ho3]
    · isplitl [HoR]; · iexact HoR
      isplitl [Ho0]; · iexact Ho0
      isplitl [Ho1]; · iexact Ho1
      isplitl [Ho2]; · iexact Ho2
      iexact Ho3
    isplitl [Hx Ho Hrow]
    · isplitl [Hx]; · iexact Hx
      isplitl [Ho]; · iexact Ho
      iexact Hrow
    isplitl [Ha H1 H2 H3 H4 Hbufs]
    · isplitl [Ha]; · iexact Ha
      isplitl [H1]; · iexact H1
      isplitl [H2]; · iexact H2
      isplitl [H3]; · iexact H3
      isplitl [H4]; · iexact H4
      iexact Hbufs
    isplitl [Hs5 Hs6 Hs7 Hs8 Hs0 Hsems]
    · isplitl [Hs5]; · iexact Hs5
      isplitl [Hs6]; · iexact Hs6
      isplitl [Hs7]; · iexact Hs7
      isplitl [Hs8]; · iexact Hs8
      isplitl [Hs0]; · iexact Hs0
      iexact Hsems
    iexact HO

end TileSec

end Cert.KernelIdeal.Tile

end
-- ==== Proof.LaunchRows.lean ====
/-
  Thirty-two channels as two cores of sixteen subcores. Channel 2 s + c belongs to subcore s of core c; the map
  (c, s) ↦ 2 s + c is a bijection of Fin 2 × Fin 16 with Fin 32 (its inverse takes n to (n mod 2, n div 2)). So a
  separating conjunction over the thirty-two channels is the conjunction over the two cores of the conjunctions over
  each core's sixteen subcores.
-/
import Idealize.SL.BI.BigOp

namespace Cert.LaunchRows

open Idealize.SL Idealize.SL.BI Idealize.SL.RA

/-- The channel of subcore s of core c. -/
def chanOf (c : Fin 2) (s : Fin 16) : Fin 32 := ⟨2 * s.val + c.val, by have := c.isLt; have := s.isLt; omega⟩

@[simp] theorem chanOf_val (c : Fin 2) (s : Fin 16) : (chanOf c s).val = 2 * s.val + c.val := rfl

/-- (core, subcore) pairs and channels correspond one to one. -/
def chanEquiv : Fin 2 × Fin 16 ≃ Fin 32 where
  toFun p := chanOf p.1 p.2
  invFun n := (⟨n.val % 2, Nat.mod_lt _ (by decide)⟩, ⟨n.val / 2, by have := n.isLt; omega⟩)
  left_inv p := by
    obtain ⟨c, s⟩ := p
    have hc := c.isLt
    refine Prod.ext (Fin.ext ?_) (Fin.ext ?_)
    · show (2 * s.val + c.val) % 2 = c.val
      omega
    · show (2 * s.val + c.val) / 2 = s.val
      omega
  right_inv n := by
    refine Fin.ext ?_
    show 2 * (n.val / 2) + n.val % 2 = n.val
    omega

/-- A conjunction over the channels, regrouped by core and subcore. -/
theorem bigSep_chan {M : Type} [URA M] (Φ : Fin 32 → sProp M) :
    bigSep Finset.univ Φ = bigSep Finset.univ fun c : Fin 2 => bigSep Finset.univ fun s : Fin 16 => Φ (chanOf c s) := by
  rw [bigSep_univ_equiv chanEquiv Φ, bigSep_univ_prod]
  rfl

end Cert.LaunchRows
-- ==== Proof.LaunchKI.lean ====
/-
  The launch of the scatter-accumulate kernel: @main on the TensorCore swaps the first two axes of the data and
  transposes the table, then starts the one vector-subcore kernel on two SparseCores of sixteen subcores each and waits
  for it. Subcore s of core c owns channel 2 s + c: it reads both transposed arrays whole, under a read share of each,
  and writes row 2 s + c of the result. The thirty-two read shares are split off each array's full share on the
  TensorCore, which keeps the remainder; the thirty-two rows are cut out of the whole result and joined back after the
  call, each at the finished accumulator of its channel.
-/
import proofs.«204569_g29265907155619_cont_9to1_682_25_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«204569_g29265907155619_cont_9to1_682_25_alg».proof.Proof.Gen.KernelIdeal
import proofs.«204569_g29265907155619_cont_9to1_682_25_alg».proof.Proof.Gen.KernelIdeal.Skeleton
import proofs.«204569_g29265907155619_cont_9to1_682_25_alg».proof.Proof.ColSum
import proofs.«204569_g29265907155619_cont_9to1_682_25_alg».proof.Proof.BodyKI
import proofs.«204569_g29265907155619_cont_9to1_682_25_alg».proof.Proof.LaunchRows

noncomputable section

namespace Cert.KernelIdeal.Launch

open Cert.KernelIdeal Cert.KernelIdeal.Gen Cert.KernelIdeal.Tile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Cert.ColSum Cert.LaunchRows

variable {F : FTy → Type}

local notation "𝕄" => MT nD τ sig (HIx 1) (Elt F) ℕ UU ℕ

/-! ## The arrays -/

local notation "xW" => (Memref.whole Cert.KernelIdeal.main_v0_scv : Memref Cert.KernelIdeal.sig Kind.scVector Space.hbm Cert.KernelIdeal.S27x32x65536 EltTy.f32)
local notation "oW" => (Memref.whole Cert.KernelIdeal.main_v1_scv : Memref Cert.KernelIdeal.sig Kind.scVector Space.hbm Cert.KernelIdeal.S27x65536 EltTy.i32)
local notation "rW" => (Memref.whole Cert.KernelIdeal.main_v2_scv : Memref Cert.KernelIdeal.sig Kind.scVector Space.hbm Cert.KernelIdeal.S32x65536 EltTy.f32)
local notation "accW" => (Memref.whole Cert.KernelIdeal.cc0_scratch0 : Memref Cert.KernelIdeal.sig Kind.scVector Space.vmem Cert.KernelIdeal.S65536 EltTy.f32)
local notation "ib0W" => (Memref.whole Cert.KernelIdeal.cc0_scratch1 : Memref Cert.KernelIdeal.sig Kind.scVector Space.vmem Cert.KernelIdeal.S27x512 EltTy.i32)
local notation "ib1W" => (Memref.whole Cert.KernelIdeal.cc0_scratch2 : Memref Cert.KernelIdeal.sig Kind.scVector Space.vmem Cert.KernelIdeal.S27x512 EltTy.i32)
local notation "db0W" => (Memref.whole Cert.KernelIdeal.cc0_scratch3 : Memref Cert.KernelIdeal.sig Kind.scVector Space.vmem Cert.KernelIdeal.S27x512 EltTy.f32)
local notation "db1W" => (Memref.whole Cert.KernelIdeal.cc0_scratch4 : Memref Cert.KernelIdeal.sig Kind.scVector Space.vmem Cert.KernelIdeal.S27x512 EltTy.f32)

variable (m : (ℓ : Loc nD τ sig) → Buf (Elt F) ℓ) (ρ : Dev nD → PrngReg)

/-- The two arguments, as locations of device `d`. -/
abbrev a0Loc (d : Dev nD) : Loc nD τ sig := (SparseCore.T d).loc main_arg0
abbrev a1Loc (d : Dev nD) : Loc nD τ sig := (SparseCore.T d).loc main_arg1

variable [FloatOps F]

/-- The data with its first two axes swapped: what @main's first operation leaves in its result. -/
def X (d : Dev nD) : Buf (Elt F) (xLoc d) :=
  transpose S27x32x65536 [1, 0, 2] (m (a0Loc d)) transposes_S32x27x65536_S27x32x65536_1_0_2
/-- The table transposed: what @main's second operation leaves in its result. -/
def Oc (d : Dev nD) : Buf (Elt F) (oLoc d) :=
  transpose S27x65536 [1, 0] (m (a1Loc d)) transposes_S65536x27_S27x65536_1_0

-- every word of the transposed table names a node
variable (hin : ∀ (d : Dev nD) (j : S27x65536.Idx), ((Oc m d : IVec S27x65536 32) j).toNat < 65536)

/-! ## What the handshakes carry -/

/-- The read share of channel `ch`: the `ch`-th of thirty-two tokens split off the full share. -/
abbrev tok (ch : Fin 32) : PosShare TreeShare := Transfers.shareTok fullShare 32 ch

/-- What the task of channel `ch` starts from: a read share of each transposed array and its row of the result. -/
def goAt (d : Dev nD) (ch : Fin 32) : sProp 𝕄 :=
  iprop((xLoc d ↦{tok ch} X m d) ∗ (oLoc d ↦{tok ch} Oc m d) ∗ ∃ f, rLoc d ↦[rowSet ch]{fullShare} f)
/-- What it ends with: the same shares, and its row at the finished accumulator of its channel. -/
def tdAt (d : Dev nD) (ch : Fin 32) : sProp 𝕄 :=
  iprop((xLoc d ↦{tok ch} X m d) ∗ (oLoc d ↦{tok ch} Oc m d)
    ∗ ∃ f, ⌜RowDone (X m d) (Oc m d) (hin d) ch f⌝ ∗ rLoc d ↦[rowSet ch]{fullShare} f)

instance goAt_storable (d : Dev nD) (ch : Fin 32) : BI.Storable (upEmb : UEmb _ 𝕄) (goAt m d ch) := by
  unfold goAt; infer_instance
instance tdAt_storable (d : Dev nD) (ch : Fin 32) : BI.Storable (upEmb : UEmb _ 𝕄) (tdAt m hin d ch) := by
  unfold tdAt; infer_instance

/-- The one call hands each core the starts of its sixteen tasks and takes back their ends; a task's channel is twice
    its subcore number plus its core number. -/
def P : (K (F := F)).Pay (nD := nD) (Val := Elt F) (Name := ℕ) (U := UU) where
  st := fun q d c => match q with
    | 0 => bigSep Finset.univ fun i : Fin ((K (F := F)).nSub 0) => goAt m d (chanOf (Fin.cast nCore_zero c) (Fin.cast nSub_zero i))
  dn := fun q d c => match q with
    | 0 => bigSep Finset.univ fun i : Fin ((K (F := F)).nSub 0) => tdAt m hin d (chanOf (Fin.cast nCore_zero c) (Fin.cast nSub_zero i))
  go := fun q d c i => match q with
    | 0 => goAt m d (chanOf (Fin.cast nCore_zero c) (Fin.cast nSub_zero i))
  td := fun q d c i => match q with
    | 0 => tdAt m hin d (chanOf (Fin.cast nCore_zero c) (Fin.cast nSub_zero i))
  x := fun _ _ => iprop(emp)

instance P_storable : (P (F := F) m hin).IsStorable where
  st q d c := match q with
    | 0 => (inferInstance : BI.Storable (upEmb : UEmb _ 𝕄)
        (bigSep Finset.univ fun i : Fin ((K (F := F)).nSub 0) => goAt m d (chanOf (Fin.cast nCore_zero c) (Fin.cast nSub_zero i))))
  dn q d c := match q with
    | 0 => (inferInstance : BI.Storable (upEmb : UEmb _ 𝕄)
        (bigSep Finset.univ fun i : Fin ((K (F := F)).nSub 0) => tdAt m hin d (chanOf (Fin.cast nCore_zero c) (Fin.cast nSub_zero i))))
  go q d c i := match q with
    | 0 => (inferInstance : BI.Storable (upEmb : UEmb _ 𝕄) (goAt m d (chanOf (Fin.cast nCore_zero c) (Fin.cast nSub_zero i))))
  td q d c i := match q with
    | 0 => (inferInstance : BI.Storable (upEmb : UEmb _ 𝕄) (tdAt m hin d (chanOf (Fin.cast nCore_zero c) (Fin.cast nSub_zero i))))

/-! ## The task -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k (coordsV c s)
          xW (Memref.isWhole_whole _) oW (Memref.isWhole_whole _) rW (Memref.isWhole_whole _)
          accW (Memref.isWhole_whole _) ib0W (Memref.isWhole_whole _) ib1W (Memref.isWhole_whole _)
          db0W (Memref.isWhole_whole _) db1W (Memref.isWhole_whole _) cc0_scratch5 cc0_scratch6 cc0_scratch7 cc0_scratch8 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The channel the body computes from a task's grid coordinates is the one the handshakes name. -/
theorem chan_coordsV (c : Fin ((K (F := F)).nCore 0)) (i : Fin ((K (F := F)).nSub 0))
    (h0 : ((K (F := F)).core 0 c).val < grid0.bound 0) (h1 : ((K (F := F)).sub 0 i).val < grid0.bound 1) :
    chan (coordsV ⟨_, h0⟩ ⟨_, h1⟩) = chanOf (Fin.cast nCore_zero c) (Fin.cast nSub_zero i) := rfl

theorem tileObl (hF : (K (F := F)).Facts) : (K (F := F)).TileObl (D (F := F)) 𝒱 (P m hin) v₀ 0 := by
  intro d c i O W hO _ _
  -- this kernel owes nothing for a protocol of its own
  simp only [show (P m hin).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  show iprop(_ ∗ emp ∗ goAt m d (chanOf (Fin.cast nCore_zero c) (Fin.cast nSub_zero i)) ∗ _) ⊢ wp _ _ _ _
    (fun _ => iprop(tdAt m hin d (chanOf (Fin.cast nCore_zero c) (Fin.cast nSub_zero i)) ∗ _))
  rw [← chan_coordsV c i hc.1 hc.2]
  unfold goAt tdAt
  exact (tile_body d (coordsV ⟨_, hc.1⟩ ⟨_, hc.2⟩) hF (X m d) (Oc m d) (hin d) _ _ O W hO).trans (wp_mono frame _ _ fun _ => obl_post)

theorem vecSplit : (K (F := F)).VecSplit' (P m hin) 0 := by
  intro d c
  show (bigSep Finset.univ fun i : Fin ((K (F := F)).nSub 0) => goAt m d (chanOf (Fin.cast nCore_zero c) (Fin.cast nSub_zero i)))
    ⊢ |={Set.univ}=> iprop(
      (bigSep Finset.univ fun i : Fin ((K (F := F)).nSub 0) => goAt m d (chanOf (Fin.cast nCore_zero c) (Fin.cast nSub_zero i)))
      ∗ ((bigSep Finset.univ fun i : Fin ((K (F := F)).nSub 0) => tdAt m hin d (chanOf (Fin.cast nCore_zero c) (Fin.cast nSub_zero i)))
          -∗ bigSep Finset.univ fun i : Fin ((K (F := F)).nSub 0) => tdAt m hin d (chanOf (Fin.cast nCore_zero c) (Fin.cast nSub_zero i))))
  iintro H; imodintro
  isplitl [H]; · iexact H
  iintro H; iexact H

/-! ## The launch element: the handshakes' rounds; the counters dropped -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m hin).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The rows of the result -/

omit [FloatOps F] in
theorem rowSet_eq (c : Fin 32) : rowSet c = (row c).set := by
  show ((View.whole (main_v2_scv : Ref sig .scVector)).slice (row c)).set = _
  rw [View.set_slice]; exact Finset.map_refl
omit [FloatOps F] in
theorem rows_disjoint : ∀ i ∈ (Finset.univ : Finset (Fin 32)), ∀ j ∈ (Finset.univ : Finset (Fin 32)), i ≠ j → Disjoint (rowSet i) (rowSet j) :=
  fun i _ j _ h => by rw [rowSet_eq, rowSet_eq]; exact Rect.part_disjoint hdiv32 h
omit [FloatOps F] in
theorem rows_cover : (Finset.univ : Finset (Fin 32)).biUnion rowSet = Finset.univ :=
  (Finset.biUnion_congr rfl fun i _ => rowSet_eq i).trans (Rect.biUnion_part hdiv32)

omit [FloatOps F] in
/-- The whole result is its thirty-two rows. -/
theorem rPts_rows (d : Dev nD) (f : Buf (Elt F) (rLoc d)) :
    (rLoc d ↦{fullShare} f : sProp 𝕄) = bigSep Finset.univ fun ch : Fin 32 => rLoc d ↦[rowSet ch]{fullShare} f := by
  rw [← pointsTo_biUnion Finset.univ (ℓ := rLoc d) rowSet rows_disjoint, rows_cover]; try rfl

omit [FloatOps F] in
theorem rows_ex (d : Dev nD) (f : Buf (Elt F) (rLoc d)) :
    (bigSep Finset.univ fun ch : Fin 32 => (rLoc d ↦[rowSet ch]{fullShare} f : sProp 𝕄))
      ⊢ bigSep Finset.univ fun ch : Fin 32 => (iprop(∃ f, rLoc d ↦[rowSet ch]{fullShare} f) : sProp 𝕄) := by
  have h : ∀ ch : Fin 32, (rLoc d ↦[rowSet ch]{fullShare} f : sProp 𝕄) ⊢ iprop(∃ f, rLoc d ↦[rowSet ch]{fullShare} f) :=
    fun ch => by iintro H; iexists f; iexact H
  exact bigSep_mono fun ch _ => h ch

omit [FloatOps F] in
/-- Entry (c, n) of the result lies in row c. -/
theorem mem_rowSet (c : Fin 32) (n : Fin 65536) : (ValueIdx.ix2 c n : S32x65536.Idx) ∈ rowSet c := by
  rw [rowSet_eq]
  refine Rect.mem_set_unit.mpr fun a => ?_
  match a with
  | 0 =>
    show c.val * 1 ≤ c.val ∧ c.val < c.val * 1 + 1
    omega
  | 1 =>
    show 0 * 65536 ≤ n.val ∧ n.val < 0 * 65536 + 65536
    have := n.isLt
    omega

/-- A row's finished state depends on the result only through that row. -/
theorem RowDone_of_agree {d : Dev nD} {ch : Fin 32} {f g : Buf (Elt F) (rLoc d)}
    (h : RowDone (X m d) (Oc m d) (hin d) ch f) (hg : ∀ i ∈ rowSet ch, g i = f i) : RowDone (X m d) (Oc m d) (hin d) ch g := by
  obtain ⟨acc, hacc, hf⟩ := h
  exact ⟨acc, hacc, fun n => (hg _ (mem_rowSet ch n)).trans (hf n)⟩

/-- The rows, each finished, join into the whole result, every row of it finished. -/
theorem rows_join (d : Dev nD) :
    (bigSep Finset.univ fun ch : Fin 32 => (iprop(∃ f, ⌜RowDone (X m d) (Oc m d) (hin d) ch f⌝ ∗ rLoc d ↦[rowSet ch]{fullShare} f) : sProp 𝕄))
      ⊢ (iprop(∃ f, ⌜∀ ch : Fin 32, RowDone (X m d) (Oc m d) (hin d) ch f⌝ ∗ rLoc d ↦{fullShare} f) : sProp 𝕄) := by
  refine (bigSep_exists_pi Finset.univ (fun (ch : Fin 32) (f : Buf (Elt F) (rLoc d)) =>
    (iprop(⌜RowDone (X m d) (Oc m d) (hin d) ch f⌝ ∗ rLoc d ↦[rowSet ch]{fullShare} f) : sProp 𝕄))).trans ?_
  iintro ⟨%fs, H⟩
  ihave H' := (bigSep_pure_sep Finset.univ (fun ch : Fin 32 => RowDone (X m d) (Oc m d) (hin d) ch (fs ch))
    (fun ch : Fin 32 => (rLoc d ↦[rowSet ch]{fullShare} fs ch : sProp 𝕄))) $$ H
  icases H' with ⟨%hfs, H⟩
  ihave H'' := (pointsTo_biUnion_join Finset.univ rowSet fs (fs 0) rows_disjoint) $$ H
  icases H'' with ⟨%g, %hg, Hg⟩
  rw [rows_cover]
  iexists g; isplitr
  · ipureintro
    exact fun ch => RowDone_of_agree m hin (hfs ch (Finset.mem_univ ch)) (hg ch (Finset.mem_univ ch))
  · iexact Hg

/-! ## @main on the TensorCore -/

abbrev a0' : DevRef τ sig := Proc.devRef .tc (main_arg0 : Ref sig .tc)
abbrev a1' : DevRef τ sig := Proc.devRef .tc (main_arg1 : Ref sig .tc)
abbrev x' : DevRef τ sig := Proc.devRef .tc (main_v0 : Ref sig .tc)
abbrev o' : DevRef τ sig := Proc.devRef .tc (main_v1 : Ref sig .tc)
abbrev r' : DevRef τ sig := Proc.devRef .tc (main_v2 : Ref sig .tc)

/-- The TensorCore's arrays, all unscoped: the two arguments, the two transposed arrays, the result. -/
abbrev S5 : Finset (DevRef τ sig) := {a0', a1', x', o', r'}

abbrev op0 : HloOp τ sig (Elt F) :=
  StableHlo.unary main_arg0 main_v0 ((transpose S27x32x65536 [1, 0, 2] · transposes_S32x27x65536_S27x32x65536_1_0_2) : (⟨S32x27x65536, .f32⟩ : BufTy).Contents (Elt F) → (⟨S27x32x65536, .f32⟩ : BufTy).Contents (Elt F))
abbrev op1 : HloOp τ sig (Elt F) :=
  StableHlo.unary main_arg1 main_v1 ((transpose S27x65536 [1, 0] · transposes_S65536x27_S27x65536_1_0) : (⟨S65536x27, .i32⟩ : BufTy).Contents (Elt F) → (⟨S27x65536, .i32⟩ : BufTy).Contents (Elt F))

theorem hOp0 : (op0 (F := F)).bufs ⊆ S5 := show ({a0', x'} : Finset (DevRef τ sig)) ⊆ S5 by decide
theorem hOp1 : (op1 (F := F)).bufs ⊆ S5 := show ({a1', o'} : Finset (DevRef τ sig)) ⊆ S5 by decide

omit [FloatOps F] in
theorem held_S5 (d : Dev nD) (W : Valuation τ sig (Elt F)) :
    (held (T d) S5 W : sProp 𝕄) = iprop((a0Loc d ↦{fullShare} W a0') ∗ (a1Loc d ↦{fullShare} W a1') ∗ (xLoc d ↦{fullShare} W x')
      ∗ (oLoc d ↦{fullShare} W o') ∗ rLoc d ↦{fullShare} W r') := by
  unfold held S5
  rw [SparseCore.bigSep_insert' (by decide), SparseCore.bigSep_insert' (by decide), SparseCore.bigSep_insert' (by decide),
    SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1) ∗ (xLoc d ↦{fullShare} W main_v0)
      ∗ (oLoc d ↦{fullShare} W main_v1) ∗ rLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-- The launch valuation, and the one after the two transposes. -/
def V0 (d : Dev nD) : Valuation τ sig (Elt F) := fun b => m (d, b)
abbrev V2 (d : Dev nD) : Valuation τ sig (Elt F) := (op1 (F := F)).result ((op0 (F := F)).result (V0 m d))

theorem unscoped_held (d : Dev nD) : (unscopedBufs d (fun b => m ((SparseCore.T d).loc b)) : sProp 𝕄) = held (T d) S5 (V0 m d) := by
  rw [unscopedBufs_eq, held_S5]; rfl

theorem V2_a0 (d : Dev nD) : V2 m d a0' = m (a0Loc d) := by
  show (op1 (F := F)).result _ (Proc.devRef .tc main_arg0) = _
  rw [StableHlo.unary_result_ne (h := show (main_arg0 : Ref sig .tc) ≠ main_v1 by decide),
    StableHlo.unary_result_ne (h := show (main_arg0 : Ref sig .tc) ≠ main_v0 by decide)]
  rfl
theorem V2_a1 (d : Dev nD) : V2 m d a1' = m (a1Loc d) := by
  show (op1 (F := F)).result _ (Proc.devRef .tc main_arg1) = _
  rw [StableHlo.unary_result_ne (h := show (main_arg1 : Ref sig .tc) ≠ main_v1 by decide),
    StableHlo.unary_result_ne (h := show (main_arg1 : Ref sig .tc) ≠ main_v0 by decide)]
  rfl
theorem V2_x (d : Dev nD) : V2 m d x' = X m d := by
  show (op1 (F := F)).result _ (Proc.devRef .tc main_v0) = _
  rw [StableHlo.unary_result_ne (h := show (main_v0 : Ref sig .tc) ≠ main_v1 by decide), StableHlo.unary_result]
  rfl
theorem V2_o (d : Dev nD) : V2 m d o' = Oc m d := by
  show (op1 (F := F)).result _ (Proc.devRef .tc main_v1) = _
  rw [StableHlo.unary_result, StableHlo.unary_result_ne (h := show (main_arg1 : Ref sig .tc) ≠ main_v0 by decide)]
  rfl
theorem V2_r (d : Dev nD) : V2 m d r' = m (rLoc d) := by
  show (op1 (F := F)).result _ (Proc.devRef .tc main_v2) = _
  rw [StableHlo.unary_result_ne (h := show (main_v2 : Ref sig .tc) ≠ main_v1 by decide),
    StableHlo.unary_result_ne (h := show (main_v2 : Ref sig .tc) ≠ main_v0 by decide)]
  rfl

theorem held_V2 (d : Dev nD) :
    (held (T d) S5 (V2 m d) : sProp 𝕄) = iprop((a0Loc d ↦{fullShare} m (a0Loc d)) ∗ (a1Loc d ↦{fullShare} m (a1Loc d)) ∗ (xLoc d ↦{fullShare} X m d)
      ∗ (oLoc d ↦{fullShare} Oc m d) ∗ rLoc d ↦{fullShare} m (rLoc d)) := by
  rw [held_S5, V2_a0, V2_a1, V2_x, V2_o, V2_r]

/-- What the call takes for the two SparseCores, and what it hands back: one start, one end per channel. -/
theorem st0_eq (d : Dev nD) :
    (bigSep Finset.univ fun c : Fin ((K (F := F)).nCore 0) => (P m hin).st 0 d c) = bigSep Finset.univ fun ch : Fin 32 => goAt m d ch := by
  refine Eq.trans ?_ (bigSep_chan (fun ch : Fin 32 => goAt m d ch)).symm
  rfl
theorem dn0_eq (d : Dev nD) :
    (bigSep Finset.univ fun c : Fin ((K (F := F)).nCore 0) => (P m hin).dn 0 d c) = bigSep Finset.univ fun ch : Fin 32 => tdAt m hin d ch := by
  refine Eq.trans ?_ (bigSep_chan (fun ch : Fin 32 => tdAt m hin d ch)).symm
  rfl

theorem goAt_split (d : Dev nD) :
    (bigSep Finset.univ fun ch : Fin 32 => goAt m d ch)
      = iprop((bigSep Finset.univ fun ch : Fin 32 => xLoc d ↦{tok ch} X m d) ∗ (bigSep Finset.univ fun ch : Fin 32 => oLoc d ↦{tok ch} Oc m d)
          ∗ bigSep Finset.univ fun ch : Fin 32 => iprop(∃ f, rLoc d ↦[rowSet ch]{fullShare} f)) := by
  unfold goAt; rw [bigSep_sep', bigSep_sep']
theorem tdAt_split (d : Dev nD) :
    (bigSep Finset.univ fun ch : Fin 32 => tdAt m hin d ch)
      = iprop((bigSep Finset.univ fun ch : Fin 32 => xLoc d ↦{tok ch} X m d) ∗ (bigSep Finset.univ fun ch : Fin 32 => oLoc d ↦{tok ch} Oc m d)
          ∗ bigSep Finset.univ fun ch : Fin 32 => iprop(∃ f, ⌜RowDone (X m d) (Oc m d) (hin d) ch f⌝ ∗ rLoc d ↦[rowSet ch]{fullShare} f)) := by
  unfold tdAt; rw [bigSep_sep', bigSep_sep']

/-- What @main leaves the claim: the arguments at their launch contents, the result with every row finished. -/
abbrev FIN (d : Dev nD) : sProp 𝕄 :=
  iprop((a0Loc d ↦{fullShare} m (a0Loc d)) ∗ (a1Loc d ↦{fullShare} m (a1Loc d))
    ∗ ∃ f, ⌜∀ ch : Fin 32, RowDone (X m d) (Oc m d) (hin d) ch f⌝ ∗ rLoc d ↦{fullShare} f)

/-- @main on device `d`'s TensorCore: the two transposes, over the five arrays held whole; then the call, each task
    handed a read share of each transposed array and its row of the result, the rows joined after it. -/
theorem hmain (κ : GSem nD τ sig → ℕ) (d : Dev nD) :
    iprop((K (F := F)).ctx EH (P m hin) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m hin d) := by
  unfold SparseCore.Cfg.tcRes
  rw [unscoped_held]
  simp only [main, wp_bind, wp_pure]
  iintro ⟨#Hctx, Hst, ⟨Hb, Hheld, -, -⟩, -⟩
  -- the two transposes
  iapply (wp_hlo_within 𝒱 (SparseCore.T d) none Set.univ (op := op0) (S := S5) hOp0 (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := op1) (S := S5) hOp1 (V := (op0 (F := F)).result (V0 m d))) $$ [Hb Hheld]
  · isplitl [Hb]; · iexact Hb
    iexact Hheld
  iintro ⟨Hb, Hheld⟩
  rw [wp_ret]; imodintro
  ihave Hh := (Entails.of_eq (held_V2 m d)) $$ Hheld
  icases Hh with ⟨Ha0, Ha1, Hx, Ho, Hr⟩
  -- thirty-two read shares of each transposed array, the remainders kept; the result cut into its rows
  ihave Hx' := (Transfers.pointsTo_toks_split fullShare 32) $$ Hx
  icases Hx' with ⟨HxR, HxT⟩
  ihave Ho' := (Transfers.pointsTo_toks_split fullShare 32) $$ Ho
  icases Ho' with ⟨HoR, HoT⟩
  ihave Hr' := ((Entails.of_eq (rPts_rows (F := F) d _)).trans (rows_ex d _)) $$ Hr
  -- the call
  iapply ((K (F := F)).wp_run (D (F := F)) 𝒱 (EH := EH) (P := P m hin) κ d 0) $$ [Hst HxT HoT Hr' Ha0 Ha1]
  isplitr; · iexact Hctx
  isplitl [Hst]; · iexact Hst
  isplitl [HxT HoT Hr']
  · rw [st0_eq, goAt_split]
    isplitl [HxT]; · iexact HxT
    isplitl [HoT]; · iexact HoT
    iexact Hr'
  iintro ⟨Hst, Hdn⟩
  ihave Hdn' := (Entails.of_eq ((dn0_eq m hin d).trans (tdAt_split m hin d))) $$ Hdn
  icases Hdn' with ⟨-, -, Hr⟩
  ihave Hr' := (rows_join m hin d) $$ Hr
  icases Hr' with ⟨%f, %hf, Hr⟩
  imodintro
  isplitl [Hst]; · iexact Hst
  isplitl [Ha0]; · iexact Ha0
  isplitl [Ha1]; · iexact Ha1
  iexists f; isplitr
  · ipureintro; exact hf
  · iexact Hr

/-! ## The final memory, the run -/

def fq (d : Dev nD) (s' : Phys nD τ sig (Elt F)) : Prop :=
  (∀ ch : Fin 32, RowDone (X m d) (Oc m d) (hin d) ch (s'.mem.mem (rLoc d)))
    ∧ s'.mem.mem (a0Loc d) = m (a0Loc d) ∧ s'.mem.mem (a1Loc d) = m (a1Loc d)

theorem hfin (d : Dev nD) (s' : Phys nD τ sig (Elt F)) : iprop(FIN m hin d ∗ SI s') ⊢ (⌜fq m hin d s'⌝ : sProp 𝕄) := by
  iintro ⟨⟨Ha0, Ha1, %f, %hf, Hr⟩, HSI⟩
  ihave H := (persistent_entails_right (SI_pointsTo_agree (st := s') (ℓ := a0Loc d) (I := Finset.univ) (q := fullShare) (f := m (a0Loc d)))) $$ [HSI Ha0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI Ha1]
  · isplitl [HSI] <;> iassumption
  icases H with ⟨%h1, HSI, -⟩
  ihave H := (SI_pointsTo_agree (st := s') (ℓ := rLoc d) (I := Finset.univ) (q := fullShare) (f := f)) $$ [HSI Hr]
  · isplitl [HSI] <;> iassumption
  icases H with %h2
  ipureintro
  have e : s'.mem.mem (rLoc d) = f := funext fun i => h2 i (Finset.mem_univ i)
  exact ⟨fun ch => e ▸ hf ch, funext fun i => h0 i (Finset.mem_univ i), funext fun i => h1 i (Finset.mem_univ i)⟩

/-- Every device ends with each row of the result at the finished accumulator of its channel, the arguments unchanged. -/
def QC : PUnit × MemSt nD τ sig (Elt F) → Prop := fun r => ∀ c : Dev nD,
  (∀ ch : Fin 32, RowDone (X m c) (Oc m c) (hin c) ch (r.2.mem (rLoc c)))
    ∧ r.2.mem (a0Loc c) = m (a0Loc c) ∧ r.2.mem (a1Loc c) = m (a1Loc c)

theorem run_main [∀ e, Nonempty (Elt F e)] :
    θ_run (Cert.KernelIdeal.defs (F := F)) (Cert.KernelIdeal.threads (F := F)) ⟨m, fun _ => 0, ρ⟩ (QC m hin) :=
  SparseCore.Cfg.θ_run_sc (K := K (F := F)) (D := D (F := F)) (𝒱 := 𝒱) (EH := EH) (P := P m hin) Tile.facts v₀
    (fun q hq => match q with | 0 => nomatch hq)
    (fun q _ => match q with | 0 => tileObl m hin Tile.facts)
    (fun q _ => match q with | 0 => SparseCore.Cfg.VecSplit.of_plain (vecSplit m hin))
    m ρ main (fun _ => iprop(emp)) (FIN m hin) (u₀ (F := F)) (sep_elim_left.trans (hu₀ m hin)) (hmain m ρ hin) (fq m hin) (hfin m hin) (QC m hin) (fun _ h => h)

end Cert.KernelIdeal.Launch

end
-- ==== Proof.SetupK.lean ====
/-
  The names shared by the modules about the scatter-accumulate kernel's subcore task: the launch configuration, the ghost
  state (handshake rounds beside transfer counters), the arrays' locations, a subcore's channel and its row of the
  result, and the statement that a row holds a finished accumulator.
-/
import proofs.«204569_g29265907155619_cont_9to1_682_25_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«204569_g29265907155619_cont_9to1_682_25_alg».proof.Proof.Gen.Kernel
import proofs.«204569_g29265907155619_cont_9to1_682_25_alg».proof.Proof.Gen.Kernel.Skeleton
import proofs.«204569_g29265907155619_cont_9to1_682_25_alg».proof.Proof.AccSteps

noncomputable section

namespace Cert.Kernel.Tile

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.ColSum

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays and a subcore's scratch -/

local notation "xW" => (Memref.whole Cert.Kernel.main_v0_scv : Memref Cert.Kernel.sig Kind.scVector Space.hbm Cert.Kernel.S27x32x65536 EltTy.f32)
local notation "oW" => (Memref.whole Cert.Kernel.main_v1_scv : Memref Cert.Kernel.sig Kind.scVector Space.hbm Cert.Kernel.S27x65536 EltTy.i32)
local notation "rW" => (Memref.whole Cert.Kernel.main_v2_scv : Memref Cert.Kernel.sig Kind.scVector Space.hbm Cert.Kernel.S32x65536 EltTy.f32)
local notation "accW" => (Memref.whole Cert.Kernel.cc0_scratch0 : Memref Cert.Kernel.sig Kind.scVector Space.vmem Cert.Kernel.S65536 EltTy.f32)
local notation "ib0W" => (Memref.whole Cert.Kernel.cc0_scratch1 : Memref Cert.Kernel.sig Kind.scVector Space.vmem Cert.Kernel.S27x512 EltTy.i32)
local notation "ib1W" => (Memref.whole Cert.Kernel.cc0_scratch2 : Memref Cert.Kernel.sig Kind.scVector Space.vmem Cert.Kernel.S27x512 EltTy.i32)
local notation "db0W" => (Memref.whole Cert.Kernel.cc0_scratch3 : Memref Cert.Kernel.sig Kind.scVector Space.vmem Cert.Kernel.S27x512 EltTy.f32)
local notation "db1W" => (Memref.whole Cert.Kernel.cc0_scratch4 : Memref Cert.Kernel.sig Kind.scVector Space.vmem Cert.Kernel.S27x512 EltTy.f32)

abbrev xLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

variable [FloatOps F]

/-! ## A subcore's channel and its row of the result -/

theorem bound_zero : grid0.bound 0 = 2 := rfl
theorem bound_one : grid0.bound 1 = 16 := rfl

/-- The channel of the subcore at grid coordinates L: twice the subcore number plus the core number. -/
def chan (L : grid0.Coords) : Fin 32 :=
  ⟨2 * (L 1).val + (L 0).val, by
    have h0 : (L 0).val < 2 := (L 0).isLt
    have h1 : (L 1).val < 16 := (L 1).isLt
    omega⟩

theorem hdiv32 : 32 ∣ S32x65536.size 0 := ⟨1, rfl⟩
abbrev row (c : Fin 32) : Rect S32x65536 := Rect.part (s := S32x65536) (a₀ := 0) hdiv32 c
abbrev rowSet (c : Fin 32) : Finset S32x65536.Idx := ((rW).view.slice (row c)).set

/-- Row c of the result holds the finished accumulator of channel c: every pair (k, h) added once, from zero. -/
def RowDone (X : Vec F S27x32x65536 .f32) (Oc : IVec S27x65536 32) (hin : ∀ j, (Oc j).toNat < 65536) (c : Fin 32)
    (f : Vec F S32x65536 .f32) : Prop :=
  ∃ g, Acc (tgtOf Oc hin) (dtOf X c) (zeroAcc (F := F)) Finset.univ g ∧ ∀ n : Fin 65536, f (ValueIdx.ix2 c n) = g (ValueIdx.ix1 n)

abbrev cV (L : grid0.Coords) : Fin τ.nSC := (L 0).castLE hcore0
abbrev jV (L : grid0.Coords) : Fin τ.nSub := (L 1).castLE hsub0

end Cert.Kernel.Tile

end
-- ==== Proof.TripsK.lean ====
/-
  One trip of each of the two scatter loops of a subcore's task.  A trip reads, for each of the 27 slots, the 16-lane piece
  of the staged table chunk and of the staged data chunk at its lane block, and adds the data piece into the accumulator
  at the entries the table piece names.  Through the trip the accumulator is followed by the relation AccInv: before the
  trip exactly the pairs of the earlier sixteen-column blocks have been added, after slot k also the pairs (k', h) with
  k' ≤ k and h in this block.  The staged pieces are identified with entries of the whole arrays through the facts
  IdxChunk and DatChunk about what a staging buffer holds.
-/
import proofs.«204569_g29265907155619_cont_9to1_682_25_alg».proof.Proof.SetupK

noncomputable section

namespace Cert.Kernel.Tile

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.ColSum

variable {F : FTy → Type}

local notation "𝕄" => MT nD τ sig (HIx 1) (Elt F) ℕ UU ℕ
local notation "xW" => (Memref.whole Cert.Kernel.main_v0_scv : Memref Cert.Kernel.sig Kind.scVector Space.hbm Cert.Kernel.S27x32x65536 EltTy.f32)
local notation "oW" => (Memref.whole Cert.Kernel.main_v1_scv : Memref Cert.Kernel.sig Kind.scVector Space.hbm Cert.Kernel.S27x65536 EltTy.i32)
local notation "rW" => (Memref.whole Cert.Kernel.main_v2_scv : Memref Cert.Kernel.sig Kind.scVector Space.hbm Cert.Kernel.S32x65536 EltTy.f32)
local notation "accW" => (Memref.whole Cert.Kernel.cc0_scratch0 : Memref Cert.Kernel.sig Kind.scVector Space.vmem Cert.Kernel.S65536 EltTy.f32)
local notation "ib0W" => (Memref.whole Cert.Kernel.cc0_scratch1 : Memref Cert.Kernel.sig Kind.scVector Space.vmem Cert.Kernel.S27x512 EltTy.i32)
local notation "ib1W" => (Memref.whole Cert.Kernel.cc0_scratch2 : Memref Cert.Kernel.sig Kind.scVector Space.vmem Cert.Kernel.S27x512 EltTy.i32)
local notation "db0W" => (Memref.whole Cert.Kernel.cc0_scratch3 : Memref Cert.Kernel.sig Kind.scVector Space.vmem Cert.Kernel.S27x512 EltTy.f32)
local notation "db1W" => (Memref.whole Cert.Kernel.cc0_scratch4 : Memref Cert.Kernel.sig Kind.scVector Space.vmem Cert.Kernel.S27x512 EltTy.f32)

variable [FloatOps F]

section TileSec
variable (d : Dev nD) (L : grid0.Coords)

omit [FloatOps F] in
/-- Every word of a staged chunk of the table is a node number. -/
theorem chunk_inb {Oc : IVec S27x65536 32} {gch : Nat} {C : IVec S27x512 32} (hC : IdxChunk Oc gch C) (hin : ∀ j, (Oc j).toNat < 65536)
    (hg : gch < 128) : ∀ j, (C j).toNat < 65536 := by
  intro j
  obtain ⟨r, c, rfl⟩ : ∃ (r : Fin 27) (c : Fin 512), j = ValueIdx.ix2 r c := ⟨j 0, j 1, ValueIdx.eq_ix2 j⟩
  rw [hC r c (by have := c.isLt; omega)]
  exact hin _

/-- Writing the whole accumulator last leaves exactly what was written. -/
theorem writes_whole_cons (f : Buf (Elt F) ((V d (cV L) (jV L)).loc cc0_scratch0)) (w : S65536.Idx → Elt F .f32)
    (Lp : List (View.Piece (Elt F) S65536 .f32)) :
    (accW).view.writes (Elt F) f (⟨Rect.whole S65536, w⟩ :: Lp) = w :=
  (View.write_univ_eq_writes_whole (accW).view f Lp w).symm.trans (View.write_whole_univ (cc0_scratch0 : Ref sig .scVector) _ w)

/-- Reading the whole accumulator back after such a write reads what was written. -/
theorem readCov_whole_cons (w : S65536.Idx → Elt F .f32) (Lp : List (View.Piece (Elt F) S65536 .f32)) :
    (accW).view.readCov (⟨Rect.whole S65536, w⟩ :: Lp) (LoadRect.whole S65536) = w :=
  View.readCov_cons_toLoadRect (accW).view (Rect.whole S65536) w Lp

/-- A 16-lane piece of the staged table chunk at row `kk`, lane block `t`. -/
theorem idx_piece0 {Oc : IVec S27x65536 32} {gch : Nat} {Ci : Buf (Elt F) ((V d (cV L) (jV L)).loc cc0_scratch1)}
    (hCi : IdxChunk Oc gch Ci) (hgch : gch < 128) (t : Fin k0_t3_loop.trips) (off : Fin 2 → Nat) (inb : ∀ a, off a + S1x16.size a ≤ S27x512.size a)
    (kk : Fin 27) (hoff : off = ![kk.val, 16 * t.val]) (l : Fin 16) :
    shapeCast S16 (View.readAt (Elt F) (ib0W).view (Rect.unit (s := S27x512) off S1x16.size inb).toLoadRect Ci) shapeCasts_S1x16_S16 (Shape.ofLane l)
      = Oc (ValueIdx.ix2 kk ⟨(32 * gch + t.val) * 16 + l.val, by have := t.isLt; have : k0_t3_loop.trips = 32 := rfl; omega⟩) := by
  have ht : t.val < 32 := t.isLt
  refine IdxChunk.lane hCi _ _ kk t.val ht hgch (fun l' => ?_) l
  subst hoff
  rw [View.readAt_apply]
  show Ci ((Rect.unit (s := S27x512) ![kk.val, 16 * t.val] S1x16.size inb).toLoadRect.idx (ValueIdx.ix2 0 l')) = Ci _
  congr 1
  funext a
  apply Fin.ext
  rw [LoadRect.idx_apply]
  match a with
  | ⟨0, _⟩ => first | (show kk.val + 1 * (0 : Nat) = kk.val; omega) | (simp [Rect.unit])
  | ⟨1, _⟩ => first | (show 16 * t.val + 1 * l'.val = 16 * t.val + l'.val; omega) | (simp [Rect.unit]; try omega)

/-- The same piece of the staged data chunk. -/
theorem dat_piece0 {X : Vec F S27x32x65536 .f32} {ch : Fin 32} {gch : Nat} {Cd : Buf (Elt F) ((V d (cV L) (jV L)).loc cc0_scratch3)}
    (hCd : DatChunk X ch gch Cd) (hgch : gch < 128) (t : Fin k0_t3_loop.trips) (off : Fin 2 → Nat) (inb : ∀ a, off a + S1x16.size a ≤ S27x512.size a)
    (kk : Fin 27) (hoff : off = ![kk.val, 16 * t.val]) (l : Fin 16) :
    shapeCast S16 (View.readAt (Elt F) (db0W).view (Rect.unit (s := S27x512) off S1x16.size inb).toLoadRect Cd) shapeCasts_S1x16_S16 (Shape.ofLane l)
      = X (ValueIdx.ix3 kk ch ⟨(32 * gch + t.val) * 16 + l.val, by have := t.isLt; have : k0_t3_loop.trips = 32 := rfl; omega⟩) := by
  have ht : t.val < 32 := t.isLt
  refine DatChunk.lane hCd _ _ kk t.val ht hgch (fun l' => ?_) l
  subst hoff
  rw [View.readAt_apply]
  show Cd ((Rect.unit (s := S27x512) ![kk.val, 16 * t.val] S1x16.size inb).toLoadRect.idx (ValueIdx.ix2 0 l')) = Cd _
  congr 1
  funext a
  apply Fin.ext
  rw [LoadRect.idx_apply]
  match a with
  | ⟨0, _⟩ => first | (show kk.val + 1 * (0 : Nat) = kk.val; omega) | (simp [Rect.unit])
  | ⟨1, _⟩ => first | (show 16 * t.val + 1 * l'.val = 16 * t.val + l'.val; omega) | (simp [Rect.unit]; try omega)

/-- One trip of the scatter loop over staging pair 0: the 27 rows' pieces of lane block `t` are added, slot by slot. -/
theorem trip0 (k0_t2 : Fin k0_t2_loop.trips) (k0_t3 : Fin k0_t3_loop.trips)
    {X : Vec F S27x32x65536 .f32} {Oc : IVec S27x65536 32} {hin : ∀ j, (Oc j).toNat < 65536} {ch : Fin 32} {gch : Nat} (hgch : gch < 128)
    (g : Buf (Elt F) ((V d (cV L) (jV L)).loc cc0_scratch0)) (Ci : Buf (Elt F) ((V d (cV L) (jV L)).loc cc0_scratch1))
    (Cd : Buf (Elt F) ((V d (cV L) (jV L)).loc cc0_scratch3)) (hCi : IdxChunk Oc gch Ci) (hCd : DatChunk X ch gch Cd)
    (hA : AccInv (tgtOf Oc hin) (dtOf X ch) (zeroAcc (F := F)) (32 * gch + k0_t3.val) 0 g) :
    (iprop(((V d (cV L) (jV L)).loc cc0_scratch0 ↦{fullShare} g)
        ∗ ((V d (cV L) (jV L)).loc cc0_scratch1 ↦{fullShare} Ci)
        ∗ ((V d (cV L) (jV L)).loc cc0_scratch3 ↦{fullShare} Cd)) : sProp 𝕄)
      ⊢ wp frame (wpE (defs₀ (F := F)) 𝒱₀ (V d (cV L) (jV L)) none) Set.univ
          (k0_t3_body L xW (Memref.isWhole_whole _) oW (Memref.isWhole_whole _) rW (Memref.isWhole_whole _)
            accW (Memref.isWhole_whole _) ib0W (Memref.isWhole_whole _) ib1W (Memref.isWhole_whole _)
            db0W (Memref.isWhole_whole _) db1W (Memref.isWhole_whole _) cc0_scratch5 cc0_scratch6 cc0_scratch7 cc0_scratch8 cc0_scoped0
            0#32 1#32 k0_t2 k0_t3 ())
          fun _ => iprop((∃ g' : Buf (Elt F) ((V d (cV L) (jV L)).loc cc0_scratch0),
              ((V d (cV L) (jV L)).loc cc0_scratch0 ↦{fullShare} g') ∗ ⌜AccInv (tgtOf Oc hin) (dtOf X ch) (zeroAcc (F := F)) (32 * gch + k0_t3.val + 1) 0 g'⌝)
            ∗ ((V d (cV L) (jV L)).loc cc0_scratch1 ↦{fullShare} Ci)
            ∗ ((V d (cV L) (jV L)).loc cc0_scratch3 ↦{fullShare} Cd)) := by
  have hC : ∀ j, (Ci j).toNat < 65536 := chunk_inb hCi hin hgch
  have hq : 32 * gch + k0_t3.val < 4096 := by have := k0_t3.isLt; have : k0_t3_loop.trips = 32 := rfl; omega
  unfold k0_t3_body
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [SparseCore.vectorStoreIdx_bind (V d (cV L) (jV L))]
  iintro ⟨Hacc, Hi, Hd⟩
  ihave Hacc' := (Entails.of_eq (show (_ : sProp 𝕄) = ((accW).view.loc (V d (cV L) (jV L)) ↦{fullShare} g) from rfl)) $$ Hacc
  ihave Hi' := (Entails.of_eq (show (_ : sProp 𝕄) = ((ib0W).view.loc (V d (cV L) (jV L)) ↦{fullShare} Ci) from rfl)) $$ Hi
  ihave Hd' := (Entails.of_eq (show (_ : sProp 𝕄) = ((db0W).view.loc (V d (cV L) (jV L)) ↦{fullShare} Cd) from rfl)) $$ Hd
  sl_exec (disch := (intro a x; obtain rfl : a = 0 := Subsingleton.elim _ _; exact hC _))
  sl_step
  isplitl [Hacc']
  · iexists _
    isplitl [Hacc']
    · iexact Hacc'
    · ipureintro
      refine AccInv.next ?_
      rw [writes_whole_cons]
      refine AccInv.row ?_ (by decide : 26 < 27) hq _ _ _ (idx_piece0 d L hCi hgch k0_t3 (k0_off32 k0_t3) _ ⟨26, by decide⟩ (k0_off32_eq k0_t3)) (dat_piece0 d L hCd hgch k0_t3 (k0_off32 k0_t3) _ ⟨26, by decide⟩ (k0_off32_eq k0_t3))
      show AccInv _ _ _ _ 26 (View.readCov _ (⟨Rect.whole S65536, storeIdx _ _ _ _ _ _⟩ :: _) (LoadRect.whole S65536))
      rw [readCov_whole_cons]
      refine AccInv.row ?_ (by decide : 25 < 27) hq _ _ _ (idx_piece0 d L hCi hgch k0_t3 (k0_off31 k0_t3) _ ⟨25, by decide⟩ (k0_off31_eq k0_t3)) (dat_piece0 d L hCd hgch k0_t3 (k0_off31 k0_t3) _ ⟨25, by decide⟩ (k0_off31_eq k0_t3))
      show AccInv _ _ _ _ 25 (View.readCov _ (⟨Rect.whole S65536, storeIdx _ _ _ _ _ _⟩ :: _) (LoadRect.whole S65536))
      rw [readCov_whole_cons]
      refine AccInv.row ?_ (by decide : 24 < 27) hq _ _ _ (idx_piece0 d L hCi hgch k0_t3 (k0_off30 k0_t3) _ ⟨24, by decide⟩ (k0_off30_eq k0_t3)) (dat_piece0 d L hCd hgch k0_t3 (k0_off30 k0_t3) _ ⟨24, by decide⟩ (k0_off30_eq k0_t3))
      show AccInv _ _ _ _ 24 (View.readCov _ (⟨Rect.whole S65536, storeIdx _ _ _ _ _ _⟩ :: _) (LoadRect.whole S65536))
      rw [readCov_whole_cons]
      refine AccInv.row ?_ (by decide : 23 < 27) hq _ _ _ (idx_piece0 d L hCi hgch k0_t3 (k0_off29 k0_t3) _ ⟨23, by decide⟩ (k0_off29_eq k0_t3)) (dat_piece0 d L hCd hgch k0_t3 (k0_off29 k0_t3) _ ⟨23, by decide⟩ (k0_off29_eq k0_t3))
      show AccInv _ _ _ _ 23 (View.readCov _ (⟨Rect.whole S65536, storeIdx _ _ _ _ _ _⟩ :: _) (LoadRect.whole S65536))
      rw [readCov_whole_cons]
      refine AccInv.row ?_ (by decide : 22 < 27) hq _ _ _ (idx_piece0 d L hCi hgch k0_t3 (k0_off28 k0_t3) _ ⟨22, by decide⟩ (k0_off28_eq k0_t3)) (dat_piece0 d L hCd hgch k0_t3 (k0_off28 k0_t3) _ ⟨22, by decide⟩ (k0_off28_eq k0_t3))
      show AccInv _ _ _ _ 22 (View.readCov _ (⟨Rect.whole S65536, storeIdx _ _ _ _ _ _⟩ :: _) (LoadRect.whole S65536))
      rw [readCov_whole_cons]
      refine AccInv.row ?_ (by decide : 21 < 27) hq _ _ _ (idx_piece0 d L hCi hgch k0_t3 (k0_off27 k0_t3) _ ⟨21, by decide⟩ (k0_off27_eq k0_t3)) (dat_piece0 d L hCd hgch k0_t3 (k0_off27 k0_t3) _ ⟨21, by decide⟩ (k0_off27_eq k0_t3))
      show AccInv _ _ _ _ 21 (View.readCov _ (⟨Rect.whole S65536, storeIdx _ _ _ _ _ _⟩ :: _) (LoadRect.whole S65536))
      rw [readCov_whole_cons]
      refine AccInv.row ?_ (by decide : 20 < 27) hq _ _ _ (idx_piece0 d L hCi hgch k0_t3 (k0_off26 k0_t3) _ ⟨20, by decide⟩ (k0_off26_eq k0_t3)) (dat_piece0 d L hCd hgch k0_t3 (k0_off26 k0_t3) _ ⟨20, by decide⟩ (k0_off26_eq k0_t3))
      show AccInv _ _ _ _ 20 (View.readCov _ (⟨Rect.whole S65536, storeIdx _ _ _ _ _ _⟩ :: _) (LoadRect.whole S65536))
      rw [readCov_whole_cons]
      refine AccInv.row ?_ (by decide : 19 < 27) hq _ _ _ (idx_piece0 d L hCi hgch k0_t3 (k0_off25 k0_t3) _ ⟨19, by decide⟩ (k0_off25_eq k0_t3)) (dat_piece0 d L hCd hgch k0_t3 (k0_off25 k0_t3) _ ⟨19, by decide⟩ (k0_off25_eq k0_t3))
      show AccInv _ _ _ _ 19 (View.readCov _ (⟨Rect.whole S65536, storeIdx _ _ _ _ _ _⟩ :: _) (LoadRect.whole S65536))
      rw [readCov_whole_cons]
      refine AccInv.row ?_ (by decide : 18 < 27) hq _ _ _ (idx_piece0 d L hCi hgch k0_t3 (k0_off24 k0_t3) _ ⟨18, by decide⟩ (k0_off24_eq k0_t3)) (dat_piece0 d L hCd hgch k0_t3 (k0_off24 k0_t3) _ ⟨18, by decide⟩ (k0_off24_eq k0_t3))
      show AccInv _ _ _ _ 18 (View.readCov _ (⟨Rect.whole S65536, storeIdx _ _ _ _ _ _⟩ :: _) (LoadRect.whole S65536))
      rw [readCov_whole_cons]
      refine AccInv.row ?_ (by decide : 17 < 27) hq _ _ _ (idx_piece0 d L hCi hgch k0_t3 (k0_off23 k0_t3) _ ⟨17, by decide⟩ (k0_off23_eq k0_t3)) (dat_piece0 d L hCd hgch k0_t3 (k0_off23 k0_t3) _ ⟨17, by decide⟩ (k0_off23_eq k0_t3))
      show AccInv _ _ _ _ 17 (View.readCov _ (⟨Rect.whole S65536, storeIdx _ _ _ _ _ _⟩ :: _) (LoadRect.whole S65536))
      rw [readCov_whole_cons]
      refine AccInv.row ?_ (by decide : 16 < 27) hq _ _ _ (idx_piece0 d L hCi hgch k0_t3 (k0_off22 k0_t3) _ ⟨16, by decide⟩ (k0_off22_eq k0_t3)) (dat_piece0 d L hCd hgch k0_t3 (k0_off22 k0_t3) _ ⟨16, by decide⟩ (k0_off22_eq k0_t3))
      show AccInv _ _ _ _ 16 (View.readCov _ (⟨Rect.whole S65536, storeIdx _ _ _ _ _ _⟩ :: _) (LoadRect.whole S65536))
      rw [readCov_whole_cons]
      refine AccInv.row ?_ (by decide : 15 < 27) hq _ _ _ (idx_piece0 d L hCi hgch k0_t3 (k0_off21 k0_t3) _ ⟨15, by decide⟩ (k0_off21_eq k0_t3)) (dat_piece0 d L hCd hgch k0_t3 (k0_off21 k0_t3) _ ⟨15, by decide⟩ (k0_off21_eq k0_t3))
      show AccInv _ _ _ _ 15 (View.readCov _ (⟨Rect.whole S65536, storeIdx _ _ _ _ _ _⟩ :: _) (LoadRect.whole S65536))
      rw [readCov_whole_cons]
      refine AccInv.row ?_ (by decide : 14 < 27) hq _ _ _ (idx_piece0 d L hCi hgch k0_t3 (k0_off20 k0_t3) _ ⟨14, by decide⟩ (k0_off20_eq k0_t3)) (dat_piece0 d L hCd hgch k0_t3 (k0_off20 k0_t3) _ ⟨14, by decide⟩ (k0_off20_eq k0_t3))
      show AccInv _ _ _ _ 14 (View.readCov _ (⟨Rect.whole S65536, storeIdx _ _ _ _ _ _⟩ :: _) (LoadRect.whole S65536))
      rw [readCov_whole_cons]
      refine AccInv.row ?_ (by decide : 13 < 27) hq _ _ _ (idx_piece0 d L hCi hgch k0_t3 (k0_off19 k0_t3) _ ⟨13, by decide⟩ (k0_off19_eq k0_t3)) (dat_piece0 d L hCd hgch k0_t3 (k0_off19 k0_t3) _ ⟨13, by decide⟩ (k0_off19_eq k0_t3))
      show AccInv _ _ _ _ 13 (View.readCov _ (⟨Rect.whole S65536, storeIdx _ _ _ _ _ _⟩ :: _) (LoadRect.whole S65536))
      rw [readCov_whole_cons]
      refine AccInv.row ?_ (by decide : 12 < 27) hq _ _ _ (idx_piece0 d L hCi hgch k0_t3 (k0_off18 k0_t3) _ ⟨12, by decide⟩ (k0_off18_eq k0_t3)) (dat_piece0 d L hCd hgch k0_t3 (k0_off18 k0_t3) _ ⟨12, by decide⟩ (k0_off18_eq k0_t3))
      show AccInv _ _ _ _ 12 (View.readCov _ (⟨Rect.whole S65536, storeIdx _ _ _ _ _ _⟩ :: _) (LoadRect.whole S65536))
      rw [readCov_whole_cons]
      refine AccInv.row ?_ (by decide : 11 < 27) hq _ _ _ (idx_piece0 d L hCi hgch k0_t3 (k0_off17 k0_t3) _ ⟨11, by decide⟩ (k0_off17_eq k0_t3)) (dat_piece0 d L hCd hgch k0_t3 (k0_off17 k0_t3) _ ⟨11, by decide⟩ (k0_off17_eq k0_t3))
      show AccInv _ _ _ _ 11 (View.readCov _ (⟨Rect.whole S65536, storeIdx _ _ _ _ _ _⟩ :: _) (LoadRect.whole S65536))
      rw [readCov_whole_cons]
      refine AccInv.row ?_ (by decide : 10 < 27) hq _ _ _ (idx_piece0 d L hCi hgch k0_t3 (k0_off16 k0_t3) _ ⟨10, by decide⟩ (k0_off16_eq k0_t3)) (dat_piece0 d L hCd hgch k0_t3 (k0_off16 k0_t3) _ ⟨10, by decide⟩ (k0_off16_eq k0_t3))
      show AccInv _ _ _ _ 10 (View.readCov _ (⟨Rect.whole S65536, storeIdx _ _ _ _ _ _⟩ :: _) (LoadRect.whole S65536))
      rw [readCov_whole_cons]
      refine AccInv.row ?_ (by decide : 9 < 27) hq _ _ _ (idx_piece0 d L hCi hgch k0_t3 (k0_off15 k0_t3) _ ⟨9, by decide⟩ (k0_off15_eq k0_t3)) (dat_piece0 d L hCd hgch k0_t3 (k0_off15 k0_t3) _ ⟨9, by decide⟩ (k0_off15_eq k0_t3))
      show AccInv _ _ _ _ 9 (View.readCov _ (⟨Rect.whole S65536, storeIdx _ _ _ _ _ _⟩ :: _) (LoadRect.whole S65536))
      rw [readCov_whole_cons]
      refine AccInv.row ?_ (by decide : 8 < 27) hq _ _ _ (idx_piece0 d L hCi hgch k0_t3 (k0_off14 k0_t3) _ ⟨8, by decide⟩ (k0_off14_eq k0_t3)) (dat_piece0 d L hCd hgch k0_t3 (k0_off14 k0_t3) _ ⟨8, by decide⟩ (k0_off14_eq k0_t3))
      show AccInv _ _ _ _ 8 (View.readCov _ (⟨Rect.whole S65536, storeIdx _ _ _ _ _ _⟩ :: _) (LoadRect.whole S65536))
      rw [readCov_whole_cons]
      refine AccInv.row ?_ (by decide : 7 < 27) hq _ _ _ (idx_piece0 d L hCi hgch k0_t3 (k0_off13 k0_t3) _ ⟨7, by decide⟩ (k0_off13_eq k0_t3)) (dat_piece0 d L hCd hgch k0_t3 (k0_off13 k0_t3) _ ⟨7, by decide⟩ (k0_off13_eq k0_t3))
      show AccInv _ _ _ _ 7 (View.readCov _ (⟨Rect.whole S65536, storeIdx _ _ _ _ _ _⟩ :: _) (LoadRect.whole S65536))
      rw [readCov_whole_cons]
      refine AccInv.row ?_ (by decide : 6 < 27) hq _ _ _ (idx_piece0 d L hCi hgch k0_t3 (k0_off12 k0_t3) _ ⟨6, by decide⟩ (k0_off12_eq k0_t3)) (dat_piece0 d L hCd hgch k0_t3 (k0_off12 k0_t3) _ ⟨6, by decide⟩ (k0_off12_eq k0_t3))
      show AccInv _ _ _ _ 6 (View.readCov _ (⟨Rect.whole S65536, storeIdx _ _ _ _ _ _⟩ :: _) (LoadRect.whole S65536))
      rw [readCov_whole_cons]
      refine AccInv.row ?_ (by decide : 5 < 27) hq _ _ _ (idx_piece0 d L hCi hgch k0_t3 (k0_off11 k0_t3) _ ⟨5, by decide⟩ (k0_off11_eq k0_t3)) (dat_piece0 d L hCd hgch k0_t3 (k0_off11 k0_t3) _ ⟨5, by decide⟩ (k0_off11_eq k0_t3))
      show AccInv _ _ _ _ 5 (View.readCov _ (⟨Rect.whole S65536, storeIdx _ _ _ _ _ _⟩ :: _) (LoadRect.whole S65536))
      rw [readCov_whole_cons]
      refine AccInv.row ?_ (by decide : 4 < 27) hq _ _ _ (idx_piece0 d L hCi hgch k0_t3 (k0_off10 k0_t3) _ ⟨4, by decide⟩ (k0_off10_eq k0_t3)) (dat_piece0 d L hCd hgch k0_t3 (k0_off10 k0_t3) _ ⟨4, by decide⟩ (k0_off10_eq k0_t3))
      show AccInv _ _ _ _ 4 (View.readCov _ (⟨Rect.whole S65536, storeIdx _ _ _ _ _ _⟩ :: _) (LoadRect.whole S65536))
      rw [readCov_whole_cons]
      refine AccInv.row ?_ (by decide : 3 < 27) hq _ _ _ (idx_piece0 d L hCi hgch k0_t3 (k0_off9 k0_t3) _ ⟨3, by decide⟩ (k0_off9_eq k0_t3)) (dat_piece0 d L hCd hgch k0_t3 (k0_off9 k0_t3) _ ⟨3, by decide⟩ (k0_off9_eq k0_t3))
      show AccInv _ _ _ _ 3 (View.readCov _ (⟨Rect.whole S65536, storeIdx _ _ _ _ _ _⟩ :: _) (LoadRect.whole S65536))
      rw [readCov_whole_cons]
      refine AccInv.row ?_ (by decide : 2 < 27) hq _ _ _ (idx_piece0 d L hCi hgch k0_t3 (k0_off8 k0_t3) _ ⟨2, by decide⟩ (k0_off8_eq k0_t3)) (dat_piece0 d L hCd hgch k0_t3 (k0_off8 k0_t3) _ ⟨2, by decide⟩ (k0_off8_eq k0_t3))
      show AccInv _ _ _ _ 2 (View.readCov _ (⟨Rect.whole S65536, storeIdx _ _ _ _ _ _⟩ :: _) (LoadRect.whole S65536))
      rw [readCov_whole_cons]
      refine AccInv.row ?_ (by decide : 1 < 27) hq _ _ _ (idx_piece0 d L hCi hgch k0_t3 (k0_off7 k0_t3) _ ⟨1, by decide⟩ (k0_off7_eq k0_t3)) (dat_piece0 d L hCd hgch k0_t3 (k0_off7 k0_t3) _ ⟨1, by decide⟩ (k0_off7_eq k0_t3))
      show AccInv _ _ _ _ 1 (View.readCov _ (⟨Rect.whole S65536, storeIdx _ _ _ _ _ _⟩ :: _) (LoadRect.whole S65536))
      rw [readCov_whole_cons]
      refine AccInv.row ?_ (by decide : 0 < 27) hq _ _ _ (idx_piece0 d L hCi hgch k0_t3 (k0_off6 k0_t3) _ ⟨0, by decide⟩ (k0_off6_eq k0_t3)) (dat_piece0 d L hCd hgch k0_t3 (k0_off6 k0_t3) _ ⟨0, by decide⟩ (k0_off6_eq k0_t3))

      rw [show View.readAt (Elt F) (accW).view (LoadRect.whole S65536) g = g from Memref.readAt_whole (Elt F) (cc0_scratch0 : Ref sig .scVector) g]
      exact hA
  isplitl [Hi']
  · iexact Hi'
  · iexact Hd'

/-- A 16-lane piece of the staged table chunk at row `kk`, lane block `t`. -/
theorem idx_piece1 {Oc : IVec S27x65536 32} {gch : Nat} {Ci : Buf (Elt F) ((V d (cV L) (jV L)).loc cc0_scratch2)}
    (hCi : IdxChunk Oc gch Ci) (hgch : gch < 128) (t : Fin k0_t4_loop.trips) (off : Fin 2 → Nat) (inb : ∀ a, off a + S1x16.size a ≤ S27x512.size a)
    (kk : Fin 27) (hoff : off = ![kk.val, 16 * t.val]) (l : Fin 16) :
    shapeCast S16 (View.readAt (Elt F) (ib1W).view (Rect.unit (s := S27x512) off S1x16.size inb).toLoadRect Ci) shapeCasts_S1x16_S16 (Shape.ofLane l)
      = Oc (ValueIdx.ix2 kk ⟨(32 * gch + t.val) * 16 + l.val, by have := t.isLt; have : k0_t4_loop.trips = 32 := rfl; omega⟩) := by
  have ht : t.val < 32 := t.isLt
  refine IdxChunk.lane hCi _ _ kk t.val ht hgch (fun l' => ?_) l
  subst hoff
  rw [View.readAt_apply]
  show Ci ((Rect.unit (s := S27x512) ![kk.val, 16 * t.val] S1x16.size inb).toLoadRect.idx (ValueIdx.ix2 0 l')) = Ci _
  congr 1
  funext a
  apply Fin.ext
  rw [LoadRect.idx_apply]
  match a with
  | ⟨0, _⟩ => first | (show kk.val + 1 * (0 : Nat) = kk.val; omega) | (simp [Rect.unit])
  | ⟨1, _⟩ => first | (show 16 * t.val + 1 * l'.val = 16 * t.val + l'.val; omega) | (simp [Rect.unit]; try omega)

/-- The same piece of the staged data chunk. -/
theorem dat_piece1 {X : Vec F S27x32x65536 .f32} {ch : Fin 32} {gch : Nat} {Cd : Buf (Elt F) ((V d (cV L) (jV L)).loc cc0_scratch4)}
    (hCd : DatChunk X ch gch Cd) (hgch : gch < 128) (t : Fin k0_t4_loop.trips) (off : Fin 2 → Nat) (inb : ∀ a, off a + S1x16.size a ≤ S27x512.size a)
    (kk : Fin 27) (hoff : off = ![kk.val, 16 * t.val]) (l : Fin 16) :
    shapeCast S16 (View.readAt (Elt F) (db1W).view (Rect.unit (s := S27x512) off S1x16.size inb).toLoadRect Cd) shapeCasts_S1x16_S16 (Shape.ofLane l)
      = X (ValueIdx.ix3 kk ch ⟨(32 * gch + t.val) * 16 + l.val, by have := t.isLt; have : k0_t4_loop.trips = 32 := rfl; omega⟩) := by
  have ht : t.val < 32 := t.isLt
  refine DatChunk.lane hCd _ _ kk t.val ht hgch (fun l' => ?_) l
  subst hoff
  rw [View.readAt_apply]
  show Cd ((Rect.unit (s := S27x512) ![kk.val, 16 * t.val] S1x16.size inb).toLoadRect.idx (ValueIdx.ix2 0 l')) = Cd _
  congr 1
  funext a
  apply Fin.ext
  rw [LoadRect.idx_apply]
  match a with
  | ⟨0, _⟩ => first | (show kk.val + 1 * (0 : Nat) = kk.val; omega) | (simp [Rect.unit])
  | ⟨1, _⟩ => first | (show 16 * t.val + 1 * l'.val = 16 * t.val + l'.val; omega) | (simp [Rect.unit]; try omega)

/-- One trip of the scatter loop over staging pair 1: the 27 rows' pieces of lane block `t` are added, slot by slot. -/
theorem trip1 (k0_t4 : Fin k0_t4_loop.trips)
    {X : Vec F S27x32x65536 .f32} {Oc : IVec S27x65536 32} {hin : ∀ j, (Oc j).toNat < 65536} {ch : Fin 32} {gch : Nat} (hgch : gch < 128)
    (g : Buf (Elt F) ((V d (cV L) (jV L)).loc cc0_scratch0)) (Ci : Buf (Elt F) ((V d (cV L) (jV L)).loc cc0_scratch2))
    (Cd : Buf (Elt F) ((V d (cV L) (jV L)).loc cc0_scratch4)) (hCi : IdxChunk Oc gch Ci) (hCd : DatChunk X ch gch Cd)
    (hA : AccInv (tgtOf Oc hin) (dtOf X ch) (zeroAcc (F := F)) (32 * gch + k0_t4.val) 0 g) :
    (iprop(((V d (cV L) (jV L)).loc cc0_scratch0 ↦{fullShare} g)
        ∗ ((V d (cV L) (jV L)).loc cc0_scratch2 ↦{fullShare} Ci)
        ∗ ((V d (cV L) (jV L)).loc cc0_scratch4 ↦{fullShare} Cd)) : sProp 𝕄)
      ⊢ wp frame (wpE (defs₀ (F := F)) 𝒱₀ (V d (cV L) (jV L)) none) Set.univ
          (k0_t4_body L xW (Memref.isWhole_whole _) oW (Memref.isWhole_whole _) rW (Memref.isWhole_whole _)
            accW (Memref.isWhole_whole _) ib0W (Memref.isWhole_whole _) ib1W (Memref.isWhole_whole _)
            db0W (Memref.isWhole_whole _) db1W (Memref.isWhole_whole _) cc0_scratch5 cc0_scratch6 cc0_scratch7 cc0_scratch8 cc0_scoped0
            0#32 k0_t4 ())
          fun _ => iprop((∃ g' : Buf (Elt F) ((V d (cV L) (jV L)).loc cc0_scratch0),
              ((V d (cV L) (jV L)).loc cc0_scratch0 ↦{fullShare} g') ∗ ⌜AccInv (tgtOf Oc hin) (dtOf X ch) (zeroAcc (F := F)) (32 * gch + k0_t4.val + 1) 0 g'⌝)
            ∗ ((V d (cV L) (jV L)).loc cc0_scratch2 ↦{fullShare} Ci)
            ∗ ((V d (cV L) (jV L)).loc cc0_scratch4 ↦{fullShare} Cd)) := by
  have hC : ∀ j, (Ci j).toNat < 65536 := chunk_inb hCi hin hgch
  have hq : 32 * gch + k0_t4.val < 4096 := by have := k0_t4.isLt; have : k0_t4_loop.trips = 32 := rfl; omega
  unfold k0_t4_body
  simp only [k0_part6_eq_skeleton, k0_part7_eq_skeleton, k0_part8_eq_skeleton, k0_part9_eq_skeleton, k0_part10_eq_skeleton]
  unfold k0_part6_skel k0_part7_skel k0_part8_skel k0_part9_skel k0_part10_skel
  simp only [SparseCore.vectorStoreIdx_bind (V d (cV L) (jV L))]
  iintro ⟨Hacc, Hi, Hd⟩
  ihave Hacc' := (Entails.of_eq (show (_ : sProp 𝕄) = ((accW).view.loc (V d (cV L) (jV L)) ↦{fullShare} g) from rfl)) $$ Hacc
  ihave Hi' := (Entails.of_eq (show (_ : sProp 𝕄) = ((ib1W).view.loc (V d (cV L) (jV L)) ↦{fullShare} Ci) from rfl)) $$ Hi
  ihave Hd' := (Entails.of_eq (show (_ : sProp 𝕄) = ((db1W).view.loc (V d (cV L) (jV L)) ↦{fullShare} Cd) from rfl)) $$ Hd
  sl_exec (disch := (intro a x; obtain rfl : a = 0 := Subsingleton.elim _ _; exact hC _))
  sl_step
  isplitl [Hacc']
  · iexists _
    isplitl [Hacc']
    · iexact Hacc'
    · ipureintro
      refine AccInv.next ?_
      rw [writes_whole_cons]
      refine AccInv.row ?_ (by decide : 26 < 27) hq _ _ _ (idx_piece1 d L hCi hgch k0_t4 (k0_off61 k0_t4) _ ⟨26, by decide⟩ (k0_off61_eq k0_t4)) (dat_piece1 d L hCd hgch k0_t4 (k0_off61 k0_t4) _ ⟨26, by decide⟩ (k0_off61_eq k0_t4))
      show AccInv _ _ _ _ 26 (View.readCov _ (⟨Rect.whole S65536, storeIdx _ _ _ _ _ _⟩ :: _) (LoadRect.whole S65536))
      rw [readCov_whole_cons]
      refine AccInv.row ?_ (by decide : 25 < 27) hq _ _ _ (idx_piece1 d L hCi hgch k0_t4 (k0_off60 k0_t4) _ ⟨25, by decide⟩ (k0_off60_eq k0_t4)) (dat_piece1 d L hCd hgch k0_t4 (k0_off60 k0_t4) _ ⟨25, by decide⟩ (k0_off60_eq k0_t4))
      show AccInv _ _ _ _ 25 (View.readCov _ (⟨Rect.whole S65536, storeIdx _ _ _ _ _ _⟩ :: _) (LoadRect.whole S65536))
      rw [readCov_whole_cons]
      refine AccInv.row ?_ (by decide : 24 < 27) hq _ _ _ (idx_piece1 d L hCi hgch k0_t4 (k0_off59 k0_t4) _ ⟨24, by decide⟩ (k0_off59_eq k0_t4)) (dat_piece1 d L hCd hgch k0_t4 (k0_off59 k0_t4) _ ⟨24, by decide⟩ (k0_off59_eq k0_t4))
      show AccInv _ _ _ _ 24 (View.readCov _ (⟨Rect.whole S65536, storeIdx _ _ _ _ _ _⟩ :: _) (LoadRect.whole S65536))
      rw [readCov_whole_cons]
      refine AccInv.row ?_ (by decide : 23 < 27) hq _ _ _ (idx_piece1 d L hCi hgch k0_t4 (k0_off58 k0_t4) _ ⟨23, by decide⟩ (k0_off58_eq k0_t4)) (dat_piece1 d L hCd hgch k0_t4 (k0_off58 k0_t4) _ ⟨23, by decide⟩ (k0_off58_eq k0_t4))
      show AccInv _ _ _ _ 23 (View.readCov _ (⟨Rect.whole S65536, storeIdx _ _ _ _ _ _⟩ :: _) (LoadRect.whole S65536))
      rw [readCov_whole_cons]
      refine AccInv.row ?_ (by decide : 22 < 27) hq _ _ _ (idx_piece1 d L hCi hgch k0_t4 (k0_off57 k0_t4) _ ⟨22, by decide⟩ (k0_off57_eq k0_t4)) (dat_piece1 d L hCd hgch k0_t4 (k0_off57 k0_t4) _ ⟨22, by decide⟩ (k0_off57_eq k0_t4))
      show AccInv _ _ _ _ 22 (View.readCov _ (⟨Rect.whole S65536, storeIdx _ _ _ _ _ _⟩ :: _) (LoadRect.whole S65536))
      rw [readCov_whole_cons]
      refine AccInv.row ?_ (by decide : 21 < 27) hq _ _ _ (idx_piece1 d L hCi hgch k0_t4 (k0_off56 k0_t4) _ ⟨21, by decide⟩ (k0_off56_eq k0_t4)) (dat_piece1 d L hCd hgch k0_t4 (k0_off56 k0_t4) _ ⟨21, by decide⟩ (k0_off56_eq k0_t4))
      show AccInv _ _ _ _ 21 (View.readCov _ (⟨Rect.whole S65536, storeIdx _ _ _ _ _ _⟩ :: _) (LoadRect.whole S65536))
      rw [readCov_whole_cons]
      refine AccInv.row ?_ (by decide : 20 < 27) hq _ _ _ (idx_piece1 d L hCi hgch k0_t4 (k0_off55 k0_t4) _ ⟨20, by decide⟩ (k0_off55_eq k0_t4)) (dat_piece1 d L hCd hgch k0_t4 (k0_off55 k0_t4) _ ⟨20, by decide⟩ (k0_off55_eq k0_t4))
      show AccInv _ _ _ _ 20 (View.readCov _ (⟨Rect.whole S65536, storeIdx _ _ _ _ _ _⟩ :: _) (LoadRect.whole S65536))
      rw [readCov_whole_cons]
      refine AccInv.row ?_ (by decide : 19 < 27) hq _ _ _ (idx_piece1 d L hCi hgch k0_t4 (k0_off54 k0_t4) _ ⟨19, by decide⟩ (k0_off54_eq k0_t4)) (dat_piece1 d L hCd hgch k0_t4 (k0_off54 k0_t4) _ ⟨19, by decide⟩ (k0_off54_eq k0_t4))
      show AccInv _ _ _ _ 19 (View.readCov _ (⟨Rect.whole S65536, storeIdx _ _ _ _ _ _⟩ :: _) (LoadRect.whole S65536))
      rw [readCov_whole_cons]
      refine AccInv.row ?_ (by decide : 18 < 27) hq _ _ _ (idx_piece1 d L hCi hgch k0_t4 (k0_off53 k0_t4) _ ⟨18, by decide⟩ (k0_off53_eq k0_t4)) (dat_piece1 d L hCd hgch k0_t4 (k0_off53 k0_t4) _ ⟨18, by decide⟩ (k0_off53_eq k0_t4))
      show AccInv _ _ _ _ 18 (View.readCov _ (⟨Rect.whole S65536, storeIdx _ _ _ _ _ _⟩ :: _) (LoadRect.whole S65536))
      rw [readCov_whole_cons]
      refine AccInv.row ?_ (by decide : 17 < 27) hq _ _ _ (idx_piece1 d L hCi hgch k0_t4 (k0_off52 k0_t4) _ ⟨17, by decide⟩ (k0_off52_eq k0_t4)) (dat_piece1 d L hCd hgch k0_t4 (k0_off52 k0_t4) _ ⟨17, by decide⟩ (k0_off52_eq k0_t4))
      show AccInv _ _ _ _ 17 (View.readCov _ (⟨Rect.whole S65536, storeIdx _ _ _ _ _ _⟩ :: _) (LoadRect.whole S65536))
      rw [readCov_whole_cons]
      refine AccInv.row ?_ (by decide : 16 < 27) hq _ _ _ (idx_piece1 d L hCi hgch k0_t4 (k0_off51 k0_t4) _ ⟨16, by decide⟩ (k0_off51_eq k0_t4)) (dat_piece1 d L hCd hgch k0_t4 (k0_off51 k0_t4) _ ⟨16, by decide⟩ (k0_off51_eq k0_t4))
      show AccInv _ _ _ _ 16 (View.readCov _ (⟨Rect.whole S65536, storeIdx _ _ _ _ _ _⟩ :: _) (LoadRect.whole S65536))
      rw [readCov_whole_cons]
      refine AccInv.row ?_ (by decide : 15 < 27) hq _ _ _ (idx_piece1 d L hCi hgch k0_t4 (k0_off50 k0_t4) _ ⟨15, by decide⟩ (k0_off50_eq k0_t4)) (dat_piece1 d L hCd hgch k0_t4 (k0_off50 k0_t4) _ ⟨15, by decide⟩ (k0_off50_eq k0_t4))
      show AccInv _ _ _ _ 15 (View.readCov _ (⟨Rect.whole S65536, storeIdx _ _ _ _ _ _⟩ :: _) (LoadRect.whole S65536))
      rw [readCov_whole_cons]
      refine AccInv.row ?_ (by decide : 14 < 27) hq _ _ _ (idx_piece1 d L hCi hgch k0_t4 (k0_off49 k0_t4) _ ⟨14, by decide⟩ (k0_off49_eq k0_t4)) (dat_piece1 d L hCd hgch k0_t4 (k0_off49 k0_t4) _ ⟨14, by decide⟩ (k0_off49_eq k0_t4))
      show AccInv _ _ _ _ 14 (View.readCov _ (⟨Rect.whole S65536, storeIdx _ _ _ _ _ _⟩ :: _) (LoadRect.whole S65536))
      rw [readCov_whole_cons]
      refine AccInv.row ?_ (by decide : 13 < 27) hq _ _ _ (idx_piece1 d L hCi hgch k0_t4 (k0_off48 k0_t4) _ ⟨13, by decide⟩ (k0_off48_eq k0_t4)) (dat_piece1 d L hCd hgch k0_t4 (k0_off48 k0_t4) _ ⟨13, by decide⟩ (k0_off48_eq k0_t4))
      show AccInv _ _ _ _ 13 (View.readCov _ (⟨Rect.whole S65536, storeIdx _ _ _ _ _ _⟩ :: _) (LoadRect.whole S65536))
      rw [readCov_whole_cons]
      refine AccInv.row ?_ (by decide : 12 < 27) hq _ _ _ (idx_piece1 d L hCi hgch k0_t4 (k0_off47 k0_t4) _ ⟨12, by decide⟩ (k0_off47_eq k0_t4)) (dat_piece1 d L hCd hgch k0_t4 (k0_off47 k0_t4) _ ⟨12, by decide⟩ (k0_off47_eq k0_t4))
      show AccInv _ _ _ _ 12 (View.readCov _ (⟨Rect.whole S65536, storeIdx _ _ _ _ _ _⟩ :: _) (LoadRect.whole S65536))
      rw [readCov_whole_cons]
      refine AccInv.row ?_ (by decide : 11 < 27) hq _ _ _ (idx_piece1 d L hCi hgch k0_t4 (k0_off46 k0_t4) _ ⟨11, by decide⟩ (k0_off46_eq k0_t4)) (dat_piece1 d L hCd hgch k0_t4 (k0_off46 k0_t4) _ ⟨11, by decide⟩ (k0_off46_eq k0_t4))
      show AccInv _ _ _ _ 11 (View.readCov _ (⟨Rect.whole S65536, storeIdx _ _ _ _ _ _⟩ :: _) (LoadRect.whole S65536))
      rw [readCov_whole_cons]
      refine AccInv.row ?_ (by decide : 10 < 27) hq _ _ _ (idx_piece1 d L hCi hgch k0_t4 (k0_off45 k0_t4) _ ⟨10, by decide⟩ (k0_off45_eq k0_t4)) (dat_piece1 d L hCd hgch k0_t4 (k0_off45 k0_t4) _ ⟨10, by decide⟩ (k0_off45_eq k0_t4))
      show AccInv _ _ _ _ 10 (View.readCov _ (⟨Rect.whole S65536, storeIdx _ _ _ _ _ _⟩ :: _) (LoadRect.whole S65536))
      rw [readCov_whole_cons]
      refine AccInv.row ?_ (by decide : 9 < 27) hq _ _ _ (idx_piece1 d L hCi hgch k0_t4 (k0_off44 k0_t4) _ ⟨9, by decide⟩ (k0_off44_eq k0_t4)) (dat_piece1 d L hCd hgch k0_t4 (k0_off44 k0_t4) _ ⟨9, by decide⟩ (k0_off44_eq k0_t4))
      show AccInv _ _ _ _ 9 (View.readCov _ (⟨Rect.whole S65536, storeIdx _ _ _ _ _ _⟩ :: _) (LoadRect.whole S65536))
      rw [readCov_whole_cons]
      refine AccInv.row ?_ (by decide : 8 < 27) hq _ _ _ (idx_piece1 d L hCi hgch k0_t4 (k0_off43 k0_t4) _ ⟨8, by decide⟩ (k0_off43_eq k0_t4)) (dat_piece1 d L hCd hgch k0_t4 (k0_off43 k0_t4) _ ⟨8, by decide⟩ (k0_off43_eq k0_t4))
      show AccInv _ _ _ _ 8 (View.readCov _ (⟨Rect.whole S65536, storeIdx _ _ _ _ _ _⟩ :: _) (LoadRect.whole S65536))
      rw [readCov_whole_cons]
      refine AccInv.row ?_ (by decide : 7 < 27) hq _ _ _ (idx_piece1 d L hCi hgch k0_t4 (k0_off42 k0_t4) _ ⟨7, by decide⟩ (k0_off42_eq k0_t4)) (dat_piece1 d L hCd hgch k0_t4 (k0_off42 k0_t4) _ ⟨7, by decide⟩ (k0_off42_eq k0_t4))
      show AccInv _ _ _ _ 7 (View.readCov _ (⟨Rect.whole S65536, storeIdx _ _ _ _ _ _⟩ :: _) (LoadRect.whole S65536))
      rw [readCov_whole_cons]
      refine AccInv.row ?_ (by decide : 6 < 27) hq _ _ _ (idx_piece1 d L hCi hgch k0_t4 (k0_off41 k0_t4) _ ⟨6, by decide⟩ (k0_off41_eq k0_t4)) (dat_piece1 d L hCd hgch k0_t4 (k0_off41 k0_t4) _ ⟨6, by decide⟩ (k0_off41_eq k0_t4))
      show AccInv _ _ _ _ 6 (View.readCov _ (⟨Rect.whole S65536, storeIdx _ _ _ _ _ _⟩ :: _) (LoadRect.whole S65536))
      rw [readCov_whole_cons]
      refine AccInv.row ?_ (by decide : 5 < 27) hq _ _ _ (idx_piece1 d L hCi hgch k0_t4 (k0_off40 k0_t4) _ ⟨5, by decide⟩ (k0_off40_eq k0_t4)) (dat_piece1 d L hCd hgch k0_t4 (k0_off40 k0_t4) _ ⟨5, by decide⟩ (k0_off40_eq k0_t4))
      show AccInv _ _ _ _ 5 (View.readCov _ (⟨Rect.whole S65536, storeIdx _ _ _ _ _ _⟩ :: _) (LoadRect.whole S65536))
      rw [readCov_whole_cons]
      refine AccInv.row ?_ (by decide : 4 < 27) hq _ _ _ (idx_piece1 d L hCi hgch k0_t4 (k0_off39 k0_t4) _ ⟨4, by decide⟩ (k0_off39_eq k0_t4)) (dat_piece1 d L hCd hgch k0_t4 (k0_off39 k0_t4) _ ⟨4, by decide⟩ (k0_off39_eq k0_t4))
      show AccInv _ _ _ _ 4 (View.readCov _ (⟨Rect.whole S65536, storeIdx _ _ _ _ _ _⟩ :: _) (LoadRect.whole S65536))
      rw [readCov_whole_cons]
      refine AccInv.row ?_ (by decide : 3 < 27) hq _ _ _ (idx_piece1 d L hCi hgch k0_t4 (k0_off38 k0_t4) _ ⟨3, by decide⟩ (k0_off38_eq k0_t4)) (dat_piece1 d L hCd hgch k0_t4 (k0_off38 k0_t4) _ ⟨3, by decide⟩ (k0_off38_eq k0_t4))
      show AccInv _ _ _ _ 3 (View.readCov _ (⟨Rect.whole S65536, storeIdx _ _ _ _ _ _⟩ :: _) (LoadRect.whole S65536))
      rw [readCov_whole_cons]
      refine AccInv.row ?_ (by decide : 2 < 27) hq _ _ _ (idx_piece1 d L hCi hgch k0_t4 (k0_off37 k0_t4) _ ⟨2, by decide⟩ (k0_off37_eq k0_t4)) (dat_piece1 d L hCd hgch k0_t4 (k0_off37 k0_t4) _ ⟨2, by decide⟩ (k0_off37_eq k0_t4))
      show AccInv _ _ _ _ 2 (View.readCov _ (⟨Rect.whole S65536, storeIdx _ _ _ _ _ _⟩ :: _) (LoadRect.whole S65536))
      rw [readCov_whole_cons]
      refine AccInv.row ?_ (by decide : 1 < 27) hq _ _ _ (idx_piece1 d L hCi hgch k0_t4 (k0_off36 k0_t4) _ ⟨1, by decide⟩ (k0_off36_eq k0_t4)) (dat_piece1 d L hCd hgch k0_t4 (k0_off36 k0_t4) _ ⟨1, by decide⟩ (k0_off36_eq k0_t4))
      show AccInv _ _ _ _ 1 (View.readCov _ (⟨Rect.whole S65536, storeIdx _ _ _ _ _ _⟩ :: _) (LoadRect.whole S65536))
      rw [readCov_whole_cons]
      refine AccInv.row ?_ (by decide : 0 < 27) hq _ _ _ (idx_piece1 d L hCi hgch k0_t4 (k0_off35 k0_t4) _ ⟨0, by decide⟩ (k0_off35_eq k0_t4)) (dat_piece1 d L hCd hgch k0_t4 (k0_off35 k0_t4) _ ⟨0, by decide⟩ (k0_off35_eq k0_t4))

      rw [show View.readAt (Elt F) (accW).view (LoadRect.whole S65536) g = g from Memref.readAt_whole (Elt F) (cc0_scratch0 : Ref sig .scVector) g]
      exact hA
  isplitl [Hi']
  · iexact Hi'
  · iexact Hd'

end TileSec

end Cert.Kernel.Tile

end
-- ==== Proof.ViewsK.lean ====
/-
  The views the kernel reads and writes through, as functions of the chunk number.

  A chunk is 512 consecutive columns.  The slices of the transposed table and of one channel's data that the program
  forms are the canonical slices at a chunk number; what such a slice reads off the array's contents is the array at the
  chunk's columns; copied whole into a staging buffer it leaves that chunk there; and the sixteen-entry fills of the
  accumulator, block after block from the first, leave the zero word at every entry.
-/
import proofs.«204569_g29265907155619_cont_9to1_682_25_alg».proof.Proof.Gen.Kernel
import proofs.«204569_g29265907155619_cont_9to1_682_25_alg».proof.Proof.Gen.Kernel.Skeleton
import proofs.«204569_g29265907155619_cont_9to1_682_25_alg».proof.Proof.AccSteps
import Idealize.ShloMosaic.Lib.Writes

noncomputable section

namespace Cert.Kernel.Views

open Cert.Kernel Cert.Kernel.Gen Idealize.ShloMosaic Idealize.ShloMosaic.ValueIdx Cert.ColSum

variable {F : FTy → Type} [FloatOps F]

local notation "xW" => (Memref.whole Cert.Kernel.main_v0_scv : Memref Cert.Kernel.sig Kind.scVector Space.hbm Cert.Kernel.S27x32x65536 EltTy.f32)
local notation "oW" => (Memref.whole Cert.Kernel.main_v1_scv : Memref Cert.Kernel.sig Kind.scVector Space.hbm Cert.Kernel.S27x65536 EltTy.i32)
local notation "accW" => (Memref.whole Cert.Kernel.cc0_scratch0 : Memref Cert.Kernel.sig Kind.scVector Space.vmem Cert.Kernel.S65536 EltTy.f32)
local notation "ib0W" => (Memref.whole Cert.Kernel.cc0_scratch1 : Memref Cert.Kernel.sig Kind.scVector Space.vmem Cert.Kernel.S27x512 EltTy.i32)
local notation "ib1W" => (Memref.whole Cert.Kernel.cc0_scratch2 : Memref Cert.Kernel.sig Kind.scVector Space.vmem Cert.Kernel.S27x512 EltTy.i32)
local notation "db0W" => (Memref.whole Cert.Kernel.cc0_scratch3 : Memref Cert.Kernel.sig Kind.scVector Space.vmem Cert.Kernel.S27x512 EltTy.f32)
local notation "db1W" => (Memref.whole Cert.Kernel.cc0_scratch4 : Memref Cert.Kernel.sig Kind.scVector Space.vmem Cert.Kernel.S27x512 EltTy.f32)

/-! ## The canonical slices of a chunk -/

/-- Chunk g of the table lies inside it. -/
theorem oct_inb (g : Nat) (hg : g < 128) :
    ∀ a, (![0, 512 * g] : Fin 2 → Nat) a + S27x512.size a ≤ S27x65536.size a := by
  intro a
  match a with
  | ⟨0, _⟩ => show 0 + 27 ≤ 27; omega
  | ⟨1, _⟩ => show 512 * g + 512 ≤ 65536; omega

/-- The channel of a processor at grid coordinates L: twice the subcore number plus the core number, below 32. -/
theorem chan_lt (L : grid0.Coords) : 2 * (L 1).val + (L 0).val < 32 := by
  have h1 : (L 1).val < 16 := (L 1).isLt
  have h0 : (L 0).val < 2 := (L 0).isLt
  omega

/-- Chunk g of the channel's data lies inside the data. -/
theorem dat_inb (L : grid0.Coords) (g : Nat) (hg : g < 128) :
    ∀ a, (![0, 2 * (L 1).val + (L 0).val, 512 * g] : Fin 3 → Nat) a + S27x1x512.size a ≤ S27x32x65536.size a := by
  have hc := chan_lt L
  intro a
  match a with
  | ⟨0, _⟩ => show 0 + 27 ≤ 27; omega
  | ⟨1, _⟩ => show 2 * (L 1).val + (L 0).val + 1 ≤ 32; omega
  | ⟨2, _⟩ => show 512 * g + 512 ≤ 65536; omega

/-- Chunk g of the transposed table: all 27 rows, columns 512·g … 512·g + 511. -/
abbrev octSlice (g : Nat) (hg : g < 128) : Memref sig .scVector .hbm S27x512 .i32 :=
  (oW).slice (Rect.unit (s := S27x65536) ![0, 512 * g] S27x512.size (oct_inb g hg)) (fun _ => rfl)

/-- Chunk g of the data of the channel of the processor at L: all 27 rows of that channel, columns 512·g … -/
abbrev datSlice (L : grid0.Coords) (g : Nat) (hg : g < 128) : Memref sig .scVector .hbm S27x512 .f32 :=
  ((xW).slice (Rect.unit (s := S27x32x65536) ![0, 2 * (L 1).val + (L 0).val, 512 * g] S27x1x512.size
    (dat_inb L g hg)) (fun _ => rfl)).squeeze S27x512 squeezes_S27x1x512_S27x512

/-- Slices of the table at equal offsets are equal. -/
theorem oct_congr {off off' : Fin 2 → Nat} (h : off = off')
    (p : ∀ a, off a + S27x512.size a ≤ S27x65536.size a) (p' : ∀ a, off' a + S27x512.size a ≤ S27x65536.size a) :
    (oW).slice (Rect.unit (s := S27x65536) off S27x512.size p) (fun _ => rfl)
      = (oW).slice (Rect.unit (s := S27x65536) off' S27x512.size p') (fun _ => rfl) := by
  subst h; rfl

/-- Squeezed slices of the data at equal offsets are equal. -/
theorem dat_congr {off off' : Fin 3 → Nat} (h : off = off')
    (p : ∀ a, off a + S27x1x512.size a ≤ S27x32x65536.size a)
    (p' : ∀ a, off' a + S27x1x512.size a ≤ S27x32x65536.size a) :
    ((xW).slice (Rect.unit (s := S27x32x65536) off S27x1x512.size p) (fun _ => rfl)).squeeze S27x512
        squeezes_S27x1x512_S27x512
      = ((xW).slice (Rect.unit (s := S27x32x65536) off' S27x1x512.size p') (fun _ => rfl)).squeeze S27x512
        squeezes_S27x1x512_S27x512 := by
  subst h; rfl

/-- The first guard holds exactly while chunk 2·t + 2 exists. -/
theorem cond1_lt : ∀ t : Fin k0_t2_loop.trips, k0_cond1 t = 1#1 → 2 * t.val + 2 < 128 := by decide +kernel

/-- The second guard holds exactly while chunk 2·t + 3 exists. -/
theorem cond2_lt : ∀ t : Fin k0_t2_loop.trips, k0_cond2 t = 1#1 → 2 * t.val + 3 < 128 := by decide +kernel

/-! ## The program's slices are the canonical ones -/

theorem oct_0 :
    (oW).slice (Rect.unit (s := S27x65536) ![0, 0] S27x512.size inb_S27x65536_S27x512_0_0) (fun _ => rfl)
      = octSlice 0 (by omega) :=
  oct_congr (by rfl) _ _

theorem oct_1 :
    (oW).slice (Rect.unit (s := S27x65536) ![0, 512] S27x512.size inb_S27x65536_S27x512_0_512) (fun _ => rfl)
      = octSlice 1 (by omega) :=
  oct_congr (by rfl) _ _

theorem oct_33 (t : Fin k0_t2_loop.trips) (h : k0_cond1 t = 1#1) :
    (oW).slice (Rect.unit (s := S27x65536) (k0_off33 t) S27x512.size (k0_off33_inb t h)) (fun _ => rfl)
      = octSlice (2 * t.val + 2) (cond1_lt t h) :=
  oct_congr ((k0_off33_eq t).trans (by rw [show 1024 * t.val + 1024 = 512 * (2 * t.val + 2) by omega])) _ _

theorem oct_62 (t : Fin k0_t2_loop.trips) (h : k0_cond2 t = 1#1) :
    (oW).slice (Rect.unit (s := S27x65536) (k0_off62 t) S27x512.size (k0_off62_inb t h)) (fun _ => rfl)
      = octSlice (2 * t.val + 3) (cond2_lt t h) :=
  oct_congr ((k0_off62_eq t).trans (by rw [show 1024 * t.val + 1536 = 512 * (2 * t.val + 3) by omega])) _ _

theorem dat_1 (L : grid0.Coords) :
    ((xW).slice (Rect.unit (s := S27x32x65536) (k0_off1 L) S27x1x512.size (k0_off1_inb L)) (fun _ => rfl)).squeeze
        S27x512 squeezes_S27x1x512_S27x512 = datSlice L 0 (by omega) :=
  dat_congr ((k0_off1_eq L).trans (by rfl)) _ _

theorem dat_2 (L : grid0.Coords) :
    ((xW).slice (Rect.unit (s := S27x32x65536) (k0_off2 L) S27x1x512.size (k0_off2_inb L)) (fun _ => rfl)).squeeze
        S27x512 squeezes_S27x1x512_S27x512 = datSlice L 1 (by omega) :=
  dat_congr ((k0_off2_eq L).trans (by rfl)) _ _

theorem dat_34 (L : grid0.Coords) (t : Fin k0_t2_loop.trips) (h : k0_cond1 t = 1#1) :
    ((xW).slice (Rect.unit (s := S27x32x65536) (k0_off34 L t) S27x1x512.size (k0_off34_inb L t h))
        (fun _ => rfl)).squeeze S27x512 squeezes_S27x1x512_S27x512 = datSlice L (2 * t.val + 2) (cond1_lt t h) :=
  dat_congr ((k0_off34_eq L t).trans (by rw [show 1024 * t.val + 1024 = 512 * (2 * t.val + 2) by omega])) _ _

theorem dat_63 (L : grid0.Coords) (t : Fin k0_t2_loop.trips) (h : k0_cond2 t = 1#1) :
    ((xW).slice (Rect.unit (s := S27x32x65536) (k0_off63 L t) S27x1x512.size (k0_off63_inb L t h))
        (fun _ => rfl)).squeeze S27x512 squeezes_S27x1x512_S27x512 = datSlice L (2 * t.val + 3) (cond2_lt t h) :=
  dat_congr ((k0_off63_eq L t).trans (by rw [show 1024 * t.val + 1536 = 512 * (2 * t.val + 3) by omega])) _ _

/-! ## What the canonical slices read -/

/-- Chunk g of the table read at (r, c) is the table at row r, column 512·g + c. -/
theorem octSlice_read (g : Nat) (hg : g < 128) (Oc : (⟨S27x65536, .i32⟩ : BufTy).Contents (Elt F))
    (r : Fin 27) (c : Fin 512) :
    (octSlice g hg).view.read (Elt F) Oc (ix2 r c) = Oc (ix2 r ⟨512 * g + c.val, by omega⟩) := by
  show Oc ((Rect.unit (s := S27x65536) ![0, 512 * g] S27x512.size (oct_inb g hg)).emb (ix2 r c)) = _
  congr 1
  funext a
  match a with
  | ⟨0, _⟩ => exact Fin.ext (by show 0 + 1 * r.val = r.val; omega)
  | ⟨1, _⟩ => exact Fin.ext (by show 512 * g + 1 * c.val = 512 * g + c.val; omega)

/-- Chunk g of the channel's data read at (r, c) is the data at row r, that channel, column 512·g + c. -/
theorem datSlice_read (L : grid0.Coords) (g : Nat) (hg : g < 128)
    (X : (⟨S27x32x65536, .f32⟩ : BufTy).Contents (Elt F)) (r : Fin 27) (c : Fin 512) :
    (datSlice L g hg).view.read (Elt F) X (ix2 r c)
      = X (ix3 r ⟨2 * (L 1).val + (L 0).val, chan_lt L⟩ ⟨512 * g + c.val, by omega⟩) := by
  have hre : Shape.reshapeEquiv (s := (⟨3, ![27, 1, 512]⟩ : Shape)) (s' := S27x512)
      (squeezes_S27x1x512_S27x512).numel_eq (ix2 r c) = ix3 r (0 : Fin 1) c :=
    Shape.reshapeEquiv_eq_of_rowMajor _ (by
      rw [Shape.rowMajor_val_three, Shape.rowMajor_val_two]
      show (r.val * 1 + 0) * 512 + c.val = r.val * 512 + c.val
      omega)
  show X ((Rect.unit (s := S27x32x65536) ![0, 2 * (L 1).val + (L 0).val, 512 * g] S27x1x512.size
    (dat_inb L g hg)).emb (Shape.reshapeEquiv (squeezes_S27x1x512_S27x512).numel_eq (ix2 r c))) = _
  rw [hre]
  congr 1
  funext a
  match a with
  | ⟨0, _⟩ => exact Fin.ext (by show 0 + 1 * r.val = r.val; omega)
  | ⟨1, _⟩ => exact Fin.ext (by show 2 * (L 1).val + (L 0).val + 1 * 0 = 2 * (L 1).val + (L 0).val; omega)
  | ⟨2, _⟩ => exact Fin.ext (by show 512 * g + 1 * c.val = 512 * g + c.val; omega)

/-! ## What lands in the staging buffers -/

/-- Chunk g of the table copied whole into the first table staging buffer leaves chunk g there. -/
theorem idxChunk_ib0 (g : Nat) (hg : g < 128) (Oc : (⟨S27x65536, .i32⟩ : BufTy).Contents (Elt F))
    (f : (⟨S27x512, .i32⟩ : BufTy).Contents (Elt F)) :
    IdxChunk Oc g (View.write (Elt F) (ib0W).view f
      (ReadAs.same.apply ((octSlice g hg).view.read (Elt F) Oc)) Finset.univ) := by
  intro r c h
  exact (congrFun (View.write_whole_univ (Val := Elt F) cc0_scratch1 f
    ((octSlice g hg).view.read (Elt F) Oc)) (ix2 r c)).trans (octSlice_read g hg Oc r c)

/-- The same into the second table staging buffer. -/
theorem idxChunk_ib1 (g : Nat) (hg : g < 128) (Oc : (⟨S27x65536, .i32⟩ : BufTy).Contents (Elt F))
    (f : (⟨S27x512, .i32⟩ : BufTy).Contents (Elt F)) :
    IdxChunk Oc g (View.write (Elt F) (ib1W).view f
      (ReadAs.same.apply ((octSlice g hg).view.read (Elt F) Oc)) Finset.univ) := by
  intro r c h
  exact (congrFun (View.write_whole_univ (Val := Elt F) cc0_scratch2 f
    ((octSlice g hg).view.read (Elt F) Oc)) (ix2 r c)).trans (octSlice_read g hg Oc r c)

/-- Chunk g of the channel's data copied whole into the first data staging buffer leaves chunk g there. -/
theorem datChunk_db0 (L : grid0.Coords) (g : Nat) (hg : g < 128)
    (X : (⟨S27x32x65536, .f32⟩ : BufTy).Contents (Elt F)) (f : (⟨S27x512, .f32⟩ : BufTy).Contents (Elt F)) :
    DatChunk X ⟨2 * (L 1).val + (L 0).val, chan_lt L⟩ g (View.write (Elt F) (db0W).view f
      (ReadAs.same.apply ((datSlice L g hg).view.read (Elt F) X)) Finset.univ) := by
  intro r c h
  exact (congrFun (View.write_whole_univ (Val := Elt F) cc0_scratch3 f
    ((datSlice L g hg).view.read (Elt F) X)) (ix2 r c)).trans (datSlice_read L g hg X r c)

/-- The same into the second data staging buffer. -/
theorem datChunk_db1 (L : grid0.Coords) (g : Nat) (hg : g < 128)
    (X : (⟨S27x32x65536, .f32⟩ : BufTy).Contents (Elt F)) (f : (⟨S27x512, .f32⟩ : BufTy).Contents (Elt F)) :
    DatChunk X ⟨2 * (L 1).val + (L 0).val, chan_lt L⟩ g (View.write (Elt F) (db1W).view f
      (ReadAs.same.apply ((datSlice L g hg).view.read (Elt F) X)) Finset.univ) := by
  intro r c h
  exact (congrFun (View.write_whole_univ (Val := Elt F) cc0_scratch4 f
    ((datSlice L g hg).view.read (Elt F) X)) (ix2 r c)).trans (datSlice_read L g hg X r c)

/-- A staged chunk of a table whose words are node numbers holds node numbers. -/
theorem IdxChunk.inRange {Oc : IVec S27x65536 32} {g : Nat} {C : IVec S27x512 32} (hC : IdxChunk Oc g C)
    (hg : g < 128) (hO : ∀ j, (Oc j).toNat < 65536) : ∀ j, (C j).toNat < 65536 := by
  intro j
  obtain ⟨a, b, rfl⟩ : ∃ (a : Fin 27) (b : Fin 512), j = ix2 a b := ⟨j 0, j 1, eq_ix2 j⟩
  rw [hC a b (by omega)]
  exact hO _

/-! ## The zero-fill of the accumulator -/

/-- One fill writes the zero word at the sixteen entries of block k: if the entries of the earlier blocks hold the zero
    word before it, the entries of the blocks up to k do after it. -/
theorem zero_step (g0 : (⟨S65536, .f32⟩ : BufTy).Contents (Elt F)) (k : Fin k0_t1_loop.trips)
    (h : ∀ j : S65536.Idx, (j 0).val < 16 * k.val → g0 j = (Scalar.ofBits .f32 0x00000000#32 : F .f32)) :
    ∀ j : S65536.Idx, (j 0).val < 16 * (k.val + 1) →
      (accW).view.writes (Elt F) g0
        [⟨Rect.unit (s := S65536) (k0_off3 k) S16.size (k0_off3_inb k), k0_pay51 (F := F)⟩] j
        = (Scalar.ofBits .f32 0x00000000#32 : F .f32) := by
  intro j hj
  have h0 : k0_off3 k 0 = 16 * k.val := by rw [k0_off3_eq]; rfl
  rw [View.writes_singleton]
  by_cases hlt : (j 0).val < 16 * k.val
  · rw [View.write_of_not_mem]
    · exact h j hlt
    · rw [View.setOn_univ, View.set_slice_whole, Rect.mem_set_unit]
      intro hall
      have := (hall 0).1
      omega
  · have hx : (j 0).val - 16 * k.val < 16 := by omega
    have hemb : ((accW).view.slice (Rect.unit (s := S65536) (k0_off3 k) S16.size (k0_off3_inb k))).emb
        (Shape.ofLane (d := S16.size) ⟨(j 0).val - 16 * k.val, hx⟩) = j := by
      funext a
      match a with
      | ⟨0, _⟩ =>
        apply Fin.ext
        show k0_off3 k 0 + 1 * ((j 0).val - 16 * k.val) = (j 0).val
        omega
    rw [← hemb, View.write_emb_of_mem _ _ (Finset.mem_univ _)]
    rfl

/-- An accumulator holding the zero word at every entry is the zero accumulator. -/
theorem eq_zeroAcc (g0 : (⟨S65536, .f32⟩ : BufTy).Contents (Elt F))
    (h : ∀ j : S65536.Idx, g0 j = (Scalar.ofBits .f32 0x00000000#32 : F .f32)) : g0 = zeroAcc (F := F) :=
  funext h

/-- After all 4096 fills every entry holds the zero word. -/
theorem eq_zeroAcc_of_filled (g0 : (⟨S65536, .f32⟩ : BufTy).Contents (Elt F))
    (h : ∀ j : S65536.Idx, (j 0).val < 16 * 4096 → g0 j = (Scalar.ofBits .f32 0x00000000#32 : F .f32)) :
    g0 = zeroAcc (F := F) :=
  funext fun j => h j (by have : (j 0).val < 65536 := (j 0).isLt; omega)

end Cert.Kernel.Views

end
-- ==== Proof.ViewsOutK.lean ====
/-
  The write-out of the accumulator to the processor's row of the result.

  The processor at grid coordinates L owns row 2·L₁ + L₀ of the result: the program's slice of that row, squeezed to its
  65536 entries, places entry n at (2·L₁ + L₀, n); the accumulator copied whole through it leaves the accumulator's entry
  n there.
-/
import proofs.«204569_g29265907155619_cont_9to1_682_25_alg».proof.Proof.ViewsK

noncomputable section

namespace Cert.Kernel.Views

open Cert.Kernel Cert.Kernel.Gen Idealize.ShloMosaic Idealize.ShloMosaic.ValueIdx Cert.ColSum

variable {F : FTy → Type} [FloatOps F]

local notation "accW" => (Memref.whole Cert.Kernel.cc0_scratch0 : Memref Cert.Kernel.sig Kind.scVector Space.vmem Cert.Kernel.S65536 EltTy.f32)
local notation "rW" => (Memref.whole Cert.Kernel.main_v2_scv : Memref Cert.Kernel.sig Kind.scVector Space.hbm Cert.Kernel.S32x65536 EltTy.f32)

/-- The row of the result the processor at L writes: the program's slice of it, squeezed to its 65536 entries. -/
abbrev outRowK (L : grid0.Coords) : Memref sig .scVector .hbm S65536 .f32 :=
  ((rW).slice (Rect.unit (s := S32x65536) (k0_off64 L) S1x65536.size (k0_off64_inb L)) (fun _ => rfl)).squeeze
    S65536 squeezes_S1x65536_S65536

/-- Entry n of the processor's row sits at (2·L₁ + L₀, n) of the result. -/
theorem outRowK_emb (L : grid0.Coords) (n : Fin 65536) :
    (outRowK L).view.emb (ix1 n) = ix2 ⟨2 * (L 1).val + (L 0).val, chan_lt L⟩ n := by
  have hre : Shape.reshapeEquiv (s := (⟨2, ![1, 65536]⟩ : Shape)) (s' := S65536)
      (squeezes_S1x65536_S65536).numel_eq (ix1 n) = ix2 (0 : Fin 1) n :=
    Shape.reshapeEquiv_eq_of_rowMajor _ (by
      rw [Shape.rowMajor_val_two, Shape.rowMajor_val_one]
      show 0 * 65536 + n.val = n.val
      omega)
  show (Rect.unit (s := S32x65536) (k0_off64 L) S1x65536.size (k0_off64_inb L)).emb
    (Shape.reshapeEquiv (squeezes_S1x65536_S65536).numel_eq (ix1 n)) = _
  rw [hre]
  have h0 : k0_off64 L 0 = 2 * (L 1).val + (L 0).val := by rw [k0_off64_eq]; rfl
  have h1 : k0_off64 L 1 = 0 := by rw [k0_off64_eq]; rfl
  funext a
  match a with
  | ⟨0, _⟩ => exact Fin.ext (by show k0_off64 L 0 + 1 * 0 = 2 * (L 1).val + (L 0).val; omega)
  | ⟨1, _⟩ => exact Fin.ext (by show k0_off64 L 1 + 1 * n.val = n.val; omega)

/-- The accumulator copied whole through the processor's row leaves its entry n at (2·L₁ + L₀, n). -/
theorem outRowK_write (L : grid0.Coords) (fr : (⟨S32x65536, .f32⟩ : BufTy).Contents (Elt F))
    (g : (⟨S65536, .f32⟩ : BufTy).Contents (Elt F)) (n : Fin 65536) :
    (View.write (Elt F) (outRowK L).view fr (ReadAs.same.apply ((accW).view.read (Elt F) g)) Finset.univ)
        (ix2 ⟨2 * (L 1).val + (L 0).val, chan_lt L⟩ n) = g (ix1 n) := by
  have hw := View.write_emb_of_mem (v := (outRowK L).view) (Val := Elt F) fr
    (ReadAs.same.apply ((accW).view.read (Elt F) g)) (M := Finset.univ) (x := ix1 n) (Finset.mem_univ _)
  rw [outRowK_emb L n] at hw
  exact hw.trans rfl

/-- The same with the landed contents written as one whole-shape piece over the earlier contents. -/
theorem outRowK_writes (L : grid0.Coords) (fr : (⟨S32x65536, .f32⟩ : BufTy).Contents (Elt F))
    (g : (⟨S65536, .f32⟩ : BufTy).Contents (Elt F)) (n : Fin 65536) :
    ((outRowK L).view.writes (Elt F) fr
        [⟨Rect.whole S65536, ReadAs.same.apply ((accW).view.read (Elt F) g)⟩])
        (ix2 ⟨2 * (L 1).val + (L 0).val, chan_lt L⟩ n) = g (ix1 n) := by
  rw [← View.write_univ_eq_writes_whole, View.writes_nil]
  exact outRowK_write L fr g n

end Cert.Kernel.Views

end
-- ==== Proof.CoreK.lean ====
/-
  The loops of a subcore's task, one trip at a time.  The zero-fill loop clears the accumulator sixteen entries a trip.
  The chunk loop keeps two chunks of 512 columns in flight, one per pair of staging buffers: a trip waits for chunk 2k in
  the first pair, adds its 32 lane blocks (the first scatter loop), starts chunk 2k + 2 into that pair, then does the same
  with chunk 2k + 1 and the second pair.  Each transfer has its own counter and its own read share of the array it
  reads, so between a transfer's start and its wait nothing else touches its source or its destination.  The invariant
  of the chunk loop says which pairs have been added into the accumulator (the relation AccInv at block 64k) and what
  is in flight; after the last trip both pairs are at rest.
-/
import proofs.«204569_g29265907155619_cont_9to1_682_25_alg».proof.Proof.TripsK
import proofs.«204569_g29265907155619_cont_9to1_682_25_alg».proof.Proof.ViewsK
import proofs.«204569_g29265907155619_cont_9to1_682_25_alg».proof.Proof.ViewsOutK

noncomputable section

namespace Cert.Kernel.Tile

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.ColSum

variable {F : FTy → Type}

local notation "𝕄" => MT nD τ sig (HIx 1) (Elt F) ℕ UU ℕ
local notation "xW" => (Memref.whole Cert.Kernel.main_v0_scv : Memref Cert.Kernel.sig Kind.scVector Space.hbm Cert.Kernel.S27x32x65536 EltTy.f32)
local notation "oW" => (Memref.whole Cert.Kernel.main_v1_scv : Memref Cert.Kernel.sig Kind.scVector Space.hbm Cert.Kernel.S27x65536 EltTy.i32)
local notation "rW" => (Memref.whole Cert.Kernel.main_v2_scv : Memref Cert.Kernel.sig Kind.scVector Space.hbm Cert.Kernel.S32x65536 EltTy.f32)
local notation "accW" => (Memref.whole Cert.Kernel.cc0_scratch0 : Memref Cert.Kernel.sig Kind.scVector Space.vmem Cert.Kernel.S65536 EltTy.f32)
local notation "ib0W" => (Memref.whole Cert.Kernel.cc0_scratch1 : Memref Cert.Kernel.sig Kind.scVector Space.vmem Cert.Kernel.S27x512 EltTy.i32)
local notation "ib1W" => (Memref.whole Cert.Kernel.cc0_scratch2 : Memref Cert.Kernel.sig Kind.scVector Space.vmem Cert.Kernel.S27x512 EltTy.i32)
local notation "db0W" => (Memref.whole Cert.Kernel.cc0_scratch3 : Memref Cert.Kernel.sig Kind.scVector Space.vmem Cert.Kernel.S27x512 EltTy.f32)
local notation "db1W" => (Memref.whole Cert.Kernel.cc0_scratch4 : Memref Cert.Kernel.sig Kind.scVector Space.vmem Cert.Kernel.S27x512 EltTy.f32)

variable [FloatOps F]

section TileSec
variable (d : Dev nD) (L : grid0.Coords)

/-- The flight of a table chunk into staging buffer 0 from the slice at offsets `off`: at the wait it delivers the buffer
    rewritten with the slice and the lent part of the read share. -/
def flyI0 (Oc : Buf (Elt F) (oLoc d)) (qo : PosShare TreeShare) (off : Fin 2 → Nat) (p : ∀ a, off a + S27x512.size a ≤ S27x65536.size a)
    (f : Buf (Elt F) ((V d (cV L) (jV L)).loc cc0_scratch1)) : sProp 𝕄 :=
  Transfers.Flight countersEmb (V d (cV L) (jV L)) (SemLoc.dma cc0_scratch5.sem) default 442368 iprop(((ib0W).view.loc (V d (cV L) (jV L)) ↦{fullShare} View.write (Elt F) (ib0W).view f (ReadAs.same.apply (((oW).slice (Rect.unit (s := S27x65536) off S27x512.size p) (fun _ => rfl)).view.read (Elt F) Oc)) Finset.univ) ∗ ((oW).view.loc (V d (cV L) (jV L)) ↦[((oW).slice (Rect.unit (s := S27x65536) off S27x512.size p) (fun _ => rfl)).view.set]{Transfers.shareTokN qo 0} Oc))
/-- What is left of the table's read share 0 meanwhile. -/
def restI0 (Oc : Buf (Elt F) (oLoc d)) (qo : PosShare TreeShare) (off : Fin 2 → Nat) (p : ∀ a, off a + S27x512.size a ≤ S27x65536.size a) : sProp 𝕄 :=
  ((oW).view.loc (V d (cV L) (jV L)) ↦[Finset.univ \ ((oW).slice (Rect.unit (s := S27x65536) off S27x512.size p) (fun _ => rfl)).view.set]{Transfers.shareTokN qo 0} Oc)
/-- The flight of a data chunk into staging buffer 0. -/
def flyD0 (X : Buf (Elt F) (xLoc d)) (qx : PosShare TreeShare) (off : Fin 3 → Nat) (p : ∀ a, off a + S27x1x512.size a ≤ S27x32x65536.size a)
    (f : Buf (Elt F) ((V d (cV L) (jV L)).loc cc0_scratch3)) : sProp 𝕄 :=
  Transfers.Flight countersEmb (V d (cV L) (jV L)) (SemLoc.dma cc0_scratch7.sem) default 442368 iprop(((db0W).view.loc (V d (cV L) (jV L)) ↦{fullShare} View.write (Elt F) (db0W).view f (ReadAs.same.apply ((((xW).slice (Rect.unit (s := S27x32x65536) off S27x1x512.size p) (fun _ => rfl)).squeeze S27x512 squeezes_S27x1x512_S27x512).view.read (Elt F) X)) Finset.univ) ∗ ((xW).view.loc (V d (cV L) (jV L)) ↦[(((xW).slice (Rect.unit (s := S27x32x65536) off S27x1x512.size p) (fun _ => rfl)).squeeze S27x512 squeezes_S27x1x512_S27x512).view.set]{Transfers.shareTokN qx 2} X))
/-- What is left of the data's read share 2 meanwhile. -/
def restD0 (X : Buf (Elt F) (xLoc d)) (qx : PosShare TreeShare) (off : Fin 3 → Nat) (p : ∀ a, off a + S27x1x512.size a ≤ S27x32x65536.size a) : sProp 𝕄 :=
  ((xW).view.loc (V d (cV L) (jV L)) ↦[Finset.univ \ (((xW).slice (Rect.unit (s := S27x32x65536) off S27x1x512.size p) (fun _ => rfl)).squeeze S27x512 squeezes_S27x1x512_S27x512).view.set]{Transfers.shareTokN qx 2} X)

omit [FloatOps F] in
theorem flyI0_congr (Oc : Buf (Elt F) (oLoc d)) (qo : PosShare TreeShare) {off off' : Fin 2 → Nat} (h : off = off') (p p') (f) :
    flyI0 (F := F) d L Oc qo off p f = flyI0 d L Oc qo off' p' f := by subst h; rfl
omit [FloatOps F] in
theorem restI0_congr (Oc : Buf (Elt F) (oLoc d)) (qo : PosShare TreeShare) {off off' : Fin 2 → Nat} (h : off = off') (p p') :
    restI0 (F := F) d L Oc qo off p = restI0 d L Oc qo off' p' := by subst h; rfl
omit [FloatOps F] in
theorem flyD0_congr (X : Buf (Elt F) (xLoc d)) (qx : PosShare TreeShare) {off off' : Fin 3 → Nat} (h : off = off') (p p') (f) :
    flyD0 (F := F) d L X qx off p f = flyD0 d L X qx off' p' f := by subst h; rfl
omit [FloatOps F] in
theorem restD0_congr (X : Buf (Elt F) (xLoc d)) (qx : PosShare TreeShare) {off off' : Fin 3 → Nat} (h : off = off') (p p') :
    restD0 (F := F) d L X qx off p = restD0 d L X qx off' p' := by subst h; rfl

/-- Staging pair 0 while chunk g is in flight into it. -/
def slotFly0 (X : Buf (Elt F) (xLoc d)) (Oc : Buf (Elt F) (oLoc d)) (qx qo : PosShare TreeShare) (g : Nat) (hg : g < 128) : sProp 𝕄 :=
  iprop((∃ f, flyI0 d L Oc qo ![0, 512 * g] (Views.oct_inb g hg) f) ∗ restI0 d L Oc qo ![0, 512 * g] (Views.oct_inb g hg)
    ∗ (∃ f, flyD0 d L X qx ![0, 2 * (L 1).val + (L 0).val, 512 * g] (Views.dat_inb L g hg) f) ∗ restD0 d L X qx ![0, 2 * (L 1).val + (L 0).val, 512 * g] (Views.dat_inb L g hg))

/-- Staging pair 0 at rest: the buffers at some contents, the read shares whole, the two counters at zero. -/
def slotIdle0 (X : Buf (Elt F) (xLoc d)) (Oc : Buf (Elt F) (oLoc d)) (qx qo : PosShare TreeShare) : sProp 𝕄 :=
  iprop((∃ f, (ib0W).view.loc (V d (cV L) (jV L)) ↦{fullShare} f) ∗ ((oW).view.loc (V d (cV L) (jV L)) ↦{Transfers.shareTokN qo 0} Oc) ∗ semVal ((V d (cV L) (jV L)), SemLoc.dma cc0_scratch5.sem) 0
    ∗ (∃ f, (db0W).view.loc (V d (cV L) (jV L)) ↦{fullShare} f) ∗ ((xW).view.loc (V d (cV L) (jV L)) ↦{Transfers.shareTokN qx 2} X) ∗ semVal ((V d (cV L) (jV L)), SemLoc.dma cc0_scratch7.sem) 0)

/-- The flight of a table chunk into staging buffer 1 from the slice at offsets `off`: at the wait it delivers the buffer
    rewritten with the slice and the lent part of the read share. -/
def flyI1 (Oc : Buf (Elt F) (oLoc d)) (qo : PosShare TreeShare) (off : Fin 2 → Nat) (p : ∀ a, off a + S27x512.size a ≤ S27x65536.size a)
    (f : Buf (Elt F) ((V d (cV L) (jV L)).loc cc0_scratch2)) : sProp 𝕄 :=
  Transfers.Flight countersEmb (V d (cV L) (jV L)) (SemLoc.dma cc0_scratch6.sem) default 442368 iprop(((ib1W).view.loc (V d (cV L) (jV L)) ↦{fullShare} View.write (Elt F) (ib1W).view f (ReadAs.same.apply (((oW).slice (Rect.unit (s := S27x65536) off S27x512.size p) (fun _ => rfl)).view.read (Elt F) Oc)) Finset.univ) ∗ ((oW).view.loc (V d (cV L) (jV L)) ↦[((oW).slice (Rect.unit (s := S27x65536) off S27x512.size p) (fun _ => rfl)).view.set]{Transfers.shareTokN qo 1} Oc))
/-- What is left of the table's read share 1 meanwhile. -/
def restI1 (Oc : Buf (Elt F) (oLoc d)) (qo : PosShare TreeShare) (off : Fin 2 → Nat) (p : ∀ a, off a + S27x512.size a ≤ S27x65536.size a) : sProp 𝕄 :=
  ((oW).view.loc (V d (cV L) (jV L)) ↦[Finset.univ \ ((oW).slice (Rect.unit (s := S27x65536) off S27x512.size p) (fun _ => rfl)).view.set]{Transfers.shareTokN qo 1} Oc)
/-- The flight of a data chunk into staging buffer 1. -/
def flyD1 (X : Buf (Elt F) (xLoc d)) (qx : PosShare TreeShare) (off : Fin 3 → Nat) (p : ∀ a, off a + S27x1x512.size a ≤ S27x32x65536.size a)
    (f : Buf (Elt F) ((V d (cV L) (jV L)).loc cc0_scratch4)) : sProp 𝕄 :=
  Transfers.Flight countersEmb (V d (cV L) (jV L)) (SemLoc.dma cc0_scratch8.sem) default 442368 iprop(((db1W).view.loc (V d (cV L) (jV L)) ↦{fullShare} View.write (Elt F) (db1W).view f (ReadAs.same.apply ((((xW).slice (Rect.unit (s := S27x32x65536) off S27x1x512.size p) (fun _ => rfl)).squeeze S27x512 squeezes_S27x1x512_S27x512).view.read (Elt F) X)) Finset.univ) ∗ ((xW).view.loc (V d (cV L) (jV L)) ↦[(((xW).slice (Rect.unit (s := S27x32x65536) off S27x1x512.size p) (fun _ => rfl)).squeeze S27x512 squeezes_S27x1x512_S27x512).view.set]{Transfers.shareTokN qx 3} X))
/-- What is left of the data's read share 3 meanwhile. -/
def restD1 (X : Buf (Elt F) (xLoc d)) (qx : PosShare TreeShare) (off : Fin 3 → Nat) (p : ∀ a, off a + S27x1x512.size a ≤ S27x32x65536.size a) : sProp 𝕄 :=
  ((xW).view.loc (V d (cV L) (jV L)) ↦[Finset.univ \ (((xW).slice (Rect.unit (s := S27x32x65536) off S27x1x512.size p) (fun _ => rfl)).squeeze S27x512 squeezes_S27x1x512_S27x512).view.set]{Transfers.shareTokN qx 3} X)

omit [FloatOps F] in
theorem flyI1_congr (Oc : Buf (Elt F) (oLoc d)) (qo : PosShare TreeShare) {off off' : Fin 2 → Nat} (h : off = off') (p p') (f) :
    flyI1 (F := F) d L Oc qo off p f = flyI1 d L Oc qo off' p' f := by subst h; rfl
omit [FloatOps F] in
theorem restI1_congr (Oc : Buf (Elt F) (oLoc d)) (qo : PosShare TreeShare) {off off' : Fin 2 → Nat} (h : off = off') (p p') :
    restI1 (F := F) d L Oc qo off p = restI1 d L Oc qo off' p' := by subst h; rfl
omit [FloatOps F] in
theorem flyD1_congr (X : Buf (Elt F) (xLoc d)) (qx : PosShare TreeShare) {off off' : Fin 3 → Nat} (h : off = off') (p p') (f) :
    flyD1 (F := F) d L X qx off p f = flyD1 d L X qx off' p' f := by subst h; rfl
omit [FloatOps F] in
theorem restD1_congr (X : Buf (Elt F) (xLoc d)) (qx : PosShare TreeShare) {off off' : Fin 3 → Nat} (h : off = off') (p p') :
    restD1 (F := F) d L X qx off p = restD1 d L X qx off' p' := by subst h; rfl

/-- Staging pair 1 while chunk g is in flight into it. -/
def slotFly1 (X : Buf (Elt F) (xLoc d)) (Oc : Buf (Elt F) (oLoc d)) (qx qo : PosShare TreeShare) (g : Nat) (hg : g < 128) : sProp 𝕄 :=
  iprop((∃ f, flyI1 d L Oc qo ![0, 512 * g] (Views.oct_inb g hg) f) ∗ restI1 d L Oc qo ![0, 512 * g] (Views.oct_inb g hg)
    ∗ (∃ f, flyD1 d L X qx ![0, 2 * (L 1).val + (L 0).val, 512 * g] (Views.dat_inb L g hg) f) ∗ restD1 d L X qx ![0, 2 * (L 1).val + (L 0).val, 512 * g] (Views.dat_inb L g hg))

/-- Staging pair 1 at rest: the buffers at some contents, the read shares whole, the two counters at zero. -/
def slotIdle1 (X : Buf (Elt F) (xLoc d)) (Oc : Buf (Elt F) (oLoc d)) (qx qo : PosShare TreeShare) : sProp 𝕄 :=
  iprop((∃ f, (ib1W).view.loc (V d (cV L) (jV L)) ↦{fullShare} f) ∗ ((oW).view.loc (V d (cV L) (jV L)) ↦{Transfers.shareTokN qo 1} Oc) ∗ semVal ((V d (cV L) (jV L)), SemLoc.dma cc0_scratch6.sem) 0
    ∗ (∃ f, (db1W).view.loc (V d (cV L) (jV L)) ↦{fullShare} f) ∗ ((xW).view.loc (V d (cV L) (jV L)) ↦{Transfers.shareTokN qx 3} X) ∗ semVal ((V d (cV L) (jV L)), SemLoc.dma cc0_scratch8.sem) 0)

/-- The chunk loop's invariant before trip k: the accumulator holds the pairs of the first 2k chunks (64k sixteen-column
    blocks); chunks 2k and 2k + 1 are in flight into the two staging pairs, or after the last trip the pairs are at rest. -/
def invO (X : Buf (Elt F) (xLoc d)) (Oc : Buf (Elt F) (oLoc d)) (hin : ∀ j, (Oc j).toNat < 65536) (qx qo : PosShare TreeShare)
    (O : CellTallies nD τ sig (HIx 1)) (W : Waits sig (HIx 1)) (k : Nat) (_ : PUnit) : sProp 𝕄 :=
  iprop(Transfers.MayWaits (V d (cV L) (jV L)) (none : HIx 1) O
    ∗ (∃ g : Buf (Elt F) ((V d (cV L) (jV L)).loc cc0_scratch0), ((accW).view.loc (V d (cV L) (jV L)) ↦{fullShare} g)
        ∗ ⌜AccInv (tgtOf Oc hin) (dtOf X (chan L)) (zeroAcc (F := F)) (64 * k) 0 g⌝)
    ∗ (if h : k < 64 then iprop(slotFly0 d L X Oc qx qo (2 * k) (by omega) ∗ slotFly1 d L X Oc qx qo (2 * k + 1) (by omega))
       else iprop(slotIdle0 d L X Oc qx qo ∗ slotIdle1 d L X Oc qx qo))
    ∗ ∃ W', ⌜∀ p ∈ W', p ∈ W ∨ p.2 = none⌝ ∗ owes (V d (cV L) (jV L)) O W')

/-- A scatter loop's invariant before lane block i of chunk gch (staging pair b's buffers at the chunk). -/
def invI0 (X : Buf (Elt F) (xLoc d)) (Oc : Buf (Elt F) (oLoc d)) (hin : ∀ j, (Oc j).toNat < 65536) (gch : Nat)
    (Ci : Buf (Elt F) ((V d (cV L) (jV L)).loc cc0_scratch1)) (Cd : Buf (Elt F) ((V d (cV L) (jV L)).loc cc0_scratch3)) (i : Nat) (_ : PUnit) : sProp 𝕄 :=
  iprop((∃ g : Buf (Elt F) ((V d (cV L) (jV L)).loc cc0_scratch0), ((accW).view.loc (V d (cV L) (jV L)) ↦{fullShare} g)
        ∗ ⌜AccInv (tgtOf Oc hin) (dtOf X (chan L)) (zeroAcc (F := F)) (32 * gch + i) 0 g⌝)
    ∗ ((ib0W).view.loc (V d (cV L) (jV L)) ↦{fullShare} Ci) ∗ ((db0W).view.loc (V d (cV L) (jV L)) ↦{fullShare} Cd))
def invI1 (X : Buf (Elt F) (xLoc d)) (Oc : Buf (Elt F) (oLoc d)) (hin : ∀ j, (Oc j).toNat < 65536) (gch : Nat)
    (Ci : Buf (Elt F) ((V d (cV L) (jV L)).loc cc0_scratch2)) (Cd : Buf (Elt F) ((V d (cV L) (jV L)).loc cc0_scratch4)) (i : Nat) (_ : PUnit) : sProp 𝕄 :=
  iprop((∃ g : Buf (Elt F) ((V d (cV L) (jV L)).loc cc0_scratch0), ((accW).view.loc (V d (cV L) (jV L)) ↦{fullShare} g)
        ∗ ⌜AccInv (tgtOf Oc hin) (dtOf X (chan L)) (zeroAcc (F := F)) (32 * gch + i) 0 g⌝)
    ∗ ((ib1W).view.loc (V d (cV L) (jV L)) ↦{fullShare} Ci) ∗ ((db1W).view.loc (V d (cV L) (jV L)) ↦{fullShare} Cd))

omit [FloatOps F] in
theorem cond1_iff : ∀ t : Fin k0_t2_loop.trips, k0_cond1 t = 1#1 ↔ t.val < 63 := by decide +kernel
omit [FloatOps F] in
theorem cond2_iff : ∀ t : Fin k0_t2_loop.trips, k0_cond2 t = 1#1 ↔ t.val < 63 := by decide +kernel
omit [FloatOps F] in
theorem trips3 : Scf.trips k0_t3_loop.lb k0_t3_loop.ub k0_t3_loop.st = 32 := by decide +kernel
omit [FloatOps F] in
theorem trips4 : Scf.trips k0_t4_loop.lb k0_t4_loop.ub k0_t4_loop.st = 32 := by decide +kernel
omit [FloatOps F] in
theorem trips1 : Scf.trips k0_t1_loop.lb k0_t1_loop.ub k0_t1_loop.st = 4096 := by decide +kernel
omit [FloatOps F] in
theorem trips2 : Scf.trips k0_t2_loop.lb k0_t2_loop.ub k0_t2_loop.st = 64 := by decide +kernel

omit [FloatOps F] in
theorem off33 (k : Fin k0_t2_loop.trips) : k0_off33 k = ![0, 512 * (2 * (k.val + 1))] := by
  rw [k0_off33_eq k, show 1024 * k.val + 1024 = 512 * (2 * (k.val + 1)) from by omega]
omit [FloatOps F] in
theorem off62 (k : Fin k0_t2_loop.trips) : k0_off62 k = ![0, 512 * (2 * (k.val + 1) + 1)] := by
  rw [k0_off62_eq k, show 1024 * k.val + 1536 = 512 * (2 * (k.val + 1) + 1) from by omega]
omit [FloatOps F] in
theorem off34 (L : grid0.Coords) (k : Fin k0_t2_loop.trips) : k0_off34 L k = ![0, 2 * (L 1).val + (L 0).val, 512 * (2 * (k.val + 1))] := by
  rw [k0_off34_eq L k, show 1024 * k.val + 1024 = 512 * (2 * (k.val + 1)) from by omega]
omit [FloatOps F] in
theorem off63 (L : grid0.Coords) (k : Fin k0_t2_loop.trips) : k0_off63 L k = ![0, 2 * (L 1).val + (L 0).val, 512 * (2 * (k.val + 1) + 1)] := by
  rw [k0_off63_eq L k, show 1024 * k.val + 1536 = 512 * (2 * (k.val + 1) + 1) from by omega]
/-- The zero-fill loop's invariant: the first 16·k entries of the accumulator are the zero word. -/
def invZ (k : Nat) (_ : PUnit) : sProp 𝕄 :=
  iprop(∃ g : Buf (Elt F) ((V d (cV L) (jV L)).loc cc0_scratch0), ((accW).view.loc (V d (cV L) (jV L)) ↦{fullShare} g)
    ∗ ⌜∀ j : S65536.Idx, (j 0).val < 16 * k → g j = (Scalar.ofBits .f32 0x00000000#32 : F .f32)⌝)
/-- One trip of the zero-fill loop: sixteen more entries of the accumulator become the zero word. -/
theorem ztrip (k : Fin k0_t1_loop.trips) (g : Buf (Elt F) ((V d (cV L) (jV L)).loc cc0_scratch0))
    (hz : ∀ j : S65536.Idx, (j 0).val < 16 * k.val → g j = (Scalar.ofBits .f32 0x00000000#32 : F .f32)) :
    ((V d (cV L) (jV L)).loc cc0_scratch0 ↦{fullShare} g : sProp 𝕄)
      ⊢ wp frame (wpE (defs₀ (F := F)) 𝒱₀ (V d (cV L) (jV L)) none) Set.univ
          (k0_t1_body L xW (Memref.isWhole_whole _) oW (Memref.isWhole_whole _) rW (Memref.isWhole_whole _)
            accW (Memref.isWhole_whole _) ib0W (Memref.isWhole_whole _) ib1W (Memref.isWhole_whole _)
            db0W (Memref.isWhole_whole _) db1W (Memref.isWhole_whole _) cc0_scratch5 cc0_scratch6 cc0_scratch7 cc0_scratch8 cc0_scoped0 k ())
          (fun _ => iprop(∃ g' : Buf (Elt F) ((V d (cV L) (jV L)).loc cc0_scratch0), ((V d (cV L) (jV L)).loc cc0_scratch0 ↦{fullShare} g')
            ∗ ⌜∀ j : S65536.Idx, (j 0).val < 16 * (k.val + 1) → g' j = (Scalar.ofBits .f32 0x00000000#32 : F .f32)⌝)) := by
  unfold k0_t1_body
  iintro Hacc
  ihave Hacc' := (Entails.of_eq (show (_ : sProp 𝕄) = ((accW).view.loc (V d (cV L) (jV L)) ↦{fullShare} g) from rfl)) $$ Hacc
  sl_exec
  sl_step
  iexists _
  isplitl [Hacc']
  · iexact Hacc'
  · ipureintro
    exact Views.zero_step g k hz

theorem otripQ (X : Buf (Elt F) (xLoc d)) (Oc : Buf (Elt F) (oLoc d)) (hin : ∀ j, (Oc j).toNat < 65536) (qx qo : PosShare TreeShare)
    (O : CellTallies nD τ sig (HIx 1)) (W : Waits sig (HIx 1)) (k : Fin k0_t2_loop.trips)
    (Q : PUnit → sProp 𝕄) (hQ : ∀ r, invO (F := F) d L X Oc hin qx qo O W (k.val + 1) r ⊢ Q r) :
    invO (F := F) d L X Oc hin qx qo O W k.val ⟨⟩
      ⊢ wp frame (wpE (defs₀ (F := F)) 𝒱₀ (V d (cV L) (jV L)) none) Set.univ
          (k0_t2_body L xW (Memref.isWhole_whole _) oW (Memref.isWhole_whole _) rW (Memref.isWhole_whole _)
            accW (Memref.isWhole_whole _) ib0W (Memref.isWhole_whole _) ib1W (Memref.isWhole_whole _)
            db0W (Memref.isWhole_whole _) db1W (Memref.isWhole_whole _) cc0_scratch5 cc0_scratch6 cc0_scratch7 cc0_scratch8 cc0_scoped0 k ())
          Q := by
  have hk : k.val < 64 := k.isLt
  unfold invO
  rw [dif_pos hk]
  unfold slotFly0 slotFly1 flyI0 flyI1 flyD0 flyD1 restI0 restI1 restD0 restD1
  iintro ⟨#Hmw, ⟨%g, Hacc, %hA⟩, ⟨⟨⟨%fI0, Hs0⟩, Ho0, ⟨%fD0, Hs2⟩, Hx2⟩, ⟨⟨%fI1, Hs1⟩, Ho1, ⟨%fD1, Hs3⟩, Hx3⟩⟩, %W', %hW', HO⟩
  sl_unfold [k0_t2_body]
  sl_unfold [k0_part11]
  rcases Classical.em (k0_cond1 k = 1#1) with hc1 | hc1
  · have hc2 : k0_cond2 k = 1#1 := (cond2_iff k).mpr ((cond1_iff k).mp hc1)
    sl_exec
    have hCi0 := Views.idxChunk_ib0 (F := F) (2 * k.val) (by omega) Oc fI0
    have hCd0 := Views.datChunk_db0 (F := F) L (2 * k.val) (by omega) X fD0
    sl_for (invI0 (F := F) d L X Oc hin (2 * k.val) _ _) $$ [Hacc Hs0_dst Hs2_dst]
    case region =>
      intro i _
      unfold invI0
      iintro ⟨⟨%g', Hacc, %hA'⟩, Hi, Hd⟩
      iapply (trip0 (F := F) d L k i (hin := hin) (by omega : 2 * k.val < 128) g' _ _ hCi0 hCd0 hA') $$ [Hacc Hi Hd]
      isplitl [Hacc]; · iexact Hacc
      isplitl [Hi]; · iexact Hi
      iexact Hd
    · unfold invI0
      isplitl [Hacc]
      · iexists g; isplitl [Hacc]; · iexact Hacc
        ipureintro; rw [show 32 * (2 * k.val) + 0 = 64 * k.val from by omega]; exact hA
      isplitl [Hs0_dst]; · iexact Hs0_dst
      iexact Hs2_dst
    iintro %_ HI
    unfold invI0
    icases HI with ⟨⟨%g1, Hacc, %hA1⟩, Hi0, Hd0⟩
    rw [trips3] at hA1
    sl_exec
    have hCi1 := Views.idxChunk_ib1 (F := F) (2 * k.val + 1) (by omega) Oc fI1
    have hCd1 := Views.datChunk_db1 (F := F) L (2 * k.val + 1) (by omega) X fD1
    sl_for (invI1 (F := F) d L X Oc hin (2 * k.val + 1) _ _) $$ [Hacc Hs1_dst Hs3_dst]
    case region =>
      intro i _
      unfold invI1
      iintro ⟨⟨%g', Hacc, %hA'⟩, Hi, Hd⟩
      iapply (trip1 (F := F) d L i (hin := hin) (by omega : 2 * k.val + 1 < 128) g' _ _ hCi1 hCd1 hA') $$ [Hacc Hi Hd]
      isplitl [Hacc]; · iexact Hacc
      isplitl [Hi]; · iexact Hi
      iexact Hd
    · unfold invI1
      isplitl [Hacc]
      · iexists g1; isplitl [Hacc]; · iexact Hacc
        ipureintro; rw [show 32 * (2 * k.val + 1) + 0 = 32 * (2 * k.val) + 32 from by omega]; exact hA1
      isplitl [Hs1_dst]; · iexact Hs1_dst
      iexact Hs3_dst
    iintro %_ HI
    unfold invI1
    icases HI with ⟨⟨%g2, Hacc, %hA2⟩, Hi1, Hd1⟩
    rw [trips4] at hA2
    sl_exec
    sl_step
    have hk1 : k.val + 1 < 64 := by have := (cond1_iff k).mp hc1; omega
    iapply (hQ _)
    unfold invO
    rw [dif_pos hk1]
    unfold slotFly0 slotFly1
    isplitl []; · iexact Hmw
    iclear Hmw
    isplitl [Hacc]
    · iexists g2; isplitl [Hacc]; · iexact Hacc
      ipureintro; rw [show 64 * (k.val + 1) = 32 * (2 * k.val + 1) + 32 from by omega]; exact hA2
    ihave Hs0' : (iprop(∃ f, flyI0 (F := F) d L Oc qo ![0, 512 * (2 * (k.val + 1))] (Views.oct_inb _ (by omega)) f)) $$ [Hs0]
    · iexists _; istop; exact Entails.of_eq (flyI0_congr (F := F) d L Oc qo (off33 k) (k0_off33_inb k hc1) _ _)
    ihave Ho0' : (restI0 (F := F) d L Oc qo ![0, 512 * (2 * (k.val + 1))] (Views.oct_inb _ (by omega))) $$ [Ho0]
    · istop; exact Entails.of_eq (restI0_congr (F := F) d L Oc qo (off33 k) (k0_off33_inb k hc1) _)
    ihave Hs2' : (iprop(∃ f, flyD0 (F := F) d L X qx ![0, 2 * (L 1).val + (L 0).val, 512 * (2 * (k.val + 1))] (Views.dat_inb L _ (by omega)) f)) $$ [Hs2]
    · iexists _; istop; exact Entails.of_eq (flyD0_congr (F := F) d L X qx (off34 L k) (k0_off34_inb L k hc1) _ _)
    ihave Hx2' : (restD0 (F := F) d L X qx ![0, 2 * (L 1).val + (L 0).val, 512 * (2 * (k.val + 1))] (Views.dat_inb L _ (by omega))) $$ [Hx2]
    · istop; exact Entails.of_eq (restD0_congr (F := F) d L X qx (off34 L k) (k0_off34_inb L k hc1) _)
    ihave Hs1' : (iprop(∃ f, flyI1 (F := F) d L Oc qo ![0, 512 * (2 * (k.val + 1) + 1)] (Views.oct_inb _ (by omega)) f)) $$ [Hs1]
    · iexists _; istop; exact Entails.of_eq (flyI1_congr (F := F) d L Oc qo (off62 k) (k0_off62_inb k hc2) _ _)
    ihave Ho1' : (restI1 (F := F) d L Oc qo ![0, 512 * (2 * (k.val + 1) + 1)] (Views.oct_inb _ (by omega))) $$ [Ho1]
    · istop; exact Entails.of_eq (restI1_congr (F := F) d L Oc qo (off62 k) (k0_off62_inb k hc2) _)
    ihave Hs3' : (iprop(∃ f, flyD1 (F := F) d L X qx ![0, 2 * (L 1).val + (L 0).val, 512 * (2 * (k.val + 1) + 1)] (Views.dat_inb L _ (by omega)) f)) $$ [Hs3]
    · iexists _; istop; exact Entails.of_eq (flyD1_congr (F := F) d L X qx (off63 L k) (k0_off63_inb L k hc2) _ _)
    ihave Hx3' : (restD1 (F := F) d L X qx ![0, 2 * (L 1).val + (L 0).val, 512 * (2 * (k.val + 1) + 1)] (Views.dat_inb L _ (by omega))) $$ [Hx3]
    · istop; exact Entails.of_eq (restD1_congr (F := F) d L X qx (off63 L k) (k0_off63_inb L k hc2) _)
    isplitl [Hs0' Ho0' Hs2' Hx2' Hs1' Ho1' Hs3' Hx3']
    · isplitl [Hs0' Ho0' Hs2' Hx2']
      · isplitl [Hs0']; · iexact Hs0'
        isplitl [Ho0']; · iexact Ho0'
        isplitl [Hs2']; · iexact Hs2'
        iexact Hx2'
      · isplitl [Hs1']; · iexact Hs1'
        isplitl [Ho1']; · iexact Ho1'
        isplitl [Hs3']; · iexact Hs3'
        iexact Hx3'
    iexists _; isplitr
    rotate_left
    · iexact HO
    · ipureintro
      intro p hp
      simp only [Finset.mem_insert] at hp
      rcases hp with rfl | rfl | rfl | rfl | hp
      · exact .inr rfl
      · exact .inr rfl
      · exact .inr rfl
      · exact .inr rfl
      · exact hW' p hp

  · have hc2 : ¬ k0_cond2 k = 1#1 := fun h => hc1 ((cond1_iff k).mpr ((cond2_iff k).mp h))
    sl_exec
    have hCi0 := Views.idxChunk_ib0 (F := F) (2 * k.val) (by omega) Oc fI0
    have hCd0 := Views.datChunk_db0 (F := F) L (2 * k.val) (by omega) X fD0
    sl_for (invI0 (F := F) d L X Oc hin (2 * k.val) _ _) $$ [Hacc Hs0_dst Hs2_dst]
    case region =>
      intro i _
      unfold invI0
      iintro ⟨⟨%g', Hacc, %hA'⟩, Hi, Hd⟩
      iapply (trip0 (F := F) d L k i (hin := hin) (by omega : 2 * k.val < 128) g' _ _ hCi0 hCd0 hA') $$ [Hacc Hi Hd]
      isplitl [Hacc]; · iexact Hacc
      isplitl [Hi]; · iexact Hi
      iexact Hd
    · unfold invI0
      isplitl [Hacc]
      · iexists g; isplitl [Hacc]; · iexact Hacc
        ipureintro; rw [show 32 * (2 * k.val) + 0 = 64 * k.val from by omega]; exact hA
      isplitl [Hs0_dst]; · iexact Hs0_dst
      iexact Hs2_dst
    iintro %_ HI
    unfold invI0
    icases HI with ⟨⟨%g1, Hacc, %hA1⟩, Hi0, Hd0⟩
    rw [trips3] at hA1
    sl_exec
    have hCi1 := Views.idxChunk_ib1 (F := F) (2 * k.val + 1) (by omega) Oc fI1
    have hCd1 := Views.datChunk_db1 (F := F) L (2 * k.val + 1) (by omega) X fD1
    sl_for (invI1 (F := F) d L X Oc hin (2 * k.val + 1) _ _) $$ [Hacc Hs1_dst Hs3_dst]
    case region =>
      intro i _
      unfold invI1
      iintro ⟨⟨%g', Hacc, %hA'⟩, Hi, Hd⟩
      iapply (trip1 (F := F) d L i (hin := hin) (by omega : 2 * k.val + 1 < 128) g' _ _ hCi1 hCd1 hA') $$ [Hacc Hi Hd]
      isplitl [Hacc]; · iexact Hacc
      isplitl [Hi]; · iexact Hi
      iexact Hd
    · unfold invI1
      isplitl [Hacc]
      · iexists g1; isplitl [Hacc]; · iexact Hacc
        ipureintro; rw [show 32 * (2 * k.val + 1) + 0 = 32 * (2 * k.val) + 32 from by omega]; exact hA1
      isplitl [Hs1_dst]; · iexact Hs1_dst
      iexact Hs3_dst
    iintro %_ HI
    unfold invI1
    icases HI with ⟨⟨%g2, Hacc, %hA2⟩, Hi1, Hd1⟩
    rw [trips4] at hA2
    sl_exec
    sl_step
    have hk1 : ¬ k.val + 1 < 64 := by have := (cond1_iff k).not.mp hc1; omega
    iapply (hQ _)
    unfold invO
    rw [dif_neg hk1]
    unfold slotIdle0 slotIdle1
    isplitl []; · iexact Hmw
    isplitl [Hacc]
    · iexists g2; isplitl [Hacc]; · iexact Hacc
      ipureintro; rw [show 64 * (k.val + 1) = 32 * (2 * k.val + 1) + 32 from by omega]; exact hA2
    isplitl [Hi0 Ho0 Hs0 Hd0 Hx2 Hs2 Hi1 Ho1 Hs1 Hd1 Hx3 Hs3]
    · isplitl [Hi0 Ho0 Hs0 Hd0 Hx2 Hs2]
      · isplitl [Hi0]; · iexists _; iexact Hi0
        isplitl [Ho0]; · iexact Ho0
        isplitl [Hs0]; · iexact Hs0
        isplitl [Hd0]; · iexists _; iexact Hd0
        isplitl [Hx2]; · iexact Hx2
        iexact Hs2
      · isplitl [Hi1]; · iexists _; iexact Hi1
        isplitl [Ho1]; · iexact Ho1
        isplitl [Hs1]; · iexact Hs1
        isplitl [Hd1]; · iexists _; iexact Hd1
        isplitl [Hx3]; · iexact Hx3
        iexact Hs3
    iexists _; isplitr
    rotate_left
    · iexact HO
    · ipureintro
      intro p hp
      simp only [Finset.mem_insert] at hp
      rcases hp with rfl | rfl | rfl | rfl | hp
      · exact .inr rfl
      · exact .inr rfl
      · exact .inr rfl
      · exact .inr rfl
      · exact hW' p hp

theorem otrip (X : Buf (Elt F) (xLoc d)) (Oc : Buf (Elt F) (oLoc d)) (hin : ∀ j, (Oc j).toNat < 65536) (qx qo : PosShare TreeShare)
    (O : CellTallies nD τ sig (HIx 1)) (W : Waits sig (HIx 1)) (k : Fin k0_t2_loop.trips) :
    invO (F := F) d L X Oc hin qx qo O W k.val ⟨⟩
      ⊢ wp frame (wpE (defs₀ (F := F)) 𝒱₀ (V d (cV L) (jV L)) none) Set.univ
          (k0_t2_body L xW (Memref.isWhole_whole _) oW (Memref.isWhole_whole _) rW (Memref.isWhole_whole _)
            accW (Memref.isWhole_whole _) ib0W (Memref.isWhole_whole _) ib1W (Memref.isWhole_whole _)
            db0W (Memref.isWhole_whole _) db1W (Memref.isWhole_whole _) cc0_scratch5 cc0_scratch6 cc0_scratch7 cc0_scratch8 cc0_scoped0 k ())
          (fun r => invO (F := F) d L X Oc hin qx qo O W (k.val + 1) r) :=
  otripQ (F := F) d L X Oc hin qx qo O W k _ (fun _ => Entails.of_eq rfl)

end TileSec

end Cert.Kernel.Tile

end
-- ==== Proof.BodyK.lean ====
/-
  One vector subcore's task of the scatter-accumulate kernel, at a symbolic subcore: the subcore owns one channel.  It
  zeroes a 65536-entry accumulator, streams the table and its channel's data through two pairs of staging buffers
  (chunks of 512 columns, even chunks through the first pair, odd chunks through the second), adds every staged
  16-lane piece into the accumulator at the entries the staged table words name, and copies the accumulator out to its
  row of the result.  What the accumulator holds is carried through the loops as the relation `Acc`: after the pieces
  of the first q sixteen-column blocks and of the first kk slots of block q, exactly those pairs have been added.
-/
import proofs.«204569_g29265907155619_cont_9to1_682_25_alg».proof.Proof.CoreK

noncomputable section

namespace Cert.Kernel.Tile

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.ColSum

variable {F : FTy → Type}

local notation "𝕄" => MT nD τ sig (HIx 1) (Elt F) ℕ UU ℕ
local notation "xW" => (Memref.whole Cert.Kernel.main_v0_scv : Memref Cert.Kernel.sig Kind.scVector Space.hbm Cert.Kernel.S27x32x65536 EltTy.f32)
local notation "oW" => (Memref.whole Cert.Kernel.main_v1_scv : Memref Cert.Kernel.sig Kind.scVector Space.hbm Cert.Kernel.S27x65536 EltTy.i32)
local notation "rW" => (Memref.whole Cert.Kernel.main_v2_scv : Memref Cert.Kernel.sig Kind.scVector Space.hbm Cert.Kernel.S32x65536 EltTy.f32)
local notation "accW" => (Memref.whole Cert.Kernel.cc0_scratch0 : Memref Cert.Kernel.sig Kind.scVector Space.vmem Cert.Kernel.S65536 EltTy.f32)
local notation "ib0W" => (Memref.whole Cert.Kernel.cc0_scratch1 : Memref Cert.Kernel.sig Kind.scVector Space.vmem Cert.Kernel.S27x512 EltTy.i32)
local notation "ib1W" => (Memref.whole Cert.Kernel.cc0_scratch2 : Memref Cert.Kernel.sig Kind.scVector Space.vmem Cert.Kernel.S27x512 EltTy.i32)
local notation "db0W" => (Memref.whole Cert.Kernel.cc0_scratch3 : Memref Cert.Kernel.sig Kind.scVector Space.vmem Cert.Kernel.S27x512 EltTy.f32)
local notation "db1W" => (Memref.whole Cert.Kernel.cc0_scratch4 : Memref Cert.Kernel.sig Kind.scVector Space.vmem Cert.Kernel.S27x512 EltTy.f32)

variable [FloatOps F]

section TileSec
variable (d : Dev nD) (L : grid0.Coords)

/-! ### The subcore's row of the result, as the program slices it -/

/-- Row `chan L` of the result as the write-out slices it: one row at offset (2 (L 1) + L 0, 0), squeezed. -/
abbrev outRowK (L : grid0.Coords) : Memref sig .scVector .hbm S65536 .f32 :=
  ((rW).slice (Rect.unit (s := S32x65536) (k0_off64 L) S1x65536.size (k0_off64_inb L)) (fun _ => rfl)).squeeze S65536 squeezes_S1x65536_S65536

omit [FloatOps F] in
/-- The sliced rectangle is the `chan L`-th of the thirty-two equal parts along the first axis. -/
theorem outRect_eq : Rect.unit (s := S32x65536) (k0_off64 L) S1x65536.size (k0_off64_inb L) = row (chan L) := by
  unfold row Rect.part Rect.block
  congr 1 <;> funext a
  · rw [k0_off64_eq]
    match a with
    | 0 => simp [Shape.partIx, Shape.partSize, chan]
    | 1 => simp [Shape.partIx, Shape.partSize]
  · match a with
    | 0 => simp [Shape.partSize]
    | 1 => simp [Shape.partSize]

omit [FloatOps F] in
theorem set_outRowK : (outRowK L).view.set = rowSet (chan L) := by
  show (((rW).view.slice (Rect.unit (s := S32x65536) (k0_off64 L) S1x65536.size (k0_off64_inb L))).reshape S65536 squeezes_S1x65536_S65536.numel_eq).set
    = ((rW).view.slice (row (chan L))).set
  rw [View.set_reshape]
  exact outRect_eq L ▸ rfl

/-! ### A read share as four tokens and a remainder -/

omit [FloatOps F] in
/-- A points-to at share q is the remainder after four tokens and the four tokens. -/
theorem toks4 {ℓ : Loc nD τ sig} (f : Buf (Elt F) ℓ) (q : PosShare TreeShare) :
    (ℓ ↦{q} f : sProp 𝕄) ⊣⊢ iprop((ℓ ↦{Transfers.shareDrop q 4} f) ∗ (ℓ ↦{Transfers.shareTokN q 0} f) ∗ (ℓ ↦{Transfers.shareTokN q 1} f)
      ∗ (ℓ ↦{Transfers.shareTokN q 2} f) ∗ (ℓ ↦{Transfers.shareTokN q 3} f)) := by
  have h : (ℓ ↦{q} f : sProp 𝕄) ⊣⊢ iprop((ℓ ↦{Transfers.shareDrop q 4} f) ∗ bigSep (Finset.range 4) (fun i => ℓ ↦{Transfers.shareTokN q i} f)) :=
    Transfers.pointsTo_toks_range q 4
  rw [show Finset.range 4 = {0, 1, 2, 3} from by decide, SparseCore.bigSep_insert' (by decide), SparseCore.bigSep_insert' (by decide),
    SparseCore.bigSep_insert' (by decide), bigSep_singleton] at h
  exact h

/-! ### The subcore's scoped storage, opened -/

omit [FloatOps F] in
theorem ownSems0_V :
    (ownSems0 (V d (cV L) (jV L)) : sProp 𝕄)
      = iprop(semVal ((V d (cV L) (jV L), SemLoc.dma cc0_scratch5.sem) : GSem nD τ sig) 0 ∗ semVal ((V d (cV L) (jV L), SemLoc.dma cc0_scratch6.sem) : GSem nD τ sig) 0 ∗ semVal ((V d (cV L) (jV L), SemLoc.dma cc0_scratch7.sem) : GSem nD τ sig) 0 ∗ semVal ((V d (cV L) (jV L), SemLoc.dma cc0_scratch8.sem) : GSem nD τ sig) 0 ∗ semVal ((V d (cV L) (jV L), SemLoc.dma cc0_scoped0.sem) : GSem nD τ sig) 0
          ∗ bigSep ((((((ownCells (V d (cV L) (jV L))).erase ((V d (cV L) (jV L), SemLoc.dma cc0_scratch5.sem) : GSem nD τ sig)).erase ((V d (cV L) (jV L), SemLoc.dma cc0_scratch6.sem) : GSem nD τ sig)).erase ((V d (cV L) (jV L), SemLoc.dma cc0_scratch7.sem) : GSem nD τ sig)).erase ((V d (cV L) (jV L), SemLoc.dma cc0_scratch8.sem) : GSem nD τ sig)).erase ((V d (cV L) (jV L), SemLoc.dma cc0_scoped0.sem) : GSem nD τ sig)) fun g => semVal g 0) := by
  unfold SparseCore.Cfg.ownSems0
  rw [SparseCore.bigSep_erase' ((mem_ownCells (g := ((V d (cV L) (jV L), SemLoc.dma cc0_scratch5.sem) : GSem nD τ sig))).mpr ⟨rfl, by show (SemLoc.dma cc0_scratch5.sem : SemLoc sig).isScoped .scVector = true; decide⟩),
    SparseCore.bigSep_erase' (Finset.mem_erase.mpr ⟨fun e => absurd (congrArg Prod.snd e) (show (SemLoc.dma cc0_scratch6.sem : SemLoc sig) ≠ SemLoc.dma cc0_scratch5.sem by decide), (mem_ownCells (g := ((V d (cV L) (jV L), SemLoc.dma cc0_scratch6.sem) : GSem nD τ sig))).mpr ⟨rfl, by show (SemLoc.dma cc0_scratch6.sem : SemLoc sig).isScoped .scVector = true; decide⟩⟩),
    SparseCore.bigSep_erase' (Finset.mem_erase.mpr ⟨fun e => absurd (congrArg Prod.snd e) (show (SemLoc.dma cc0_scratch7.sem : SemLoc sig) ≠ SemLoc.dma cc0_scratch6.sem by decide), Finset.mem_erase.mpr ⟨fun e => absurd (congrArg Prod.snd e) (show (SemLoc.dma cc0_scratch7.sem : SemLoc sig) ≠ SemLoc.dma cc0_scratch5.sem by decide), (mem_ownCells (g := ((V d (cV L) (jV L), SemLoc.dma cc0_scratch7.sem) : GSem nD τ sig))).mpr ⟨rfl, by show (SemLoc.dma cc0_scratch7.sem : SemLoc sig).isScoped .scVector = true; decide⟩⟩⟩),
    SparseCore.bigSep_erase' (Finset.mem_erase.mpr ⟨fun e => absurd (congrArg Prod.snd e) (show (SemLoc.dma cc0_scratch8.sem : SemLoc sig) ≠ SemLoc.dma cc0_scratch7.sem by decide), Finset.mem_erase.mpr ⟨fun e => absurd (congrArg Prod.snd e) (show (SemLoc.dma cc0_scratch8.sem : SemLoc sig) ≠ SemLoc.dma cc0_scratch6.sem by decide), Finset.mem_erase.mpr ⟨fun e => absurd (congrArg Prod.snd e) (show (SemLoc.dma cc0_scratch8.sem : SemLoc sig) ≠ SemLoc.dma cc0_scratch5.sem by decide), (mem_ownCells (g := ((V d (cV L) (jV L), SemLoc.dma cc0_scratch8.sem) : GSem nD τ sig))).mpr ⟨rfl, by show (SemLoc.dma cc0_scratch8.sem : SemLoc sig).isScoped .scVector = true; decide⟩⟩⟩⟩),
    SparseCore.bigSep_erase' (Finset.mem_erase.mpr ⟨fun e => absurd (congrArg Prod.snd e) (show (SemLoc.dma cc0_scoped0.sem : SemLoc sig) ≠ SemLoc.dma cc0_scratch8.sem by decide), Finset.mem_erase.mpr ⟨fun e => absurd (congrArg Prod.snd e) (show (SemLoc.dma cc0_scoped0.sem : SemLoc sig) ≠ SemLoc.dma cc0_scratch7.sem by decide), Finset.mem_erase.mpr ⟨fun e => absurd (congrArg Prod.snd e) (show (SemLoc.dma cc0_scoped0.sem : SemLoc sig) ≠ SemLoc.dma cc0_scratch6.sem by decide), Finset.mem_erase.mpr ⟨fun e => absurd (congrArg Prod.snd e) (show (SemLoc.dma cc0_scoped0.sem : SemLoc sig) ≠ SemLoc.dma cc0_scratch5.sem by decide), (mem_ownCells (g := ((V d (cV L) (jV L), SemLoc.dma cc0_scoped0.sem) : GSem nD τ sig))).mpr ⟨rfl, by show (SemLoc.dma cc0_scoped0.sem : SemLoc sig).isScoped .scVector = true; decide⟩⟩⟩⟩⟩)]

omit [FloatOps F] in
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f) ∗ (∃ f, (V d (cV L) (jV L)).loc cc0_scratch3 ↦{fullShare} f) ∗ (∃ f, (V d (cV L) (jV L)).loc cc0_scratch4 ↦{fullShare} f)
          ∗ bigSep ((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4))
              fun b => iprop(∃ f, ((d, b) : Loc nD τ sig) ↦{fullShare} f)) := by
  unfold SparseCore.Cfg.ownBufs
  rw [SparseCore.bigSep_erase' (SparseCore.Cfg.mem_ownRefs_of_owner (p := Proc.scVector (cV L) (jV L)) (b := ((Proc.scVector (cV L) (jV L)).devRef cc0_scratch0)) rfl),
    SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := ((Proc.scVector (cV L) (jV L)).devRef cc0_scratch1)) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := ((Proc.scVector (cV L) (jV L)).devRef cc0_scratch2)) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := ((Proc.scVector (cV L) (jV L)).devRef cc0_scratch3)) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := ((Proc.scVector (cV L) (jV L)).devRef cc0_scratch4)) rfl⟩⟩⟩⟩)]

/-! ### The task's core, over explicit resources -/

theorem tile_core (hF : (K (F := F)).Facts) (X : Buf (Elt F) (xLoc d)) (Oc : Buf (Elt F) (oLoc d)) (hin : ∀ j, (Oc j).toNat < 65536)
    (qx qo : PosShare TreeShare) (O : CellTallies nD τ sig (HIx 1)) (W : Waits sig (HIx 1)) (hO : ∀ g, O g none = 0)
    (fa : Buf (Elt F) ((V d (cV L) (jV L)).loc cc0_scratch0)) (f1 : Buf (Elt F) ((V d (cV L) (jV L)).loc cc0_scratch1))
    (f2 : Buf (Elt F) ((V d (cV L) (jV L)).loc cc0_scratch2)) (f3 : Buf (Elt F) ((V d (cV L) (jV L)).loc cc0_scratch3))
    (f4 : Buf (Elt F) ((V d (cV L) (jV L)).loc cc0_scratch4)) (fr : Buf (Elt F) (rLoc d)) :
    (iprop(levAts (K (F := F)).L (K (F := F)).lev
        ∗ (xLoc d ↦{Transfers.shareTokN qx 2} X) ∗ (xLoc d ↦{Transfers.shareTokN qx 3} X)
        ∗ (oLoc d ↦{Transfers.shareTokN qo 0} Oc) ∗ (oLoc d ↦{Transfers.shareTokN qo 1} Oc)
        ∗ (rLoc d ↦[rowSet (chan L)]{fullShare} fr)
        ∗ ((V d (cV L) (jV L)).loc cc0_scratch0 ↦{fullShare} fa)
        ∗ ((V d (cV L) (jV L)).loc cc0_scratch1 ↦{fullShare} f1) ∗ ((V d (cV L) (jV L)).loc cc0_scratch2 ↦{fullShare} f2)
        ∗ ((V d (cV L) (jV L)).loc cc0_scratch3 ↦{fullShare} f3) ∗ ((V d (cV L) (jV L)).loc cc0_scratch4 ↦{fullShare} f4)
        ∗ semVal (V d (cV L) (jV L), SemLoc.dma cc0_scratch5.sem) 0 ∗ semVal (V d (cV L) (jV L), SemLoc.dma cc0_scratch6.sem) 0
        ∗ semVal (V d (cV L) (jV L), SemLoc.dma cc0_scratch7.sem) 0 ∗ semVal (V d (cV L) (jV L), SemLoc.dma cc0_scratch8.sem) 0
        ∗ semVal (V d (cV L) (jV L), SemLoc.dma cc0_scoped0.sem) 0
        ∗ owes (V d (cV L) (jV L)) O W) : sProp 𝕄)
      ⊢ wp frame (wpE (defs₀ (F := F)) 𝒱₀ (V d (cV L) (jV L)) none) Set.univ
          (cc0_k L xW (Memref.isWhole_whole _) oW (Memref.isWhole_whole _) rW (Memref.isWhole_whole _)
            accW (Memref.isWhole_whole _) ib0W (Memref.isWhole_whole _) ib1W (Memref.isWhole_whole _)
            db0W (Memref.isWhole_whole _) db1W (Memref.isWhole_whole _) cc0_scratch5 cc0_scratch6 cc0_scratch7 cc0_scratch8 cc0_scoped0)
          fun _ => iprop((xLoc d ↦{Transfers.shareTokN qx 2} X) ∗ (xLoc d ↦{Transfers.shareTokN qx 3} X)
            ∗ (oLoc d ↦{Transfers.shareTokN qo 0} Oc) ∗ (oLoc d ↦{Transfers.shareTokN qo 1} Oc)
            ∗ (∃ f, ⌜RowDone X Oc hin (chan L) f⌝ ∗ rLoc d ↦[rowSet (chan L)]{fullShare} f)
            ∗ (∃ f, (V d (cV L) (jV L)).loc cc0_scratch0 ↦{fullShare} f)
            ∗ (∃ f, (V d (cV L) (jV L)).loc cc0_scratch1 ↦{fullShare} f) ∗ (∃ f, (V d (cV L) (jV L)).loc cc0_scratch2 ↦{fullShare} f)
            ∗ (∃ f, (V d (cV L) (jV L)).loc cc0_scratch3 ↦{fullShare} f) ∗ (∃ f, (V d (cV L) (jV L)).loc cc0_scratch4 ↦{fullShare} f)
            ∗ semVal (V d (cV L) (jV L), SemLoc.dma cc0_scratch5.sem) 0 ∗ semVal (V d (cV L) (jV L), SemLoc.dma cc0_scratch6.sem) 0
            ∗ semVal (V d (cV L) (jV L), SemLoc.dma cc0_scratch7.sem) 0 ∗ semVal (V d (cV L) (jV L), SemLoc.dma cc0_scratch8.sem) 0
            ∗ semVal (V d (cV L) (jV L), SemLoc.dma cc0_scoped0.sem) 0
            ∗ ∃ W', ⌜∀ p ∈ W', p ∈ W ∨ p.2 = none⌝ ∗ owes (V d (cV L) (jV L)) O W') := by
  simp only [cc0_k_eq_skeleton]; unfold cc0_k_skel
  simp only [k0_part12_eq_skeleton]; unfold k0_part12_skel
  iintro ⟨#Hlv, Hx2, Hx3, Ho0, Ho1, Hr, Hacc, Hi0, Hi1, Hd0, Hd1, Hs0, Hs1, Hs2, Hs3, Hs4, HO⟩
  ihave Hmw := ((K (F := F)).mayWaits_none (thr := (V d (cV L) (jV L))) hO) $$ Hlv
  ihave Hx2' := (Entails.of_eq (show (_ : sProp 𝕄) = ((xW).view.loc (V d (cV L) (jV L)) ↦{Transfers.shareTokN qx 2} X) from rfl)) $$ Hx2
  ihave Hx3' := (Entails.of_eq (show (_ : sProp 𝕄) = ((xW).view.loc (V d (cV L) (jV L)) ↦{Transfers.shareTokN qx 3} X) from rfl)) $$ Hx3
  ihave Ho0' := (Entails.of_eq (show (_ : sProp 𝕄) = ((oW).view.loc (V d (cV L) (jV L)) ↦{Transfers.shareTokN qo 0} Oc) from rfl)) $$ Ho0
  ihave Ho1' := (Entails.of_eq (show (_ : sProp 𝕄) = ((oW).view.loc (V d (cV L) (jV L)) ↦{Transfers.shareTokN qo 1} Oc) from rfl)) $$ Ho1
  ihave Hr' := (Entails.of_eq (show (rLoc d ↦[rowSet (chan L)]{fullShare} fr : sProp 𝕄) = ((outRowK L).view.loc (V d (cV L) (jV L)) ↦[(outRowK L).view.set]{fullShare} fr) from by rw [set_outRowK])) $$ Hr
  ihave Hacc' := (Entails.of_eq (show (_ : sProp 𝕄) = ((accW).view.loc (V d (cV L) (jV L)) ↦{fullShare} fa) from rfl)) $$ Hacc
  ihave Hi0' := (Entails.of_eq (show (_ : sProp 𝕄) = ((ib0W).view.loc (V d (cV L) (jV L)) ↦{fullShare} f1) from rfl)) $$ Hi0
  ihave Hi1' := (Entails.of_eq (show (_ : sProp 𝕄) = ((ib1W).view.loc (V d (cV L) (jV L)) ↦{fullShare} f2) from rfl)) $$ Hi1
  ihave Hd0' := (Entails.of_eq (show (_ : sProp 𝕄) = ((db0W).view.loc (V d (cV L) (jV L)) ↦{fullShare} f3) from rfl)) $$ Hd0
  ihave Hd1' := (Entails.of_eq (show (_ : sProp 𝕄) = ((db1W).view.loc (V d (cV L) (jV L)) ↦{fullShare} f4) from rfl)) $$ Hd1
  sl_exec
  conv => { arg 2; pattern (Idealize.SL.Sem.wp _ _ _ _); arg 4; simp only [bind_assoc] }
  sl_for (invZ (F := F) d L) $$ [Hacc']
  case region =>
    intro k _
    unfold invZ
    iintro ⟨%g, Hacc, %hz⟩
    iapply (ztrip (F := F) d L k g hz) $$ Hacc
  · unfold invZ
    iexists fa
    isplitl [Hacc']
    · iexact Hacc'
    · ipureintro; intro j hj; omega
  iintro %_ HI
  unfold invZ
  icases HI with ⟨%g0, Hacc, %hz⟩
  rw [trips1] at hz
  have hg0 : g0 = zeroAcc (F := F) := Views.eq_zeroAcc_of_filled g0 hz
  sl_for (invO (F := F) d L X Oc hin qx qo O W) $$ [Hmw Hacc Hs0 Ho0' Hs2 Hx2' Hs1 Ho1' Hs3 Hx3' HO]
  case region =>
    intro k _
    exact otrip (F := F) d L X Oc hin qx qo O W k
  · unfold invO
    rw [dif_pos (by omega : 0 < 64)]
    unfold slotFly0 slotFly1
    isplitl []; · iexact Hmw
    iclear Hmw
    iclear Hlv
    isplitl [Hacc]
    · iexists g0; isplitl [Hacc]; · iexact Hacc
      ipureintro; rw [hg0]; exact AccInv.init
    isplitl [Hs0 Ho0' Hs2 Hx2' Hs1 Ho1' Hs3 Hx3']
    · isplitl [Hs0 Ho0' Hs2 Hx2']
      · isplitl [Hs0]
        · ihave H : (iprop(∃ f, flyI0 (F := F) d L Oc qo ![0, 512 * (2 * 0)] (Views.oct_inb _ (by omega)) f)) $$ [Hs0]
          · iexists _; istop; exact Entails.of_eq (flyI0_congr (F := F) d L Oc qo (show (![0, 0] : Fin 2 → Nat) = ![0, 512 * (2 * 0)] from rfl) inb_S27x65536_S27x512_0_0 _ _)
          iexact H
        isplitl [Ho0']
        · ihave H : (restI0 (F := F) d L Oc qo ![0, 512 * (2 * 0)] (Views.oct_inb _ (by omega))) $$ [Ho0']
          · istop; exact Entails.of_eq (restI0_congr (F := F) d L Oc qo (show (![0, 0] : Fin 2 → Nat) = ![0, 512 * (2 * 0)] from rfl) inb_S27x65536_S27x512_0_0 _)
          iexact H
        isplitl [Hs2]
        · ihave H : (iprop(∃ f, flyD0 (F := F) d L X qx ![0, 2 * (L 1).val + (L 0).val, 512 * (2 * 0)] (Views.dat_inb L _ (by omega)) f)) $$ [Hs2]
          · iexists _; istop; exact Entails.of_eq (flyD0_congr (F := F) d L X qx (k0_off1_eq L) (k0_off1_inb L) _ _)
          iexact H
        · ihave H : (restD0 (F := F) d L X qx ![0, 2 * (L 1).val + (L 0).val, 512 * (2 * 0)] (Views.dat_inb L _ (by omega))) $$ [Hx2']
          · istop; exact Entails.of_eq (restD0_congr (F := F) d L X qx (k0_off1_eq L) (k0_off1_inb L) _)
          iexact H
      · isplitl [Hs1]
        · ihave H : (iprop(∃ f, flyI1 (F := F) d L Oc qo ![0, 512 * (2 * 0 + 1)] (Views.oct_inb _ (by omega)) f)) $$ [Hs1]
          · iexists _; istop; exact Entails.of_eq (flyI1_congr (F := F) d L Oc qo (show (![0, 512] : Fin 2 → Nat) = ![0, 512 * (2 * 0 + 1)] from rfl) inb_S27x65536_S27x512_0_512 _ _)
          iexact H
        isplitl [Ho1']
        · ihave H : (restI1 (F := F) d L Oc qo ![0, 512 * (2 * 0 + 1)] (Views.oct_inb _ (by omega))) $$ [Ho1']
          · istop; exact Entails.of_eq (restI1_congr (F := F) d L Oc qo (show (![0, 512] : Fin 2 → Nat) = ![0, 512 * (2 * 0 + 1)] from rfl) inb_S27x65536_S27x512_0_512 _)
          iexact H
        isplitl [Hs3]
        · ihave H : (iprop(∃ f, flyD1 (F := F) d L X qx ![0, 2 * (L 1).val + (L 0).val, 512 * (2 * 0 + 1)] (Views.dat_inb L _ (by omega)) f)) $$ [Hs3]
          · iexists _; istop; exact Entails.of_eq (flyD1_congr (F := F) d L X qx (k0_off2_eq L) (k0_off2_inb L) _ _)
          iexact H
        · ihave H : (restD1 (F := F) d L X qx ![0, 2 * (L 1).val + (L 0).val, 512 * (2 * 0 + 1)] (Views.dat_inb L _ (by omega))) $$ [Hx3']
          · istop; exact Entails.of_eq (restD1_congr (F := F) d L X qx (k0_off2_eq L) (k0_off2_inb L) _)
          iexact H
    iexists W; isplitr
    · ipureintro; exact fun p hp => .inl hp
    · iexact HO
  iintro %_ HI
  unfold invO
  rw [dif_neg (by rw [trips2]; omega : ¬ Scf.trips k0_t2_loop.lb k0_t2_loop.ub k0_t2_loop.st < 64)]
  unfold slotIdle0 slotIdle1
  icases HI with ⟨-, ⟨%gF, Hacc, %hAF⟩, ⟨⟨⟨%a1, Hi0⟩, Ho0, Hs0, ⟨%a2, Hd0⟩, Hx2, Hs2⟩, ⟨⟨%a3, Hi1⟩, Ho1, Hs1, ⟨%a4, Hd1⟩, Hx3, Hs3⟩⟩, %W', %hW', HO⟩
  rw [trips2] at hAF
  sl_exec
  sl_step
  isplitl [Hx2]; · iexact Hx2
  isplitl [Hx3]; · iexact Hx3
  isplitl [Ho0]; · iexact Ho0
  isplitl [Ho1]; · iexact Ho1
  isplitl [Hr']
  · iexists _
    isplitr
    rotate_left
    · iapply (Entails.of_eq (show ((outRowK L).view.loc (V d (cV L) (jV L)) ↦[(outRowK L).view.set]{fullShare} _ : sProp 𝕄) = (rLoc d ↦[rowSet (chan L)]{fullShare} _) from by rw [set_outRowK])) $$ Hr'
    · ipureintro
      exact ⟨gF, AccInv.full (show AccInv _ _ _ 4096 0 gF from hAF), fun n => Views.outRowK_writes L fr gF n⟩
  isplitl [Hacc]; · iexists _; iexact Hacc
  isplitl [Hi0]; · iexists _; iexact Hi0
  isplitl [Hi1]; · iexists _; iexact Hi1
  isplitl [Hd0]; · iexists _; iexact Hd0
  isplitl [Hd1]; · iexists _; iexact Hd1
  isplitl [Hs0]; · iexact Hs0
  isplitl [Hs1]; · iexact Hs1
  isplitl [Hs2]; · iexact Hs2
  isplitl [Hs3]; · iexact Hs3
  isplitl [Hs4]; · iexact Hs4
  iexists _; isplitr
  rotate_left
  · iexact HO
  · ipureintro
    intro p hp
    rcases Finset.mem_insert.mp hp with rfl | hp
    · exact .inr rfl
    · exact hW' p hp

/-- The task on the vector subcore at L: from read shares of the two arrays and its row of the result, to the same
    shares and the row at the finished accumulator. -/
theorem tile_body (hF : (K (F := F)).Facts) (X : Buf (Elt F) (xLoc d)) (Oc : Buf (Elt F) (oLoc d)) (hin : ∀ j, (Oc j).toNat < 65536)
    (qx qo : PosShare TreeShare) (O : CellTallies nD τ sig (HIx 1)) (W : Waits sig (HIx 1)) (hO : ∀ g, O g none = 0) :
    (iprop(levAts (K (F := F)).L (K (F := F)).lev ∗ emp
        ∗ ((xLoc d ↦{qx} X) ∗ (oLoc d ↦{qo} Oc) ∗ ∃ f, rLoc d ↦[rowSet (chan L)]{fullShare} f)
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0_k L xW (Memref.isWhole_whole _) oW (Memref.isWhole_whole _) rW (Memref.isWhole_whole _)
            accW (Memref.isWhole_whole _) ib0W (Memref.isWhole_whole _) ib1W (Memref.isWhole_whole _)
            db0W (Memref.isWhole_whole _) db1W (Memref.isWhole_whole _) cc0_scratch5 cc0_scratch6 cc0_scratch7 cc0_scratch8 cc0_scoped0)
          fun _ => iprop(((xLoc d ↦{qx} X) ∗ (oLoc d ↦{qo} Oc) ∗ ∃ f, ⌜RowDone X Oc hin (chan L) f⌝ ∗ rLoc d ↦[rowSet (chan L)]{fullShare} f)
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems0_V, ownBufs_V]
  iintro ⟨#Hlv, -, ⟨Hx, Ho, %fr, Hr⟩, ⟨⟨%fa, Ha⟩, ⟨%f1, H1⟩, ⟨%f2, H2⟩, ⟨%f3, H3⟩, ⟨%f4, H4⟩, Hbufs⟩, ⟨Hs5, Hs6, Hs7, Hs8, Hs0, Hsems⟩, HO⟩
  -- each read share: four tokens and a remainder; the core takes two tokens of each array
  ihave Hx' := (toks4 X qx).1 $$ Hx
  icases Hx' with ⟨HxR, Hx0, Hx1, Hx2, Hx3⟩
  ihave Ho' := (toks4 Oc qo).1 $$ Ho
  icases Ho' with ⟨HoR, Ho0, Ho1, Ho2, Ho3⟩
  iapply (wp_wand_r frame _ Set.univ)
  isplitl [Hx2 Hx3 Ho0 Ho1 Hr Ha H1 H2 H3 H4 Hs5 Hs6 Hs7 Hs8 Hs0 HO]
  · iapply (tile_core d L hF X Oc hin qx qo O W hO fa f1 f2 f3 f4 fr)
    isplitr; · iexact Hlv
    isplitl [Hx2]; · iexact Hx2
    isplitl [Hx3]; · iexact Hx3
    isplitl [Ho0]; · iexact Ho0
    isplitl [Ho1]; · iexact Ho1
    isplitl [Hr]; · iexact Hr
    isplitl [Ha]; · iexact Ha
    isplitl [H1]; · iexact H1
    isplitl [H2]; · iexact H2
    isplitl [H3]; · iexact H3
    isplitl [H4]; · iexact H4
    isplitl [Hs5]; · iexact Hs5
    isplitl [Hs6]; · iexact Hs6
    isplitl [Hs7]; · iexact Hs7
    isplitl [Hs8]; · iexact Hs8
    isplitl [Hs0]; · iexact Hs0
    iexact HO
  · iintro %_ ⟨Hx2, Hx3, Ho0, Ho1, Hrow, Ha, H1, H2, H3, H4, Hs5, Hs6, Hs7, Hs8, Hs0, HO⟩
    -- the shares joined back, the scoped storage folded back
    ihave Hx := (toks4 X qx).2 $$ [HxR Hx0 Hx1 Hx2 Hx3]
    · isplitl [HxR]; · iexact HxR
      isplitl [Hx0]; · iexact Hx0
      isplitl [Hx1]; · iexact Hx1
      isplitl [Hx2]; · iexact Hx2
      iexact Hx3
    ihave Ho := (toks4 Oc qo).2 $$ [HoR Ho0 Ho1 Ho2 Ho3]
    · isplitl [HoR]; · iexact HoR
      isplitl [Ho0]; · iexact Ho0
      isplitl [Ho1]; · iexact Ho1
      isplitl [Ho2]; · iexact Ho2
      iexact Ho3
    isplitl [Hx Ho Hrow]
    · isplitl [Hx]; · iexact Hx
      isplitl [Ho]; · iexact Ho
      iexact Hrow
    isplitl [Ha H1 H2 H3 H4 Hbufs]
    · isplitl [Ha]; · iexact Ha
      isplitl [H1]; · iexact H1
      isplitl [H2]; · iexact H2
      isplitl [H3]; · iexact H3
      isplitl [H4]; · iexact H4
      iexact Hbufs
    isplitl [Hs5 Hs6 Hs7 Hs8 Hs0 Hsems]
    · isplitl [Hs5]; · iexact Hs5
      isplitl [Hs6]; · iexact Hs6
      isplitl [Hs7]; · iexact Hs7
      isplitl [Hs8]; · iexact Hs8
      isplitl [Hs0]; · iexact Hs0
      iexact Hsems
    iexact HO

end TileSec

end Cert.Kernel.Tile

end
-- ==== Proof.LaunchK.lean ====
/-
  The launch of the scatter-accumulate kernel: @main on the TensorCore swaps the first two axes of the data and
  transposes the table, then starts the one vector-subcore kernel on two SparseCores of sixteen subcores each and waits
  for it. Subcore s of core c owns channel 2 s + c: it reads both transposed arrays whole, under a read share of each,
  and writes row 2 s + c of the result. The thirty-two read shares are split off each array's full share on the
  TensorCore, which keeps the remainder; the thirty-two rows are cut out of the whole result and joined back after the
  call, each at the finished accumulator of its channel.
-/
import proofs.«204569_g29265907155619_cont_9to1_682_25_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«204569_g29265907155619_cont_9to1_682_25_alg».proof.Proof.Gen.Kernel
import proofs.«204569_g29265907155619_cont_9to1_682_25_alg».proof.Proof.Gen.Kernel.Skeleton
import proofs.«204569_g29265907155619_cont_9to1_682_25_alg».proof.Proof.ColSum
import proofs.«204569_g29265907155619_cont_9to1_682_25_alg».proof.Proof.BodyK
import proofs.«204569_g29265907155619_cont_9to1_682_25_alg».proof.Proof.LaunchRows

noncomputable section

namespace Cert.Kernel.Launch

open Cert.Kernel Cert.Kernel.Gen Cert.Kernel.Tile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Cert.ColSum Cert.LaunchRows

variable {F : FTy → Type}

local notation "𝕄" => MT nD τ sig (HIx 1) (Elt F) ℕ UU ℕ

/-! ## The arrays -/

local notation "xW" => (Memref.whole Cert.Kernel.main_v0_scv : Memref Cert.Kernel.sig Kind.scVector Space.hbm Cert.Kernel.S27x32x65536 EltTy.f32)
local notation "oW" => (Memref.whole Cert.Kernel.main_v1_scv : Memref Cert.Kernel.sig Kind.scVector Space.hbm Cert.Kernel.S27x65536 EltTy.i32)
local notation "rW" => (Memref.whole Cert.Kernel.main_v2_scv : Memref Cert.Kernel.sig Kind.scVector Space.hbm Cert.Kernel.S32x65536 EltTy.f32)
local notation "accW" => (Memref.whole Cert.Kernel.cc0_scratch0 : Memref Cert.Kernel.sig Kind.scVector Space.vmem Cert.Kernel.S65536 EltTy.f32)
local notation "ib0W" => (Memref.whole Cert.Kernel.cc0_scratch1 : Memref Cert.Kernel.sig Kind.scVector Space.vmem Cert.Kernel.S27x512 EltTy.i32)
local notation "ib1W" => (Memref.whole Cert.Kernel.cc0_scratch2 : Memref Cert.Kernel.sig Kind.scVector Space.vmem Cert.Kernel.S27x512 EltTy.i32)
local notation "db0W" => (Memref.whole Cert.Kernel.cc0_scratch3 : Memref Cert.Kernel.sig Kind.scVector Space.vmem Cert.Kernel.S27x512 EltTy.f32)
local notation "db1W" => (Memref.whole Cert.Kernel.cc0_scratch4 : Memref Cert.Kernel.sig Kind.scVector Space.vmem Cert.Kernel.S27x512 EltTy.f32)

variable (m : (ℓ : Loc nD τ sig) → Buf (Elt F) ℓ) (ρ : Dev nD → PrngReg)

/-- The two arguments, as locations of device `d`. -/
abbrev a0Loc (d : Dev nD) : Loc nD τ sig := (SparseCore.T d).loc main_arg0
abbrev a1Loc (d : Dev nD) : Loc nD τ sig := (SparseCore.T d).loc main_arg1

variable [FloatOps F]

/-- The data with its first two axes swapped: what @main's first operation leaves in its result. -/
def X (d : Dev nD) : Buf (Elt F) (xLoc d) :=
  transpose S27x32x65536 [1, 0, 2] (m (a0Loc d)) transposes_S32x27x65536_S27x32x65536_1_0_2
/-- The table transposed: what @main's second operation leaves in its result. -/
def Oc (d : Dev nD) : Buf (Elt F) (oLoc d) :=
  transpose S27x65536 [1, 0] (m (a1Loc d)) transposes_S65536x27_S27x65536_1_0

-- every word of the transposed table names a node
variable (hin : ∀ (d : Dev nD) (j : S27x65536.Idx), ((Oc m d : IVec S27x65536 32) j).toNat < 65536)

/-! ## What the handshakes carry -/

/-- The read share of channel `ch`: the `ch`-th of thirty-two tokens split off the full share. -/
abbrev tok (ch : Fin 32) : PosShare TreeShare := Transfers.shareTok fullShare 32 ch

/-- What the task of channel `ch` starts from: a read share of each transposed array and its row of the result. -/
def goAt (d : Dev nD) (ch : Fin 32) : sProp 𝕄 :=
  iprop((xLoc d ↦{tok ch} X m d) ∗ (oLoc d ↦{tok ch} Oc m d) ∗ ∃ f, rLoc d ↦[rowSet ch]{fullShare} f)
/-- What it ends with: the same shares, and its row at the finished accumulator of its channel. -/
def tdAt (d : Dev nD) (ch : Fin 32) : sProp 𝕄 :=
  iprop((xLoc d ↦{tok ch} X m d) ∗ (oLoc d ↦{tok ch} Oc m d)
    ∗ ∃ f, ⌜RowDone (X m d) (Oc m d) (hin d) ch f⌝ ∗ rLoc d ↦[rowSet ch]{fullShare} f)

instance goAt_storable (d : Dev nD) (ch : Fin 32) : BI.Storable (upEmb : UEmb _ 𝕄) (goAt m d ch) := by
  unfold goAt; infer_instance
instance tdAt_storable (d : Dev nD) (ch : Fin 32) : BI.Storable (upEmb : UEmb _ 𝕄) (tdAt m hin d ch) := by
  unfold tdAt; infer_instance

/-- The one call hands each core the starts of its sixteen tasks and takes back their ends; a task's channel is twice
    its subcore number plus its core number. -/
def P : (K (F := F)).Pay (nD := nD) (Val := Elt F) (Name := ℕ) (U := UU) where
  st := fun q d c => match q with
    | 0 => bigSep Finset.univ fun i : Fin ((K (F := F)).nSub 0) => goAt m d (chanOf (Fin.cast nCore_zero c) (Fin.cast nSub_zero i))
  dn := fun q d c => match q with
    | 0 => bigSep Finset.univ fun i : Fin ((K (F := F)).nSub 0) => tdAt m hin d (chanOf (Fin.cast nCore_zero c) (Fin.cast nSub_zero i))
  go := fun q d c i => match q with
    | 0 => goAt m d (chanOf (Fin.cast nCore_zero c) (Fin.cast nSub_zero i))
  td := fun q d c i => match q with
    | 0 => tdAt m hin d (chanOf (Fin.cast nCore_zero c) (Fin.cast nSub_zero i))
  x := fun _ _ => iprop(emp)

instance P_storable : (P (F := F) m hin).IsStorable where
  st q d c := match q with
    | 0 => (inferInstance : BI.Storable (upEmb : UEmb _ 𝕄)
        (bigSep Finset.univ fun i : Fin ((K (F := F)).nSub 0) => goAt m d (chanOf (Fin.cast nCore_zero c) (Fin.cast nSub_zero i))))
  dn q d c := match q with
    | 0 => (inferInstance : BI.Storable (upEmb : UEmb _ 𝕄)
        (bigSep Finset.univ fun i : Fin ((K (F := F)).nSub 0) => tdAt m hin d (chanOf (Fin.cast nCore_zero c) (Fin.cast nSub_zero i))))
  go q d c i := match q with
    | 0 => (inferInstance : BI.Storable (upEmb : UEmb _ 𝕄) (goAt m d (chanOf (Fin.cast nCore_zero c) (Fin.cast nSub_zero i))))
  td q d c i := match q with
    | 0 => (inferInstance : BI.Storable (upEmb : UEmb _ 𝕄) (tdAt m hin d (chanOf (Fin.cast nCore_zero c) (Fin.cast nSub_zero i))))

/-! ## The task -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k (coordsV c s)
          xW (Memref.isWhole_whole _) oW (Memref.isWhole_whole _) rW (Memref.isWhole_whole _)
          accW (Memref.isWhole_whole _) ib0W (Memref.isWhole_whole _) ib1W (Memref.isWhole_whole _)
          db0W (Memref.isWhole_whole _) db1W (Memref.isWhole_whole _) cc0_scratch5 cc0_scratch6 cc0_scratch7 cc0_scratch8 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The channel the body computes from a task's grid coordinates is the one the handshakes name. -/
theorem chan_coordsV (c : Fin ((K (F := F)).nCore 0)) (i : Fin ((K (F := F)).nSub 0))
    (h0 : ((K (F := F)).core 0 c).val < grid0.bound 0) (h1 : ((K (F := F)).sub 0 i).val < grid0.bound 1) :
    chan (coordsV ⟨_, h0⟩ ⟨_, h1⟩) = chanOf (Fin.cast nCore_zero c) (Fin.cast nSub_zero i) := rfl

theorem tileObl (hF : (K (F := F)).Facts) : (K (F := F)).TileObl (D (F := F)) 𝒱 (P m hin) v₀ 0 := by
  intro d c i O W hO _ _
  -- this kernel owes nothing for a protocol of its own
  simp only [show (P m hin).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  show iprop(_ ∗ emp ∗ goAt m d (chanOf (Fin.cast nCore_zero c) (Fin.cast nSub_zero i)) ∗ _) ⊢ wp _ _ _ _
    (fun _ => iprop(tdAt m hin d (chanOf (Fin.cast nCore_zero c) (Fin.cast nSub_zero i)) ∗ _))
  rw [← chan_coordsV c i hc.1 hc.2]
  unfold goAt tdAt
  exact (tile_body d (coordsV ⟨_, hc.1⟩ ⟨_, hc.2⟩) hF (X m d) (Oc m d) (hin d) _ _ O W hO).trans (wp_mono frame _ _ fun _ => obl_post)

theorem vecSplit : (K (F := F)).VecSplit' (P m hin) 0 := by
  intro d c
  show (bigSep Finset.univ fun i : Fin ((K (F := F)).nSub 0) => goAt m d (chanOf (Fin.cast nCore_zero c) (Fin.cast nSub_zero i)))
    ⊢ |={Set.univ}=> iprop(
      (bigSep Finset.univ fun i : Fin ((K (F := F)).nSub 0) => goAt m d (chanOf (Fin.cast nCore_zero c) (Fin.cast nSub_zero i)))
      ∗ ((bigSep Finset.univ fun i : Fin ((K (F := F)).nSub 0) => tdAt m hin d (chanOf (Fin.cast nCore_zero c) (Fin.cast nSub_zero i)))
          -∗ bigSep Finset.univ fun i : Fin ((K (F := F)).nSub 0) => tdAt m hin d (chanOf (Fin.cast nCore_zero c) (Fin.cast nSub_zero i))))
  iintro H; imodintro
  isplitl [H]; · iexact H
  iintro H; iexact H

/-! ## The launch element: the handshakes' rounds; the counters dropped -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m hin).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The rows of the result -/

omit [FloatOps F] in
theorem rowSet_eq (c : Fin 32) : rowSet c = (row c).set := by
  show ((View.whole (main_v2_scv : Ref sig .scVector)).slice (row c)).set = _
  rw [View.set_slice]; exact Finset.map_refl
omit [FloatOps F] in
theorem rows_disjoint : ∀ i ∈ (Finset.univ : Finset (Fin 32)), ∀ j ∈ (Finset.univ : Finset (Fin 32)), i ≠ j → Disjoint (rowSet i) (rowSet j) :=
  fun i _ j _ h => by rw [rowSet_eq, rowSet_eq]; exact Rect.part_disjoint hdiv32 h
omit [FloatOps F] in
theorem rows_cover : (Finset.univ : Finset (Fin 32)).biUnion rowSet = Finset.univ :=
  (Finset.biUnion_congr rfl fun i _ => rowSet_eq i).trans (Rect.biUnion_part hdiv32)

omit [FloatOps F] in
/-- The whole result is its thirty-two rows. -/
theorem rPts_rows (d : Dev nD) (f : Buf (Elt F) (rLoc d)) :
    (rLoc d ↦{fullShare} f : sProp 𝕄) = bigSep Finset.univ fun ch : Fin 32 => rLoc d ↦[rowSet ch]{fullShare} f := by
  rw [← pointsTo_biUnion Finset.univ (ℓ := rLoc d) rowSet rows_disjoint, rows_cover]; try rfl

omit [FloatOps F] in
theorem rows_ex (d : Dev nD) (f : Buf (Elt F) (rLoc d)) :
    (bigSep Finset.univ fun ch : Fin 32 => (rLoc d ↦[rowSet ch]{fullShare} f : sProp 𝕄))
      ⊢ bigSep Finset.univ fun ch : Fin 32 => (iprop(∃ f, rLoc d ↦[rowSet ch]{fullShare} f) : sProp 𝕄) := by
  have h : ∀ ch : Fin 32, (rLoc d ↦[rowSet ch]{fullShare} f : sProp 𝕄) ⊢ iprop(∃ f, rLoc d ↦[rowSet ch]{fullShare} f) :=
    fun ch => by iintro H; iexists f; iexact H
  exact bigSep_mono fun ch _ => h ch

omit [FloatOps F] in
/-- Entry (c, n) of the result lies in row c. -/
theorem mem_rowSet (c : Fin 32) (n : Fin 65536) : (ValueIdx.ix2 c n : S32x65536.Idx) ∈ rowSet c := by
  rw [rowSet_eq]
  refine Rect.mem_set_unit.mpr fun a => ?_
  match a with
  | 0 =>
    show c.val * 1 ≤ c.val ∧ c.val < c.val * 1 + 1
    omega
  | 1 =>
    show 0 * 65536 ≤ n.val ∧ n.val < 0 * 65536 + 65536
    have := n.isLt
    omega

/-- A row's finished state depends on the result only through that row. -/
theorem RowDone_of_agree {d : Dev nD} {ch : Fin 32} {f g : Buf (Elt F) (rLoc d)}
    (h : RowDone (X m d) (Oc m d) (hin d) ch f) (hg : ∀ i ∈ rowSet ch, g i = f i) : RowDone (X m d) (Oc m d) (hin d) ch g := by
  obtain ⟨acc, hacc, hf⟩ := h
  exact ⟨acc, hacc, fun n => (hg _ (mem_rowSet ch n)).trans (hf n)⟩

/-- The rows, each finished, join into the whole result, every row of it finished. -/
theorem rows_join (d : Dev nD) :
    (bigSep Finset.univ fun ch : Fin 32 => (iprop(∃ f, ⌜RowDone (X m d) (Oc m d) (hin d) ch f⌝ ∗ rLoc d ↦[rowSet ch]{fullShare} f) : sProp 𝕄))
      ⊢ (iprop(∃ f, ⌜∀ ch : Fin 32, RowDone (X m d) (Oc m d) (hin d) ch f⌝ ∗ rLoc d ↦{fullShare} f) : sProp 𝕄) := by
  refine (bigSep_exists_pi Finset.univ (fun (ch : Fin 32) (f : Buf (Elt F) (rLoc d)) =>
    (iprop(⌜RowDone (X m d) (Oc m d) (hin d) ch f⌝ ∗ rLoc d ↦[rowSet ch]{fullShare} f) : sProp 𝕄))).trans ?_
  iintro ⟨%fs, H⟩
  ihave H' := (bigSep_pure_sep Finset.univ (fun ch : Fin 32 => RowDone (X m d) (Oc m d) (hin d) ch (fs ch))
    (fun ch : Fin 32 => (rLoc d ↦[rowSet ch]{fullShare} fs ch : sProp 𝕄))) $$ H
  icases H' with ⟨%hfs, H⟩
  ihave H'' := (pointsTo_biUnion_join Finset.univ rowSet fs (fs 0) rows_disjoint) $$ H
  icases H'' with ⟨%g, %hg, Hg⟩
  rw [rows_cover]
  iexists g; isplitr
  · ipureintro
    exact fun ch => RowDone_of_agree m hin (hfs ch (Finset.mem_univ ch)) (hg ch (Finset.mem_univ ch))
  · iexact Hg

/-! ## @main on the TensorCore -/

abbrev a0' : DevRef τ sig := Proc.devRef .tc (main_arg0 : Ref sig .tc)
abbrev a1' : DevRef τ sig := Proc.devRef .tc (main_arg1 : Ref sig .tc)
abbrev x' : DevRef τ sig := Proc.devRef .tc (main_v0 : Ref sig .tc)
abbrev o' : DevRef τ sig := Proc.devRef .tc (main_v1 : Ref sig .tc)
abbrev r' : DevRef τ sig := Proc.devRef .tc (main_v2 : Ref sig .tc)

/-- The TensorCore's arrays, all unscoped: the two arguments, the two transposed arrays, the result. -/
abbrev S5 : Finset (DevRef τ sig) := {a0', a1', x', o', r'}

abbrev op0 : HloOp τ sig (Elt F) :=
  StableHlo.unary main_arg0 main_v0 ((transpose S27x32x65536 [1, 0, 2] · transposes_S32x27x65536_S27x32x65536_1_0_2) : (⟨S32x27x65536, .f32⟩ : BufTy).Contents (Elt F) → (⟨S27x32x65536, .f32⟩ : BufTy).Contents (Elt F))
abbrev op1 : HloOp τ sig (Elt F) :=
  StableHlo.unary main_arg1 main_v1 ((transpose S27x65536 [1, 0] · transposes_S65536x27_S27x65536_1_0) : (⟨S65536x27, .i32⟩ : BufTy).Contents (Elt F) → (⟨S27x65536, .i32⟩ : BufTy).Contents (Elt F))

theorem hOp0 : (op0 (F := F)).bufs ⊆ S5 := show ({a0', x'} : Finset (DevRef τ sig)) ⊆ S5 by decide
theorem hOp1 : (op1 (F := F)).bufs ⊆ S5 := show ({a1', o'} : Finset (DevRef τ sig)) ⊆ S5 by decide

omit [FloatOps F] in
theorem held_S5 (d : Dev nD) (W : Valuation τ sig (Elt F)) :
    (held (T d) S5 W : sProp 𝕄) = iprop((a0Loc d ↦{fullShare} W a0') ∗ (a1Loc d ↦{fullShare} W a1') ∗ (xLoc d ↦{fullShare} W x')
      ∗ (oLoc d ↦{fullShare} W o') ∗ rLoc d ↦{fullShare} W r') := by
  unfold held S5
  rw [SparseCore.bigSep_insert' (by decide), SparseCore.bigSep_insert' (by decide), SparseCore.bigSep_insert' (by decide),
    SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1) ∗ (xLoc d ↦{fullShare} W main_v0)
      ∗ (oLoc d ↦{fullShare} W main_v1) ∗ rLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-- The launch valuation, and the one after the two transposes. -/
def V0 (d : Dev nD) : Valuation τ sig (Elt F) := fun b => m (d, b)
abbrev V2 (d : Dev nD) : Valuation τ sig (Elt F) := (op1 (F := F)).result ((op0 (F := F)).result (V0 m d))

theorem unscoped_held (d : Dev nD) : (unscopedBufs d (fun b => m ((SparseCore.T d).loc b)) : sProp 𝕄) = held (T d) S5 (V0 m d) := by
  rw [unscopedBufs_eq, held_S5]; rfl

theorem V2_a0 (d : Dev nD) : V2 m d a0' = m (a0Loc d) := by
  show (op1 (F := F)).result _ (Proc.devRef .tc main_arg0) = _
  rw [StableHlo.unary_result_ne (h := show (main_arg0 : Ref sig .tc) ≠ main_v1 by decide),
    StableHlo.unary_result_ne (h := show (main_arg0 : Ref sig .tc) ≠ main_v0 by decide)]
  rfl
theorem V2_a1 (d : Dev nD) : V2 m d a1' = m (a1Loc d) := by
  show (op1 (F := F)).result _ (Proc.devRef .tc main_arg1) = _
  rw [StableHlo.unary_result_ne (h := show (main_arg1 : Ref sig .tc) ≠ main_v1 by decide),
    StableHlo.unary_result_ne (h := show (main_arg1 : Ref sig .tc) ≠ main_v0 by decide)]
  rfl
theorem V2_x (d : Dev nD) : V2 m d x' = X m d := by
  show (op1 (F := F)).result _ (Proc.devRef .tc main_v0) = _
  rw [StableHlo.unary_result_ne (h := show (main_v0 : Ref sig .tc) ≠ main_v1 by decide), StableHlo.unary_result]
  rfl
theorem V2_o (d : Dev nD) : V2 m d o' = Oc m d := by
  show (op1 (F := F)).result _ (Proc.devRef .tc main_v1) = _
  rw [StableHlo.unary_result, StableHlo.unary_result_ne (h := show (main_arg1 : Ref sig .tc) ≠ main_v0 by decide)]
  rfl
theorem V2_r (d : Dev nD) : V2 m d r' = m (rLoc d) := by
  show (op1 (F := F)).result _ (Proc.devRef .tc main_v2) = _
  rw [StableHlo.unary_result_ne (h := show (main_v2 : Ref sig .tc) ≠ main_v1 by decide),
    StableHlo.unary_result_ne (h := show (main_v2 : Ref sig .tc) ≠ main_v0 by decide)]
  rfl

theorem held_V2 (d : Dev nD) :
    (held (T d) S5 (V2 m d) : sProp 𝕄) = iprop((a0Loc d ↦{fullShare} m (a0Loc d)) ∗ (a1Loc d ↦{fullShare} m (a1Loc d)) ∗ (xLoc d ↦{fullShare} X m d)
      ∗ (oLoc d ↦{fullShare} Oc m d) ∗ rLoc d ↦{fullShare} m (rLoc d)) := by
  rw [held_S5, V2_a0, V2_a1, V2_x, V2_o, V2_r]

/-- What the call takes for the two SparseCores, and what it hands back: one start, one end per channel. -/
theorem st0_eq (d : Dev nD) :
    (bigSep Finset.univ fun c : Fin ((K (F := F)).nCore 0) => (P m hin).st 0 d c) = bigSep Finset.univ fun ch : Fin 32 => goAt m d ch := by
  refine Eq.trans ?_ (bigSep_chan (fun ch : Fin 32 => goAt m d ch)).symm
  rfl
theorem dn0_eq (d : Dev nD) :
    (bigSep Finset.univ fun c : Fin ((K (F := F)).nCore 0) => (P m hin).dn 0 d c) = bigSep Finset.univ fun ch : Fin 32 => tdAt m hin d ch := by
  refine Eq.trans ?_ (bigSep_chan (fun ch : Fin 32 => tdAt m hin d ch)).symm
  rfl

theorem goAt_split (d : Dev nD) :
    (bigSep Finset.univ fun ch : Fin 32 => goAt m d ch)
      = iprop((bigSep Finset.univ fun ch : Fin 32 => xLoc d ↦{tok ch} X m d) ∗ (bigSep Finset.univ fun ch : Fin 32 => oLoc d ↦{tok ch} Oc m d)
          ∗ bigSep Finset.univ fun ch : Fin 32 => iprop(∃ f, rLoc d ↦[rowSet ch]{fullShare} f)) := by
  unfold goAt; rw [bigSep_sep', bigSep_sep']
theorem tdAt_split (d : Dev nD) :
    (bigSep Finset.univ fun ch : Fin 32 => tdAt m hin d ch)
      = iprop((bigSep Finset.univ fun ch : Fin 32 => xLoc d ↦{tok ch} X m d) ∗ (bigSep Finset.univ fun ch : Fin 32 => oLoc d ↦{tok ch} Oc m d)
          ∗ bigSep Finset.univ fun ch : Fin 32 => iprop(∃ f, ⌜RowDone (X m d) (Oc m d) (hin d) ch f⌝ ∗ rLoc d ↦[rowSet ch]{fullShare} f)) := by
  unfold tdAt; rw [bigSep_sep', bigSep_sep']

/-- What @main leaves the claim: the arguments at their launch contents, the result with every row finished. -/
abbrev FIN (d : Dev nD) : sProp 𝕄 :=
  iprop((a0Loc d ↦{fullShare} m (a0Loc d)) ∗ (a1Loc d ↦{fullShare} m (a1Loc d))
    ∗ ∃ f, ⌜∀ ch : Fin 32, RowDone (X m d) (Oc m d) (hin d) ch f⌝ ∗ rLoc d ↦{fullShare} f)

/-- @main on device `d`'s TensorCore: the two transposes, over the five arrays held whole; then the call, each task
    handed a read share of each transposed array and its row of the result, the rows joined after it. -/
theorem hmain (κ : GSem nD τ sig → ℕ) (d : Dev nD) :
    iprop((K (F := F)).ctx EH (P m hin) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m hin d) := by
  unfold SparseCore.Cfg.tcRes
  rw [unscoped_held]
  simp only [main, wp_bind, wp_pure]
  iintro ⟨#Hctx, Hst, ⟨Hb, Hheld, -, -⟩, -⟩
  -- the two transposes
  iapply (wp_hlo_within 𝒱 (SparseCore.T d) none Set.univ (op := op0) (S := S5) hOp0 (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := op1) (S := S5) hOp1 (V := (op0 (F := F)).result (V0 m d))) $$ [Hb Hheld]
  · isplitl [Hb]; · iexact Hb
    iexact Hheld
  iintro ⟨Hb, Hheld⟩
  rw [wp_ret]; imodintro
  ihave Hh := (Entails.of_eq (held_V2 m d)) $$ Hheld
  icases Hh with ⟨Ha0, Ha1, Hx, Ho, Hr⟩
  -- thirty-two read shares of each transposed array, the remainders kept; the result cut into its rows
  ihave Hx' := (Transfers.pointsTo_toks_split fullShare 32) $$ Hx
  icases Hx' with ⟨HxR, HxT⟩
  ihave Ho' := (Transfers.pointsTo_toks_split fullShare 32) $$ Ho
  icases Ho' with ⟨HoR, HoT⟩
  ihave Hr' := ((Entails.of_eq (rPts_rows (F := F) d _)).trans (rows_ex d _)) $$ Hr
  -- the call
  iapply ((K (F := F)).wp_run (D (F := F)) 𝒱 (EH := EH) (P := P m hin) κ d 0) $$ [Hst HxT HoT Hr' Ha0 Ha1]
  isplitr; · iexact Hctx
  isplitl [Hst]; · iexact Hst
  isplitl [HxT HoT Hr']
  · rw [st0_eq, goAt_split]
    isplitl [HxT]; · iexact HxT
    isplitl [HoT]; · iexact HoT
    iexact Hr'
  iintro ⟨Hst, Hdn⟩
  ihave Hdn' := (Entails.of_eq ((dn0_eq m hin d).trans (tdAt_split m hin d))) $$ Hdn
  icases Hdn' with ⟨-, -, Hr⟩
  ihave Hr' := (rows_join m hin d) $$ Hr
  icases Hr' with ⟨%f, %hf, Hr⟩
  imodintro
  isplitl [Hst]; · iexact Hst
  isplitl [Ha0]; · iexact Ha0
  isplitl [Ha1]; · iexact Ha1
  iexists f; isplitr
  · ipureintro; exact hf
  · iexact Hr

/-! ## The final memory, the run -/

def fq (d : Dev nD) (s' : Phys nD τ sig (Elt F)) : Prop :=
  (∀ ch : Fin 32, RowDone (X m d) (Oc m d) (hin d) ch (s'.mem.mem (rLoc d)))
    ∧ s'.mem.mem (a0Loc d) = m (a0Loc d) ∧ s'.mem.mem (a1Loc d) = m (a1Loc d)

theorem hfin (d : Dev nD) (s' : Phys nD τ sig (Elt F)) : iprop(FIN m hin d ∗ SI s') ⊢ (⌜fq m hin d s'⌝ : sProp 𝕄) := by
  iintro ⟨⟨Ha0, Ha1, %f, %hf, Hr⟩, HSI⟩
  ihave H := (persistent_entails_right (SI_pointsTo_agree (st := s') (ℓ := a0Loc d) (I := Finset.univ) (q := fullShare) (f := m (a0Loc d)))) $$ [HSI Ha0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI Ha1]
  · isplitl [HSI] <;> iassumption
  icases H with ⟨%h1, HSI, -⟩
  ihave H := (SI_pointsTo_agree (st := s') (ℓ := rLoc d) (I := Finset.univ) (q := fullShare) (f := f)) $$ [HSI Hr]
  · isplitl [HSI] <;> iassumption
  icases H with %h2
  ipureintro
  have e : s'.mem.mem (rLoc d) = f := funext fun i => h2 i (Finset.mem_univ i)
  exact ⟨fun ch => e ▸ hf ch, funext fun i => h0 i (Finset.mem_univ i), funext fun i => h1 i (Finset.mem_univ i)⟩

/-- Every device ends with each row of the result at the finished accumulator of its channel, the arguments unchanged. -/
def QC : PUnit × MemSt nD τ sig (Elt F) → Prop := fun r => ∀ c : Dev nD,
  (∀ ch : Fin 32, RowDone (X m c) (Oc m c) (hin c) ch (r.2.mem (rLoc c)))
    ∧ r.2.mem (a0Loc c) = m (a0Loc c) ∧ r.2.mem (a1Loc c) = m (a1Loc c)

theorem run_main [∀ e, Nonempty (Elt F e)] :
    θ_run (Cert.Kernel.defs (F := F)) (Cert.Kernel.threads (F := F)) ⟨m, fun _ => 0, ρ⟩ (QC m hin) :=
  SparseCore.Cfg.θ_run_sc (K := K (F := F)) (D := D (F := F)) (𝒱 := 𝒱) (EH := EH) (P := P m hin) Tile.facts v₀
    (fun q hq => match q with | 0 => nomatch hq)
    (fun q _ => match q with | 0 => tileObl m hin Tile.facts)
    (fun q _ => match q with | 0 => SparseCore.Cfg.VecSplit.of_plain (vecSplit m hin))
    m ρ main (fun _ => iprop(emp)) (FIN m hin) (u₀ (F := F)) (sep_elim_left.trans (hu₀ m hin)) (hmain m ρ hin) (fq m hin) (hfin m hin) (QC m hin) (fun _ h => h)

end Cert.Kernel.Launch

end
-- ==== Proof.Claims.lean ====
/-
  The certificate's claims, assembled.

  Both programs end with the scatter-sum of their arguments in the result. The kernel's launch leaves each of the 32
  rows of its result at a finished accumulator of the row's channel, fed with the data and the table with their axes
  swapped; on the extended reals a finished accumulator is the scatter-sum, so the whole result is. The reference's run
  leaves its result at the composed term of its operations, which read index by index is the scatter-sum when every
  table entry is below 65536. The precondition says exactly that of the table, and a table with its axes swapped has the
  same entries. The frames are the same runs with the result's description dropped.
-/
import proofs.«204569_g29265907155619_cont_9to1_682_25_alg».proof.Defs
import proofs.«204569_g29265907155619_cont_9to1_682_25_alg».proof.Proof.Gen.Kernel
import proofs.«204569_g29265907155619_cont_9to1_682_25_alg».proof.Proof.Gen.KernelIdeal
import proofs.«204569_g29265907155619_cont_9to1_682_25_alg».proof.Proof.Gen.ReferenceIdeal
import proofs.«204569_g29265907155619_cont_9to1_682_25_alg».proof.Proof.Gen.ReferenceIdeal.Run
import proofs.«204569_g29265907155619_cont_9to1_682_25_alg».proof.Proof.Gen.ReferenceIdeal.Read
import proofs.«204569_g29265907155619_cont_9to1_682_25_alg».proof.Proof.Gen.Pre_input_domain
import proofs.«204569_g29265907155619_cont_9to1_682_25_alg».proof.Proof.ColSum
import proofs.«204569_g29265907155619_cont_9to1_682_25_alg».proof.Proof.AccLaws
import proofs.«204569_g29265907155619_cont_9to1_682_25_alg».proof.Proof.RefValue
import proofs.«204569_g29265907155619_cont_9to1_682_25_alg».proof.Proof.LaunchKI
import proofs.«204569_g29265907155619_cont_9to1_682_25_alg».proof.Proof.LaunchK
import Idealize.ShloMosaic.Lib.Pipeline.Value
import Idealize.ShloMosaic.Lib.ValueIdx

noncomputable section

namespace Cert.Proof.Claims

open Idealize.ShloMosaic Idealize.ShloMosaic.ValueIdx Idealize.SL.Sem

/-! ## A transposed table stays in range -/

/-- A table with its two axes swapped has the entries of the table: if every entry of the table is below 65536, so is
    every entry of the swapped one. -/
theorem transposed_inb {s t : Shape} (perm : List (Fin s.rank)) (o : IVec s 32) (h : s.Transposes perm t)
    (hin : ∀ j, (o j).toNat < 65536) (j : t.Idx) : (transpose t perm o h j).toNat < 65536 := by
  unfold transpose
  exact hin _

/-! ## The frames -/

/-- The word-level kernel runs and leaves its two arguments as they were: its launch theorem with the result's
    description dropped; the table is in range by the precondition. -/
theorem frame_Kernel : Cert.frame_Kernel := fun m ρ hpre =>
  (θ_run Cert.Kernel.defs _ _).mono (fun _ h c => (h c).2)
    (Cert.Kernel.Launch.run_main (F := Bits) m ρ (fun c j =>
      transposed_inb _ _ _ (Cert.ReferenceIdeal.RefValue.inb_of_pre _ _ (hpre c)) j))

/-- The same for the kernel read on the extended reals. -/
theorem frame_KernelIdeal : Cert.frame_KernelIdeal := fun m ρ hpre =>
  (θ_run Cert.KernelIdeal.defs _ _).mono (fun _ h c => (h c).2)
    (Cert.KernelIdeal.Launch.run_main (F := Ideal) m ρ (fun c j =>
      transposed_inb _ _ _ (Cert.ReferenceIdeal.RefValue.inb_of_pre _ _ (hpre c)) j))

/-- The reference runs and leaves its two arguments as they were: its run with the result dropped. -/
theorem frame_ReferenceIdeal : Cert.frame_ReferenceIdeal := fun m ρ _ =>
  (θ_run Cert.ReferenceIdeal.defs _ _).mono (fun _ h c => (h c).2) (Cert.ReferenceIdeal.Value.run (F := Ideal) m ρ)

/-! ## The two results are the scatter-sum -/

/-- A result array each of whose 32 rows holds a finished accumulator of its channel is the scatter-sum of the
    arguments: the data and the table the accumulators were fed are the arguments with their axes swapped. -/
theorem rows_eq_colSum (x : FVec Ideal Cert.ColSum.SData .f32) (o : IVec Cert.ColSum.SOct 32)
    (hX : (Cert.ColSum.SData).Transposes [1, 0, 2] ⟨3, ![27, 32, 65536]⟩)
    (hO : (Cert.ColSum.SOct).Transposes [1, 0] ⟨2, ![27, 65536]⟩)
    (hin : ∀ j, (transpose ⟨2, ![27, 65536]⟩ [1, 0] o hO j).toNat < 65536)
    (f : FVec Ideal Cert.ColSum.SOut .f32)
    (hrow : ∀ ch : Fin 32, ∃ g, Cert.ColSum.Acc (F := Ideal) (Cert.ColSum.tgtOf (transpose ⟨2, ![27, 65536]⟩ [1, 0] o hO) hin)
      (Cert.ColSum.dtOf (transpose ⟨3, ![27, 32, 65536]⟩ [1, 0, 2] x hX) ch) Cert.ColSum.zeroAcc Finset.univ g
        ∧ ∀ n : Fin 65536, f (ix2 ch n) = g (ix1 n)) :
    f = Cert.ColSum.colSum x o := by
  funext i
  obtain ⟨ch, n, rfl⟩ : ∃ ch n, i = ix2 ch n := ⟨i 0, i 1, eq_ix2 i⟩
  obtain ⟨g, hA, hf⟩ := hrow ch
  rw [hf n]
  refine Cert.ColSum.Acc.full_colSum x o _ _ ?_ ?_ hin ch hA n
  · intro k c h
    exact transpose_apply [1, 0, 2] x hX (ix3 k c h) (ix3 c k h) (fun b => match b with
      | ⟨0, _⟩ => rfl
      | ⟨1, _⟩ => rfl
      | ⟨2, _⟩ => rfl)
  · intro k h
    exact transpose_apply [1, 0] o hO (ix2 k h) (ix2 h k) (fun b => match b with
      | ⟨0, _⟩ => rfl
      | ⟨1, _⟩ => rfl)

/-- THE TWO PROGRAMS AGREE ON THE EXTENDED REALS: from memories that agree on the arguments both run, both leave the
    arguments unchanged, and both end with the scatter-sum of the arguments in their result. -/
theorem algebraic : Cert.algebraic_KernelIdeal_ReferenceIdeal := by
  intro m ρ m' ρ' hpre hagree
  have hinb : ∀ c : Dev Cert.KernelIdeal.nD, ∀ j,
      ((m ((c.tc : Thread Cert.KernelIdeal.nD Cert.KernelIdeal.τ).loc Cert.KernelIdeal.main_arg1) :
        IVec Cert.ColSum.SOct 32) j).toNat < 65536 :=
    fun c => Cert.ReferenceIdeal.RefValue.inb_of_pre _ _ (hpre c)
  refine ⟨fun c => Cert.ColSum.colSum
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun r h c => ⟨?_, (h c).2⟩)
      (Cert.KernelIdeal.Launch.run_main (F := Ideal) m ρ (fun c j => transposed_inb _ _ _ (hinb c) j))
    exact rows_eq_colSum _ _ _ _ _ _ (h c).1
  · refine (θ_run Cert.ReferenceIdeal.defs _ _).mono (fun r h c => ⟨?_, (h c).2⟩)
      (Cert.ReferenceIdeal.Value.run (F := Ideal) m' ρ')
    rw [(h c).1, Cert.ReferenceIdeal.Read.val_main_v17_eq, (hagree c).1, (hagree c).2]
    exact Cert.ReferenceIdeal.RefValue.ref_eq_colSum _ _ (hinb c)

end Cert.Proof.Claims

end
-- ==== Proof.lean ====
/-
  The kernel and the reference both compute the scatter-sum of col2octree: for data x of shape [32, 27, 65536] and a
  neighbour table o of shape [65536, 27], every datum x[c, k, h] is added into out[c, o[h, k]], so entry (c, n) of the
  result is the sum of x[c, k, h] over the pairs (k, h) of a slot and a column with o[h, k] = n.
  On the extended reals addition is a commutative monoid, so the order in which the contributions are accumulated is
  irrelevant; no other law is needed and no finiteness of the data is used.
  The precondition makes every table word a node number, 0 ≤ o[h, k] ≤ 65535. The kernel's indexed accumulating stores
  rest on it (each word names an entry of a 65536-entry accumulator) and so does the reference (its validity mask is
  then all ones and its wrap of negative indices changes nothing).
  The frames come from the launch of the 32 vector-subcore tasks, one channel each, which only read the two arguments;
  the value comes from the accumulator relation: each task's accumulator has received every pair (k, h) exactly once
  from zero, which makes it row c of the scatter-sum, and the reference's scatter-add read at an index is the same sum.
-/
import proofs.«204569_g29265907155619_cont_9to1_682_25_alg».proof.Defs
import proofs.«204569_g29265907155619_cont_9to1_682_25_alg».proof.Proof.Gen.Kernel
import proofs.«204569_g29265907155619_cont_9to1_682_25_alg».proof.Proof.Gen.Kernel.Skeleton
import proofs.«204569_g29265907155619_cont_9to1_682_25_alg».proof.Proof.Gen.KernelIdeal
import proofs.«204569_g29265907155619_cont_9to1_682_25_alg».proof.Proof.Gen.KernelIdeal.Skeleton
import proofs.«204569_g29265907155619_cont_9to1_682_25_alg».proof.Proof.Gen.ReferenceIdeal
import proofs.«204569_g29265907155619_cont_9to1_682_25_alg».proof.Proof.Gen.Pre_input_domain
import proofs.«204569_g29265907155619_cont_9to1_682_25_alg».proof.Proof.Claims
import Idealize.ShloMosaic.Adequacy
import Idealize.ShloMosaic.Init

noncomputable section

namespace Cert.Proof

open Idealize.ShloMosaic Idealize.SL.Sem

/-- Everything the certificate claims: the side conditions the programs state, the three frames, the idealization (no
    operation was rewritten), and the agreement of the kernel and the reference on the extended reals. -/
theorem claim : Cert.Claim :=
  ⟨Cert.Kernel.Gen.facts, Cert.KernelIdeal.Gen.facts, Cert.ReferenceIdeal.Gen.facts, Cert.Pre_input_domain.Gen.facts,
    Cert.Proof.Claims.frame_Kernel, Cert.Proof.Claims.frame_KernelIdeal, Cert.Proof.Claims.frame_ReferenceIdeal,
    trivial, Cert.Proof.Claims.algebraic⟩

end Cert.Proof

end
